-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel

variable [Facts]

def fn {F : FTy → Type} [FloatOps F] (main_arg0 : FVec F S8x1024x1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  main_v3
-- ==== Kernel.lean ====
abbrev S8x1024x1024 : Shape := ⟨3, ![8, 1024, 1024]⟩
abbrev S_ : Shape := ⟨0, ![]⟩
abbrev S8x1x1024 : Shape := ⟨3, ![8, 1, 1024]⟩
abbrev S8x2x1024 : Shape := ⟨3, ![8, 2, 1024]⟩
abbrev S8x1026x1024 : Shape := ⟨3, ![8, 1026, 1024]⟩
abbrev S8x1028x1024 : Shape := ⟨3, ![8, 1028, 1024]⟩
abbrev S8x1028x1 : Shape := ⟨3, ![8, 1028, 1]⟩
abbrev S8x1028x2 : Shape := ⟨3, ![8, 1028, 2]⟩
abbrev S8x1028x1026 : Shape := ⟨3, ![8, 1028, 1026]⟩
abbrev S8x1028x1028 : Shape := ⟨3, ![8, 1028, 1028]⟩
abbrev S1x1028x1028 : Shape := ⟨3, ![1, 1028, 1028]⟩
abbrev S1x1024x1024 : Shape := ⟨3, ![1, 1024, 1024]⟩
abbrev S1024x1028 : Shape := ⟨2, ![1024, 1028]⟩
abbrev S1x1024x1028 : Shape := ⟨3, ![1, 1024, 1028]⟩
abbrev S1024x1024 : Shape := ⟨2, ![1024, 1024]⟩
abbrev S8x4x1024 : Shape := ⟨3, ![8, 4, 1024]⟩
abbrev S8x1032x1024 : Shape := ⟨3, ![8, 1032, 1024]⟩
abbrev S8x1032x1 : Shape := ⟨3, ![8, 1032, 1]⟩
abbrev S8x1032x4 : Shape := ⟨3, ![8, 1032, 4]⟩
abbrev S8x1032x1028 : Shape := ⟨3, ![8, 1032, 1028]⟩
abbrev S8x1032x1032 : Shape := ⟨3, ![8, 1032, 1032]⟩
abbrev S1x1032x1032 : Shape := ⟨3, ![1, 1032, 1032]⟩
abbrev S1024x1032 : Shape := ⟨2, ![1024, 1032]⟩
abbrev S1x1024x1032 : Shape := ⟨3, ![1, 1024, 1032]⟩
abbrev S8x8x1024 : Shape := ⟨3, ![8, 8, 1024]⟩
abbrev S8x1040x1024 : Shape := ⟨3, ![8, 1040, 1024]⟩
abbrev S8x1040x1 : Shape := ⟨3, ![8, 1040, 1]⟩
abbrev S8x1040x8 : Shape := ⟨3, ![8, 1040, 8]⟩
abbrev S8x1040x1032 : Shape := ⟨3, ![8, 1040, 1032]⟩
abbrev S8x1040x1040 : Shape := ⟨3, ![8, 1040, 1040]⟩
abbrev S1x1040x1040 : Shape := ⟨3, ![1, 1040, 1040]⟩
abbrev S1024x1040 : Shape := ⟨2, ![1024, 1040]⟩
abbrev S1x1024x1040 : Shape := ⟨3, ![1, 1024, 1040]⟩
abbrev S8x1x1024x1024 : Shape := ⟨4, ![8, 1, 1024, 1024]⟩
abbrev S8x4x1024x1024 : Shape := ⟨4, ![8, 4, 1024, 1024]⟩

abbrev nBuf : Space → Nat
  | .hbm => 63
  | .vmem => 21
  | .smem => 0
  | _ => 0

abbrev bufTy : (tb : Table) → Fin (tcTables nBuf tb) → BufTy
  | .hbm, ⟨0, _⟩ => ⟨S8x1024x1024, .f32⟩
  | .hbm, ⟨1, _⟩ => ⟨S_, .i32⟩
  | .hbm, ⟨2, _⟩ => ⟨S8x1x1024, .f32⟩
  | .hbm, ⟨3, _⟩ => ⟨S8x2x1024, .f32⟩
  | .hbm, ⟨4, _⟩ => ⟨S8x2x1024, .f32⟩
  | .hbm, ⟨5, _⟩ => ⟨S8x1026x1024, .f32⟩
  | .hbm, ⟨6, _⟩ => ⟨S8x1x1024, .f32⟩
  | .hbm, ⟨7, _⟩ => ⟨S8x2x1024, .f32⟩
  | .hbm, ⟨8, _⟩ => ⟨S8x2x1024, .f32⟩
  | .hbm, ⟨9, _⟩ => ⟨S8x1028x1024, .f32⟩
  | .hbm, ⟨10, _⟩ => ⟨S8x1028x1, .f32⟩
  | .hbm, ⟨11, _⟩ => ⟨S8x1028x2, .f32⟩
  | .hbm, ⟨12, _⟩ => ⟨S8x1028x2, .f32⟩
  | .hbm, ⟨13, _⟩ => ⟨S8x1028x1026, .f32⟩
  | .hbm, ⟨14, _⟩ => ⟨S8x1028x1, .f32⟩
  | .hbm, ⟨15, _⟩ => ⟨S8x1028x2, .f32⟩
  | .hbm, ⟨16, _⟩ => ⟨S8x1028x2, .f32⟩
  | .hbm, ⟨17, _⟩ => ⟨S8x1028x1028, .f32⟩
  | .hbm, ⟨18, _⟩ => ⟨S8x1024x1024, .f32⟩
  | .hbm, ⟨19, _⟩ => ⟨S8x1024x1024, .f32⟩
  | .hbm, ⟨20, _⟩ => ⟨S_, .i32⟩
  | .hbm, ⟨21, _⟩ => ⟨S8x1x1024, .f32⟩
  | .hbm, ⟨22, _⟩ => ⟨S8x4x1024, .f32⟩
  | .hbm, ⟨23, _⟩ => ⟨S8x4x1024, .f32⟩
  | .hbm, ⟨24, _⟩ => ⟨S8x1028x1024, .f32⟩
  | .hbm, ⟨25, _⟩ => ⟨S8x1x1024, .f32⟩
  | .hbm, ⟨26, _⟩ => ⟨S8x4x1024, .f32⟩
  | .hbm, ⟨27, _⟩ => ⟨S8x4x1024, .f32⟩
  | .hbm, ⟨28, _⟩ => ⟨S8x1032x1024, .f32⟩
  | .hbm, ⟨29, _⟩ => ⟨S8x1032x1, .f32⟩
  | .hbm, ⟨30, _⟩ => ⟨S8x1032x4, .f32⟩
  | .hbm, ⟨31, _⟩ => ⟨S8x1032x4, .f32⟩
  | .hbm, ⟨32, _⟩ => ⟨S8x1032x1028, .f32⟩
  | .hbm, ⟨33, _⟩ => ⟨S8x1032x1, .f32⟩
  | .hbm, ⟨34, _⟩ => ⟨S8x1032x4, .f32⟩
  | .hbm, ⟨35, _⟩ => ⟨S8x1032x4, .f32⟩
  | .hbm, ⟨36, _⟩ => ⟨S8x1032x1032, .f32⟩
  | .hbm, ⟨37, _⟩ => ⟨S8x1024x1024, .f32⟩
  | .hbm, ⟨38, _⟩ => ⟨S8x1024x1024, .f32⟩
  | .hbm, ⟨39, _⟩ => ⟨S_, .i32⟩
  | .hbm, ⟨40, _⟩ => ⟨S8x1x1024, .f32⟩
  | .hbm, ⟨41, _⟩ => ⟨S8x8x1024, .f32⟩
  | .hbm, ⟨42, _⟩ => ⟨S8x8x1024, .f32⟩
  | .hbm, ⟨43, _⟩ => ⟨S8x1032x1024, .f32⟩
  | .hbm, ⟨44, _⟩ => ⟨S8x1x1024, .f32⟩
  | .hbm, ⟨45, _⟩ => ⟨S8x8x1024, .f32⟩
  | .hbm, ⟨46, _⟩ => ⟨S8x8x1024, .f32⟩
  | .hbm, ⟨47, _⟩ => ⟨S8x1040x1024, .f32⟩
  | .hbm, ⟨48, _⟩ => ⟨S8x1040x1, .f32⟩
  | .hbm, ⟨49, _⟩ => ⟨S8x1040x8, .f32⟩
  | .hbm, ⟨50, _⟩ => ⟨S8x1040x8, .f32⟩
  | .hbm, ⟨51, _⟩ => ⟨S8x1040x1032, .f32⟩
  | .hbm, ⟨52, _⟩ => ⟨S8x1040x1, .f32⟩
  | .hbm, ⟨53, _⟩ => ⟨S8x1040x8, .f32⟩
  | .hbm, ⟨54, _⟩ => ⟨S8x1040x8, .f32⟩
  | .hbm, ⟨55, _⟩ => ⟨S8x1040x1040, .f32⟩
  | .hbm, ⟨56, _⟩ => ⟨S8x1024x1024, .f32⟩
  | .hbm, ⟨57, _⟩ => ⟨S8x1024x1024, .f32⟩
  | .hbm, ⟨58, _⟩ => ⟨S8x1x1024x1024, .f32⟩
  | .hbm, ⟨59, _⟩ => ⟨S8x1x1024x1024, .f32⟩
  | .hbm, ⟨60, _⟩ => ⟨S8x1x1024x1024, .f32⟩
  | .hbm, ⟨61, _⟩ => ⟨S8x1x1024x1024, .f32⟩
  | .hbm, ⟨62, _⟩ => ⟨S8x4x1024x1024, .f32⟩
  | .local _ .vmem, ⟨0, _⟩ => ⟨S1x1028x1028, .f32⟩
  | .local _ .vmem, ⟨1, _⟩ => ⟨S1x1028x1028, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1028, .f32⟩
  | .local _ .vmem, ⟨7, _⟩ => ⟨S1x1032x1032, .f32⟩
  | .local _ .vmem, ⟨8, _⟩ => ⟨S1x1032x1032, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1024x1032, .f32⟩
  | .local _ .vmem, ⟨14, _⟩ => ⟨S1x1040x1040, .f32⟩
  | .local _ .vmem, ⟨15, _⟩ => ⟨S1x1040x1040, .f32⟩
  | .local _ .vmem, ⟨16, _⟩ => ⟨S1x1024x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1024x1040, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_v13 : Ref sig .tc := ⟨.hbm, 15, rfl⟩
abbrev main_call0_v14 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev main_c_0 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v2 : Ref sig .tc := ⟨.hbm, 36, rfl⟩
abbrev main_v3_0 : Ref sig .tc := ⟨.hbm, 37, rfl⟩
abbrev main_v3_1 : Ref sig .tc := ⟨.hbm, 38, rfl⟩
abbrev main_c_1 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_v4 : Ref sig .tc := ⟨.hbm, 55, rfl⟩
abbrev main_v5_0 : Ref sig .tc := ⟨.hbm, 56, rfl⟩
abbrev main_v5_1 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1028x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1032x1032 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1040x1040 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S8x1024x1024_S8x1x1024_0_0_0 : S8x1024x1024.Slices ![0, 0, 0] S8x1x1024
  slices_S8x1024x1024_S8x2x1024_0_1_0 : S8x1024x1024.Slices ![0, 1, 0] S8x2x1024
  concatenates_S8x2x1024_S8x1024x1024_S8x1026x1024_d1 : Shape.Concatenates [S8x2x1024, S8x1024x1024] S8x1026x1024 1
  slices_S8x1026x1024_S8x1x1024_0_1025_0 : S8x1026x1024.Slices ![0, 1025, 0] S8x1x1024
  slices_S8x1026x1024_S8x2x1024_0_1023_0 : S8x1026x1024.Slices ![0, 1023, 0] S8x2x1024
  concatenates_S8x1026x1024_S8x2x1024_S8x1028x1024_d1 : Shape.Concatenates [S8x1026x1024, S8x2x1024] S8x1028x1024 1
  slices_S8x1028x1024_S8x1028x1_0_0_0 : S8x1028x1024.Slices ![0, 0, 0] S8x1028x1
  slices_S8x1028x1024_S8x1028x2_0_0_1 : S8x1028x1024.Slices ![0, 0, 1] S8x1028x2
  concatenates_S8x1028x2_S8x1028x1024_S8x1028x1026_d2 : Shape.Concatenates [S8x1028x2, S8x1028x1024] S8x1028x1026 2
  slices_S8x1028x1026_S8x1028x1_0_0_1025 : S8x1028x1026.Slices ![0, 0, 1025] S8x1028x1
  slices_S8x1028x1026_S8x1028x2_0_0_1023 : S8x1028x1026.Slices ![0, 0, 1023] S8x1028x2
  concatenates_S8x1028x1026_S8x1028x2_S8x1028x1028_d2 : Shape.Concatenates [S8x1028x1026, S8x1028x2] S8x1028x1028 2
  inb_S1x1028x1028_S1x1024x1028_0_0_0 : ∀ a, (![0, 0, 0] : Fin 3 → Nat) a + S1x1024x1028.size a ≤ S1x1028x1028.size a
  h_S1x1024x1028 : 0 < S1x1024x1028.numel
  shapeCasts_S1x1024x1028_S1024x1028 : S1x1024x1028.ShapeCasts S1024x1028
  inb_S1x1028x1028_S1x1024x1028_0_1_0 : ∀ a, (![0, 1, 0] : Fin 3 → Nat) a + S1x1024x1028.size a ≤ S1x1028x1028.size a
  inb_S1x1028x1028_S1x1024x1028_0_2_0 : ∀ a, (![0, 2, 0] : Fin 3 → Nat) a + S1x1024x1028.size a ≤ S1x1028x1028.size a
  inb_S1x1028x1028_S1x1024x1028_0_3_0 : ∀ a, (![0, 3, 0] : Fin 3 → Nat) a + S1x1024x1028.size a ≤ S1x1028x1028.size a
  inb_S1x1028x1028_S1x1024x1028_0_4_0 : ∀ a, (![0, 4, 0] : Fin 3 → Nat) a + S1x1024x1028.size a ≤ S1x1028x1028.size a
  inb_S1024x1028_S1024x1028_0_0 : ∀ a, (![0, 0] : Fin 2 → Nat) a + S1024x1028.size a ≤ S1024x1028.size a
  h_S1024x1028 : 0 < S1024x1028.numel
  shapeCasts_S1024x1028_S1024x1028 : S1024x1028.ShapeCasts S1024x1028
  inb_S1024x1028_S1024x1024_0_0 : ∀ a, (![0, 0] : Fin 2 → Nat) a + S1024x1024.size a ≤ S1024x1028.size a
  h_S1024x1024 : 0 < S1024x1024.numel
  inb_S1024x1028_S1024x1024_0_1 : ∀ a, (![0, 1] : Fin 2 → Nat) a + S1024x1024.size a ≤ S1024x1028.size a
  inb_S1024x1028_S1024x1024_0_2 : ∀ a, (![0, 2] : Fin 2 → Nat) a + S1024x1024.size a ≤ S1024x1028.size a
  inb_S1024x1028_S1024x1024_0_3 : ∀ a, (![0, 3] : Fin 2 → Nat) a + S1024x1024.size a ≤ S1024x1028.size a
  inb_S1024x1028_S1024x1024_0_4 : ∀ a, (![0, 4] : Fin 2 → Nat) a + S1024x1024.size a ≤ S1024x1028.size a
  inb_S1x1028x1028_S1x1024x1024_0_2_2 : ∀ a, (![0, 2, 2] : Fin 3 → Nat) a + S1x1024x1024.size a ≤ S1x1028x1028.size a
  h_S1x1024x1024 : 0 < S1x1024x1024.numel
  shapeCasts_S1x1024x1024_S1024x1024 : S1x1024x1024.ShapeCasts S1024x1024
  inb_S1x1024x1024_S1x1024x1024_0_0_0 : ∀ a, (![0, 0, 0] : Fin 3 → Nat) a + S1x1024x1024.size a ≤ S1x1024x1024.size a
  shapeCasts_S1024x1024_S1x1024x1024 : S1024x1024.ShapeCasts S1x1024x1024
  slices_S8x1024x1024_S8x4x1024_0_1_0 : S8x1024x1024.Slices ![0, 1, 0] S8x4x1024
  concatenates_S8x4x1024_S8x1024x1024_S8x1028x1024_d1 : Shape.Concatenates [S8x4x1024, S8x1024x1024] S8x1028x1024 1
  slices_S8x1028x1024_S8x1x1024_0_1027_0 : S8x1028x1024.Slices ![0, 1027, 0] S8x1x1024
  slices_S8x1028x1024_S8x4x1024_0_1023_0 : S8x1028x1024.Slices ![0, 1023, 0] S8x4x1024
  concatenates_S8x1028x1024_S8x4x1024_S8x1032x1024_d1 : Shape.Concatenates [S8x1028x1024, S8x4x1024] S8x1032x1024 1
  slices_S8x1032x1024_S8x1032x1_0_0_0 : S8x1032x1024.Slices ![0, 0, 0] S8x1032x1
  slices_S8x1032x1024_S8x1032x4_0_0_1 : S8x1032x1024.Slices ![0, 0, 1] S8x1032x4
  concatenates_S8x1032x4_S8x1032x1024_S8x1032x1028_d2 : Shape.Concatenates [S8x1032x4, S8x1032x1024] S8x1032x1028 2
  slices_S8x1032x1028_S8x1032x1_0_0_1027 : S8x1032x1028.Slices ![0, 0, 1027] S8x1032x1
  slices_S8x1032x1028_S8x1032x4_0_0_1023 : S8x1032x1028.Slices ![0, 0, 1023] S8x1032x4
  concatenates_S8x1032x1028_S8x1032x4_S8x1032x1032_d2 : Shape.Concatenates [S8x1032x1028, S8x1032x4] S8x1032x1032 2
  inb_S1x1032x1032_S1x1024x1032_0_0_0 : ∀ a, (![0, 0, 0] : Fin 3 → Nat) a + S1x1024x1032.size a ≤ S1x1032x1032.size a
  h_S1x1024x1032 : 0 < S1x1024x1032.numel
  shapeCasts_S1x1024x1032_S1024x1032 : S1x1024x1032.ShapeCasts S1024x1032
  inb_S1x1032x1032_S1x1024x1032_0_2_0 : ∀ a, (![0, 2, 0] : Fin 3 → Nat) a + S1x1024x1032.size a ≤ S1x1032x1032.size a
  inb_S1x1032x1032_S1x1024x1032_0_4_0 : ∀ a, (![0, 4, 0] : Fin 3 → Nat) a + S1x1024x1032.size a ≤ S1x1032x1032.size a
  inb_S1x1032x1032_S1x1024x1032_0_6_0 : ∀ a, (![0, 6, 0] : Fin 3 → Nat) a + S1x1024x1032.size a ≤ S1x1032x1032.size a
  inb_S1x1032x1032_S1x1024x1032_0_8_0 : ∀ a, (![0, 8, 0] : Fin 3 → Nat) a + S1x1024x1032.size a ≤ S1x1032x1032.size a
  inb_S1024x1032_S1024x1032_0_0 : ∀ a, (![0, 0] : Fin 2 → Nat) a + S1024x1032.size a ≤ S1024x1032.size a
  h_S1024x1032 : 0 < S1024x1032.numel
  shapeCasts_S1024x1032_S1024x1032 : S1024x1032.ShapeCasts S1024x1032
  inb_S1024x1032_S1024x1024_0_0 : ∀ a, (![0, 0] : Fin 2 → Nat) a + S1024x1024.size a ≤ S1024x1032.size a
  inb_S1024x1032_S1024x1024_0_2 : ∀ a, (![0, 2] : Fin 2 → Nat) a + S1024x1024.size a ≤ S1024x1032.size a
  inb_S1024x1032_S1024x1024_0_4 : ∀ a, (![0, 4] : Fin 2 → Nat) a + S1024x1024.size a ≤ S1024x1032.size a
  inb_S1024x1032_S1024x1024_0_6 : ∀ a, (![0, 6] : Fin 2 → Nat) a + S1024x1024.size a ≤ S1024x1032.size a
  inb_S1024x1032_S1024x1024_0_8 : ∀ a, (![0, 8] : Fin 2 → Nat) a + S1024x1024.size a ≤ S1024x1032.size a
  inb_S1x1032x1032_S1x1024x1024_0_4_4 : ∀ a, (![0, 4, 4] : Fin 3 → Nat) a + S1x1024x1024.size a ≤ S1x1032x1032.size a
  slices_S8x1024x1024_S8x8x1024_0_1_0 : S8x1024x1024.Slices ![0, 1, 0] S8x8x1024
  concatenates_S8x8x1024_S8x1024x1024_S8x1032x1024_d1 : Shape.Concatenates [S8x8x1024, S8x1024x1024] S8x1032x1024 1
  slices_S8x1032x1024_S8x1x1024_0_1031_0 : S8x1032x1024.Slices ![0, 1031, 0] S8x1x1024
  slices_S8x1032x1024_S8x8x1024_0_1023_0 : S8x1032x1024.Slices ![0, 1023, 0] S8x8x1024
  concatenates_S8x1032x1024_S8x8x1024_S8x1040x1024_d1 : Shape.Concatenates [S8x1032x1024, S8x8x1024] S8x1040x1024 1
  slices_S8x1040x1024_S8x1040x1_0_0_0 : S8x1040x1024.Slices ![0, 0, 0] S8x1040x1
  slices_S8x1040x1024_S8x1040x8_0_0_1 : S8x1040x1024.Slices ![0, 0, 1] S8x1040x8
  concatenates_S8x1040x8_S8x1040x1024_S8x1040x1032_d2 : Shape.Concatenates [S8x1040x8, S8x1040x1024] S8x1040x1032 2
  slices_S8x1040x1032_S8x1040x1_0_0_1031 : S8x1040x1032.Slices ![0, 0, 1031] S8x1040x1
  slices_S8x1040x1032_S8x1040x8_0_0_1023 : S8x1040x1032.Slices ![0, 0, 1023] S8x1040x8
  concatenates_S8x1040x1032_S8x1040x8_S8x1040x1040_d2 : Shape.Concatenates [S8x1040x1032, S8x1040x8] S8x1040x1040 2
  inb_S1x1040x1040_S1x1024x1040_0_0_0 : ∀ a, (![0, 0, 0] : Fin 3 → Nat) a + S1x1024x1040.size a ≤ S1x1040x1040.size a
  h_S1x1024x1040 : 0 < S1x1024x1040.numel
  shapeCasts_S1x1024x1040_S1024x1040 : S1x1024x1040.ShapeCasts S1024x1040
  inb_S1x1040x1040_S1x1024x1040_0_4_0 : ∀ a, (![0, 4, 0] : Fin 3 → Nat) a + S1x1024x1040.size a ≤ S1x1040x1040.size a
  inb_S1x1040x1040_S1x1024x1040_0_8_0 : ∀ a, (![0, 8, 0] : Fin 3 → Nat) a + S1x1024x1040.size a ≤ S1x1040x1040.size a
  inb_S1x1040x1040_S1x1024x1040_0_12_0 : ∀ a, (![0, 12, 0] : Fin 3 → Nat) a + S1x1024x1040.size a ≤ S1x1040x1040.size a
  inb_S1x1040x1040_S1x1024x1040_0_16_0 : ∀ a, (![0, 16, 0] : Fin 3 → Nat) a + S1x1024x1040.size a ≤ S1x1040x1040.size a
  inb_S1024x1040_S1024x1040_0_0 : ∀ a, (![0, 0] : Fin 2 → Nat) a + S1024x1040.size a ≤ S1024x1040.size a
  h_S1024x1040 : 0 < S1024x1040.numel
  shapeCasts_S1024x1040_S1024x1040 : S1024x1040.ShapeCasts S1024x1040
  inb_S1024x1040_S1024x1024_0_0 : ∀ a, (![0, 0] : Fin 2 → Nat) a + S1024x1024.size a ≤ S1024x1040.size a
  inb_S1024x1040_S1024x1024_0_4 : ∀ a, (![0, 4] : Fin 2 → Nat) a + S1024x1024.size a ≤ S1024x1040.size a
  inb_S1024x1040_S1024x1024_0_8 : ∀ a, (![0, 8] : Fin 2 → Nat) a + S1024x1024.size a ≤ S1024x1040.size a
  inb_S1024x1040_S1024x1024_0_12 : ∀ a, (![0, 12] : Fin 2 → Nat) a + S1024x1024.size a ≤ S1024x1040.size a
  inb_S1024x1040_S1024x1024_0_16 : ∀ a, (![0, 16] : Fin 2 → Nat) a + S1024x1024.size a ≤ S1024x1040.size a
  inb_S1x1040x1040_S1x1024x1024_0_8_8 : ∀ a, (![0, 8, 8] : Fin 3 → Nat) a + S1x1024x1024.size a ≤ S1x1040x1040.size a
  bcast_S8x1024x1024_S8x1x1024x1024_0_2_3 : S8x1024x1024.BroadcastsInDim S8x1x1024x1024 (![0, 2, 3] : Fin 3 → Fin S8x1x1024x1024.rank)
  concatenates_S8x1x1024x1024_S8x1x1024x1024_S8x1x1024x1024_S8x1x1024x1024_S8x4x1024x1024_d1 : Shape.Concatenates [S8x1x1024x1024, S8x1x1024x1024, S8x1x1024x1024, S8x1x1024x1024] S8x4x1024x1024 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1028x1028.size a ≤ S8x1028x1028.size a
  hwx0_0 : ∀ i : grid0.Coords, EltTy.bits .f32 = 32 ∨ (Rect.block (s := S8x1028x1028) S1x1028x1028.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x1024.size a
  hwx0_1 : ∀ i : grid0.Coords, EltTy.bits .f32 = 32 ∨ (Rect.block (s := S8x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .f32 = 32 ∨ (Rect.block (s := S8x1024x1024) S1x1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1032x1032.size a ≤ S8x1032x1032.size a
  hwx1_0 : ∀ i : grid1.Coords, EltTy.bits .f32 = 32 ∨ (Rect.block (s := S8x1032x1032) S1x1032x1032.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .f32 = 32 ∨ (Rect.block (s := S8x1024x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x1024x1024.size a
  hwx1_2 : ∀ i : grid1.Coords, EltTy.bits .f32 = 32 ∨ (Rect.block (s := S8x1024x1024) S1x1024x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1040x1040.size a ≤ S8x1040x1040.size a
  hwx2_0 : ∀ i : grid2.Coords, EltTy.bits .f32 = 32 ∨ (Rect.block (s := S8x1040x1040) S1x1040x1040.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1024x1024.size a ≤ S8x1024x1024.size a
  hwx2_1 : ∀ i : grid2.Coords, EltTy.bits .f32 = 32 ∨ (Rect.block (s := S8x1024x1024) S1x1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024x1024.size a ≤ S8x1024x1024.size a
  hwx2_2 : ∀ i : grid2.Coords, EltTy.bits .f32 = 32 ∨ (Rect.block (s := S8x1024x1024) S1x1024x1024.size (cc2_transform_2 i) (hinb2_2 i)).WholeWords (EltTy.packing .f32)

variable [Facts₀]

abbrev win0_0 : Pipeline.Window sig grid0 :=
  Pipeline.Window.ofSpec (Memref.whole main_v0) S1x1028x1028.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1024x1024.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1x1032x1032.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_0) S1x1024x1024.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_1) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1x1040x1040.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5_0) S1x1024x1024.size cc2_transform_1 reads2_1 true false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5_1) S1x1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x1024x1024 : Shape := ⟨3, ![8, 1024, 1024]⟩
abbrev S_ : Shape := ⟨0, ![]⟩
abbrev S8x1x1024 : Shape := ⟨3, ![8, 1, 1024]⟩
abbrev S8x2x1024 : Shape := ⟨3, ![8, 2, 1024]⟩
abbrev S8x1026x1024 : Shape := ⟨3, ![8, 1026, 1024]⟩
abbrev S8x1028x1024 : Shape := ⟨3, ![8, 1028, 1024]⟩
abbrev S8x1024x1 : Shape := ⟨3, ![8, 1024, 1]⟩
abbrev S8x1024x2 : Shape := ⟨3, ![8, 1024, 2]⟩
abbrev S8x1024x1026 : Shape := ⟨3, ![8, 1024, 1026]⟩
abbrev S8x1024x1028 : Shape := ⟨3, ![8, 1024, 1028]⟩
abbrev S8x4x1024 : Shape := ⟨3, ![8, 4, 1024]⟩
abbrev S8x1032x1024 : Shape := ⟨3, ![8, 1032, 1024]⟩
abbrev S8x1024x4 : Shape := ⟨3, ![8, 1024, 4]⟩
abbrev S8x1024x1032 : Shape := ⟨3, ![8, 1024, 1032]⟩
abbrev S8x8x1024 : Shape := ⟨3, ![8, 8, 1024]⟩
abbrev S8x1040x1024 : Shape := ⟨3, ![8, 1040, 1024]⟩
abbrev S8x1024x8 : Shape := ⟨3, ![8, 1024, 8]⟩
abbrev S8x1024x1040 : Shape := ⟨3, ![8, 1024, 1040]⟩
abbrev S8x1x1024x1024 : Shape := ⟨4, ![8, 1, 1024, 1024]⟩
abbrev S8x4x1024x1024 : Shape := ⟨4, ![8, 4, 1024, 1024]⟩

abbrev nBuf : Space → Nat
  | .hbm => 225
  | .vmem => 0
  | .smem => 0
  | _ => 0

abbrev hbmTy0_0 (i : Nat) : BufTy := match i % 128 with
  | 0 => ⟨S8x1024x1024, .f32⟩
  | 1 => ⟨S_, .i32⟩
  | 2 => ⟨S8x1x1024, .f32⟩
  | 3 => ⟨S8x2x1024, .f32⟩
  | 4 => ⟨S8x2x1024, .f32⟩
  | 5 => ⟨S8x1026x1024, .f32⟩
  | 6 => ⟨S8x1x1024, .f32⟩
  | 7 => ⟨S8x2x1024, .f32⟩
  | 8 => ⟨S8x2x1024, .f32⟩
  | 9 => ⟨S8x1028x1024, .f32⟩
  | 10 => ⟨S8x1024x1024, .f32⟩
  | 11 => ⟨S_, .f32⟩
  | 12 => ⟨S8x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S_, .f32⟩
  | 19 => ⟨S8x1024x1024, .f32⟩
  | 20 => ⟨S8x1024x1024, .f32⟩
  | 21 => ⟨S8x1024x1024, .f32⟩
  | 22 => ⟨S8x1024x1024, .f32⟩
  | 23 => ⟨S_, .f32⟩
  | 24 => ⟨S8x1024x1024, .f32⟩
  | 25 => ⟨S8x1024x1024, .f32⟩
  | 26 => ⟨S8x1024x1024, .f32⟩
  | 27 => ⟨S8x1024x1024, .f32⟩
  | 28 => ⟨S_, .f32⟩
  | 29 => ⟨S8x1024x1024, .f32⟩
  | 30 => ⟨S8x1024x1024, .f32⟩
  | 31 => ⟨S8x1024x1024, .f32⟩
  | 32 => ⟨S8x1024x1024, .f32⟩
  | 33 => ⟨S_, .f32⟩
  | 34 => ⟨S8x1024x1024, .f32⟩
  | 35 => ⟨S8x1024x1024, .f32⟩
  | 36 => ⟨S8x1024x1024, .f32⟩
  | 37 => ⟨S_, .i32⟩
  | 38 => ⟨S8x1024x1, .f32⟩
  | 39 => ⟨S8x1024x2, .f32⟩
  | 40 => ⟨S8x1024x2, .f32⟩
  | 41 => ⟨S8x1024x1026, .f32⟩
  | 42 => ⟨S8x1024x1, .f32⟩
  | 43 => ⟨S8x1024x2, .f32⟩
  | 44 => ⟨S8x1024x2, .f32⟩
  | 45 => ⟨S8x1024x1028, .f32⟩
  | 46 => ⟨S8x1024x1024, .f32⟩
  | 47 => ⟨S_, .f32⟩
  | 48 => ⟨S8x1024x1024, .f32⟩
  | 49 => ⟨S8x1024x1024, .f32⟩
  | 50 => ⟨S_, .f32⟩
  | 51 => ⟨S8x1024x1024, .f32⟩
  | 52 => ⟨S8x1024x1024, .f32⟩
  | 53 => ⟨S8x1024x1024, .f32⟩
  | 54 => ⟨S_, .f32⟩
  | 55 => ⟨S8x1024x1024, .f32⟩
  | 56 => ⟨S8x1024x1024, .f32⟩
  | 57 => ⟨S8x1024x1024, .f32⟩
  | 58 => ⟨S8x1024x1024, .f32⟩
  | 59 => ⟨S_, .f32⟩
  | 60 => ⟨S8x1024x1024, .f32⟩
  | 61 => ⟨S8x1024x1024, .f32⟩
  | 62 => ⟨S8x1024x1024, .f32⟩
  | 63 => ⟨S8x1024x1024, .f32⟩
  | 64 => ⟨S_, .f32⟩
  | 65 => ⟨S8x1024x1024, .f32⟩
  | 66 => ⟨S8x1024x1024, .f32⟩
  | 67 => ⟨S8x1024x1024, .f32⟩
  | 68 => ⟨S8x1024x1024, .f32⟩
  | 69 => ⟨S_, .f32⟩
  | 70 => ⟨S8x1024x1024, .f32⟩
  | 71 => ⟨S8x1024x1024, .f32⟩
  | 72 => ⟨S8x1024x1024, .f32⟩
  | 73 => ⟨S8x1024x1024, .f32⟩
  | 74 => ⟨S_, .i32⟩
  | 75 => ⟨S8x1x1024, .f32⟩
  | 76 => ⟨S8x4x1024, .f32⟩
  | 77 => ⟨S8x4x1024, .f32⟩
  | 78 => ⟨S8x1028x1024, .f32⟩
  | 79 => ⟨S8x1x1024, .f32⟩
  | 80 => ⟨S8x4x1024, .f32⟩
  | 81 => ⟨S8x4x1024, .f32⟩
  | 82 => ⟨S8x1032x1024, .f32⟩
  | 83 => ⟨S8x1024x1024, .f32⟩
  | 84 => ⟨S_, .f32⟩
  | 85 => ⟨S8x1024x1024, .f32⟩
  | 86 => ⟨S8x1024x1024, .f32⟩
  | 87 => ⟨S_, .f32⟩
  | 88 => ⟨S8x1024x1024, .f32⟩
  | 89 => ⟨S8x1024x1024, .f32⟩
  | 90 => ⟨S8x1024x1024, .f32⟩
  | 91 => ⟨S_, .f32⟩
  | 92 => ⟨S8x1024x1024, .f32⟩
  | 93 => ⟨S8x1024x1024, .f32⟩
  | 94 => ⟨S8x1024x1024, .f32⟩
  | 95 => ⟨S8x1024x1024, .f32⟩
  | 96 => ⟨S_, .f32⟩
  | 97 => ⟨S8x1024x1024, .f32⟩
  | 98 => ⟨S8x1024x1024, .f32⟩
  | 99 => ⟨S8x1024x1024, .f32⟩
  | 100 => ⟨S8x1024x1024, .f32⟩
  | 101 => ⟨S_, .f32⟩
  | 102 => ⟨S8x1024x1024, .f32⟩
  | 103 => ⟨S8x1024x1024, .f32⟩
  | 104 => ⟨S8x1024x1024, .f32⟩
  | 105 => ⟨S8x1024x1024, .f32⟩
  | 106 => ⟨S_, .f32⟩
  | 107 => ⟨S8x1024x1024, .f32⟩
  | 108 => ⟨S8x1024x1024, .f32⟩
  | 109 => ⟨S8x1024x1024, .f32⟩
  | 110 => ⟨S_, .i32⟩
  | 111 => ⟨S8x1024x1, .f32⟩
  | 112 => ⟨S8x1024x4, .f32⟩
  | 113 => ⟨S8x1024x4, .f32⟩
  | 114 => ⟨S8x1024x1028, .f32⟩
  | 115 => ⟨S8x1024x1, .f32⟩
  | 116 => ⟨S8x1024x4, .f32⟩
  | 117 => ⟨S8x1024x4, .f32⟩
  | 118 => ⟨S8x1024x1032, .f32⟩
  | 119 => ⟨S8x1024x1024, .f32⟩
  | 120 => ⟨S_, .f32⟩
  | 121 => ⟨S8x1024x1024, .f32⟩
  | 122 => ⟨S8x1024x1024, .f32⟩
  | 123 => ⟨S_, .f32⟩
  | 124 => ⟨S8x1024x1024, .f32⟩
  | 125 => ⟨S8x1024x1024, .f32⟩
  | 126 => ⟨S8x1024x1024, .f32⟩
  | 127 => ⟨S_, .f32⟩
  | _ => ⟨S8x1024x1024, .f32⟩

abbrev hbmTy0_1 (i : Nat) : BufTy := match i % 128 with
  | 0 => ⟨S8x1024x1024, .f32⟩
  | 1 => ⟨S8x1024x1024, .f32⟩
  | 2 => ⟨S8x1024x1024, .f32⟩
  | 3 => ⟨S8x1024x1024, .f32⟩
  | 4 => ⟨S_, .f32⟩
  | 5 => ⟨S8x1024x1024, .f32⟩
  | 6 => ⟨S8x1024x1024, .f32⟩
  | 7 => ⟨S8x1024x1024, .f32⟩
  | 8 => ⟨S8x1024x1024, .f32⟩
  | 9 => ⟨S_, .f32⟩
  | 10 => ⟨S8x1024x1024, .f32⟩
  | 11 => ⟨S8x1024x1024, .f32⟩
  | 12 => ⟨S8x1024x1024, .f32⟩
  | 13 => ⟨S8x1024x1024, .f32⟩
  | 14 => ⟨S_, .f32⟩
  | 15 => ⟨S8x1024x1024, .f32⟩
  | 16 => ⟨S8x1024x1024, .f32⟩
  | 17 => ⟨S8x1024x1024, .f32⟩
  | 18 => ⟨S8x1024x1024, .f32⟩
  | 19 => ⟨S_, .i32⟩
  | 20 => ⟨S8x1x1024, .f32⟩
  | 21 => ⟨S8x8x1024, .f32⟩
  | 22 => ⟨S8x8x1024, .f32⟩
  | 23 => ⟨S8x1032x1024, .f32⟩
  | 24 => ⟨S8x1x1024, .f32⟩
  | 25 => ⟨S8x8x1024, .f32⟩
  | 26 => ⟨S8x8x1024, .f32⟩
  | 27 => ⟨S8x1040x1024, .f32⟩
  | 28 => ⟨S8x1024x1024, .f32⟩
  | 29 => ⟨S_, .f32⟩
  | 30 => ⟨S8x1024x1024, .f32⟩
  | 31 => ⟨S8x1024x1024, .f32⟩
  | 32 => ⟨S_, .f32⟩
  | 33 => ⟨S8x1024x1024, .f32⟩
  | 34 => ⟨S8x1024x1024, .f32⟩
  | 35 => ⟨S8x1024x1024, .f32⟩
  | 36 => ⟨S_, .f32⟩
  | 37 => ⟨S8x1024x1024, .f32⟩
  | 38 => ⟨S8x1024x1024, .f32⟩
  | 39 => ⟨S8x1024x1024, .f32⟩
  | 40 => ⟨S8x1024x1024, .f32⟩
  | 41 => ⟨S_, .f32⟩
  | 42 => ⟨S8x1024x1024, .f32⟩
  | 43 => ⟨S8x1024x1024, .f32⟩
  | 44 => ⟨S8x1024x1024, .f32⟩
  | 45 => ⟨S8x1024x1024, .f32⟩
  | 46 => ⟨S_, .f32⟩
  | 47 => ⟨S8x1024x1024, .f32⟩
  | 48 => ⟨S8x1024x1024, .f32⟩
  | 49 => ⟨S8x1024x1024, .f32⟩
  | 50 => ⟨S8x1024x1024, .f32⟩
  | 51 => ⟨S_, .f32⟩
  | 52 => ⟨S8x1024x1024, .f32⟩
  | 53 => ⟨S8x1024x1024, .f32⟩
  | 54 => ⟨S8x1024x1024, .f32⟩
  | 55 => ⟨S_, .i32⟩
  | 56 => ⟨S8x1024x1, .f32⟩
  | 57 => ⟨S8x1024x8, .f32⟩
  | 58 => ⟨S8x1024x8, .f32⟩
  | 59 => ⟨S8x1024x1032, .f32⟩
  | 60 => ⟨S8x1024x1, .f32⟩
  | 61 => ⟨S8x1024x8, .f32⟩
  | 62 => ⟨S8x1024x8, .f32⟩
  | 63 => ⟨S8x1024x1040, .f32⟩
  | 64 => ⟨S8x1024x1024, .f32⟩
  | 65 => ⟨S_, .f32⟩
  | 66 => ⟨S8x1024x1024, .f32⟩
  | 67 => ⟨S8x1024x1024, .f32⟩
  | 68 => ⟨S_, .f32⟩
  | 69 => ⟨S8x1024x1024, .f32⟩
  | 70 => ⟨S8x1024x1024, .f32⟩
  | 71 => ⟨S8x1024x1024, .f32⟩
  | 72 => ⟨S_, .f32⟩
  | 73 => ⟨S8x1024x1024, .f32⟩
  | 74 => ⟨S8x1024x1024, .f32⟩
  | 75 => ⟨S8x1024x1024, .f32⟩
  | 76 => ⟨S8x1024x1024, .f32⟩
  | 77 => ⟨S_, .f32⟩
  | 78 => ⟨S8x1024x1024, .f32⟩
  | 79 => ⟨S8x1024x1024, .f32⟩
  | 80 => ⟨S8x1024x1024, .f32⟩
  | 81 => ⟨S8x1024x1024, .f32⟩
  | 82 => ⟨S_, .f32⟩
  | 83 => ⟨S8x1024x1024, .f32⟩
  | 84 => ⟨S8x1024x1024, .f32⟩
  | 85 => ⟨S8x1024x1024, .f32⟩
  | 86 => ⟨S8x1024x1024, .f32⟩
  | 87 => ⟨S_, .f32⟩
  | 88 => ⟨S8x1024x1024, .f32⟩
  | 89 => ⟨S8x1024x1024, .f32⟩
  | 90 => ⟨S8x1024x1024, .f32⟩
  | 91 => ⟨S8x1024x1024, .f32⟩
  | 92 => ⟨S8x1x1024x1024, .f32⟩
  | 93 => ⟨S8x1x1024x1024, .f32⟩
  | 94 => ⟨S8x1x1024x1024, .f32⟩
  | 95 => ⟨S8x1x1024x1024, .f32⟩
  | 96 => ⟨S8x4x1024x1024, .f32⟩
  | _ => ⟨S8x1024x1024, .f32⟩

abbrev hbmTy (i : Nat) : BufTy := match i / 128 with
  | 0 => hbmTy0_0 i
  | 1 => hbmTy0_1 i
  | _ => ⟨S8x1024x1024, .f32⟩

abbrev bufTy : (tb : Table) → Fin (tcTables nBuf tb) → BufTy
  | .hbm, ⟨i, _⟩ => hbmTy i
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_v6 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_8 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_9 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_11 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_12 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_v6 : Ref sig .tc := ⟨.hbm, 81, rfl⟩
abbrev main_v45 : Ref sig .tc := ⟨.hbm, 82, rfl⟩
abbrev main_v46 : Ref sig .tc := ⟨.hbm, 83, rfl⟩
abbrev main_cst_13 : Ref sig .tc := ⟨.hbm, 84, rfl⟩
abbrev main_v47 : Ref sig .tc := ⟨.hbm, 85, rfl⟩
abbrev main_v48 : Ref sig .tc := ⟨.hbm, 86, rfl⟩
abbrev main_cst_14 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_15 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_16 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_17 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_18 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_19 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_v6 : Ref sig .tc := ⟨.hbm, 117, rfl⟩
abbrev main_v67 : Ref sig .tc := ⟨.hbm, 118, rfl⟩
abbrev main_v68 : Ref sig .tc := ⟨.hbm, 119, rfl⟩
abbrev main_cst_20 : Ref sig .tc := ⟨.hbm, 120, rfl⟩
abbrev main_v69 : Ref sig .tc := ⟨.hbm, 121, rfl⟩
abbrev main_v70 : Ref sig .tc := ⟨.hbm, 122, rfl⟩
abbrev main_cst_21 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_22 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_23 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_24 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_cst_25 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_c_26 : Ref sig .tc := ⟨.hbm, 147, rfl⟩
abbrev main_call4_v0 : Ref sig .tc := ⟨.hbm, 148, rfl⟩
abbrev main_call4_v1 : Ref sig .tc := ⟨.hbm, 149, rfl⟩
abbrev main_call4_v2 : Ref sig .tc := ⟨.hbm, 150, rfl⟩
abbrev main_call4_v3 : Ref sig .tc := ⟨.hbm, 151, rfl⟩
abbrev main_call4_v4 : Ref sig .tc := ⟨.hbm, 152, rfl⟩
abbrev main_call4_v5 : Ref sig .tc := ⟨.hbm, 153, rfl⟩
abbrev main_call4_v6 : Ref sig .tc := ⟨.hbm, 154, rfl⟩
abbrev main_v90 : Ref sig .tc := ⟨.hbm, 155, rfl⟩
abbrev main_v91 : Ref sig .tc := ⟨.hbm, 156, rfl⟩
abbrev main_cst_27 : Ref sig .tc := ⟨.hbm, 157, rfl⟩
abbrev main_v92 : Ref sig .tc := ⟨.hbm, 158, rfl⟩
abbrev main_v93 : Ref sig .tc := ⟨.hbm, 159, rfl⟩
abbrev main_cst_28 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_cst_29 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_v100 : Ref sig .tc := ⟨.hbm, 168, rfl⟩
abbrev main_cst_30 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_31 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_v108 : Ref sig .tc := ⟨.hbm, 178, rfl⟩
abbrev main_cst_32 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_c_33 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_call5_v3 : Ref sig .tc := ⟨.hbm, 187, rfl⟩
abbrev main_call5_v4 : Ref sig .tc := ⟨.hbm, 188, rfl⟩
abbrev main_call5_v5 : Ref sig .tc := ⟨.hbm, 189, rfl⟩
abbrev main_call5_v6 : Ref sig .tc := ⟨.hbm, 190, rfl⟩
abbrev main_v112 : Ref sig .tc := ⟨.hbm, 191, rfl⟩
abbrev main_v113 : Ref sig .tc := ⟨.hbm, 192, rfl⟩
abbrev main_cst_34 : Ref sig .tc := ⟨.hbm, 193, rfl⟩
abbrev main_v114 : Ref sig .tc := ⟨.hbm, 194, rfl⟩
abbrev main_v115 : Ref sig .tc := ⟨.hbm, 195, rfl⟩
abbrev main_cst_35 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_cst_36 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_cst_37 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_cst_38 : Ref sig .tc := ⟨.hbm, 210, rfl⟩
abbrev main_v127 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_cst_39 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_v139 : Ref sig .tc := ⟨.hbm, 224, rfl⟩

abbrev nD : Nat := 1
abbrev τ : Topo := Topo.v7x

variable {F : FTy → Type} [FloatOps F]

class Facts₀ : Prop where
  slices_S8x1024x1024_S8x1x1024_0_0_0 : S8x1024x1024.Slices ![0, 0, 0] S8x1x1024
  slices_S8x1024x1024_S8x2x1024_0_1_0 : S8x1024x1024.Slices ![0, 1, 0] S8x2x1024
  concatenates_S8x2x1024_S8x1024x1024_S8x1026x1024_d1 : Shape.Concatenates [S8x2x1024, S8x1024x1024] S8x1026x1024 1
  slices_S8x1026x1024_S8x1x1024_0_1025_0 : S8x1026x1024.Slices ![0, 1025, 0] S8x1x1024
  slices_S8x1026x1024_S8x2x1024_0_1023_0 : S8x1026x1024.Slices ![0, 1023, 0] S8x2x1024
  concatenates_S8x1026x1024_S8x2x1024_S8x1028x1024_d1 : Shape.Concatenates [S8x1026x1024, S8x2x1024] S8x1028x1024 1
  slices_S8x1028x1024_S8x1024x1024_0_0_0 : S8x1028x1024.Slices ![0, 0, 0] S8x1024x1024
  bcast_S_S8x1024x1024 : S_.BroadcastsInDim S8x1024x1024 (![] : Fin 0 → Fin S8x1024x1024.rank)
  slices_S8x1028x1024_S8x1024x1024_0_1_0 : S8x1028x1024.Slices ![0, 1, 0] S8x1024x1024
  slices_S8x1028x1024_S8x1024x1024_0_2_0 : S8x1028x1024.Slices ![0, 2, 0] S8x1024x1024
  slices_S8x1028x1024_S8x1024x1024_0_3_0 : S8x1028x1024.Slices ![0, 3, 0] S8x1024x1024
  slices_S8x1028x1024_S8x1024x1024_0_4_0 : S8x1028x1024.Slices ![0, 4, 0] S8x1024x1024
  slices_S8x1024x1024_S8x1024x1_0_0_0 : S8x1024x1024.Slices ![0, 0, 0] S8x1024x1
  slices_S8x1024x1024_S8x1024x2_0_0_1 : S8x1024x1024.Slices ![0, 0, 1] S8x1024x2
  concatenates_S8x1024x2_S8x1024x1024_S8x1024x1026_d2 : Shape.Concatenates [S8x1024x2, S8x1024x1024] S8x1024x1026 2
  slices_S8x1024x1026_S8x1024x1_0_0_1025 : S8x1024x1026.Slices ![0, 0, 1025] S8x1024x1
  slices_S8x1024x1026_S8x1024x2_0_0_1023 : S8x1024x1026.Slices ![0, 0, 1023] S8x1024x2
  concatenates_S8x1024x1026_S8x1024x2_S8x1024x1028_d2 : Shape.Concatenates [S8x1024x1026, S8x1024x2] S8x1024x1028 2
  slices_S8x1024x1028_S8x1024x1024_0_0_0 : S8x1024x1028.Slices ![0, 0, 0] S8x1024x1024
  slices_S8x1024x1028_S8x1024x1024_0_0_1 : S8x1024x1028.Slices ![0, 0, 1] S8x1024x1024
  slices_S8x1024x1028_S8x1024x1024_0_0_2 : S8x1024x1028.Slices ![0, 0, 2] S8x1024x1024
  slices_S8x1024x1028_S8x1024x1024_0_0_3 : S8x1024x1028.Slices ![0, 0, 3] S8x1024x1024
  slices_S8x1024x1028_S8x1024x1024_0_0_4 : S8x1024x1028.Slices ![0, 0, 4] S8x1024x1024
  slices_S8x1024x1024_S8x4x1024_0_1_0 : S8x1024x1024.Slices ![0, 1, 0] S8x4x1024
  concatenates_S8x4x1024_S8x1024x1024_S8x1028x1024_d1 : Shape.Concatenates [S8x4x1024, S8x1024x1024] S8x1028x1024 1
  slices_S8x1028x1024_S8x1x1024_0_1027_0 : S8x1028x1024.Slices ![0, 1027, 0] S8x1x1024
  slices_S8x1028x1024_S8x4x1024_0_1023_0 : S8x1028x1024.Slices ![0, 1023, 0] S8x4x1024
  concatenates_S8x1028x1024_S8x4x1024_S8x1032x1024_d1 : Shape.Concatenates [S8x1028x1024, S8x4x1024] S8x1032x1024 1
  slices_S8x1032x1024_S8x1024x1024_0_0_0 : S8x1032x1024.Slices ![0, 0, 0] S8x1024x1024
  slices_S8x1032x1024_S8x1024x1024_0_2_0 : S8x1032x1024.Slices ![0, 2, 0] S8x1024x1024
  slices_S8x1032x1024_S8x1024x1024_0_4_0 : S8x1032x1024.Slices ![0, 4, 0] S8x1024x1024
  slices_S8x1032x1024_S8x1024x1024_0_6_0 : S8x1032x1024.Slices ![0, 6, 0] S8x1024x1024
  slices_S8x1032x1024_S8x1024x1024_0_8_0 : S8x1032x1024.Slices ![0, 8, 0] S8x1024x1024
  slices_S8x1024x1024_S8x1024x4_0_0_1 : S8x1024x1024.Slices ![0, 0, 1] S8x1024x4
  concatenates_S8x1024x4_S8x1024x1024_S8x1024x1028_d2 : Shape.Concatenates [S8x1024x4, S8x1024x1024] S8x1024x1028 2
  slices_S8x1024x1028_S8x1024x1_0_0_1027 : S8x1024x1028.Slices ![0, 0, 1027] S8x1024x1
  slices_S8x1024x1028_S8x1024x4_0_0_1023 : S8x1024x1028.Slices ![0, 0, 1023] S8x1024x4
  concatenates_S8x1024x1028_S8x1024x4_S8x1024x1032_d2 : Shape.Concatenates [S8x1024x1028, S8x1024x4] S8x1024x1032 2
  slices_S8x1024x1032_S8x1024x1024_0_0_0 : S8x1024x1032.Slices ![0, 0, 0] S8x1024x1024
  slices_S8x1024x1032_S8x1024x1024_0_0_2 : S8x1024x1032.Slices ![0, 0, 2] S8x1024x1024
  slices_S8x1024x1032_S8x1024x1024_0_0_4 : S8x1024x1032.Slices ![0, 0, 4] S8x1024x1024
  slices_S8x1024x1032_S8x1024x1024_0_0_6 : S8x1024x1032.Slices ![0, 0, 6] S8x1024x1024
  slices_S8x1024x1032_S8x1024x1024_0_0_8 : S8x1024x1032.Slices ![0, 0, 8] S8x1024x1024
  slices_S8x1024x1024_S8x8x1024_0_1_0 : S8x1024x1024.Slices ![0, 1, 0] S8x8x1024
  concatenates_S8x8x1024_S8x1024x1024_S8x1032x1024_d1 : Shape.Concatenates [S8x8x1024, S8x1024x1024] S8x1032x1024 1
  slices_S8x1032x1024_S8x1x1024_0_1031_0 : S8x1032x1024.Slices ![0, 1031, 0] S8x1x1024
  slices_S8x1032x1024_S8x8x1024_0_1023_0 : S8x1032x1024.Slices ![0, 1023, 0] S8x8x1024
  concatenates_S8x1032x1024_S8x8x1024_S8x1040x1024_d1 : Shape.Concatenates [S8x1032x1024, S8x8x1024] S8x1040x1024 1
  slices_S8x1040x1024_S8x1024x1024_0_0_0 : S8x1040x1024.Slices ![0, 0, 0] S8x1024x1024
  slices_S8x1040x1024_S8x1024x1024_0_4_0 : S8x1040x1024.Slices ![0, 4, 0] S8x1024x1024
  slices_S8x1040x1024_S8x1024x1024_0_8_0 : S8x1040x1024.Slices ![0, 8, 0] S8x1024x1024
  slices_S8x1040x1024_S8x1024x1024_0_12_0 : S8x1040x1024.Slices ![0, 12, 0] S8x1024x1024
  slices_S8x1040x1024_S8x1024x1024_0_16_0 : S8x1040x1024.Slices ![0, 16, 0] S8x1024x1024
  slices_S8x1024x1024_S8x1024x8_0_0_1 : S8x1024x1024.Slices ![0, 0, 1] S8x1024x8
  concatenates_S8x1024x8_S8x1024x1024_S8x1024x1032_d2 : Shape.Concatenates [S8x1024x8, S8x1024x1024] S8x1024x1032 2
  slices_S8x1024x1032_S8x1024x1_0_0_1031 : S8x1024x1032.Slices ![0, 0, 1031] S8x1024x1
  slices_S8x1024x1032_S8x1024x8_0_0_1023 : S8x1024x1032.Slices ![0, 0, 1023] S8x1024x8
  concatenates_S8x1024x1032_S8x1024x8_S8x1024x1040_d2 : Shape.Concatenates [S8x1024x1032, S8x1024x8] S8x1024x1040 2
  slices_S8x1024x1040_S8x1024x1024_0_0_0 : S8x1024x1040.Slices ![0, 0, 0] S8x1024x1024
  slices_S8x1024x1040_S8x1024x1024_0_0_4 : S8x1024x1040.Slices ![0, 0, 4] S8x1024x1024
  slices_S8x1024x1040_S8x1024x1024_0_0_8 : S8x1024x1040.Slices ![0, 0, 8] S8x1024x1024
  slices_S8x1024x1040_S8x1024x1024_0_0_12 : S8x1024x1040.Slices ![0, 0, 12] S8x1024x1024
  slices_S8x1024x1040_S8x1024x1024_0_0_16 : S8x1024x1040.Slices ![0, 0, 16] S8x1024x1024
  bcast_S8x1024x1024_S8x1x1024x1024_0_2_3 : S8x1024x1024.BroadcastsInDim S8x1x1024x1024 (![0, 2, 3] : Fin 3 → Fin S8x1x1024x1024.rank)
  concatenates_S8x1x1024x1024_S8x1x1024x1024_S8x1x1024x1024_S8x1x1024x1024_S8x4x1024x1024_d1 : Shape.Concatenates [S8x1x1024x1024, S8x1x1024x1024, S8x1x1024x1024, S8x1x1024x1024] S8x4x1024x1024 1

variable [Facts₀]

class Facts : Prop extends Facts₀ where

variable [Facts]
-- ==== Proof.KRun0.lean ====
/-
  One level's kernel body on whole memrefs: the padded input plane at contents `x0`, the two output planes and the
  scratch plane at anything. It runs to its end leaving the input as it was, each output plane written by one store
  that covers it, and the scratch plane at some contents. What the two stores wrote is the witness of the run: the
  detail plane's store and the smooth plane's store, each a list of pieces (one piece: the whole plane).
-/
import proofs.«173091_j34797825032656_2_alg».proof.Proof.Gen.Kernel.Launch
import proofs.«173091_j34797825032656_2_alg».proof.Proof.Gen.Kernel.Points
import proofs.«173091_j34797825032656_2_alg».proof.Proof.Gen.Kernel.Skeleton
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of level 0: the pieces its two output stores leave (detail plane first, smooth plane second), with the
    proof that from the input plane at `x0` and any contents of the outputs and the scratch it runs to a state
    holding the input unchanged, each output with its pieces written, and the scratch at some contents. -/
noncomputable def kernelRun0 (c : Dev nD) (i : grid0.Coords)
    (arg1 : Memref sig .tc .vmem S1x1028x1028 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1028 .f32) (harg4 : arg4.IsWhole)
    (x0 : Vec F S1x1028x1028 .f32) :
    Σ' (L2 : List (View.Piece (Elt F) S1x1024x1024 .f32)) (L3 : List (View.Piece (Elt F) S1x1024x1024 .f32)),
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d) ∗ (∃ d, owns (c : Thread nD τ) arg4 fullShare d)
            ∗ (iprop(owns (c : Thread nD τ) arg1 fullShare x0
                ∗ (∃ f, arg2.view.loc (c : Thread nD τ) ↦[arg2.view.set]{fullShare} arg2.view.writes (Elt F) f L2)
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc0__level_kernel i arg1 harg1 arg2 harg2 arg3 harg3 arg4 harg4) K := by
  refine ⟨?_, ?_, fun E K => ?run⟩
  case run =>
    simp only [cc0__level_kernel_eq_skeleton]; unfold cc0__level_kernel_skel
    unfold owns
    iintro ⟨⟨%f1, %hf1, H1⟩, ⟨%d2, %f2, -, H2⟩, ⟨%d3, %f3, -, H3⟩, ⟨%d4, %f4, -, H4⟩, Hk⟩
    obtain rfl := harg1.eq_unread hf1
    sl_exec
    sl_step
    iapply Hk
    isplitl [H1]
    · iexists _; isplitr; · ipureintro; exact harg1.read_unread _
      iexact H1
    isplitl [H2]; · iexists _; iexact H2
    isplitl [H3]; · iexists _; iexact H3
    iexists _, _; isplitr
    swap; · iexact H4
    ipureintro; rfl

end Cert.Kernel.Reg

end
-- ==== Proof.KFrame0.lean ====
/-
  Level 0 as a pipeline: the proof data of its pallas_call at ANY contents `V` of the core's buffers when the region
  is entered. Window 0 is the padded input (one plane per grid point, fetched at every point), windows 1 and 2 the detail and
  smooth outputs (one plane per point, written back at every point). After the body at point `t` the input's buffer holds
  its block as fetched, and each output's buffer holds what the body's one covering store wrote, read back over junk. The
  scratch plane lives in the region's invariant at some contents: the body takes it out, overwrites it whole, and puts it back.
-/
import proofs.«173091_j34797825032656_2_alg».proof.Proof.KRun0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One buffer of an output window, through which an output plane's contents are stated (the choice does not matter). -/
abbrev VO0 : View sig .tc .vmem S1x1024x1024 .f32 := (Memref.whole cc0_stg1_0 : Memref sig .tc .vmem S1x1024x1024 .f32).view
/-- Each window's current memref at point `t`, as the pipeline passes it to the body, and the scratch plane. -/
abbrev ms0_0 (t : Fin cfg0.N) : Memref sig .tc .vmem S1x1028x1028 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev msS0 : Memref sig .tc .vmem S1024x1028 .f32 := Memref.whole cc0_scratch0
abbrev hsS0 : (msS0).IsWhole := Memref.isWhole_whole _

/-- The detail plane's store covers the plane. -/
theorem cover0_1 (c : Dev nD) (i : grid0.Coords) (arg1 : Memref sig .tc .vmem S1x1028x1028 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1028 .f32) (harg4 : arg4.IsWhole)
    (x0 : Vec F S1x1028x1028 .f32) (y : S1x1024x1024.Idx) :
    ∃ pc ∈ (kernelRun0 c i arg1 harg1 arg2 harg2 arg3 harg3 arg4 harg4 x0).1, y ∈ pc.1.set :=
  View.cover_of_tiledL (kernelRun0 c i arg1 harg1 arg2 harg2 arg3 harg3 arg4 harg4 x0).1 S1x1024x1024.size (by sl_kernel_rfl) y
/-- The smooth plane's store covers the plane. -/
theorem cover0_2 (c : Dev nD) (i : grid0.Coords) (arg1 : Memref sig .tc .vmem S1x1028x1028 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1028 .f32) (harg4 : arg4.IsWhole)
    (x0 : Vec F S1x1028x1028 .f32) (y : S1x1024x1024.Idx) :
    ∃ pc ∈ (kernelRun0 c i arg1 harg1 arg2 harg2 arg3 harg3 arg4 harg4 x0).2.1, y ∈ pc.1.set :=
  View.cover_of_tiledL (kernelRun0 c i arg1 harg1 arg2 harg2 arg3 harg3 arg4 harg4 x0).2.1 S1x1024x1024.size (by sl_kernel_rfl) y

/-- What the body leaves in the detail output's buffer: its store read back over junk. -/
def out0_1 (c : Dev nD) (i : grid0.Coords) (arg1 : Memref sig .tc .vmem S1x1028x1028 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1028 .f32) (harg4 : arg4.IsWhole)
    (x0 : Vec F S1x1028x1028 .f32) : Vec F S1x1024x1024 .f32 :=
  VO0.read (Elt F) (VO0.writes (Elt F) VO0.junk (kernelRun0 c i arg1 harg1 arg2 harg2 arg3 harg3 arg4 harg4 x0).1)
/-- What the body leaves in the smooth output's buffer. -/
def out0_2 (c : Dev nD) (i : grid0.Coords) (arg1 : Memref sig .tc .vmem S1x1028x1028 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1028 .f32) (harg4 : arg4.IsWhole)
    (x0 : Vec F S1x1028x1028 .f32) : Vec F S1x1024x1024 .f32 :=
  VO0.read (Elt F) (VO0.writes (Elt F) VO0.junk (kernelRun0 c i arg1 harg1 arg2 harg2 arg3 harg3 arg4 harg4 x0).2.1)

/-- The proof data of level 0's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 c (grid0.coords t) (ms0_0 t) (hs0_0 t) (ms0_1 t) (hs0_1 t) (ms0_2 t) (hs0_2 t) msS0 hsS0 (iblk0 V c 0 t)
    | ⟨2, _⟩ => out0_2 c (grid0.coords t) (ms0_0 t) (hs0_0 t) (ms0_1 t) (hs0_1 t) (ms0_2 t) (hs0_2 t) msS0 hsS0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 c (grid0.coords t) (ms0_0 t) (hs0_0 t) (ms0_1 t) (hs0_1 t) (ms0_2 t) (hs0_2 t) msS0 hsS0 (iblk0 V c 0 t) := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) msS0 hsS0 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the input's memref holds its block, the outputs' hold anything, the scratch plane comes out of the
    invariant at some contents; the run applies; each output ends at its covering store read back; the scratch goes back. -/
theorem sound_body0 (c : Dev nD) (t : Fin cfg0.N) :
    bodyPre0 V c t ⊢ wp frame (wpE (defs₀ (F := F)) Variants.none c none) Set.univ (bodyAt0 t) (fun _ => bodyPost0 V c t) := by
  have toOwns : ∀ f, ((((c : Thread nD τ).loc cc0_scratch0) ↦{fullShare} f : sProp 𝕄)) ⊢ owns (c : Thread nD τ) msS0 fullShare f :=
    fun f => by rw [owns_whole]
  have ofOwns : ∀ f, (owns (c : Thread nD τ) msS0 fullShare f : sProp 𝕄) ⊢ (((c : Thread nD τ).loc cc0_scratch0) ↦{fullShare} f) :=
    fun f => by rw [owns_whole]
  unfold bodyPre0 bodyPost0 bodyAt0
  simp only [before0_0]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2]
  unfold Pipeline.ΦA; rw [scopedRest0_eq]
  unfold out0_1 out0_2
  iintro ⟨⟨⟨Hs, Hrest⟩, Hp⟩, Ho, ⟨%d0, H0⟩, ⟨%d1, H1⟩, ⟨%d2, H2⟩⟩
  icases Hs with ⟨%fs, Hs⟩
  ihave Hs' := toOwns fs $$ Hs
  iapply ((kernelRun0 c (grid0.coords t) (ms0_0 t) (hs0_0 t) (ms0_1 t) (hs0_1 t) (ms0_2 t) (hs0_2 t) msS0 hsS0 (iblk0 V c 0 t)).2.2 Set.univ _)
  isplitl [H0]; · iexact H0
  isplitl [H1]; · iexists _; iexact H1
  isplitl [H2]; · iexists _; iexact H2
  isplitl [Hs']; · iexists _; iexact Hs'
  iintro ⟨H0, ⟨%e1, H1⟩, ⟨%e2, H2⟩, ⟨%ds, Hs⟩⟩
  ihave Hs' := ofOwns ds $$ Hs
  isplitl [Hs' Hrest Hp]
  · isplitr [Hp]
    · skip
      isplitl [Hs']; · iexists _; iexact Hs'
      iexact Hrest
    · iexact Hp
  isplitl [Ho]; · iexact Ho
  isplitl [H0]; · iexact H0
  isplitl [H1]
  · unfold owns; iexists _; isplitr
    swap; · iexact H1
    ipureintro; exact View.read_writes_of_cover _ _ _ _ _ (cover0_1 c _ _ _ _ _ _ _ _ _ _)
  unfold owns; iexists _; isplitr
  swap; · iexact H2
  ipureintro; exact View.read_writes_of_cover _ _ _ _ _ (cover0_2 c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Reg

end
-- ==== Proof.KRun1.lean ====
/-
  One level's kernel body on whole memrefs: the padded input plane at contents `x0`, the two output planes and the
  scratch plane at anything. It runs to its end leaving the input as it was, each output plane written by one store
  that covers it, and the scratch plane at some contents. What the two stores wrote is the witness of the run: the
  detail plane's store and the smooth plane's store, each a list of pieces (one piece: the whole plane).
-/
import proofs.«173091_j34797825032656_2_alg».proof.Proof.Gen.Kernel.Launch
import proofs.«173091_j34797825032656_2_alg».proof.Proof.Gen.Kernel.Points
import proofs.«173091_j34797825032656_2_alg».proof.Proof.Gen.Kernel.Skeleton
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of level 1: the pieces its two output stores leave (detail plane first, smooth plane second), with the
    proof that from the input plane at `x0` and any contents of the outputs and the scratch it runs to a state
    holding the input unchanged, each output with its pieces written, and the scratch at some contents. -/
noncomputable def kernelRun1 (c : Dev nD) (i : grid1.Coords)
    (arg1 : Memref sig .tc .vmem S1x1032x1032 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1032 .f32) (harg4 : arg4.IsWhole)
    (x0 : Vec F S1x1032x1032 .f32) :
    Σ' (L2 : List (View.Piece (Elt F) S1x1024x1024 .f32)) (L3 : List (View.Piece (Elt F) S1x1024x1024 .f32)),
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d) ∗ (∃ d, owns (c : Thread nD τ) arg4 fullShare d)
            ∗ (iprop(owns (c : Thread nD τ) arg1 fullShare x0
                ∗ (∃ f, arg2.view.loc (c : Thread nD τ) ↦[arg2.view.set]{fullShare} arg2.view.writes (Elt F) f L2)
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc1__level_kernel i arg1 harg1 arg2 harg2 arg3 harg3 arg4 harg4) K := by
  refine ⟨?_, ?_, fun E K => ?run⟩
  case run =>
    simp only [cc1__level_kernel_eq_skeleton]; unfold cc1__level_kernel_skel
    unfold owns
    iintro ⟨⟨%f1, %hf1, H1⟩, ⟨%d2, %f2, -, H2⟩, ⟨%d3, %f3, -, H3⟩, ⟨%d4, %f4, -, H4⟩, Hk⟩
    obtain rfl := harg1.eq_unread hf1
    sl_exec
    sl_step
    iapply Hk
    isplitl [H1]
    · iexists _; isplitr; · ipureintro; exact harg1.read_unread _
      iexact H1
    isplitl [H2]; · iexists _; iexact H2
    isplitl [H3]; · iexists _; iexact H3
    iexists _, _; isplitr
    swap; · iexact H4
    ipureintro; rfl

end Cert.Kernel.Reg

end
-- ==== Proof.KFrame1.lean ====
/-
  Level 1 as a pipeline: the proof data of its pallas_call at ANY contents `V` of the core's buffers when the region
  is entered. Window 0 is the padded input (one plane per grid point, fetched at every point), windows 1 and 2 the detail and
  smooth outputs (one plane per point, written back at every point). After the body at point `t` the input's buffer holds
  its block as fetched, and each output's buffer holds what the body's one covering store wrote, read back over junk. The
  scratch plane lives in the region's invariant at some contents: the body takes it out, overwrites it whole, and puts it back.
-/
import proofs.«173091_j34797825032656_2_alg».proof.Proof.KRun1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- One buffer of an output window, through which an output plane's contents are stated (the choice does not matter). -/
abbrev VO1 : View sig .tc .vmem S1x1024x1024 .f32 := (Memref.whole cc1_stg1_0 : Memref sig .tc .vmem S1x1024x1024 .f32).view
/-- Each window's current memref at point `t`, as the pipeline passes it to the body, and the scratch plane. -/
abbrev ms1_0 (t : Fin cfg1.N) : Memref sig .tc .vmem S1x1032x1032 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
abbrev msS1 : Memref sig .tc .vmem S1024x1032 .f32 := Memref.whole cc1_scratch0
abbrev hsS1 : (msS1).IsWhole := Memref.isWhole_whole _

/-- The detail plane's store covers the plane. -/
theorem cover1_1 (c : Dev nD) (i : grid1.Coords) (arg1 : Memref sig .tc .vmem S1x1032x1032 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1032 .f32) (harg4 : arg4.IsWhole)
    (x0 : Vec F S1x1032x1032 .f32) (y : S1x1024x1024.Idx) :
    ∃ pc ∈ (kernelRun1 c i arg1 harg1 arg2 harg2 arg3 harg3 arg4 harg4 x0).1, y ∈ pc.1.set :=
  View.cover_of_tiledL (kernelRun1 c i arg1 harg1 arg2 harg2 arg3 harg3 arg4 harg4 x0).1 S1x1024x1024.size (by sl_kernel_rfl) y
/-- The smooth plane's store covers the plane. -/
theorem cover1_2 (c : Dev nD) (i : grid1.Coords) (arg1 : Memref sig .tc .vmem S1x1032x1032 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1032 .f32) (harg4 : arg4.IsWhole)
    (x0 : Vec F S1x1032x1032 .f32) (y : S1x1024x1024.Idx) :
    ∃ pc ∈ (kernelRun1 c i arg1 harg1 arg2 harg2 arg3 harg3 arg4 harg4 x0).2.1, y ∈ pc.1.set :=
  View.cover_of_tiledL (kernelRun1 c i arg1 harg1 arg2 harg2 arg3 harg3 arg4 harg4 x0).2.1 S1x1024x1024.size (by sl_kernel_rfl) y

/-- What the body leaves in the detail output's buffer: its store read back over junk. -/
def out1_1 (c : Dev nD) (i : grid1.Coords) (arg1 : Memref sig .tc .vmem S1x1032x1032 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1032 .f32) (harg4 : arg4.IsWhole)
    (x0 : Vec F S1x1032x1032 .f32) : Vec F S1x1024x1024 .f32 :=
  VO1.read (Elt F) (VO1.writes (Elt F) VO1.junk (kernelRun1 c i arg1 harg1 arg2 harg2 arg3 harg3 arg4 harg4 x0).1)
/-- What the body leaves in the smooth output's buffer. -/
def out1_2 (c : Dev nD) (i : grid1.Coords) (arg1 : Memref sig .tc .vmem S1x1032x1032 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1032 .f32) (harg4 : arg4.IsWhole)
    (x0 : Vec F S1x1032x1032 .f32) : Vec F S1x1024x1024 .f32 :=
  VO1.read (Elt F) (VO1.writes (Elt F) VO1.junk (kernelRun1 c i arg1 harg1 arg2 harg2 arg3 harg3 arg4 harg4 x0).2.1)

/-- The proof data of level 1's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 c (grid1.coords t) (ms1_0 t) (hs1_0 t) (ms1_1 t) (hs1_1 t) (ms1_2 t) (hs1_2 t) msS1 hsS1 (iblk1 V c 0 t)
    | ⟨2, _⟩ => out1_2 c (grid1.coords t) (ms1_0 t) (hs1_0 t) (ms1_1 t) (hs1_1 t) (ms1_2 t) (hs1_2 t) msS1 hsS1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 c (grid1.coords t) (ms1_0 t) (hs1_0 t) (ms1_1 t) (hs1_1 t) (ms1_2 t) (hs1_2 t) msS1 hsS1 (iblk1 V c 0 t) := by dsimp only [dat1]
theorem after1_2 (c : Dev nD) (t : Fin cfg1.N) : (dat1 V c).after 2 t = out1_2 c (grid1.coords t) (ms1_0 t) (hs1_0 t) (ms1_1 t) (hs1_1 t) (ms1_2 t) (hs1_2 t) msS1 hsS1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the input's memref holds its block, the outputs' hold anything, the scratch plane comes out of the
    invariant at some contents; the run applies; each output ends at its covering store read back; the scratch goes back. -/
theorem sound_body1 (c : Dev nD) (t : Fin cfg1.N) :
    bodyPre1 V c t ⊢ wp frame (wpE (defs₀ (F := F)) Variants.none c none) Set.univ (bodyAt1 t) (fun _ => bodyPost1 V c t) := by
  have toOwns : ∀ f, ((((c : Thread nD τ).loc cc1_scratch0) ↦{fullShare} f : sProp 𝕄)) ⊢ owns (c : Thread nD τ) msS1 fullShare f :=
    fun f => by rw [owns_whole]
  have ofOwns : ∀ f, (owns (c : Thread nD τ) msS1 fullShare f : sProp 𝕄) ⊢ (((c : Thread nD τ).loc cc1_scratch0) ↦{fullShare} f) :=
    fun f => by rw [owns_whole]
  unfold bodyPre1 bodyPost1 bodyAt1
  simp only [before1_0]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2]
  unfold Pipeline.ΦA; rw [scopedRest1_eq]
  unfold out1_1 out1_2
  iintro ⟨⟨⟨Hb1, Hb2, Hb3, Hb4, Hb5, Hb6, Hb7, Hs, Hrest⟩, Hp⟩, Ho, ⟨%d0, H0⟩, ⟨%d1, H1⟩, ⟨%d2, H2⟩⟩
  icases Hs with ⟨%fs, Hs⟩
  ihave Hs' := toOwns fs $$ Hs
  iapply ((kernelRun1 c (grid1.coords t) (ms1_0 t) (hs1_0 t) (ms1_1 t) (hs1_1 t) (ms1_2 t) (hs1_2 t) msS1 hsS1 (iblk1 V c 0 t)).2.2 Set.univ _)
  isplitl [H0]; · iexact H0
  isplitl [H1]; · iexists _; iexact H1
  isplitl [H2]; · iexists _; iexact H2
  isplitl [Hs']; · iexists _; iexact Hs'
  iintro ⟨H0, ⟨%e1, H1⟩, ⟨%e2, H2⟩, ⟨%ds, Hs⟩⟩
  ihave Hs' := ofOwns ds $$ Hs
  isplitl [Hs' Hb1 Hb2 Hb3 Hb4 Hb5 Hb6 Hb7 Hrest Hp]
  · isplitr [Hp]
    · skip
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hs']; · iexists _; iexact Hs'
      iexact Hrest
    · iexact Hp
  isplitl [Ho]; · iexact Ho
  isplitl [H0]; · iexact H0
  isplitl [H1]
  · unfold owns; iexists _; isplitr
    swap; · iexact H1
    ipureintro; exact View.read_writes_of_cover _ _ _ _ _ (cover1_1 c _ _ _ _ _ _ _ _ _ _)
  unfold owns; iexists _; isplitr
  swap; · iexact H2
  ipureintro; exact View.read_writes_of_cover _ _ _ _ _ (cover1_2 c _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Reg

end
-- ==== Proof.KRun2.lean ====
/-
  One level's kernel body on whole memrefs: the padded input plane at contents `x0`, the two output planes and the
  scratch plane at anything. It runs to its end leaving the input as it was, each output plane written by one store
  that covers it, and the scratch plane at some contents. What the two stores wrote is the witness of the run: the
  detail plane's store and the smooth plane's store, each a list of pieces (one piece: the whole plane).
-/
import proofs.«173091_j34797825032656_2_alg».proof.Proof.Gen.Kernel.Launch
import proofs.«173091_j34797825032656_2_alg».proof.Proof.Gen.Kernel.Points
import proofs.«173091_j34797825032656_2_alg».proof.Proof.Gen.Kernel.Skeleton
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of level 2: the pieces its two output stores leave (detail plane first, smooth plane second), with the
    proof that from the input plane at `x0` and any contents of the outputs and the scratch it runs to a state
    holding the input unchanged, each output with its pieces written, and the scratch at some contents. -/
noncomputable def kernelRun2 (c : Dev nD) (i : grid2.Coords)
    (arg1 : Memref sig .tc .vmem S1x1040x1040 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1040 .f32) (harg4 : arg4.IsWhole)
    (x0 : Vec F S1x1040x1040 .f32) :
    Σ' (L2 : List (View.Piece (Elt F) S1x1024x1024 .f32)) (L3 : List (View.Piece (Elt F) S1x1024x1024 .f32)),
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d) ∗ (∃ d, owns (c : Thread nD τ) arg4 fullShare d)
            ∗ (iprop(owns (c : Thread nD τ) arg1 fullShare x0
                ∗ (∃ f, arg2.view.loc (c : Thread nD τ) ↦[arg2.view.set]{fullShare} arg2.view.writes (Elt F) f L2)
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc2__level_kernel i arg1 harg1 arg2 harg2 arg3 harg3 arg4 harg4) K := by
  refine ⟨?_, ?_, fun E K => ?run⟩
  case run =>
    simp only [cc2__level_kernel_eq_skeleton]; unfold cc2__level_kernel_skel
    unfold owns
    iintro ⟨⟨%f1, %hf1, H1⟩, ⟨%d2, %f2, -, H2⟩, ⟨%d3, %f3, -, H3⟩, ⟨%d4, %f4, -, H4⟩, Hk⟩
    obtain rfl := harg1.eq_unread hf1
    sl_exec
    sl_step
    iapply Hk
    isplitl [H1]
    · iexists _; isplitr; · ipureintro; exact harg1.read_unread _
      iexact H1
    isplitl [H2]; · iexists _; iexact H2
    isplitl [H3]; · iexists _; iexact H3
    iexists _, _; isplitr
    swap; · iexact H4
    ipureintro; rfl

end Cert.Kernel.Reg

end
-- ==== Proof.KFrame2.lean ====
/-
  Level 2 as a pipeline: the proof data of its pallas_call at ANY contents `V` of the core's buffers when the region
  is entered. Window 0 is the padded input (one plane per grid point, fetched at every point), windows 1 and 2 the detail and
  smooth outputs (one plane per point, written back at every point). After the body at point `t` the input's buffer holds
  its block as fetched, and each output's buffer holds what the body's one covering store wrote, read back over junk. The
  scratch plane lives in the region's invariant at some contents: the body takes it out, overwrites it whole, and puts it back.
-/
import proofs.«173091_j34797825032656_2_alg».proof.Proof.KRun2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current buffer holds its block at every point, for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- One buffer of an output window, through which an output plane's contents are stated (the choice does not matter). -/
abbrev VO2 : View sig .tc .vmem S1x1024x1024 .f32 := (Memref.whole cc2_stg1_0 : Memref sig .tc .vmem S1x1024x1024 .f32).view
/-- Each window's current memref at point `t`, as the pipeline passes it to the body, and the scratch plane. -/
abbrev ms2_0 (t : Fin cfg2.N) : Memref sig .tc .vmem S1x1040x1040 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x1024 .f32 := win2_2.stage (cfg2.slots t 2)
abbrev hs2_2 (t : Fin cfg2.N) : (ms2_2 t).IsWhole := hstage2_2 ((cfg2.slots t 2).cast nbuf2_2)
abbrev msS2 : Memref sig .tc .vmem S1024x1040 .f32 := Memref.whole cc2_scratch0
abbrev hsS2 : (msS2).IsWhole := Memref.isWhole_whole _

/-- The detail plane's store covers the plane. -/
theorem cover2_1 (c : Dev nD) (i : grid2.Coords) (arg1 : Memref sig .tc .vmem S1x1040x1040 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1040 .f32) (harg4 : arg4.IsWhole)
    (x0 : Vec F S1x1040x1040 .f32) (y : S1x1024x1024.Idx) :
    ∃ pc ∈ (kernelRun2 c i arg1 harg1 arg2 harg2 arg3 harg3 arg4 harg4 x0).1, y ∈ pc.1.set :=
  View.cover_of_tiledL (kernelRun2 c i arg1 harg1 arg2 harg2 arg3 harg3 arg4 harg4 x0).1 S1x1024x1024.size (by sl_kernel_rfl) y
/-- The smooth plane's store covers the plane. -/
theorem cover2_2 (c : Dev nD) (i : grid2.Coords) (arg1 : Memref sig .tc .vmem S1x1040x1040 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1040 .f32) (harg4 : arg4.IsWhole)
    (x0 : Vec F S1x1040x1040 .f32) (y : S1x1024x1024.Idx) :
    ∃ pc ∈ (kernelRun2 c i arg1 harg1 arg2 harg2 arg3 harg3 arg4 harg4 x0).2.1, y ∈ pc.1.set :=
  View.cover_of_tiledL (kernelRun2 c i arg1 harg1 arg2 harg2 arg3 harg3 arg4 harg4 x0).2.1 S1x1024x1024.size (by sl_kernel_rfl) y

/-- What the body leaves in the detail output's buffer: its store read back over junk. -/
def out2_1 (c : Dev nD) (i : grid2.Coords) (arg1 : Memref sig .tc .vmem S1x1040x1040 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1040 .f32) (harg4 : arg4.IsWhole)
    (x0 : Vec F S1x1040x1040 .f32) : Vec F S1x1024x1024 .f32 :=
  VO2.read (Elt F) (VO2.writes (Elt F) VO2.junk (kernelRun2 c i arg1 harg1 arg2 harg2 arg3 harg3 arg4 harg4 x0).1)
/-- What the body leaves in the smooth output's buffer. -/
def out2_2 (c : Dev nD) (i : grid2.Coords) (arg1 : Memref sig .tc .vmem S1x1040x1040 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1040 .f32) (harg4 : arg4.IsWhole)
    (x0 : Vec F S1x1040x1040 .f32) : Vec F S1x1024x1024 .f32 :=
  VO2.read (Elt F) (VO2.writes (Elt F) VO2.junk (kernelRun2 c i arg1 harg1 arg2 harg2 arg3 harg3 arg4 harg4 x0).2.1)

/-- The proof data of level 2's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 c (grid2.coords t) (ms2_0 t) (hs2_0 t) (ms2_1 t) (hs2_1 t) (ms2_2 t) (hs2_2 t) msS2 hsS2 (iblk2 V c 0 t)
    | ⟨2, _⟩ => out2_2 c (grid2.coords t) (ms2_0 t) (hs2_0 t) (ms2_1 t) (hs2_1 t) (ms2_2 t) (hs2_2 t) msS2 hsS2 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 c (grid2.coords t) (ms2_0 t) (hs2_0 t) (ms2_1 t) (hs2_1 t) (ms2_2 t) (hs2_2 t) msS2 hsS2 (iblk2 V c 0 t) := by dsimp only [dat2]
theorem after2_2 (c : Dev nD) (t : Fin cfg2.N) : (dat2 V c).after 2 t = out2_2 c (grid2.coords t) (ms2_0 t) (hs2_0 t) (ms2_1 t) (hs2_1 t) (ms2_2 t) (hs2_2 t) msS2 hsS2 (iblk2 V c 0 t) := by dsimp only [dat2]
theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 1600000 in
/-- The body at any point: the input's memref holds its block, the outputs' hold anything, the scratch plane comes out of the
    invariant at some contents; the run applies; each output ends at its covering store read back; the scratch goes back. -/
theorem sound_body2 (c : Dev nD) (t : Fin cfg2.N) :
    bodyPre2 V c t ⊢ wp frame (wpE (defs₀ (F := F)) Variants.none c none) Set.univ (bodyAt2 t) (fun _ => bodyPost2 V c t) := by
  have toOwns : ∀ f, ((((c : Thread nD τ).loc cc2_scratch0) ↦{fullShare} f : sProp 𝕄)) ⊢ owns (c : Thread nD τ) msS2 fullShare f :=
    fun f => by rw [owns_whole]
  have ofOwns : ∀ f, (owns (c : Thread nD τ) msS2 fullShare f : sProp 𝕄) ⊢ (((c : Thread nD τ).loc cc2_scratch0) ↦{fullShare} f) :=
    fun f => by rw [owns_whole]
  unfold bodyPre2 bodyPost2 bodyAt2
  simp only [before2_0]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl,
    after2_0, after2_1, after2_2]
  unfold Pipeline.ΦA; rw [scopedRest2_eq]
  unfold out2_1 out2_2
  iintro ⟨⟨⟨Hb1, Hb2, Hb3, Hb4, Hb5, Hb6, Hb7, Hb8, Hb9, Hb10, Hb11, Hb12, Hb13, Hb14, Hs⟩, Hp⟩, Ho, ⟨%d0, H0⟩, ⟨%d1, H1⟩, ⟨%d2, H2⟩⟩
  icases Hs with ⟨%fs, Hs⟩
  ihave Hs' := toOwns fs $$ Hs
  iapply ((kernelRun2 c (grid2.coords t) (ms2_0 t) (hs2_0 t) (ms2_1 t) (hs2_1 t) (ms2_2 t) (hs2_2 t) msS2 hsS2 (iblk2 V c 0 t)).2.2 Set.univ _)
  isplitl [H0]; · iexact H0
  isplitl [H1]; · iexists _; iexact H1
  isplitl [H2]; · iexists _; iexact H2
  isplitl [Hs']; · iexists _; iexact Hs'
  iintro ⟨H0, ⟨%e1, H1⟩, ⟨%e2, H2⟩, ⟨%ds, Hs⟩⟩
  ihave Hs' := ofOwns ds $$ Hs
  isplitl [Hs' Hb1 Hb2 Hb3 Hb4 Hb5 Hb6 Hb7 Hb8 Hb9 Hb10 Hb11 Hb12 Hb13 Hb14 Hp]
  · isplitr [Hp]
    · skip
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      isplitl [Hb10]; · iexact Hb10
      isplitl [Hb11]; · iexact Hb11
      isplitl [Hb12]; · iexact Hb12
      isplitl [Hb13]; · iexact Hb13
      isplitl [Hb14]; · iexact Hb14
      iexists _; iexact Hs'
    · iexact Hp
  isplitl [Ho]; · iexact Ho
  isplitl [H0]; · iexact H0
  isplitl [H1]
  · unfold owns; iexists _; isplitr
    swap; · iexact H1
    ipureintro; exact View.read_writes_of_cover _ _ _ _ _ (cover2_1 c _ _ _ _ _ _ _ _ _ _)
  unfold owns; iexists _; isplitr
  swap; · iexact H2
  ipureintro; exact View.read_writes_of_cover _ _ _ _ _ (cover2_2 c _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Reg

end
-- ==== Proof.KChainDefs.lean ====
/-
  The whole program as a chain of segments: a host stretch (a dead constant), a host stretch (reflect-pad both axes), a
  level's region, three times over, then the host stretch that stacks the four planes. Between two segments the core holds
  every unscoped buffer whole at a known valuation: the launch contents, then each host stretch applied, then what a region
  leaves in its two output arrays — the contents `outs`, here a parameter tied to the pipelines' final arrays by `OutsOk`:
  after each level its detail and smooth arrays hold the fold of that pipeline's write-backs. This module: the valuations at
  the regions' borders, the proof data family, and the two facts each region's exit needs (its arrays at the pipeline's final
  arrays, every other buffer untouched).
-/
import proofs.«173091_j34797825032656_2_alg».proof.Proof.KFrame0
import proofs.«173091_j34797825032656_2_alg».proof.Proof.KFrame1
import proofs.«173091_j34797825032656_2_alg».proof.Proof.KFrame2
import proofs.«173091_j34797825032656_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- The contents each level's region is entered with and left with, at the TensorCore's references. -/
abbrev En0 : (c : Dev nD) → (b : Ref sig .tc) → Buf (Elt F) ((c : Thread nD τ).loc b) := fun c b => V2 m c b
abbrev En1 : (c : Dev nD) → (b : Ref sig .tc) → Buf (Elt F) ((c : Thread nD τ).loc b) := fun c b => V5 m outs c b
abbrev En2 : (c : Dev nD) → (b : Ref sig .tc) → Buf (Elt F) ((c : Thread nD τ).loc b) := fun c b => V8 m outs c b
abbrev Ex0 : (c : Dev nD) → (b : Ref sig .tc) → Buf (Elt F) ((c : Thread nD τ).loc b) := fun c b => V3 m outs c b
abbrev Ex1 : (c : Dev nD) → (b : Ref sig .tc) → Buf (Elt F) ((c : Thread nD τ).loc b) := fun c b => V6 m outs c b
abbrev Ex2 : (c : Dev nD) → (b : Ref sig .tc) → Buf (Elt F) ((c : Thread nD τ).loc b) := fun c b => V9 m outs c b

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m outs) c
  | ⟨2, _⟩ => fun c => dat2 (En2 m outs) c

/-- `outs` names what the regions leave: after each level, its detail and smooth arrays hold the pipeline's final arrays. -/
structure OutsOk : Prop where
  h30 : ∀ c : Dev nD, outs 3 main_v1_0 c = (dat0 (En0 m) c).arrAt 1 cfg0.N
  h31 : ∀ c : Dev nD, outs 3 main_v1_1 c = (dat0 (En0 m) c).arrAt 2 cfg0.N
  h60 : ∀ c : Dev nD, outs 6 main_v3_0 c = (dat1 (En1 m outs) c).arrAt 1 cfg1.N
  h61 : ∀ c : Dev nD, outs 6 main_v3_1 c = (dat1 (En1 m outs) c).arrAt 2 cfg1.N
  h90 : ∀ c : Dev nD, outs 9 main_v5_0 c = (dat2 (En2 m outs) c).arrAt 1 cfg2.N
  h91 : ∀ c : Dev nD, outs 9 main_v5_1 c = (dat2 (En2 m outs) c).arrAt 2 cfg2.N

abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions' exits -/

theorem V3_main_v1_0 (c : Dev nD) : V3 m outs c main_v1_0 = outs 3 main_v1_0 c := by
  simp only [V3, Function.update_of_ne (StableHlo.devRef_ne_of_ne (by decide) : (Proc.devRef .tc main_v1_0 : DevRef τ sig) ≠ Proc.devRef .tc main_v1_1), Function.update_self]
theorem V3_main_v1_1 (c : Dev nD) : V3 m outs c main_v1_1 = outs 3 main_v1_1 c := by
  simp only [V3, Function.update_self]

/-- At level 0's exit each of its arrays holds what the pipeline leaves, -/
theorem hF0 (hO : OutsOk m outs) (c : Dev nD) (w : Fin cfg0.W) : (pdats m outs 0 c).arrAt w cfg0.N = Ex0 m outs c (Pipeline.arrRef spec0 w) := by
  match w with
  | ⟨0, _⟩ =>
    exact ((dat0 (En0 m) c).arrAt_in 0 rfl _).trans ((A_eq0 (En0 m) c 0).trans (V3_of m outs c main_v0 (by decide)).symm)
  | ⟨1, _⟩ => exact ((V3_main_v1_0 m outs c).trans (hO.h30 c)).symm
  | ⟨2, _⟩ => exact ((V3_main_v1_1 m outs c).trans (hO.h31 c)).symm

/-- and every other buffer what it held at entry. -/
theorem hrest0 (c : Dev nD) : ∀ b, b ∉ Finset.univ.image (Pipeline.arrRef spec0) → Ex0 m outs c b = En0 m c b := fun b hb =>
  V3_of m outs c b (by
    intro h
    rcases List.mem_cons.mp h with rfl | h
    · exact hb (Finset.mem_image.mpr ⟨1, Finset.mem_univ _, rfl⟩)
    · rcases List.mem_cons.mp h with rfl | h
      · exact hb (Finset.mem_image.mpr ⟨2, Finset.mem_univ _, rfl⟩)
      · exact absurd h (List.not_mem_nil))

theorem V6_main_v3_0 (c : Dev nD) : V6 m outs c main_v3_0 = outs 6 main_v3_0 c := by
  simp only [V6, Function.update_of_ne (StableHlo.devRef_ne_of_ne (by decide) : (Proc.devRef .tc main_v3_0 : DevRef τ sig) ≠ Proc.devRef .tc main_v3_1), Function.update_self]
theorem V6_main_v3_1 (c : Dev nD) : V6 m outs c main_v3_1 = outs 6 main_v3_1 c := by
  simp only [V6, Function.update_self]

/-- At level 1's exit each of its arrays holds what the pipeline leaves, -/
theorem hF1 (hO : OutsOk m outs) (c : Dev nD) (w : Fin cfg1.W) : (pdats m outs 1 c).arrAt w cfg1.N = Ex1 m outs c (Pipeline.arrRef spec1 w) := by
  match w with
  | ⟨0, _⟩ =>
    exact ((dat1 (En1 m outs) c).arrAt_in 0 rfl _).trans ((A_eq1 (En1 m outs) c 0).trans (V6_of m outs c main_v2 (by decide)).symm)
  | ⟨1, _⟩ => exact ((V6_main_v3_0 m outs c).trans (hO.h60 c)).symm
  | ⟨2, _⟩ => exact ((V6_main_v3_1 m outs c).trans (hO.h61 c)).symm

/-- and every other buffer what it held at entry. -/
theorem hrest1 (c : Dev nD) : ∀ b, b ∉ Finset.univ.image (Pipeline.arrRef spec1) → Ex1 m outs c b = En1 m outs c b := fun b hb =>
  V6_of m outs c b (by
    intro h
    rcases List.mem_cons.mp h with rfl | h
    · exact hb (Finset.mem_image.mpr ⟨1, Finset.mem_univ _, rfl⟩)
    · rcases List.mem_cons.mp h with rfl | h
      · exact hb (Finset.mem_image.mpr ⟨2, Finset.mem_univ _, rfl⟩)
      · exact absurd h (List.not_mem_nil))

theorem V9_main_v5_0 (c : Dev nD) : V9 m outs c main_v5_0 = outs 9 main_v5_0 c := by
  simp only [V9, Function.update_of_ne (StableHlo.devRef_ne_of_ne (by decide) : (Proc.devRef .tc main_v5_0 : DevRef τ sig) ≠ Proc.devRef .tc main_v5_1), Function.update_self]
theorem V9_main_v5_1 (c : Dev nD) : V9 m outs c main_v5_1 = outs 9 main_v5_1 c := by
  simp only [V9, Function.update_self]

/-- At level 2's exit each of its arrays holds what the pipeline leaves, -/
theorem hF2 (hO : OutsOk m outs) (c : Dev nD) (w : Fin cfg2.W) : (pdats m outs 2 c).arrAt w cfg2.N = Ex2 m outs c (Pipeline.arrRef spec2 w) := by
  match w with
  | ⟨0, _⟩ =>
    exact ((dat2 (En2 m outs) c).arrAt_in 0 rfl _).trans ((A_eq2 (En2 m outs) c 0).trans (V9_of m outs c main_v4 (by decide)).symm)
  | ⟨1, _⟩ => exact ((V9_main_v5_0 m outs c).trans (hO.h90 c)).symm
  | ⟨2, _⟩ => exact ((V9_main_v5_1 m outs c).trans (hO.h91 c)).symm

/-- and every other buffer what it held at entry. -/
theorem hrest2 (c : Dev nD) : ∀ b, b ∉ Finset.univ.image (Pipeline.arrRef spec2) → Ex2 m outs c b = En2 m outs c b := fun b hb =>
  V9_of m outs c b (by
    intro h
    rcases List.mem_cons.mp h with rfl | h
    · exact hb (Finset.mem_image.mpr ⟨1, Finset.mem_univ _, rfl⟩)
    · rcases List.mem_cons.mp h with rfl | h
      · exact hb (Finset.mem_image.mpr ⟨2, Finset.mem_univ _, rfl⟩)
      · exact absurd h (List.not_mem_nil))

end Cert.Kernel.Reg

end
-- ==== Proof.KReg0.lean ====
/-
  Level 0's region as a segment of the program's chain: entered with every unscoped buffer at the valuation before it,
  left with its two output arrays at the pipeline's final arrays and every other buffer as entered. Its arrays are split out
  of the unscoped buffers at entry and joined back at exit; the generator register goes into the region's invariant and
  comes back; the kernel owns no semaphore and the core owes nothing.
-/
import proofs.«173091_j34797825032656_2_alg».proof.Proof.KChainDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F)) (hO : OutsOk m outs)

-- the library's lemmas are stated over the pinned configuration, which unifies with the printed one only when unification
-- may unfold plain definitions in a metavariable's type
set_option backward.isDefEq.respectTransparency.types false in
def reg0 : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (En0 m c) (Ex0 m outs c) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KReg1.lean ====
/-
  Level 1's region as a segment of the program's chain: entered with every unscoped buffer at the valuation before it,
  left with its two output arrays at the pipeline's final arrays and every other buffer as entered. Its arrays are split out
  of the unscoped buffers at entry and joined back at exit; the generator register goes into the region's invariant and
  comes back; the kernel owns no semaphore and the core owes nothing.
-/
import proofs.«173091_j34797825032656_2_alg».proof.Proof.KChainDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F)) (hO : OutsOk m outs)

-- the library's lemmas are stated over the pinned configuration, which unifies with the printed one only when unification
-- may unfold plain definitions in a metavariable's type
set_option backward.isDefEq.respectTransparency.types false in
def reg1 : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m outs) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (En1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (En1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (En1 m outs c) (Ex1 m outs c) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KReg2.lean ====
/-
  Level 2's region as a segment of the program's chain: entered with every unscoped buffer at the valuation before it,
  left with its two output arrays at the pipeline's final arrays and every other buffer as entered. Its arrays are split out
  of the unscoped buffers at entry and joined back at exit; the generator register goes into the region's invariant and
  comes back; the kernel owns no semaphore and the core owes nothing.
-/
import proofs.«173091_j34797825032656_2_alg».proof.Proof.KChainDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F)) (hO : OutsOk m outs)

-- the library's lemmas are stated over the pinned configuration, which unifies with the printed one only when unification
-- may unfold plain definitions in a metavariable's type
set_option backward.isDefEq.respectTransparency.types false in
def reg2 : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m outs) c).loose
  hwaits := Pipeline.hwaits_of_owed_zero _ _ _ _ L lv 2 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec2 c (En2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (En2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (En2 m outs c) (Ex2 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KChainRun.lean ====
/-
  The program as its ten segments in order, and the launch: from any memory with zero counters every weakly fair execution
  terminates without a fault, and the final state holds every unscoped buffer at the last valuation — in particular the
  result array, and the argument array as launched (no host stretch writes it and no region may change it).
-/
import proofs.«173091_j34797825032656_2_alg».proof.Proof.KReg0
import proofs.«173091_j34797825032656_2_alg».proof.Proof.KReg1
import proofs.«173091_j34797825032656_2_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev segs (hO : OutsOk m outs) : List (Pipeline.Seg (pcfgs (F := F)) adm (pdats m outs) () defs₀ 𝒱₀ L lv) :=
  [ .host (hseg hostOps0 hostOps0_sub hostOps0_fresh (V0 m)),
    .host (hseg hostOps0_1 hostOps0_1_sub hostOps0_1_fresh (V1 m)),
    .region (reg0 m outs hO),
    .host (hseg hostOps1 hostOps1_sub hostOps1_fresh (V3 m outs)),
    .host (hseg hostOps1_1 hostOps1_1_sub hostOps1_1_fresh (V4 m outs)),
    .region (reg1 m outs hO),
    .host (hseg hostOps2 hostOps2_sub hostOps2_fresh (V6 m outs)),
    .host (hseg hostOps2_1 hostOps2_1_sub hostOps2_1_fresh (V7 m outs)),
    .region (reg2 m outs hO),
    .host (hseg hostOps3 hostOps3_sub hostOps3_fresh (V9 m outs)) ]

theorem main_run (hO : OutsOk m outs) (c : Dev nD) : main (F := F) c = Pipeline.Seg.run (segs m outs hO) := (main_chain c).trans (by chain_rfl)

variable (ρ : Dev nD → PrngReg)

set_option backward.isDefEq.respectTransparency.types false in
/-- THE RUN: the result array ends at the last valuation's contents, the argument array as launched. -/
theorem run_main (hO : OutsOk m outs) : θ_run defs (onTc (τ := τ) (main (F := F))) ⟨m, fun _ => 0, ρ⟩ (fun r => ∀ c : Dev nD,
      r.2.mem ((c.tc : Thread nD τ).loc main_v10) = V10 m outs c main_v10
      ∧ r.2.mem ((c.tc : Thread nD τ).loc main_arg0) = m ((c.tc : Thread nD τ).loc main_arg0)) :=
  Pipeline.θ_run_regions_kit (pcfgs (F := F)) adm (pdats m outs) () cellOf_inj emb₁ defs₀ 𝒱₀ L lv m ρ main (segs m outs hO)
    (fun c Q => by rw [main_run m outs hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V10 m outs c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (V10 m outs c) ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m outs c b)
    (hfin := fun c s' => by
      iintro ⟨⟨Hh, -⟩, HSI⟩
      unfold StableHlo.held
      imodintro
      iapply (pointsTo_read_all (Pipeline.ucRefs τ sig) (fun b => (((c : Thread nD τ)).1, b)) (V10 m outs c) s')
      isplitl [Hh] <;> iassumption)
    (hQ := fun s h c =>
      ⟨h c _ (mem_uc main_v10 (by decide)), (h c _ (mem_uc main_arg0 (by decide))).trans (V10_main_arg0 m outs c)⟩)

end Cert.Kernel.Reg

end
-- ==== Proof.KOutsDef.lean ====
/-
  The regions' outputs exist: `outs` is built level by level — level 0's two arrays from the pipeline run on the padded
  argument, level 1's from the pipeline run on what the host stretches make of level 0's smooth array, level 2's likewise —
  and satisfies `OutsOk`. The valuation a level is entered with reads only the earlier levels' entries of `outs`, so replacing
  `outs` by its partial versions does not change it; that is proved by congruence through the host stretches.
-/
import proofs.«173091_j34797825032656_2_alg».proof.Proof.KChainDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After level 0's region: its arrays at the pipeline's final arrays, every other buffer as entered. -/
def X3 (c : Dev nD) : Valuation τ sig (Elt F) :=
  Pipeline.withArrays spec0 c (V2 m c) fun w => (dat0 (En0 m) c).arrAt w cfg0.N
/-- After level 1's region entered at the valuations `Vf`. -/
def X6g (Vf : Dev nD → Valuation τ sig (Elt F)) (c : Dev nD) : Valuation τ sig (Elt F) :=
  Pipeline.withArrays spec1 c (Vf c) fun w => (dat1 (fun c b => Vf c b) c).arrAt w cfg1.N
/-- After level 2's region entered at the valuations `Vf`. -/
def X9g (Vf : Dev nD → Valuation τ sig (Elt F)) (c : Dev nD) : Valuation τ sig (Elt F) :=
  Pipeline.withArrays spec2 c (Vf c) fun w => (dat2 (fun c b => Vf c b) c).arrAt w cfg2.N

theorem X3_arr (c : Dev nD) (w : Fin cfg0.W) :
    X3 m c (Proc.devRef .tc (Pipeline.arrRef spec0 w)) = (dat0 (En0 m) c).arrAt w cfg0.N := by
  unfold X3; exact Pipeline.withArrays_arr spec0 launch0.win.arr_inj c _ _ w
theorem X6g_arr (Vf : Dev nD → Valuation τ sig (Elt F)) (c : Dev nD) (w : Fin cfg1.W) :
    X6g Vf c (Proc.devRef .tc (Pipeline.arrRef spec1 w)) = (dat1 (fun c b => Vf c b) c).arrAt w cfg1.N := by
  unfold X6g; exact Pipeline.withArrays_arr spec1 launch1.win.arr_inj c _ _ w
theorem X9g_arr (Vf : Dev nD → Valuation τ sig (Elt F)) (c : Dev nD) (w : Fin cfg2.W) :
    X9g Vf c (Proc.devRef .tc (Pipeline.arrRef spec2 w)) = (dat2 (fun c b => Vf c b) c).arrAt w cfg2.N := by
  unfold X9g; exact Pipeline.withArrays_arr spec2 launch2.win.arr_inj c _ _ w

/-- The outputs known after level 0, after level 1, and all of them. -/
def outsA : Outs (F := F) := fun _ r c => X3 m c r
def outsB : Outs (F := F) := fun J r c => match J with
  | 3 => X3 m c r
  | _ => X6g (fun c => V5 m (outsA m) c) c r
def outs : Outs (F := F) := fun J r c => match J with
  | 3 => X3 m c r
  | 6 => X6g (fun c => V5 m (outsA m) c) c r
  | _ => X9g (fun c => V8 m (outsB m) c) c r

theorem outs_3 : outs m 3 = outsA m 3 := rfl
theorem outsB_3 : outsB m 3 = outsA m 3 := rfl
theorem outs_3B : outs m 3 = outsB m 3 := rfl
theorem outs_6B : outs m 6 = outsB m 6 := rfl

/-! The valuations read `outs` only at the earlier levels. -/

theorem V3_congr (o o' : Outs (F := F)) (h : o 3 = o' 3) (c : Dev nD) : V3 m o c = V3 m o' c := by
  simp only [V3, h]
theorem V5_congr (o o' : Outs (F := F)) (h : o 3 = o' 3) (c : Dev nD) : V5 m o c = V5 m o' c :=
  congrArg (StableHlo.after hostOps1_1) (congrArg (StableHlo.after hostOps1) (V3_congr m o o' h c))
theorem V6_congr (o o' : Outs (F := F)) (h3 : o 3 = o' 3) (h6 : o 6 = o' 6) (c : Dev nD) : V6 m o c = V6 m o' c := by
  simp only [V6, h6, V5_congr m o o' h3 c]
theorem V8_congr (o o' : Outs (F := F)) (h3 : o 3 = o' 3) (h6 : o 6 = o' 6) (c : Dev nD) : V8 m o c = V8 m o' c :=
  congrArg (StableHlo.after hostOps2_1) (congrArg (StableHlo.after hostOps2) (V6_congr m o o' h3 h6 c))

theorem V5_outs : (fun c : Dev nD => V5 m (outs m) c) = fun c => V5 m (outsA m) c :=
  funext fun c => V5_congr m _ _ (outs_3 m) c
theorem V8_outs : (fun c : Dev nD => V8 m (outs m) c) = fun c => V8 m (outsB m) c :=
  funext fun c => V8_congr m _ _ (outs_3B m) (outs_6B m) c

set_option backward.isDefEq.respectTransparency.types false in
/-- The outputs are what the regions leave. -/
theorem outsOk : OutsOk m (outs m) where
  h30 c := X3_arr m c 1
  h31 c := X3_arr m c 2
  h60 c := (X6g_arr _ c 1).trans
    (congrArg (fun Vf : Dev nD → Valuation τ sig (Elt F) => (dat1 (fun c b => Vf c b) c).arrAt 1 cfg1.N) (V5_outs m).symm)
  h61 c := (X6g_arr _ c 2).trans
    (congrArg (fun Vf : Dev nD → Valuation τ sig (Elt F) => (dat1 (fun c b => Vf c b) c).arrAt 2 cfg1.N) (V5_outs m).symm)
  h90 c := (X9g_arr _ c 1).trans
    (congrArg (fun Vf : Dev nD → Valuation τ sig (Elt F) => (dat2 (fun c b => Vf c b) c).arrAt 1 cfg2.N) (V8_outs m).symm)
  h91 c := (X9g_arr _ c 2).trans
    (congrArg (fun Vf : Dev nD → Valuation τ sig (Elt F) => (dat2 (fun c b => Vf c b) c).arrAt 2 cfg2.N) (V8_outs m).symm)

end Cert.Kernel.Reg

end
-- ==== Proof.Run0.lean ====
/-
  One level's kernel body on whole memrefs: the padded input plane at contents `x0`, the two output planes and the
  scratch plane at anything. It runs to its end leaving the input as it was, each output plane written by one store
  that covers it, and the scratch plane at some contents. What the two stores wrote is the witness of the run: the
  detail plane's store and the smooth plane's store, each a list of pieces (one piece: the whole plane).
-/
import proofs.«173091_j34797825032656_2_alg».proof.Proof.Gen.KernelIdeal.Launch
import proofs.«173091_j34797825032656_2_alg».proof.Proof.Gen.KernelIdeal.Points
import proofs.«173091_j34797825032656_2_alg».proof.Proof.Gen.KernelIdeal.Skeleton
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of level 0: the pieces its two output stores leave (detail plane first, smooth plane second), with the
    proof that from the input plane at `x0` and any contents of the outputs and the scratch it runs to a state
    holding the input unchanged, each output with its pieces written, and the scratch at some contents. -/
noncomputable def kernelRun0 (c : Dev nD) (i : grid0.Coords)
    (arg1 : Memref sig .tc .vmem S1x1028x1028 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1028 .f32) (harg4 : arg4.IsWhole)
    (x0 : Vec F S1x1028x1028 .f32) :
    Σ' (L2 : List (View.Piece (Elt F) S1x1024x1024 .f32)) (L3 : List (View.Piece (Elt F) S1x1024x1024 .f32)),
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d) ∗ (∃ d, owns (c : Thread nD τ) arg4 fullShare d)
            ∗ (iprop(owns (c : Thread nD τ) arg1 fullShare x0
                ∗ (∃ f, arg2.view.loc (c : Thread nD τ) ↦[arg2.view.set]{fullShare} arg2.view.writes (Elt F) f L2)
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc0__level_kernel i arg1 harg1 arg2 harg2 arg3 harg3 arg4 harg4) K := by
  refine ⟨?_, ?_, fun E K => ?run⟩
  case run =>
    simp only [cc0__level_kernel_eq_skeleton]; unfold cc0__level_kernel_skel
    unfold owns
    iintro ⟨⟨%f1, %hf1, H1⟩, ⟨%d2, %f2, -, H2⟩, ⟨%d3, %f3, -, H3⟩, ⟨%d4, %f4, -, H4⟩, Hk⟩
    obtain rfl := harg1.eq_unread hf1
    sl_exec
    sl_step
    iapply Hk
    isplitl [H1]
    · iexists _; isplitr; · ipureintro; exact harg1.read_unread _
      iexact H1
    isplitl [H2]; · iexists _; iexact H2
    isplitl [H3]; · iexists _; iexact H3
    iexists _, _; isplitr
    swap; · iexact H4
    ipureintro; rfl

end Cert.KernelIdeal.Reg

end
-- ==== Proof.Frame0.lean ====
/-
  Level 0 as a pipeline: the proof data of its pallas_call at ANY contents `V` of the core's buffers when the region
  is entered. Window 0 is the padded input (one plane per grid point, fetched at every point), windows 1 and 2 the detail and
  smooth outputs (one plane per point, written back at every point). After the body at point `t` the input's buffer holds
  its block as fetched, and each output's buffer holds what the body's one covering store wrote, read back over junk. The
  scratch plane lives in the region's invariant at some contents: the body takes it out, overwrites it whole, and puts it back.
-/
import proofs.«173091_j34797825032656_2_alg».proof.Proof.Run0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point, for any proof data whose array is `V`'s and whose
    body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- One buffer of an output window, through which an output plane's contents are stated (the choice does not matter). -/
abbrev VO0 : View sig .tc .vmem S1x1024x1024 .f32 := (Memref.whole cc0_stg1_0 : Memref sig .tc .vmem S1x1024x1024 .f32).view
/-- Each window's current memref at point `t`, as the pipeline passes it to the body, and the scratch plane. -/
abbrev ms0_0 (t : Fin cfg0.N) : Memref sig .tc .vmem S1x1028x1028 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .f32 := win0_2.stage (cfg0.slots t 2)
abbrev hs0_2 (t : Fin cfg0.N) : (ms0_2 t).IsWhole := hstage0_2 ((cfg0.slots t 2).cast nbuf0_2)
abbrev msS0 : Memref sig .tc .vmem S1024x1028 .f32 := Memref.whole cc0_scratch0
abbrev hsS0 : (msS0).IsWhole := Memref.isWhole_whole _

/-- The detail plane's store covers the plane. -/
theorem cover0_1 (c : Dev nD) (i : grid0.Coords) (arg1 : Memref sig .tc .vmem S1x1028x1028 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1028 .f32) (harg4 : arg4.IsWhole)
    (x0 : Vec F S1x1028x1028 .f32) (y : S1x1024x1024.Idx) :
    ∃ pc ∈ (kernelRun0 c i arg1 harg1 arg2 harg2 arg3 harg3 arg4 harg4 x0).1, y ∈ pc.1.set :=
  View.cover_of_tiledL (kernelRun0 c i arg1 harg1 arg2 harg2 arg3 harg3 arg4 harg4 x0).1 S1x1024x1024.size (by sl_kernel_rfl) y
/-- The smooth plane's store covers the plane. -/
theorem cover0_2 (c : Dev nD) (i : grid0.Coords) (arg1 : Memref sig .tc .vmem S1x1028x1028 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1028 .f32) (harg4 : arg4.IsWhole)
    (x0 : Vec F S1x1028x1028 .f32) (y : S1x1024x1024.Idx) :
    ∃ pc ∈ (kernelRun0 c i arg1 harg1 arg2 harg2 arg3 harg3 arg4 harg4 x0).2.1, y ∈ pc.1.set :=
  View.cover_of_tiledL (kernelRun0 c i arg1 harg1 arg2 harg2 arg3 harg3 arg4 harg4 x0).2.1 S1x1024x1024.size (by sl_kernel_rfl) y

/-- What the body leaves in the detail output's buffer: its store read back over junk. -/
def out0_1 (c : Dev nD) (i : grid0.Coords) (arg1 : Memref sig .tc .vmem S1x1028x1028 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1028 .f32) (harg4 : arg4.IsWhole)
    (x0 : Vec F S1x1028x1028 .f32) : Vec F S1x1024x1024 .f32 :=
  VO0.read (Elt F) (VO0.writes (Elt F) VO0.junk (kernelRun0 c i arg1 harg1 arg2 harg2 arg3 harg3 arg4 harg4 x0).1)
/-- What the body leaves in the smooth output's buffer. -/
def out0_2 (c : Dev nD) (i : grid0.Coords) (arg1 : Memref sig .tc .vmem S1x1028x1028 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1028 .f32) (harg4 : arg4.IsWhole)
    (x0 : Vec F S1x1028x1028 .f32) : Vec F S1x1024x1024 .f32 :=
  VO0.read (Elt F) (VO0.writes (Elt F) VO0.junk (kernelRun0 c i arg1 harg1 arg2 harg2 arg3 harg3 arg4 harg4 x0).2.1)

/-- The proof data of level 0's pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 c (grid0.coords t) (ms0_0 t) (hs0_0 t) (ms0_1 t) (hs0_1 t) (ms0_2 t) (hs0_2 t) msS0 hsS0 (iblk0 V c 0 t)
    | ⟨2, _⟩ => out0_2 c (grid0.coords t) (ms0_0 t) (hs0_0 t) (ms0_1 t) (hs0_1 t) (ms0_2 t) (hs0_2 t) msS0 hsS0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 c (grid0.coords t) (ms0_0 t) (hs0_0 t) (ms0_1 t) (hs0_1 t) (ms0_2 t) (hs0_2 t) msS0 hsS0 (iblk0 V c 0 t) := by dsimp only [dat0]
theorem after0_2 (c : Dev nD) (t : Fin cfg0.N) : (dat0 V c).after 2 t = out0_2 c (grid0.coords t) (ms0_0 t) (hs0_0 t) (ms0_1 t) (hs0_1 t) (ms0_2 t) (hs0_2 t) msS0 hsS0 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))
/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the input's memref holds its block, the outputs' hold anything, the scratch plane comes out of the
    invariant at some contents; the run applies; each output ends at its covering store read back; the scratch goes back. -/
theorem sound_body0 (c : Dev nD) (t : Fin cfg0.N) :
    bodyPre0 V c t ⊢ wp frame (wpE (defs₀ (F := F)) Variants.none c none) Set.univ (bodyAt0 t) (fun _ => bodyPost0 V c t) := by
  have toOwns : ∀ f, ((((c : Thread nD τ).loc cc0_scratch0) ↦{fullShare} f : sProp 𝕄)) ⊢ owns (c : Thread nD τ) msS0 fullShare f :=
    fun f => by rw [owns_whole]
  have ofOwns : ∀ f, (owns (c : Thread nD τ) msS0 fullShare f : sProp 𝕄) ⊢ (((c : Thread nD τ).loc cc0_scratch0) ↦{fullShare} f) :=
    fun f => by rw [owns_whole]
  unfold bodyPre0 bodyPost0 bodyAt0
  simp only [before0_0]
  rw [show (dat0 V c).Φ t.succ = Pipeline.ΦA spec0 c from rfl, show (dat0 V c).Φ t.castSucc = Pipeline.ΦA spec0 c from rfl,
    show (dat0 V c).owesAt () t.succ = (dat0 V c).owesAt () t.castSucc from rfl,
    after0_0, after0_1, after0_2]
  unfold Pipeline.ΦA; rw [scopedRest0_eq]
  unfold out0_1 out0_2
  iintro ⟨⟨⟨Hs, Hrest⟩, Hp⟩, Ho, ⟨%d0, H0⟩, ⟨%d1, H1⟩, ⟨%d2, H2⟩⟩
  icases Hs with ⟨%fs, Hs⟩
  ihave Hs' := toOwns fs $$ Hs
  iapply ((kernelRun0 c (grid0.coords t) (ms0_0 t) (hs0_0 t) (ms0_1 t) (hs0_1 t) (ms0_2 t) (hs0_2 t) msS0 hsS0 (iblk0 V c 0 t)).2.2 Set.univ _)
  isplitl [H0]; · iexact H0
  isplitl [H1]; · iexists _; iexact H1
  isplitl [H2]; · iexists _; iexact H2
  isplitl [Hs']; · iexists _; iexact Hs'
  iintro ⟨H0, ⟨%e1, H1⟩, ⟨%e2, H2⟩, ⟨%ds, Hs⟩⟩
  ihave Hs' := ofOwns ds $$ Hs
  isplitl [Hs' Hrest Hp]
  · isplitr [Hp]
    · skip
      isplitl [Hs']; · iexists _; iexact Hs'
      iexact Hrest
    · iexact Hp
  isplitl [Ho]; · iexact Ho
  isplitl [H0]; · iexact H0
  isplitl [H1]
  · unfold owns; iexists _; isplitr
    swap; · iexact H1
    ipureintro; exact View.read_writes_of_cover _ _ _ _ _ (cover0_1 c _ _ _ _ _ _ _ _ _ _)
  unfold owns; iexists _; isplitr
  swap; · iexact H2
  ipureintro; exact View.read_writes_of_cover _ _ _ _ _ (cover0_2 c _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Reg

end
-- ==== Proof.Run1.lean ====
/-
  One level's kernel body on whole memrefs: the padded input plane at contents `x0`, the two output planes and the
  scratch plane at anything. It runs to its end leaving the input as it was, each output plane written by one store
  that covers it, and the scratch plane at some contents. What the two stores wrote is the witness of the run: the
  detail plane's store and the smooth plane's store, each a list of pieces (one piece: the whole plane).
-/
import proofs.«173091_j34797825032656_2_alg».proof.Proof.Gen.KernelIdeal.Launch
import proofs.«173091_j34797825032656_2_alg».proof.Proof.Gen.KernelIdeal.Points
import proofs.«173091_j34797825032656_2_alg».proof.Proof.Gen.KernelIdeal.Skeleton
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of level 1: the pieces its two output stores leave (detail plane first, smooth plane second), with the
    proof that from the input plane at `x0` and any contents of the outputs and the scratch it runs to a state
    holding the input unchanged, each output with its pieces written, and the scratch at some contents. -/
noncomputable def kernelRun1 (c : Dev nD) (i : grid1.Coords)
    (arg1 : Memref sig .tc .vmem S1x1032x1032 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1032 .f32) (harg4 : arg4.IsWhole)
    (x0 : Vec F S1x1032x1032 .f32) :
    Σ' (L2 : List (View.Piece (Elt F) S1x1024x1024 .f32)) (L3 : List (View.Piece (Elt F) S1x1024x1024 .f32)),
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d) ∗ (∃ d, owns (c : Thread nD τ) arg4 fullShare d)
            ∗ (iprop(owns (c : Thread nD τ) arg1 fullShare x0
                ∗ (∃ f, arg2.view.loc (c : Thread nD τ) ↦[arg2.view.set]{fullShare} arg2.view.writes (Elt F) f L2)
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc1__level_kernel i arg1 harg1 arg2 harg2 arg3 harg3 arg4 harg4) K := by
  refine ⟨?_, ?_, fun E K => ?run⟩
  case run =>
    simp only [cc1__level_kernel_eq_skeleton]; unfold cc1__level_kernel_skel
    unfold owns
    iintro ⟨⟨%f1, %hf1, H1⟩, ⟨%d2, %f2, -, H2⟩, ⟨%d3, %f3, -, H3⟩, ⟨%d4, %f4, -, H4⟩, Hk⟩
    obtain rfl := harg1.eq_unread hf1
    sl_exec
    sl_step
    iapply Hk
    isplitl [H1]
    · iexists _; isplitr; · ipureintro; exact harg1.read_unread _
      iexact H1
    isplitl [H2]; · iexists _; iexact H2
    isplitl [H3]; · iexists _; iexact H3
    iexists _, _; isplitr
    swap; · iexact H4
    ipureintro; rfl

end Cert.KernelIdeal.Reg

end
-- ==== Proof.Frame1.lean ====
/-
  Level 1 as a pipeline: the proof data of its pallas_call at ANY contents `V` of the core's buffers when the region
  is entered. Window 0 is the padded input (one plane per grid point, fetched at every point), windows 1 and 2 the detail and
  smooth outputs (one plane per point, written back at every point). After the body at point `t` the input's buffer holds
  its block as fetched, and each output's buffer holds what the body's one covering store wrote, read back over junk. The
  scratch plane lives in the region's invariant at some contents: the body takes it out, overwrites it whole, and puts it back.
-/
import proofs.«173091_j34797825032656_2_alg».proof.Proof.Run1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current buffer holds its block at every point, for any proof data whose array is `V`'s and whose
    body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- One buffer of an output window, through which an output plane's contents are stated (the choice does not matter). -/
abbrev VO1 : View sig .tc .vmem S1x1024x1024 .f32 := (Memref.whole cc1_stg1_0 : Memref sig .tc .vmem S1x1024x1024 .f32).view
/-- Each window's current memref at point `t`, as the pipeline passes it to the body, and the scratch plane. -/
abbrev ms1_0 (t : Fin cfg1.N) : Memref sig .tc .vmem S1x1032x1032 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .f32 := win1_2.stage (cfg1.slots t 2)
abbrev hs1_2 (t : Fin cfg1.N) : (ms1_2 t).IsWhole := hstage1_2 ((cfg1.slots t 2).cast nbuf1_2)
abbrev msS1 : Memref sig .tc .vmem S1024x1032 .f32 := Memref.whole cc1_scratch0
abbrev hsS1 : (msS1).IsWhole := Memref.isWhole_whole _

/-- The detail plane's store covers the plane. -/
theorem cover1_1 (c : Dev nD) (i : grid1.Coords) (arg1 : Memref sig .tc .vmem S1x1032x1032 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1032 .f32) (harg4 : arg4.IsWhole)
    (x0 : Vec F S1x1032x1032 .f32) (y : S1x1024x1024.Idx) :
    ∃ pc ∈ (kernelRun1 c i arg1 harg1 arg2 harg2 arg3 harg3 arg4 harg4 x0).1, y ∈ pc.1.set :=
  View.cover_of_tiledL (kernelRun1 c i arg1 harg1 arg2 harg2 arg3 harg3 arg4 harg4 x0).1 S1x1024x1024.size (by sl_kernel_rfl) y
/-- The smooth plane's store covers the plane. -/
theorem cover1_2 (c : Dev nD) (i : grid1.Coords) (arg1 : Memref sig .tc .vmem S1x1032x1032 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1032 .f32) (harg4 : arg4.IsWhole)
    (x0 : Vec F S1x1032x1032 .f32) (y : S1x1024x1024.Idx) :
    ∃ pc ∈ (kernelRun1 c i arg1 harg1 arg2 harg2 arg3 harg3 arg4 harg4 x0).2.1, y ∈ pc.1.set :=
  View.cover_of_tiledL (kernelRun1 c i arg1 harg1 arg2 harg2 arg3 harg3 arg4 harg4 x0).2.1 S1x1024x1024.size (by sl_kernel_rfl) y

/-- What the body leaves in the detail output's buffer: its store read back over junk. -/
def out1_1 (c : Dev nD) (i : grid1.Coords) (arg1 : Memref sig .tc .vmem S1x1032x1032 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1032 .f32) (harg4 : arg4.IsWhole)
    (x0 : Vec F S1x1032x1032 .f32) : Vec F S1x1024x1024 .f32 :=
  VO1.read (Elt F) (VO1.writes (Elt F) VO1.junk (kernelRun1 c i arg1 harg1 arg2 harg2 arg3 harg3 arg4 harg4 x0).1)
/-- What the body leaves in the smooth output's buffer. -/
def out1_2 (c : Dev nD) (i : grid1.Coords) (arg1 : Memref sig .tc .vmem S1x1032x1032 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1032 .f32) (harg4 : arg4.IsWhole)
    (x0 : Vec F S1x1032x1032 .f32) : Vec F S1x1024x1024 .f32 :=
  VO1.read (Elt F) (VO1.writes (Elt F) VO1.junk (kernelRun1 c i arg1 harg1 arg2 harg2 arg3 harg3 arg4 harg4 x0).2.1)

/-- The proof data of level 1's pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 c (grid1.coords t) (ms1_0 t) (hs1_0 t) (ms1_1 t) (hs1_1 t) (ms1_2 t) (hs1_2 t) msS1 hsS1 (iblk1 V c 0 t)
    | ⟨2, _⟩ => out1_2 c (grid1.coords t) (ms1_0 t) (hs1_0 t) (ms1_1 t) (hs1_1 t) (ms1_2 t) (hs1_2 t) msS1 hsS1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 c (grid1.coords t) (ms1_0 t) (hs1_0 t) (ms1_1 t) (hs1_1 t) (ms1_2 t) (hs1_2 t) msS1 hsS1 (iblk1 V c 0 t) := by dsimp only [dat1]
theorem after1_2 (c : Dev nD) (t : Fin cfg1.N) : (dat1 V c).after 2 t = out1_2 c (grid1.coords t) (ms1_0 t) (hs1_0 t) (ms1_1 t) (hs1_1 t) (ms1_2 t) (hs1_2 t) msS1 hsS1 (iblk1 V c 0 t) := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))
/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 1600000 in
/-- The body at any point: the input's memref holds its block, the outputs' hold anything, the scratch plane comes out of the
    invariant at some contents; the run applies; each output ends at its covering store read back; the scratch goes back. -/
theorem sound_body1 (c : Dev nD) (t : Fin cfg1.N) :
    bodyPre1 V c t ⊢ wp frame (wpE (defs₀ (F := F)) Variants.none c none) Set.univ (bodyAt1 t) (fun _ => bodyPost1 V c t) := by
  have toOwns : ∀ f, ((((c : Thread nD τ).loc cc1_scratch0) ↦{fullShare} f : sProp 𝕄)) ⊢ owns (c : Thread nD τ) msS1 fullShare f :=
    fun f => by rw [owns_whole]
  have ofOwns : ∀ f, (owns (c : Thread nD τ) msS1 fullShare f : sProp 𝕄) ⊢ (((c : Thread nD τ).loc cc1_scratch0) ↦{fullShare} f) :=
    fun f => by rw [owns_whole]
  unfold bodyPre1 bodyPost1 bodyAt1
  simp only [before1_0]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2]
  unfold Pipeline.ΦA; rw [scopedRest1_eq]
  unfold out1_1 out1_2
  iintro ⟨⟨⟨Hb1, Hb2, Hb3, Hb4, Hb5, Hb6, Hb7, Hs, Hrest⟩, Hp⟩, Ho, ⟨%d0, H0⟩, ⟨%d1, H1⟩, ⟨%d2, H2⟩⟩
  icases Hs with ⟨%fs, Hs⟩
  ihave Hs' := toOwns fs $$ Hs
  iapply ((kernelRun1 c (grid1.coords t) (ms1_0 t) (hs1_0 t) (ms1_1 t) (hs1_1 t) (ms1_2 t) (hs1_2 t) msS1 hsS1 (iblk1 V c 0 t)).2.2 Set.univ _)
  isplitl [H0]; · iexact H0
  isplitl [H1]; · iexists _; iexact H1
  isplitl [H2]; · iexists _; iexact H2
  isplitl [Hs']; · iexists _; iexact Hs'
  iintro ⟨H0, ⟨%e1, H1⟩, ⟨%e2, H2⟩, ⟨%ds, Hs⟩⟩
  ihave Hs' := ofOwns ds $$ Hs
  isplitl [Hs' Hb1 Hb2 Hb3 Hb4 Hb5 Hb6 Hb7 Hrest Hp]
  · isplitr [Hp]
    · skip
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hs']; · iexists _; iexact Hs'
      iexact Hrest
    · iexact Hp
  isplitl [Ho]; · iexact Ho
  isplitl [H0]; · iexact H0
  isplitl [H1]
  · unfold owns; iexists _; isplitr
    swap; · iexact H1
    ipureintro; exact View.read_writes_of_cover _ _ _ _ _ (cover1_1 c _ _ _ _ _ _ _ _ _ _)
  unfold owns; iexists _; isplitr
  swap; · iexact H2
  ipureintro; exact View.read_writes_of_cover _ _ _ _ _ (cover1_2 c _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Reg

end
-- ==== Proof.Run2.lean ====
/-
  One level's kernel body on whole memrefs: the padded input plane at contents `x0`, the two output planes and the
  scratch plane at anything. It runs to its end leaving the input as it was, each output plane written by one store
  that covers it, and the scratch plane at some contents. What the two stores wrote is the witness of the run: the
  detail plane's store and the smooth plane's store, each a list of pieces (one piece: the whole plane).
-/
import proofs.«173091_j34797825032656_2_alg».proof.Proof.Gen.KernelIdeal.Launch
import proofs.«173091_j34797825032656_2_alg».proof.Proof.Gen.KernelIdeal.Points
import proofs.«173091_j34797825032656_2_alg».proof.Proof.Gen.KernelIdeal.Skeleton
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body of level 2: the pieces its two output stores leave (detail plane first, smooth plane second), with the
    proof that from the input plane at `x0` and any contents of the outputs and the scratch it runs to a state
    holding the input unchanged, each output with its pieces written, and the scratch at some contents. -/
noncomputable def kernelRun2 (c : Dev nD) (i : grid2.Coords)
    (arg1 : Memref sig .tc .vmem S1x1040x1040 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1040 .f32) (harg4 : arg4.IsWhole)
    (x0 : Vec F S1x1040x1040 .f32) :
    Σ' (L2 : List (View.Piece (Elt F) S1x1024x1024 .f32)) (L3 : List (View.Piece (Elt F) S1x1024x1024 .f32)),
      ∀ (E : Set ℕ) (K : PUnit → sProp 𝕄),
        iprop(owns (c : Thread nD τ) arg1 fullShare x0 ∗ (∃ d, owns (c : Thread nD τ) arg2 fullShare d)
            ∗ (∃ d, owns (c : Thread nD τ) arg3 fullShare d) ∗ (∃ d, owns (c : Thread nD τ) arg4 fullShare d)
            ∗ (iprop(owns (c : Thread nD τ) arg1 fullShare x0
                ∗ (∃ f, arg2.view.loc (c : Thread nD τ) ↦[arg2.view.set]{fullShare} arg2.view.writes (Elt F) f L2)
                ∗ (∃ f, arg3.view.loc (c : Thread nD τ) ↦[arg3.view.set]{fullShare} arg3.view.writes (Elt F) f L3)
                ∗ (∃ d, owns (c : Thread nD τ) arg4 fullShare d)) -∗ K ⟨⟩))
          ⊢ wp frame (wpE (defs₀ (F := F)) Variants.none c none) E (cc2__level_kernel i arg1 harg1 arg2 harg2 arg3 harg3 arg4 harg4) K := by
  refine ⟨?_, ?_, fun E K => ?run⟩
  case run =>
    simp only [cc2__level_kernel_eq_skeleton]; unfold cc2__level_kernel_skel
    unfold owns
    iintro ⟨⟨%f1, %hf1, H1⟩, ⟨%d2, %f2, -, H2⟩, ⟨%d3, %f3, -, H3⟩, ⟨%d4, %f4, -, H4⟩, Hk⟩
    obtain rfl := harg1.eq_unread hf1
    sl_exec
    sl_step
    iapply Hk
    isplitl [H1]
    · iexists _; isplitr; · ipureintro; exact harg1.read_unread _
      iexact H1
    isplitl [H2]; · iexists _; iexact H2
    isplitl [H3]; · iexists _; iexact H3
    iexists _, _; isplitr
    swap; · iexact H4
    ipureintro; rfl

end Cert.KernelIdeal.Reg

end
-- ==== Proof.Frame2.lean ====
/-
  Level 2 as a pipeline: the proof data of its pallas_call at ANY contents `V` of the core's buffers when the region
  is entered. Window 0 is the padded input (one plane per grid point, fetched at every point), windows 1 and 2 the detail and
  smooth outputs (one plane per point, written back at every point). After the body at point `t` the input's buffer holds
  its block as fetched, and each output's buffer holds what the body's one covering store wrote, read back over junk. The
  scratch plane lives in the region's invariant at some contents: the body takes it out, overwrites it whole, and puts it back.
-/
import proofs.«173091_j34797825032656_2_alg».proof.Proof.Run2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current buffer holds its block at every point, for any proof data whose array is `V`'s and whose
    body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- One buffer of an output window, through which an output plane's contents are stated (the choice does not matter). -/
abbrev VO2 : View sig .tc .vmem S1x1024x1024 .f32 := (Memref.whole cc2_stg1_0 : Memref sig .tc .vmem S1x1024x1024 .f32).view
/-- Each window's current memref at point `t`, as the pipeline passes it to the body, and the scratch plane. -/
abbrev ms2_0 (t : Fin cfg2.N) : Memref sig .tc .vmem S1x1040x1040 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024x1024 .f32 := win2_2.stage (cfg2.slots t 2)
abbrev hs2_2 (t : Fin cfg2.N) : (ms2_2 t).IsWhole := hstage2_2 ((cfg2.slots t 2).cast nbuf2_2)
abbrev msS2 : Memref sig .tc .vmem S1024x1040 .f32 := Memref.whole cc2_scratch0
abbrev hsS2 : (msS2).IsWhole := Memref.isWhole_whole _

/-- The detail plane's store covers the plane. -/
theorem cover2_1 (c : Dev nD) (i : grid2.Coords) (arg1 : Memref sig .tc .vmem S1x1040x1040 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1040 .f32) (harg4 : arg4.IsWhole)
    (x0 : Vec F S1x1040x1040 .f32) (y : S1x1024x1024.Idx) :
    ∃ pc ∈ (kernelRun2 c i arg1 harg1 arg2 harg2 arg3 harg3 arg4 harg4 x0).1, y ∈ pc.1.set :=
  View.cover_of_tiledL (kernelRun2 c i arg1 harg1 arg2 harg2 arg3 harg3 arg4 harg4 x0).1 S1x1024x1024.size (by sl_kernel_rfl) y
/-- The smooth plane's store covers the plane. -/
theorem cover2_2 (c : Dev nD) (i : grid2.Coords) (arg1 : Memref sig .tc .vmem S1x1040x1040 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1040 .f32) (harg4 : arg4.IsWhole)
    (x0 : Vec F S1x1040x1040 .f32) (y : S1x1024x1024.Idx) :
    ∃ pc ∈ (kernelRun2 c i arg1 harg1 arg2 harg2 arg3 harg3 arg4 harg4 x0).2.1, y ∈ pc.1.set :=
  View.cover_of_tiledL (kernelRun2 c i arg1 harg1 arg2 harg2 arg3 harg3 arg4 harg4 x0).2.1 S1x1024x1024.size (by sl_kernel_rfl) y

/-- What the body leaves in the detail output's buffer: its store read back over junk. -/
def out2_1 (c : Dev nD) (i : grid2.Coords) (arg1 : Memref sig .tc .vmem S1x1040x1040 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1040 .f32) (harg4 : arg4.IsWhole)
    (x0 : Vec F S1x1040x1040 .f32) : Vec F S1x1024x1024 .f32 :=
  VO2.read (Elt F) (VO2.writes (Elt F) VO2.junk (kernelRun2 c i arg1 harg1 arg2 harg2 arg3 harg3 arg4 harg4 x0).1)
/-- What the body leaves in the smooth output's buffer. -/
def out2_2 (c : Dev nD) (i : grid2.Coords) (arg1 : Memref sig .tc .vmem S1x1040x1040 .f32) (harg1 : arg1.IsWhole) (arg2 : Memref sig .tc .vmem S1x1024x1024 .f32) (harg2 : arg2.IsWhole) (arg3 : Memref sig .tc .vmem S1x1024x1024 .f32) (harg3 : arg3.IsWhole) (arg4 : Memref sig .tc .vmem S1024x1040 .f32) (harg4 : arg4.IsWhole)
    (x0 : Vec F S1x1040x1040 .f32) : Vec F S1x1024x1024 .f32 :=
  VO2.read (Elt F) (VO2.writes (Elt F) VO2.junk (kernelRun2 c i arg1 harg1 arg2 harg2 arg3 harg3 arg4 harg4 x0).2.1)

/-- The proof data of level 2's pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 c (grid2.coords t) (ms2_0 t) (hs2_0 t) (ms2_1 t) (hs2_1 t) (ms2_2 t) (hs2_2 t) msS2 hsS2 (iblk2 V c 0 t)
    | ⟨2, _⟩ => out2_2 c (grid2.coords t) (ms2_0 t) (hs2_0 t) (ms2_1 t) (hs2_1 t) (ms2_2 t) (hs2_2 t) msS2 hsS2 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = out2_1 c (grid2.coords t) (ms2_0 t) (hs2_0 t) (ms2_1 t) (hs2_1 t) (ms2_2 t) (hs2_2 t) msS2 hsS2 (iblk2 V c 0 t) := by dsimp only [dat2]
theorem after2_2 (c : Dev nD) (t : Fin cfg2.N) : (dat2 V c).after 2 t = out2_2 c (grid2.coords t) (ms2_0 t) (hs2_0 t) (ms2_1 t) (hs2_1 t) (ms2_2 t) (hs2_2 t) msS2 hsS2 (iblk2 V c 0 t) := by dsimp only [dat2]
theorem before2_0 (c : Dev nD) (t : Fin cfg2.N) (d) : (dat2 V c).before 0 t d = iblk2 V c 0 t :=
  before2_0_of V (dat2 V c) (A_eq2 V c 0) (after2_0 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))
/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t))

set_option maxHeartbeats 1600000 in
/-- The body at any point: the input's memref holds its block, the outputs' hold anything, the scratch plane comes out of the
    invariant at some contents; the run applies; each output ends at its covering store read back; the scratch goes back. -/
theorem sound_body2 (c : Dev nD) (t : Fin cfg2.N) :
    bodyPre2 V c t ⊢ wp frame (wpE (defs₀ (F := F)) Variants.none c none) Set.univ (bodyAt2 t) (fun _ => bodyPost2 V c t) := by
  have toOwns : ∀ f, ((((c : Thread nD τ).loc cc2_scratch0) ↦{fullShare} f : sProp 𝕄)) ⊢ owns (c : Thread nD τ) msS2 fullShare f :=
    fun f => by rw [owns_whole]
  have ofOwns : ∀ f, (owns (c : Thread nD τ) msS2 fullShare f : sProp 𝕄) ⊢ (((c : Thread nD τ).loc cc2_scratch0) ↦{fullShare} f) :=
    fun f => by rw [owns_whole]
  unfold bodyPre2 bodyPost2 bodyAt2
  simp only [before2_0]
  rw [show (dat2 V c).Φ t.succ = Pipeline.ΦA spec2 c from rfl, show (dat2 V c).Φ t.castSucc = Pipeline.ΦA spec2 c from rfl,
    show (dat2 V c).owesAt () t.succ = (dat2 V c).owesAt () t.castSucc from rfl,
    after2_0, after2_1, after2_2]
  unfold Pipeline.ΦA; rw [scopedRest2_eq]
  unfold out2_1 out2_2
  iintro ⟨⟨⟨Hb1, Hb2, Hb3, Hb4, Hb5, Hb6, Hb7, Hb8, Hb9, Hb10, Hb11, Hb12, Hb13, Hb14, Hs⟩, Hp⟩, Ho, ⟨%d0, H0⟩, ⟨%d1, H1⟩, ⟨%d2, H2⟩⟩
  icases Hs with ⟨%fs, Hs⟩
  ihave Hs' := toOwns fs $$ Hs
  iapply ((kernelRun2 c (grid2.coords t) (ms2_0 t) (hs2_0 t) (ms2_1 t) (hs2_1 t) (ms2_2 t) (hs2_2 t) msS2 hsS2 (iblk2 V c 0 t)).2.2 Set.univ _)
  isplitl [H0]; · iexact H0
  isplitl [H1]; · iexists _; iexact H1
  isplitl [H2]; · iexists _; iexact H2
  isplitl [Hs']; · iexists _; iexact Hs'
  iintro ⟨H0, ⟨%e1, H1⟩, ⟨%e2, H2⟩, ⟨%ds, Hs⟩⟩
  ihave Hs' := ofOwns ds $$ Hs
  isplitl [Hs' Hb1 Hb2 Hb3 Hb4 Hb5 Hb6 Hb7 Hb8 Hb9 Hb10 Hb11 Hb12 Hb13 Hb14 Hp]
  · isplitr [Hp]
    · skip
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      isplitl [Hb10]; · iexact Hb10
      isplitl [Hb11]; · iexact Hb11
      isplitl [Hb12]; · iexact Hb12
      isplitl [Hb13]; · iexact Hb13
      isplitl [Hb14]; · iexact Hb14
      iexists _; iexact Hs'
    · iexact Hp
  isplitl [Ho]; · iexact Ho
  isplitl [H0]; · iexact H0
  isplitl [H1]
  · unfold owns; iexists _; isplitr
    swap; · iexact H1
    ipureintro; exact View.read_writes_of_cover _ _ _ _ _ (cover2_1 c _ _ _ _ _ _ _ _ _ _)
  unfold owns; iexists _; isplitr
  swap; · iexact H2
  ipureintro; exact View.read_writes_of_cover _ _ _ _ _ (cover2_2 c _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Reg

end
-- ==== Proof.ChainDefs.lean ====
/-
  The whole program as a chain of segments: a host stretch (a dead constant), a host stretch (reflect-pad both axes), a
  level's region, three times over, then the host stretch that stacks the four planes. Between two segments the core holds
  every unscoped buffer whole at a known valuation: the launch contents, then each host stretch applied, then what a region
  leaves in its two output arrays — the contents `outs`, here a parameter tied to the pipelines' final arrays by `OutsOk`:
  after each level its detail and smooth arrays hold the fold of that pipeline's write-backs. This module: the valuations at
  the regions' borders, the proof data family, and the two facts each region's exit needs (its arrays at the pipeline's final
  arrays, every other buffer untouched).
-/
import proofs.«173091_j34797825032656_2_alg».proof.Proof.Frame0
import proofs.«173091_j34797825032656_2_alg».proof.Proof.Frame1
import proofs.«173091_j34797825032656_2_alg».proof.Proof.Frame2
import proofs.«173091_j34797825032656_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

/-- The contents each level's region is entered with and left with, at the TensorCore's references. -/
abbrev En0 : (c : Dev nD) → (b : Ref sig .tc) → Buf (Elt F) ((c : Thread nD τ).loc b) := fun c b => V2 m c b
abbrev En1 : (c : Dev nD) → (b : Ref sig .tc) → Buf (Elt F) ((c : Thread nD τ).loc b) := fun c b => V5 m outs c b
abbrev En2 : (c : Dev nD) → (b : Ref sig .tc) → Buf (Elt F) ((c : Thread nD τ).loc b) := fun c b => V8 m outs c b
abbrev Ex0 : (c : Dev nD) → (b : Ref sig .tc) → Buf (Elt F) ((c : Thread nD τ).loc b) := fun c b => V3 m outs c b
abbrev Ex1 : (c : Dev nD) → (b : Ref sig .tc) → Buf (Elt F) ((c : Thread nD τ).loc b) := fun c b => V6 m outs c b
abbrev Ex2 : (c : Dev nD) → (b : Ref sig .tc) → Buf (Elt F) ((c : Thread nD τ).loc b) := fun c b => V9 m outs c b

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m outs) c
  | ⟨2, _⟩ => fun c => dat2 (En2 m outs) c

/-- `outs` names what the regions leave: after each level, its detail and smooth arrays hold the pipeline's final arrays. -/
structure OutsOk : Prop where
  h30 : ∀ c : Dev nD, outs 3 main_v1_0 c = (dat0 (En0 m) c).arrAt 1 cfg0.N
  h31 : ∀ c : Dev nD, outs 3 main_v1_1 c = (dat0 (En0 m) c).arrAt 2 cfg0.N
  h60 : ∀ c : Dev nD, outs 6 main_v3_0 c = (dat1 (En1 m outs) c).arrAt 1 cfg1.N
  h61 : ∀ c : Dev nD, outs 6 main_v3_1 c = (dat1 (En1 m outs) c).arrAt 2 cfg1.N
  h90 : ∀ c : Dev nD, outs 9 main_v5_0 c = (dat2 (En2 m outs) c).arrAt 1 cfg2.N
  h91 : ∀ c : Dev nD, outs 9 main_v5_1 c = (dat2 (En2 m outs) c).arrAt 2 cfg2.N

abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions' exits -/

theorem V3_main_v1_0 (c : Dev nD) : V3 m outs c main_v1_0 = outs 3 main_v1_0 c := by
  simp only [V3, Function.update_of_ne (StableHlo.devRef_ne_of_ne (by decide) : (Proc.devRef .tc main_v1_0 : DevRef τ sig) ≠ Proc.devRef .tc main_v1_1), Function.update_self]
theorem V3_main_v1_1 (c : Dev nD) : V3 m outs c main_v1_1 = outs 3 main_v1_1 c := by
  simp only [V3, Function.update_self]

/-- At level 0's exit each of its arrays holds what the pipeline leaves, -/
theorem hF0 (hO : OutsOk m outs) (c : Dev nD) (w : Fin cfg0.W) : (pdats m outs 0 c).arrAt w cfg0.N = Ex0 m outs c (Pipeline.arrRef spec0 w) := by
  match w with
  | ⟨0, _⟩ =>
    exact ((dat0 (En0 m) c).arrAt_in 0 rfl _).trans ((A_eq0 (En0 m) c 0).trans (V3_of m outs c main_v0 (by decide)).symm)
  | ⟨1, _⟩ => exact ((V3_main_v1_0 m outs c).trans (hO.h30 c)).symm
  | ⟨2, _⟩ => exact ((V3_main_v1_1 m outs c).trans (hO.h31 c)).symm

/-- and every other buffer what it held at entry. -/
theorem hrest0 (c : Dev nD) : ∀ b, b ∉ Finset.univ.image (Pipeline.arrRef spec0) → Ex0 m outs c b = En0 m c b := fun b hb =>
  V3_of m outs c b (by
    intro h
    rcases List.mem_cons.mp h with rfl | h
    · exact hb (Finset.mem_image.mpr ⟨1, Finset.mem_univ _, rfl⟩)
    · rcases List.mem_cons.mp h with rfl | h
      · exact hb (Finset.mem_image.mpr ⟨2, Finset.mem_univ _, rfl⟩)
      · exact absurd h (List.not_mem_nil))

theorem V6_main_v3_0 (c : Dev nD) : V6 m outs c main_v3_0 = outs 6 main_v3_0 c := by
  simp only [V6, Function.update_of_ne (StableHlo.devRef_ne_of_ne (by decide) : (Proc.devRef .tc main_v3_0 : DevRef τ sig) ≠ Proc.devRef .tc main_v3_1), Function.update_self]
theorem V6_main_v3_1 (c : Dev nD) : V6 m outs c main_v3_1 = outs 6 main_v3_1 c := by
  simp only [V6, Function.update_self]

/-- At level 1's exit each of its arrays holds what the pipeline leaves, -/
theorem hF1 (hO : OutsOk m outs) (c : Dev nD) (w : Fin cfg1.W) : (pdats m outs 1 c).arrAt w cfg1.N = Ex1 m outs c (Pipeline.arrRef spec1 w) := by
  match w with
  | ⟨0, _⟩ =>
    exact ((dat1 (En1 m outs) c).arrAt_in 0 rfl _).trans ((A_eq1 (En1 m outs) c 0).trans (V6_of m outs c main_v2 (by decide)).symm)
  | ⟨1, _⟩ => exact ((V6_main_v3_0 m outs c).trans (hO.h60 c)).symm
  | ⟨2, _⟩ => exact ((V6_main_v3_1 m outs c).trans (hO.h61 c)).symm

/-- and every other buffer what it held at entry. -/
theorem hrest1 (c : Dev nD) : ∀ b, b ∉ Finset.univ.image (Pipeline.arrRef spec1) → Ex1 m outs c b = En1 m outs c b := fun b hb =>
  V6_of m outs c b (by
    intro h
    rcases List.mem_cons.mp h with rfl | h
    · exact hb (Finset.mem_image.mpr ⟨1, Finset.mem_univ _, rfl⟩)
    · rcases List.mem_cons.mp h with rfl | h
      · exact hb (Finset.mem_image.mpr ⟨2, Finset.mem_univ _, rfl⟩)
      · exact absurd h (List.not_mem_nil))

theorem V9_main_v5_0 (c : Dev nD) : V9 m outs c main_v5_0 = outs 9 main_v5_0 c := by
  simp only [V9, Function.update_of_ne (StableHlo.devRef_ne_of_ne (by decide) : (Proc.devRef .tc main_v5_0 : DevRef τ sig) ≠ Proc.devRef .tc main_v5_1), Function.update_self]
theorem V9_main_v5_1 (c : Dev nD) : V9 m outs c main_v5_1 = outs 9 main_v5_1 c := by
  simp only [V9, Function.update_self]

/-- At level 2's exit each of its arrays holds what the pipeline leaves, -/
theorem hF2 (hO : OutsOk m outs) (c : Dev nD) (w : Fin cfg2.W) : (pdats m outs 2 c).arrAt w cfg2.N = Ex2 m outs c (Pipeline.arrRef spec2 w) := by
  match w with
  | ⟨0, _⟩ =>
    exact ((dat2 (En2 m outs) c).arrAt_in 0 rfl _).trans ((A_eq2 (En2 m outs) c 0).trans (V9_of m outs c main_v4 (by decide)).symm)
  | ⟨1, _⟩ => exact ((V9_main_v5_0 m outs c).trans (hO.h90 c)).symm
  | ⟨2, _⟩ => exact ((V9_main_v5_1 m outs c).trans (hO.h91 c)).symm

/-- and every other buffer what it held at entry. -/
theorem hrest2 (c : Dev nD) : ∀ b, b ∉ Finset.univ.image (Pipeline.arrRef spec2) → Ex2 m outs c b = En2 m outs c b := fun b hb =>
  V9_of m outs c b (by
    intro h
    rcases List.mem_cons.mp h with rfl | h
    · exact hb (Finset.mem_image.mpr ⟨1, Finset.mem_univ _, rfl⟩)
    · rcases List.mem_cons.mp h with rfl | h
      · exact hb (Finset.mem_image.mpr ⟨2, Finset.mem_univ _, rfl⟩)
      · exact absurd h (List.not_mem_nil))

end Cert.KernelIdeal.Reg

end
-- ==== Proof.Reg0.lean ====
/-
  Level 0's region as a segment of the program's chain: entered with every unscoped buffer at the valuation before it,
  left with its two output arrays at the pipeline's final arrays and every other buffer as entered. Its arrays are split out
  of the unscoped buffers at entry and joined back at exit; the generator register goes into the region's invariant and
  comes back; the kernel owns no semaphore and the core owes nothing.
-/
import proofs.«173091_j34797825032656_2_alg».proof.Proof.ChainDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F)) (hO : OutsOk m outs)

-- the library's lemmas are stated over the pinned configuration, which unifies with the printed one only when unification
-- may unfold plain definitions in a metavariable's type
set_option backward.isDefEq.respectTransparency.types false in
def reg0 : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ L lv 0 fun _ _ => rfl
  pre c := iprop(StableHlo.held (c : Thread nD τ) (Pipeline.ucRefs τ sig) (V2 m c) ∗ R c)
  post c := iprop(StableHlo.held (c : Thread nD τ) (Pipeline.ucRefs τ sig) (V3 m outs c) ∗ R c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (En0 m c) (Ex0 m outs c) ((pdats m outs 0 c).arrAt · cfg0.N) (hF0 m outs hO c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Reg1.lean ====
/-
  Level 1's region as a segment of the program's chain: entered with every unscoped buffer at the valuation before it,
  left with its two output arrays at the pipeline's final arrays and every other buffer as entered. Its arrays are split out
  of the unscoped buffers at entry and joined back at exit; the generator register goes into the region's invariant and
  comes back; the kernel owns no semaphore and the core owes nothing.
-/
import proofs.«173091_j34797825032656_2_alg».proof.Proof.ChainDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F)) (hO : OutsOk m outs)

-- the library's lemmas are stated over the pinned configuration, which unifies with the printed one only when unification
-- may unfold plain definitions in a metavariable's type
set_option backward.isDefEq.respectTransparency.types false in
def reg1 : Pipeline.RegionSeg (pcfgs (F := F)) adm (pdats m outs) () defs₀ 𝒱₀ L lv 1 where
  win := launch1.win.to₀
  block_pos := launch1.block_pos
  stage_whole := launch1.stage_whole
  K := PEmpty
  osem k := k.elim
  ho := Pipeline.OwnSemFacts.none _
  hbody c := (body_obligation1 (En1 m outs) c).loose
  hwaits := Pipeline.hwaits_of_owed_zero _ _ _ _ L lv 1 fun _ _ => rfl
  pre c := iprop(StableHlo.held (c : Thread nD τ) (Pipeline.ucRefs τ sig) (V5 m outs c) ∗ R c)
  post c := iprop(StableHlo.held (c : Thread nD τ) (Pipeline.ucRefs τ sig) (V6 m outs c) ∗ R c)
  X c := iprop(∃ r, prngReg c r)
  Y c := iprop(∃ r, prngReg c r)
  Z c := Pipeline.unscopedRest (Ix := Unit) (Name := ℕ) (U := UR sig nD τ) (Lvl := ℕ) spec1 c (En1 m outs c)
  hentry c := by
    rw [Pipeline.ownSems0_none]
    have hsplit := Pipeline.arrays_of_unscopedBufs (p := 1) (pcfgs (F := F)) adm (pdats m outs) launch1.win launch1.arr_whole c
      ((pdats m outs 1 c).share_full fun _ => rfl) (En1 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m outs) ((pdats m outs 1 c).share_full fun _ => rfl)
      (En1 m outs c) (Ex1 m outs c) ((pdats m outs 1 c).arrAt · cfg1.N) (hF1 m outs hO c) (hrest1 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.Reg2.lean ====
/-
  Level 2's region as a segment of the program's chain: entered with every unscoped buffer at the valuation before it,
  left with its two output arrays at the pipeline's final arrays and every other buffer as entered. Its arrays are split out
  of the unscoped buffers at entry and joined back at exit; the generator register goes into the region's invariant and
  comes back; the kernel owns no semaphore and the core owes nothing.
-/
import proofs.«173091_j34797825032656_2_alg».proof.Proof.ChainDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F)) (hO : OutsOk m outs)

-- the library's lemmas are stated over the pinned configuration, which unifies with the printed one only when unification
-- may unfold plain definitions in a metavariable's type
set_option backward.isDefEq.respectTransparency.types false in
def reg2 : Pipeline.RegionSeg (pcfgs (F := F)) adm (pdats m outs) () defs₀ 𝒱₀ L lv 2 where
  win := launch2.win.to₀
  block_pos := launch2.block_pos
  stage_whole := launch2.stage_whole
  K := PEmpty
  osem k := k.elim
  ho := Pipeline.OwnSemFacts.none _
  hbody c := (body_obligation2 (En2 m outs) c).loose
  hwaits := Pipeline.hwaits_of_owed_zero _ _ _ _ L lv 2 fun _ _ => rfl
  pre c := iprop(StableHlo.held (c : Thread nD τ) (Pipeline.ucRefs τ sig) (V8 m outs c) ∗ R c)
  post c := iprop(StableHlo.held (c : Thread nD τ) (Pipeline.ucRefs τ sig) (V9 m outs c) ∗ R c)
  X c := iprop(∃ r, prngReg c r)
  Y c := iprop(∃ r, prngReg c r)
  Z c := Pipeline.unscopedRest (Ix := Unit) (Name := ℕ) (U := UR sig nD τ) (Lvl := ℕ) spec2 c (En2 m outs c)
  hentry c := by
    rw [Pipeline.ownSems0_none]
    have hsplit := Pipeline.arrays_of_unscopedBufs (p := 2) (pcfgs (F := F)) adm (pdats m outs) launch2.win launch2.arr_whole c
      ((pdats m outs 2 c).share_full fun _ => rfl) (En2 m outs c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m outs) ((pdats m outs 2 c).share_full fun _ => rfl)
      (En2 m outs c) (Ex2 m outs c) ((pdats m outs 2 c).arrAt · cfg2.N) (hF2 m outs hO c) (hrest2 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.ChainRun.lean ====
/-
  The program as its ten segments in order, and the launch: from any memory with zero counters every weakly fair execution
  terminates without a fault, and the final state holds every unscoped buffer at the last valuation — in particular the
  result array, and the argument array as launched (no host stretch writes it and no region may change it).
-/
import proofs.«173091_j34797825032656_2_alg».proof.Proof.Reg0
import proofs.«173091_j34797825032656_2_alg».proof.Proof.Reg1
import proofs.«173091_j34797825032656_2_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Outs (F := F))

abbrev segs (hO : OutsOk m outs) : List (Pipeline.Seg (pcfgs (F := F)) adm (pdats m outs) () defs₀ 𝒱₀ L lv) :=
  [ .host (hseg hostOps0 hostOps0_sub hostOps0_fresh (V0 m)),
    .host (hseg hostOps0_1 hostOps0_1_sub hostOps0_1_fresh (V1 m)),
    .region (reg0 m outs hO),
    .host (hseg hostOps1 hostOps1_sub hostOps1_fresh (V3 m outs)),
    .host (hseg hostOps1_1 hostOps1_1_sub hostOps1_1_fresh (V4 m outs)),
    .region (reg1 m outs hO),
    .host (hseg hostOps2 hostOps2_sub hostOps2_fresh (V6 m outs)),
    .host (hseg hostOps2_1 hostOps2_1_sub hostOps2_1_fresh (V7 m outs)),
    .region (reg2 m outs hO),
    .host (hseg hostOps3 hostOps3_sub hostOps3_fresh (V9 m outs)) ]

theorem main_run (hO : OutsOk m outs) (c : Dev nD) : main (F := F) c = Pipeline.Seg.run (segs m outs hO) := (main_chain c).trans (by chain_rfl)

variable (ρ : Dev nD → PrngReg)

set_option backward.isDefEq.respectTransparency.types false in
/-- THE RUN: the result array ends at the last valuation's contents, the argument array as launched. -/
theorem run_main (hO : OutsOk m outs) : θ_run defs (onTc (τ := τ) (main (F := F))) ⟨m, fun _ => 0, ρ⟩ (fun r => ∀ c : Dev nD,
      r.2.mem ((c.tc : Thread nD τ).loc main_v10) = V10 m outs c main_v10
      ∧ r.2.mem ((c.tc : Thread nD τ).loc main_arg0) = m ((c.tc : Thread nD τ).loc main_arg0)) :=
  Pipeline.θ_run_regions_kit (pcfgs (F := F)) adm (pdats m outs) () cellOf_inj emb₁ defs₀ 𝒱₀ L lv m ρ main (segs m outs hO)
    (fun c Q => by rw [main_run m outs hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V10 m outs c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (V10 m outs c) ∗ (∃ r, prngReg c r) ∗ ∃ W, owes (c : Thread nD τ) (0 : CellTallies nD τ sig Unit) W) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V10 m outs c b)
    (hfin := fun c s' => by
      iintro ⟨⟨Hh, -⟩, HSI⟩
      unfold StableHlo.held
      imodintro
      iapply (pointsTo_read_all (Pipeline.ucRefs τ sig) (fun b => (((c : Thread nD τ)).1, b)) (V10 m outs c) s')
      isplitl [Hh] <;> iassumption)
    (hQ := fun s h c =>
      ⟨h c _ (mem_uc main_v10 (by decide)), (h c _ (mem_uc main_arg0 (by decide))).trans (V10_main_arg0 m outs c)⟩)

end Cert.KernelIdeal.Reg

end
-- ==== Proof.OutsDef.lean ====
/-
  The regions' outputs exist: `outs` is built level by level — level 0's two arrays from the pipeline run on the padded
  argument, level 1's from the pipeline run on what the host stretches make of level 0's smooth array, level 2's likewise —
  and satisfies `OutsOk`. The valuation a level is entered with reads only the earlier levels' entries of `outs`, so replacing
  `outs` by its partial versions does not change it; that is proved by congruence through the host stretches.
-/
import proofs.«173091_j34797825032656_2_alg».proof.Proof.ChainDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After level 0's region: its arrays at the pipeline's final arrays, every other buffer as entered. -/
def X3 (c : Dev nD) : Valuation τ sig (Elt F) :=
  Pipeline.withArrays spec0 c (V2 m c) fun w => (dat0 (En0 m) c).arrAt w cfg0.N
/-- After level 1's region entered at the valuations `Vf`. -/
def X6g (Vf : Dev nD → Valuation τ sig (Elt F)) (c : Dev nD) : Valuation τ sig (Elt F) :=
  Pipeline.withArrays spec1 c (Vf c) fun w => (dat1 (fun c b => Vf c b) c).arrAt w cfg1.N
/-- After level 2's region entered at the valuations `Vf`. -/
def X9g (Vf : Dev nD → Valuation τ sig (Elt F)) (c : Dev nD) : Valuation τ sig (Elt F) :=
  Pipeline.withArrays spec2 c (Vf c) fun w => (dat2 (fun c b => Vf c b) c).arrAt w cfg2.N

theorem X3_arr (c : Dev nD) (w : Fin cfg0.W) :
    X3 m c (Proc.devRef .tc (Pipeline.arrRef spec0 w)) = (dat0 (En0 m) c).arrAt w cfg0.N := by
  unfold X3; exact Pipeline.withArrays_arr spec0 launch0.win.arr_inj c _ _ w
theorem X6g_arr (Vf : Dev nD → Valuation τ sig (Elt F)) (c : Dev nD) (w : Fin cfg1.W) :
    X6g Vf c (Proc.devRef .tc (Pipeline.arrRef spec1 w)) = (dat1 (fun c b => Vf c b) c).arrAt w cfg1.N := by
  unfold X6g; exact Pipeline.withArrays_arr spec1 launch1.win.arr_inj c _ _ w
theorem X9g_arr (Vf : Dev nD → Valuation τ sig (Elt F)) (c : Dev nD) (w : Fin cfg2.W) :
    X9g Vf c (Proc.devRef .tc (Pipeline.arrRef spec2 w)) = (dat2 (fun c b => Vf c b) c).arrAt w cfg2.N := by
  unfold X9g; exact Pipeline.withArrays_arr spec2 launch2.win.arr_inj c _ _ w

/-- The outputs known after level 0, after level 1, and all of them. -/
def outsA : Outs (F := F) := fun _ r c => X3 m c r
def outsB : Outs (F := F) := fun J r c => match J with
  | 3 => X3 m c r
  | _ => X6g (fun c => V5 m (outsA m) c) c r
def outs : Outs (F := F) := fun J r c => match J with
  | 3 => X3 m c r
  | 6 => X6g (fun c => V5 m (outsA m) c) c r
  | _ => X9g (fun c => V8 m (outsB m) c) c r

theorem outs_3 : outs m 3 = outsA m 3 := rfl
theorem outsB_3 : outsB m 3 = outsA m 3 := rfl
theorem outs_3B : outs m 3 = outsB m 3 := rfl
theorem outs_6B : outs m 6 = outsB m 6 := rfl

/-! The valuations read `outs` only at the earlier levels. -/

theorem V3_congr (o o' : Outs (F := F)) (h : o 3 = o' 3) (c : Dev nD) : V3 m o c = V3 m o' c := by
  simp only [V3, h]
theorem V5_congr (o o' : Outs (F := F)) (h : o 3 = o' 3) (c : Dev nD) : V5 m o c = V5 m o' c :=
  congrArg (StableHlo.after hostOps1_1) (congrArg (StableHlo.after hostOps1) (V3_congr m o o' h c))
theorem V6_congr (o o' : Outs (F := F)) (h3 : o 3 = o' 3) (h6 : o 6 = o' 6) (c : Dev nD) : V6 m o c = V6 m o' c := by
  simp only [V6, h6, V5_congr m o o' h3 c]
theorem V8_congr (o o' : Outs (F := F)) (h3 : o 3 = o' 3) (h6 : o 6 = o' 6) (c : Dev nD) : V8 m o c = V8 m o' c :=
  congrArg (StableHlo.after hostOps2_1) (congrArg (StableHlo.after hostOps2) (V6_congr m o o' h3 h6 c))

theorem V5_outs : (fun c : Dev nD => V5 m (outs m) c) = fun c => V5 m (outsA m) c :=
  funext fun c => V5_congr m _ _ (outs_3 m) c
theorem V8_outs : (fun c : Dev nD => V8 m (outs m) c) = fun c => V8 m (outsB m) c :=
  funext fun c => V8_congr m _ _ (outs_3B m) (outs_6B m) c

set_option backward.isDefEq.respectTransparency.types false in
/-- The outputs are what the regions leave. -/
theorem outsOk : OutsOk m (outs m) where
  h30 c := X3_arr m c 1
  h31 c := X3_arr m c 2
  h60 c := (X6g_arr _ c 1).trans
    (congrArg (fun Vf : Dev nD → Valuation τ sig (Elt F) => (dat1 (fun c b => Vf c b) c).arrAt 1 cfg1.N) (V5_outs m).symm)
  h61 c := (X6g_arr _ c 2).trans
    (congrArg (fun Vf : Dev nD → Valuation τ sig (Elt F) => (dat1 (fun c b => Vf c b) c).arrAt 2 cfg1.N) (V5_outs m).symm)
  h90 c := (X9g_arr _ c 1).trans
    (congrArg (fun Vf : Dev nD → Valuation τ sig (Elt F) => (dat2 (fun c b => Vf c b) c).arrAt 1 cfg2.N) (V8_outs m).symm)
  h91 c := (X9g_arr _ c 2).trans
    (congrArg (fun Vf : Dev nD → Valuation τ sig (Elt F) => (dat2 (fun c b => Vf c b) c).arrAt 2 cfg2.N) (V8_outs m).symm)

end Cert.KernelIdeal.Reg

end
-- ==== Proof.RefOps.lean ====
/-
  The reference program's @main as the list of its 224 host operations, in program order, in four consecutive
  windows (those @main is printed in: 74, 81, 67 and 2 operations). Each call of an outlined function (the six
  reflect pads, and inside each its two reversals) is replaced by that function's operations over the buffers of
  that call: two slices, a reversal, a concatenation in front, two slices, a reversal, a concatenation behind.
  Between the pads stand the five-tap passes (a slice, the tap's constant and its broadcast, a product and a
  running sum per tap, the sum started from a broadcast zero), the three differences of consecutive smooth
  planes, the four broadcasts to a unit axis, and the final concatenation of the four planes along that axis.
-/
import proofs.«173091_j34797825032656_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-- The operations of @main's window 0 (statements 1 … 60), calls replaced by their operations. -/
abbrev w0 : List (HloOp τ sig (Elt F)) :=
  [ StableHlo.nullary main_c (constantI S_ 32 0#32),
    StableHlo.TRef.unary (.of main_arg0 : StableHlo.TRef sig ⟨S8x1024x1024, .f32⟩) (.of main_call0_v0 : StableHlo.TRef sig ⟨S8x1x1024, .f32⟩) (extractStridedSlice S8x1x1024 ![0, 0, 0] · slices_S8x1024x1024_S8x1x1024_0_0_0),
    StableHlo.TRef.unary (.of main_arg0 : StableHlo.TRef sig ⟨S8x1024x1024, .f32⟩) (.of main_call0_v1 : StableHlo.TRef sig ⟨S8x2x1024, .f32⟩) (extractStridedSlice S8x2x1024 ![0, 1, 0] · slices_S8x1024x1024_S8x2x1024_0_1_0),
    StableHlo.TRef.unary (.of main_call0_v1 : StableHlo.TRef sig ⟨S8x2x1024, .f32⟩) (.of main_call0_v2 : StableHlo.TRef sig ⟨S8x2x1024, .f32⟩) (Host.reverse [1]),
    StableHlo.TRef.binary (.of main_call0_v2 : StableHlo.TRef sig ⟨S8x2x1024, .f32⟩) (.of main_arg0 : StableHlo.TRef sig ⟨S8x1024x1024, .f32⟩) (.of main_call0_v3 : StableHlo.TRef sig ⟨S8x1026x1024, .f32⟩) (fun a b => concatenate S8x1026x1024 1 [⟨S8x2x1024, a⟩, ⟨S8x1024x1024, b⟩] concatenates_S8x2x1024_S8x1024x1024_S8x1026x1024_d1),
    StableHlo.TRef.unary (.of main_call0_v3 : StableHlo.TRef sig ⟨S8x1026x1024, .f32⟩) (.of main_call0_v4 : StableHlo.TRef sig ⟨S8x1x1024, .f32⟩) (extractStridedSlice S8x1x1024 ![0, 1025, 0] · slices_S8x1026x1024_S8x1x1024_0_1025_0),
    StableHlo.TRef.unary (.of main_call0_v3 : StableHlo.TRef sig ⟨S8x1026x1024, .f32⟩) (.of main_call0_v5 : StableHlo.TRef sig ⟨S8x2x1024, .f32⟩) (extractStridedSlice S8x2x1024 ![0, 1023, 0] · slices_S8x1026x1024_S8x2x1024_0_1023_0),
    StableHlo.TRef.unary (.of main_call0_v5 : StableHlo.TRef sig ⟨S8x2x1024, .f32⟩) (.of main_call0_v6 : StableHlo.TRef sig ⟨S8x2x1024, .f32⟩) (Host.reverse [1]),
    StableHlo.TRef.binary (.of main_call0_v3 : StableHlo.TRef sig ⟨S8x1026x1024, .f32⟩) (.of main_call0_v6 : StableHlo.TRef sig ⟨S8x2x1024, .f32⟩) (.of main_v0 : StableHlo.TRef sig ⟨S8x1028x1024, .f32⟩) (fun a b => concatenate S8x1028x1024 1 [⟨S8x1026x1024, a⟩, ⟨S8x2x1024, b⟩] concatenates_S8x1026x1024_S8x2x1024_S8x1028x1024_d1),
    StableHlo.unary main_v0 main_v1 ((extractStridedSlice S8x1024x1024 ![0, 0, 0] · slices_S8x1028x1024_S8x1024x1024_0_0_0) : (⟨S8x1028x1024, .f32⟩ : BufTy).Contents (Elt F) → (⟨S8x1024x1024, .f32⟩ : BufTy).Contents (Elt F)),
    StableHlo.nullary main_cst (constant S_ .f32 0x3D800000#32),
    StableHlo.unary main_cst main_v2 (broadcastInDim S8x1024x1024 ![] bcast_S_S8x1024x1024 : (⟨S_, .f32⟩ : BufTy).Contents (Elt F) → (⟨S8x1024x1024, .f32⟩ : BufTy).Contents (Elt F)),
    StableHlo.binary main_v2 main_v1 main_v3 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_0 (constant S_ .f32 0x00000000#32),
    StableHlo.unary main_cst_0 main_v4 (broadcastInDim S8x1024x1024 ![] bcast_S_S8x1024x1024 : (⟨S_, .f32⟩ : BufTy).Contents (Elt F) → (⟨S8x1024x1024, .f32⟩ : BufTy).Contents (Elt F)),
    StableHlo.binary main_v4 main_v3 main_v5 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v0 main_v6 ((extractStridedSlice S8x1024x1024 ![0, 1, 0] · slices_S8x1028x1024_S8x1024x1024_0_1_0) : (⟨S8x1028x1024, .f32⟩ : BufTy).Contents (Elt F) → (⟨S8x1024x1024, .f32⟩ : BufTy).Contents (Elt F)),
    StableHlo.nullary main_cst_1 (constant S_ .f32 0x3E800000#32),
    StableHlo.unary main_cst_1 main_v7 (broadcastInDim S8x1024x1024 ![] bcast_S_S8x1024x1024 : (⟨S_, .f32⟩ : BufTy).Contents (Elt F) → (⟨S8x1024x1024, .f32⟩ : BufTy).Contents (Elt F)),
    StableHlo.binary main_v7 main_v6 main_v8 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v5 main_v8 main_v9 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v0 main_v10 ((extractStridedSlice S8x1024x1024 ![0, 2, 0] · slices_S8x1028x1024_S8x1024x1024_0_2_0) : (⟨S8x1028x1024, .f32⟩ : BufTy).Contents (Elt F) → (⟨S8x1024x1024, .f32⟩ : BufTy).Contents (Elt F)),
    StableHlo.nullary main_cst_2 (constant S_ .f32 0x3EC00000#32),
    StableHlo.unary main_cst_2 main_v11 (broadcastInDim S8x1024x1024 ![] bcast_S_S8x1024x1024 : (⟨S_, .f32⟩ : BufTy).Contents (Elt F) → (⟨S8x1024x1024, .f32⟩ : BufTy).Contents (Elt F)),
    StableHlo.binary main_v11 main_v10 main_v12 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v9 main_v12 main_v13 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v0 main_v14 ((extractStridedSlice S8x1024x1024 ![0, 3, 0] · slices_S8x1028x1024_S8x1024x1024_0_3_0) : (⟨S8x1028x1024, .f32⟩ : BufTy).Contents (Elt F) → (⟨S8x1024x1024, .f32⟩ : BufTy).Contents (Elt F)),
    StableHlo.nullary main_cst_3 (constant S_ .f32 0x3E800000#32),
    StableHlo.unary main_cst_3 main_v15 (broadcastInDim S8x1024x1024 ![] bcast_S_S8x1024x1024 : (⟨S_, .f32⟩ : BufTy).Contents (Elt F) → (⟨S8x1024x1024, .f32⟩ : BufTy).Contents (Elt F)),
    StableHlo.binary main_v15 main_v14 main_v16 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v13 main_v16 main_v17 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v0 main_v18 ((extractStridedSlice S8x1024x1024 ![0, 4, 0] · slices_S8x1028x1024_S8x1024x1024_0_4_0) : (⟨S8x1028x1024, .f32⟩ : BufTy).Contents (Elt F) → (⟨S8x1024x1024, .f32⟩ : BufTy).Contents (Elt F)),
    StableHlo.nullary main_cst_4 (constant S_ .f32 0x3D800000#32),
    StableHlo.unary main_cst_4 main_v19 (broadcastInDim S8x1024x1024 ![] bcast_S_S8x1024x1024 : (⟨S_, .f32⟩ : BufTy).Contents (Elt F) → (⟨S8x1024x1024, .f32⟩ : BufTy).Contents (Elt F)),
    StableHlo.binary main_v19 main_v18 main_v20 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v17 main_v20 main_v21 (addf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_5 (constantI S_ 32 0#32),
    StableHlo.TRef.unary (.of main_v21 : StableHlo.TRef sig ⟨S8x1024x1024, .f32⟩) (.of main_call1_v0 : StableHlo.TRef sig ⟨S8x1024x1, .f32⟩) (extractStridedSlice S8x1024x1 ![0, 0, 0] · slices_S8x1024x1024_S8x1024x1_0_0_0),
    StableHlo.TRef.unary (.of main_v21 : StableHlo.TRef sig ⟨S8x1024x1024, .f32⟩) (.of main_call1_v1 : StableHlo.TRef sig ⟨S8x1024x2, .f32⟩) (extractStridedSlice S8x1024x2 ![0, 0, 1] · slices_S8x1024x1024_S8x1024x2_0_0_1),
    StableHlo.TRef.unary (.of main_call1_v1 : StableHlo.TRef sig ⟨S8x1024x2, .f32⟩) (.of main_call1_v2 : StableHlo.TRef sig ⟨S8x1024x2, .f32⟩) (Host.reverse [2]),
    StableHlo.TRef.binary (.of main_call1_v2 : StableHlo.TRef sig ⟨S8x1024x2, .f32⟩) (.of main_v21 : StableHlo.TRef sig ⟨S8x1024x1024, .f32⟩) (.of main_call1_v3 : StableHlo.TRef sig ⟨S8x1024x1026, .f32⟩) (fun a b => concatenate S8x1024x1026 2 [⟨S8x1024x2, a⟩, ⟨S8x1024x1024, b⟩] concatenates_S8x1024x2_S8x1024x1024_S8x1024x1026_d2),
    StableHlo.TRef.unary (.of main_call1_v3 : StableHlo.TRef sig ⟨S8x1024x1026, .f32⟩) (.of main_call1_v4 : StableHlo.TRef sig ⟨S8x1024x1, .f32⟩) (extractStridedSlice S8x1024x1 ![0, 0, 1025] · slices_S8x1024x1026_S8x1024x1_0_0_1025),
    StableHlo.TRef.unary (.of main_call1_v3 : StableHlo.TRef sig ⟨S8x1024x1026, .f32⟩) (.of main_call1_v5 : StableHlo.TRef sig ⟨S8x1024x2, .f32⟩) (extractStridedSlice S8x1024x2 ![0, 0, 1023] · slices_S8x1024x1026_S8x1024x2_0_0_1023),
    StableHlo.TRef.unary (.of main_call1_v5 : StableHlo.TRef sig ⟨S8x1024x2, .f32⟩) (.of main_call1_v6 : StableHlo.TRef sig ⟨S8x1024x2, .f32⟩) (Host.reverse [2]),
    StableHlo.TRef.binary (.of main_call1_v3 : StableHlo.TRef sig ⟨S8x1024x1026, .f32⟩) (.of main_call1_v6 : StableHlo.TRef sig ⟨S8x1024x2, .f32⟩) (.of main_v22 : StableHlo.TRef sig ⟨S8x1024x1028, .f32⟩) (fun a b => concatenate S8x1024x1028 2 [⟨S8x1024x1026, a⟩, ⟨S8x1024x2, b⟩] concatenates_S8x1024x1026_S8x1024x2_S8x1024x1028_d2),
    StableHlo.unary main_v22 main_v23 ((extractStridedSlice S8x1024x1024 ![0, 0, 0] · slices_S8x1024x1028_S8x1024x1024_0_0_0) : (⟨S8x1024x1028, .f32⟩ : BufTy).Contents (Elt F) → (⟨S8x1024x1024, .f32⟩ : BufTy).Contents (Elt F)),
    StableHlo.nullary main_cst_6 (constant S_ .f32 0x3D800000#32),
    StableHlo.unary main_cst_6 main_v24 (broadcastInDim S8x1024x1024 ![] bcast_S_S8x1024x1024 : (⟨S_, .f32⟩ : BufTy).Contents (Elt F) → (⟨S8x1024x1024, .f32⟩ : BufTy).Contents (Elt F)),
    StableHlo.binary main_v24 main_v23 main_v25 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_7 (constant S_ .f32 0x00000000#32),
    StableHlo.unary main_cst_7 main_v26 (broadcastInDim S8x1024x1024 ![] bcast_S_S8x1024x1024 : (⟨S_, .f32⟩ : BufTy).Contents (Elt F) → (⟨S8x1024x1024, .f32⟩ : BufTy).Contents (Elt F)),
    StableHlo.binary main_v26 main_v25 main_v27 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v22 main_v28 ((extractStridedSlice S8x1024x1024 ![0, 0, 1] · slices_S8x1024x1028_S8x1024x1024_0_0_1) : (⟨S8x1024x1028, .f32⟩ : BufTy).Contents (Elt F) → (⟨S8x1024x1024, .f32⟩ : BufTy).Contents (Elt F)),
    StableHlo.nullary main_cst_8 (constant S_ .f32 0x3E800000#32),
    StableHlo.unary main_cst_8 main_v29 (broadcastInDim S8x1024x1024 ![] bcast_S_S8x1024x1024 : (⟨S_, .f32⟩ : BufTy).Contents (Elt F) → (⟨S8x1024x1024, .f32⟩ : BufTy).Contents (Elt F)),
    StableHlo.binary main_v29 main_v28 main_v30 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v27 main_v30 main_v31 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v22 main_v32 ((extractStridedSlice S8x1024x1024 ![0, 0, 2] · slices_S8x1024x1028_S8x1024x1024_0_0_2) : (⟨S8x1024x1028, .f32⟩ : BufTy).Contents (Elt F) → (⟨S8x1024x1024, .f32⟩ : BufTy).Contents (Elt F)),
    StableHlo.nullary main_cst_9 (constant S_ .f32 0x3EC00000#32),
    StableHlo.unary main_cst_9 main_v33 (broadcastInDim S8x1024x1024 ![] bcast_S_S8x1024x1024 : (⟨S_, .f32⟩ : BufTy).Contents (Elt F) → (⟨S8x1024x1024, .f32⟩ : BufTy).Contents (Elt F)),
    StableHlo.binary main_v33 main_v32 main_v34 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v31 main_v34 main_v35 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v22 main_v36 ((extractStridedSlice S8x1024x1024 ![0, 0, 3] · slices_S8x1024x1028_S8x1024x1024_0_0_3) : (⟨S8x1024x1028, .f32⟩ : BufTy).Contents (Elt F) → (⟨S8x1024x1024, .f32⟩ : BufTy).Contents (Elt F)),
    StableHlo.nullary main_cst_10 (constant S_ .f32 0x3E800000#32),
    StableHlo.unary main_cst_10 main_v37 (broadcastInDim S8x1024x1024 ![] bcast_S_S8x1024x1024 : (⟨S_, .f32⟩ : BufTy).Contents (Elt F) → (⟨S8x1024x1024, .f32⟩ : BufTy).Contents (Elt F)),
    StableHlo.binary main_v37 main_v36 main_v38 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v35 main_v38 main_v39 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v22 main_v40 ((extractStridedSlice S8x1024x1024 ![0, 0, 4] · slices_S8x1024x1028_S8x1024x1024_0_0_4) : (⟨S8x1024x1028, .f32⟩ : BufTy).Contents (Elt F) → (⟨S8x1024x1024, .f32⟩ : BufTy).Contents (Elt F)),
    StableHlo.nullary main_cst_11 (constant S_ .f32 0x3D800000#32),
    StableHlo.unary main_cst_11 main_v41 (broadcastInDim S8x1024x1024 ![] bcast_S_S8x1024x1024 : (⟨S_, .f32⟩ : BufTy).Contents (Elt F) → (⟨S8x1024x1024, .f32⟩ : BufTy).Contents (Elt F)),
    StableHlo.binary main_v41 main_v40 main_v42 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v39 main_v42 main_v43 (addf : (⟨S8x1024x1024, .f32⟩ : BufTy).Contents (Elt F) → (⟨S8x1024x1024, .f32⟩ : BufTy).Contents (Elt F) → (⟨S8x1024x1024, .f32⟩ : BufTy).Contents (Elt F)),
    StableHlo.binary main_arg0 main_v43 main_v44 (subf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_12 (constantI S_ 32 0#32) ]

/-- The operations of @main's window 1 (statements 61 … 120), calls replaced by their operations. -/
abbrev w1 : List (HloOp τ sig (Elt F)) :=
  [ StableHlo.TRef.unary (.of main_v43 : StableHlo.TRef sig ⟨S8x1024x1024, .f32⟩) (.of main_call2_v0 : StableHlo.TRef sig ⟨S8x1x1024, .f32⟩) (extractStridedSlice S8x1x1024 ![0, 0, 0] · slices_S8x1024x1024_S8x1x1024_0_0_0),
    StableHlo.TRef.unary (.of main_v43 : StableHlo.TRef sig ⟨S8x1024x1024, .f32⟩) (.of main_call2_v1 : StableHlo.TRef sig ⟨S8x4x1024, .f32⟩) (extractStridedSlice S8x4x1024 ![0, 1, 0] · slices_S8x1024x1024_S8x4x1024_0_1_0),
    StableHlo.TRef.unary (.of main_call2_v1 : StableHlo.TRef sig ⟨S8x4x1024, .f32⟩) (.of main_call2_v2 : StableHlo.TRef sig ⟨S8x4x1024, .f32⟩) (Host.reverse [1]),
    StableHlo.TRef.binary (.of main_call2_v2 : StableHlo.TRef sig ⟨S8x4x1024, .f32⟩) (.of main_v43 : StableHlo.TRef sig ⟨S8x1024x1024, .f32⟩) (.of main_call2_v3 : StableHlo.TRef sig ⟨S8x1028x1024, .f32⟩) (fun a b => concatenate S8x1028x1024 1 [⟨S8x4x1024, a⟩, ⟨S8x1024x1024, b⟩] concatenates_S8x4x1024_S8x1024x1024_S8x1028x1024_d1),
    StableHlo.TRef.unary (.of main_call2_v3 : StableHlo.TRef sig ⟨S8x1028x1024, .f32⟩) (.of main_call2_v4 : StableHlo.TRef sig ⟨S8x1x1024, .f32⟩) (extractStridedSlice S8x1x1024 ![0, 1027, 0] · slices_S8x1028x1024_S8x1x1024_0_1027_0),
    StableHlo.TRef.unary (.of main_call2_v3 : StableHlo.TRef sig ⟨S8x1028x1024, .f32⟩) (.of main_call2_v5 : StableHlo.TRef sig ⟨S8x4x1024, .f32⟩) (extractStridedSlice S8x4x1024 ![0, 1023, 0] · slices_S8x1028x1024_S8x4x1024_0_1023_0),
    StableHlo.TRef.unary (.of main_call2_v5 : StableHlo.TRef sig ⟨S8x4x1024, .f32⟩) (.of main_call2_v6 : StableHlo.TRef sig ⟨S8x4x1024, .f32⟩) (Host.reverse [1]),
    StableHlo.TRef.binary (.of main_call2_v3 : StableHlo.TRef sig ⟨S8x1028x1024, .f32⟩) (.of main_call2_v6 : StableHlo.TRef sig ⟨S8x4x1024, .f32⟩) (.of main_v45 : StableHlo.TRef sig ⟨S8x1032x1024, .f32⟩) (fun a b => concatenate S8x1032x1024 1 [⟨S8x1028x1024, a⟩, ⟨S8x4x1024, b⟩] concatenates_S8x1028x1024_S8x4x1024_S8x1032x1024_d1),
    StableHlo.unary main_v45 main_v46 ((extractStridedSlice S8x1024x1024 ![0, 0, 0] · slices_S8x1032x1024_S8x1024x1024_0_0_0) : (⟨S8x1032x1024, .f32⟩ : BufTy).Contents (Elt F) → (⟨S8x1024x1024, .f32⟩ : BufTy).Contents (Elt F)),
    StableHlo.nullary main_cst_13 (constant S_ .f32 0x3D800000#32),
    StableHlo.unary main_cst_13 main_v47 (broadcastInDim S8x1024x1024 ![] bcast_S_S8x1024x1024 : (⟨S_, .f32⟩ : BufTy).Contents (Elt F) → (⟨S8x1024x1024, .f32⟩ : BufTy).Contents (Elt F)),
    StableHlo.binary main_v47 main_v46 main_v48 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_14 (constant S_ .f32 0x00000000#32),
    StableHlo.unary main_cst_14 main_v49 (broadcastInDim S8x1024x1024 ![] bcast_S_S8x1024x1024 : (⟨S_, .f32⟩ : BufTy).Contents (Elt F) → (⟨S8x1024x1024, .f32⟩ : BufTy).Contents (Elt F)),
    StableHlo.binary main_v49 main_v48 main_v50 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v45 main_v51 ((extractStridedSlice S8x1024x1024 ![0, 2, 0] · slices_S8x1032x1024_S8x1024x1024_0_2_0) : (⟨S8x1032x1024, .f32⟩ : BufTy).Contents (Elt F) → (⟨S8x1024x1024, .f32⟩ : BufTy).Contents (Elt F)),
    StableHlo.nullary main_cst_15 (constant S_ .f32 0x3E800000#32),
    StableHlo.unary main_cst_15 main_v52 (broadcastInDim S8x1024x1024 ![] bcast_S_S8x1024x1024 : (⟨S_, .f32⟩ : BufTy).Contents (Elt F) → (⟨S8x1024x1024, .f32⟩ : BufTy).Contents (Elt F)),
    StableHlo.binary main_v52 main_v51 main_v53 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v50 main_v53 main_v54 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v45 main_v55 ((extractStridedSlice S8x1024x1024 ![0, 4, 0] · slices_S8x1032x1024_S8x1024x1024_0_4_0) : (⟨S8x1032x1024, .f32⟩ : BufTy).Contents (Elt F) → (⟨S8x1024x1024, .f32⟩ : BufTy).Contents (Elt F)),
    StableHlo.nullary main_cst_16 (constant S_ .f32 0x3EC00000#32),
    StableHlo.unary main_cst_16 main_v56 (broadcastInDim S8x1024x1024 ![] bcast_S_S8x1024x1024 : (⟨S_, .f32⟩ : BufTy).Contents (Elt F) → (⟨S8x1024x1024, .f32⟩ : BufTy).Contents (Elt F)),
    StableHlo.binary main_v56 main_v55 main_v57 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v54 main_v57 main_v58 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v45 main_v59 ((extractStridedSlice S8x1024x1024 ![0, 6, 0] · slices_S8x1032x1024_S8x1024x1024_0_6_0) : (⟨S8x1032x1024, .f32⟩ : BufTy).Contents (Elt F) → (⟨S8x1024x1024, .f32⟩ : BufTy).Contents (Elt F)),
    StableHlo.nullary main_cst_17 (constant S_ .f32 0x3E800000#32),
    StableHlo.unary main_cst_17 main_v60 (broadcastInDim S8x1024x1024 ![] bcast_S_S8x1024x1024 : (⟨S_, .f32⟩ : BufTy).Contents (Elt F) → (⟨S8x1024x1024, .f32⟩ : BufTy).Contents (Elt F)),
    StableHlo.binary main_v60 main_v59 main_v61 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v58 main_v61 main_v62 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v45 main_v63 ((extractStridedSlice S8x1024x1024 ![0, 8, 0] · slices_S8x1032x1024_S8x1024x1024_0_8_0) : (⟨S8x1032x1024, .f32⟩ : BufTy).Contents (Elt F) → (⟨S8x1024x1024, .f32⟩ : BufTy).Contents (Elt F)),
    StableHlo.nullary main_cst_18 (constant S_ .f32 0x3D800000#32),
    StableHlo.unary main_cst_18 main_v64 (broadcastInDim S8x1024x1024 ![] bcast_S_S8x1024x1024 : (⟨S_, .f32⟩ : BufTy).Contents (Elt F) → (⟨S8x1024x1024, .f32⟩ : BufTy).Contents (Elt F)),
    StableHlo.binary main_v64 main_v63 main_v65 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v62 main_v65 main_v66 (addf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_19 (constantI S_ 32 0#32),
    StableHlo.TRef.unary (.of main_v66 : StableHlo.TRef sig ⟨S8x1024x1024, .f32⟩) (.of main_call3_v0 : StableHlo.TRef sig ⟨S8x1024x1, .f32⟩) (extractStridedSlice S8x1024x1 ![0, 0, 0] · slices_S8x1024x1024_S8x1024x1_0_0_0),
    StableHlo.TRef.unary (.of main_v66 : StableHlo.TRef sig ⟨S8x1024x1024, .f32⟩) (.of main_call3_v1 : StableHlo.TRef sig ⟨S8x1024x4, .f32⟩) (extractStridedSlice S8x1024x4 ![0, 0, 1] · slices_S8x1024x1024_S8x1024x4_0_0_1),
    StableHlo.TRef.unary (.of main_call3_v1 : StableHlo.TRef sig ⟨S8x1024x4, .f32⟩) (.of main_call3_v2 : StableHlo.TRef sig ⟨S8x1024x4, .f32⟩) (Host.reverse [2]),
    StableHlo.TRef.binary (.of main_call3_v2 : StableHlo.TRef sig ⟨S8x1024x4, .f32⟩) (.of main_v66 : StableHlo.TRef sig ⟨S8x1024x1024, .f32⟩) (.of main_call3_v3 : StableHlo.TRef sig ⟨S8x1024x1028, .f32⟩) (fun a b => concatenate S8x1024x1028 2 [⟨S8x1024x4, a⟩, ⟨S8x1024x1024, b⟩] concatenates_S8x1024x4_S8x1024x1024_S8x1024x1028_d2),
    StableHlo.TRef.unary (.of main_call3_v3 : StableHlo.TRef sig ⟨S8x1024x1028, .f32⟩) (.of main_call3_v4 : StableHlo.TRef sig ⟨S8x1024x1, .f32⟩) (extractStridedSlice S8x1024x1 ![0, 0, 1027] · slices_S8x1024x1028_S8x1024x1_0_0_1027),
    StableHlo.TRef.unary (.of main_call3_v3 : StableHlo.TRef sig ⟨S8x1024x1028, .f32⟩) (.of main_call3_v5 : StableHlo.TRef sig ⟨S8x1024x4, .f32⟩) (extractStridedSlice S8x1024x4 ![0, 0, 1023] · slices_S8x1024x1028_S8x1024x4_0_0_1023),
    StableHlo.TRef.unary (.of main_call3_v5 : StableHlo.TRef sig ⟨S8x1024x4, .f32⟩) (.of main_call3_v6 : StableHlo.TRef sig ⟨S8x1024x4, .f32⟩) (Host.reverse [2]),
    StableHlo.TRef.binary (.of main_call3_v3 : StableHlo.TRef sig ⟨S8x1024x1028, .f32⟩) (.of main_call3_v6 : StableHlo.TRef sig ⟨S8x1024x4, .f32⟩) (.of main_v67 : StableHlo.TRef sig ⟨S8x1024x1032, .f32⟩) (fun a b => concatenate S8x1024x1032 2 [⟨S8x1024x1028, a⟩, ⟨S8x1024x4, b⟩] concatenates_S8x1024x1028_S8x1024x4_S8x1024x1032_d2),
    StableHlo.unary main_v67 main_v68 ((extractStridedSlice S8x1024x1024 ![0, 0, 0] · slices_S8x1024x1032_S8x1024x1024_0_0_0) : (⟨S8x1024x1032, .f32⟩ : BufTy).Contents (Elt F) → (⟨S8x1024x1024, .f32⟩ : BufTy).Contents (Elt F)),
    StableHlo.nullary main_cst_20 (constant S_ .f32 0x3D800000#32),
    StableHlo.unary main_cst_20 main_v69 (broadcastInDim S8x1024x1024 ![] bcast_S_S8x1024x1024 : (⟨S_, .f32⟩ : BufTy).Contents (Elt F) → (⟨S8x1024x1024, .f32⟩ : BufTy).Contents (Elt F)),
    StableHlo.binary main_v69 main_v68 main_v70 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_21 (constant S_ .f32 0x00000000#32),
    StableHlo.unary main_cst_21 main_v71 (broadcastInDim S8x1024x1024 ![] bcast_S_S8x1024x1024 : (⟨S_, .f32⟩ : BufTy).Contents (Elt F) → (⟨S8x1024x1024, .f32⟩ : BufTy).Contents (Elt F)),
    StableHlo.binary main_v71 main_v70 main_v72 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v67 main_v73 ((extractStridedSlice S8x1024x1024 ![0, 0, 2] · slices_S8x1024x1032_S8x1024x1024_0_0_2) : (⟨S8x1024x1032, .f32⟩ : BufTy).Contents (Elt F) → (⟨S8x1024x1024, .f32⟩ : BufTy).Contents (Elt F)),
    StableHlo.nullary main_cst_22 (constant S_ .f32 0x3E800000#32),
    StableHlo.unary main_cst_22 main_v74 (broadcastInDim S8x1024x1024 ![] bcast_S_S8x1024x1024 : (⟨S_, .f32⟩ : BufTy).Contents (Elt F) → (⟨S8x1024x1024, .f32⟩ : BufTy).Contents (Elt F)),
    StableHlo.binary main_v74 main_v73 main_v75 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v72 main_v75 main_v76 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v67 main_v77 ((extractStridedSlice S8x1024x1024 ![0, 0, 4] · slices_S8x1024x1032_S8x1024x1024_0_0_4) : (⟨S8x1024x1032, .f32⟩ : BufTy).Contents (Elt F) → (⟨S8x1024x1024, .f32⟩ : BufTy).Contents (Elt F)),
    StableHlo.nullary main_cst_23 (constant S_ .f32 0x3EC00000#32),
    StableHlo.unary main_cst_23 main_v78 (broadcastInDim S8x1024x1024 ![] bcast_S_S8x1024x1024 : (⟨S_, .f32⟩ : BufTy).Contents (Elt F) → (⟨S8x1024x1024, .f32⟩ : BufTy).Contents (Elt F)),
    StableHlo.binary main_v78 main_v77 main_v79 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v76 main_v79 main_v80 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v67 main_v81 ((extractStridedSlice S8x1024x1024 ![0, 0, 6] · slices_S8x1024x1032_S8x1024x1024_0_0_6) : (⟨S8x1024x1032, .f32⟩ : BufTy).Contents (Elt F) → (⟨S8x1024x1024, .f32⟩ : BufTy).Contents (Elt F)),
    StableHlo.nullary main_cst_24 (constant S_ .f32 0x3E800000#32),
    StableHlo.unary main_cst_24 main_v82 (broadcastInDim S8x1024x1024 ![] bcast_S_S8x1024x1024 : (⟨S_, .f32⟩ : BufTy).Contents (Elt F) → (⟨S8x1024x1024, .f32⟩ : BufTy).Contents (Elt F)),
    StableHlo.binary main_v82 main_v81 main_v83 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v80 main_v83 main_v84 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v67 main_v85 ((extractStridedSlice S8x1024x1024 ![0, 0, 8] · slices_S8x1024x1032_S8x1024x1024_0_0_8) : (⟨S8x1024x1032, .f32⟩ : BufTy).Contents (Elt F) → (⟨S8x1024x1024, .f32⟩ : BufTy).Contents (Elt F)),
    StableHlo.nullary main_cst_25 (constant S_ .f32 0x3D800000#32),
    StableHlo.unary main_cst_25 main_v86 (broadcastInDim S8x1024x1024 ![] bcast_S_S8x1024x1024 : (⟨S_, .f32⟩ : BufTy).Contents (Elt F) → (⟨S8x1024x1024, .f32⟩ : BufTy).Contents (Elt F)),
    StableHlo.binary main_v86 main_v85 main_v87 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v84 main_v87 main_v88 (addf : (⟨S8x1024x1024, .f32⟩ : BufTy).Contents (Elt F) → (⟨S8x1024x1024, .f32⟩ : BufTy).Contents (Elt F) → (⟨S8x1024x1024, .f32⟩ : BufTy).Contents (Elt F)),
    StableHlo.binary main_v43 main_v88 main_v89 (subf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_26 (constantI S_ 32 0#32),
    StableHlo.TRef.unary (.of main_v88 : StableHlo.TRef sig ⟨S8x1024x1024, .f32⟩) (.of main_call4_v0 : StableHlo.TRef sig ⟨S8x1x1024, .f32⟩) (extractStridedSlice S8x1x1024 ![0, 0, 0] · slices_S8x1024x1024_S8x1x1024_0_0_0),
    StableHlo.TRef.unary (.of main_v88 : StableHlo.TRef sig ⟨S8x1024x1024, .f32⟩) (.of main_call4_v1 : StableHlo.TRef sig ⟨S8x8x1024, .f32⟩) (extractStridedSlice S8x8x1024 ![0, 1, 0] · slices_S8x1024x1024_S8x8x1024_0_1_0),
    StableHlo.TRef.unary (.of main_call4_v1 : StableHlo.TRef sig ⟨S8x8x1024, .f32⟩) (.of main_call4_v2 : StableHlo.TRef sig ⟨S8x8x1024, .f32⟩) (Host.reverse [1]),
    StableHlo.TRef.binary (.of main_call4_v2 : StableHlo.TRef sig ⟨S8x8x1024, .f32⟩) (.of main_v88 : StableHlo.TRef sig ⟨S8x1024x1024, .f32⟩) (.of main_call4_v3 : StableHlo.TRef sig ⟨S8x1032x1024, .f32⟩) (fun a b => concatenate S8x1032x1024 1 [⟨S8x8x1024, a⟩, ⟨S8x1024x1024, b⟩] concatenates_S8x8x1024_S8x1024x1024_S8x1032x1024_d1),
    StableHlo.TRef.unary (.of main_call4_v3 : StableHlo.TRef sig ⟨S8x1032x1024, .f32⟩) (.of main_call4_v4 : StableHlo.TRef sig ⟨S8x1x1024, .f32⟩) (extractStridedSlice S8x1x1024 ![0, 1031, 0] · slices_S8x1032x1024_S8x1x1024_0_1031_0),
    StableHlo.TRef.unary (.of main_call4_v3 : StableHlo.TRef sig ⟨S8x1032x1024, .f32⟩) (.of main_call4_v5 : StableHlo.TRef sig ⟨S8x8x1024, .f32⟩) (extractStridedSlice S8x8x1024 ![0, 1023, 0] · slices_S8x1032x1024_S8x8x1024_0_1023_0),
    StableHlo.TRef.unary (.of main_call4_v5 : StableHlo.TRef sig ⟨S8x8x1024, .f32⟩) (.of main_call4_v6 : StableHlo.TRef sig ⟨S8x8x1024, .f32⟩) (Host.reverse [1]),
    StableHlo.TRef.binary (.of main_call4_v3 : StableHlo.TRef sig ⟨S8x1032x1024, .f32⟩) (.of main_call4_v6 : StableHlo.TRef sig ⟨S8x8x1024, .f32⟩) (.of main_v90 : StableHlo.TRef sig ⟨S8x1040x1024, .f32⟩) (fun a b => concatenate S8x1040x1024 1 [⟨S8x1032x1024, a⟩, ⟨S8x8x1024, b⟩] concatenates_S8x1032x1024_S8x8x1024_S8x1040x1024_d1) ]

/-- The operations of @main's window 2 (statements 121 … 180), calls replaced by their operations. -/
abbrev w2 : List (HloOp τ sig (Elt F)) :=
  [ StableHlo.unary main_v90 main_v91 ((extractStridedSlice S8x1024x1024 ![0, 0, 0] · slices_S8x1040x1024_S8x1024x1024_0_0_0) : (⟨S8x1040x1024, .f32⟩ : BufTy).Contents (Elt F) → (⟨S8x1024x1024, .f32⟩ : BufTy).Contents (Elt F)),
    StableHlo.nullary main_cst_27 (constant S_ .f32 0x3D800000#32),
    StableHlo.unary main_cst_27 main_v92 (broadcastInDim S8x1024x1024 ![] bcast_S_S8x1024x1024 : (⟨S_, .f32⟩ : BufTy).Contents (Elt F) → (⟨S8x1024x1024, .f32⟩ : BufTy).Contents (Elt F)),
    StableHlo.binary main_v92 main_v91 main_v93 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_28 (constant S_ .f32 0x00000000#32),
    StableHlo.unary main_cst_28 main_v94 (broadcastInDim S8x1024x1024 ![] bcast_S_S8x1024x1024 : (⟨S_, .f32⟩ : BufTy).Contents (Elt F) → (⟨S8x1024x1024, .f32⟩ : BufTy).Contents (Elt F)),
    StableHlo.binary main_v94 main_v93 main_v95 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v90 main_v96 ((extractStridedSlice S8x1024x1024 ![0, 4, 0] · slices_S8x1040x1024_S8x1024x1024_0_4_0) : (⟨S8x1040x1024, .f32⟩ : BufTy).Contents (Elt F) → (⟨S8x1024x1024, .f32⟩ : BufTy).Contents (Elt F)),
    StableHlo.nullary main_cst_29 (constant S_ .f32 0x3E800000#32),
    StableHlo.unary main_cst_29 main_v97 (broadcastInDim S8x1024x1024 ![] bcast_S_S8x1024x1024 : (⟨S_, .f32⟩ : BufTy).Contents (Elt F) → (⟨S8x1024x1024, .f32⟩ : BufTy).Contents (Elt F)),
    StableHlo.binary main_v97 main_v96 main_v98 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v95 main_v98 main_v99 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v90 main_v100 ((extractStridedSlice S8x1024x1024 ![0, 8, 0] · slices_S8x1040x1024_S8x1024x1024_0_8_0) : (⟨S8x1040x1024, .f32⟩ : BufTy).Contents (Elt F) → (⟨S8x1024x1024, .f32⟩ : BufTy).Contents (Elt F)),
    StableHlo.nullary main_cst_30 (constant S_ .f32 0x3EC00000#32),
    StableHlo.unary main_cst_30 main_v101 (broadcastInDim S8x1024x1024 ![] bcast_S_S8x1024x1024 : (⟨S_, .f32⟩ : BufTy).Contents (Elt F) → (⟨S8x1024x1024, .f32⟩ : BufTy).Contents (Elt F)),
    StableHlo.binary main_v101 main_v100 main_v102 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v99 main_v102 main_v103 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v90 main_v104 ((extractStridedSlice S8x1024x1024 ![0, 12, 0] · slices_S8x1040x1024_S8x1024x1024_0_12_0) : (⟨S8x1040x1024, .f32⟩ : BufTy).Contents (Elt F) → (⟨S8x1024x1024, .f32⟩ : BufTy).Contents (Elt F)),
    StableHlo.nullary main_cst_31 (constant S_ .f32 0x3E800000#32),
    StableHlo.unary main_cst_31 main_v105 (broadcastInDim S8x1024x1024 ![] bcast_S_S8x1024x1024 : (⟨S_, .f32⟩ : BufTy).Contents (Elt F) → (⟨S8x1024x1024, .f32⟩ : BufTy).Contents (Elt F)),
    StableHlo.binary main_v105 main_v104 main_v106 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v103 main_v106 main_v107 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v90 main_v108 ((extractStridedSlice S8x1024x1024 ![0, 16, 0] · slices_S8x1040x1024_S8x1024x1024_0_16_0) : (⟨S8x1040x1024, .f32⟩ : BufTy).Contents (Elt F) → (⟨S8x1024x1024, .f32⟩ : BufTy).Contents (Elt F)),
    StableHlo.nullary main_cst_32 (constant S_ .f32 0x3D800000#32),
    StableHlo.unary main_cst_32 main_v109 (broadcastInDim S8x1024x1024 ![] bcast_S_S8x1024x1024 : (⟨S_, .f32⟩ : BufTy).Contents (Elt F) → (⟨S8x1024x1024, .f32⟩ : BufTy).Contents (Elt F)),
    StableHlo.binary main_v109 main_v108 main_v110 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v107 main_v110 main_v111 (addf : (⟨S8x1024x1024, .f32⟩ : BufTy).Contents (Elt F) → (⟨S8x1024x1024, .f32⟩ : BufTy).Contents (Elt F) → (⟨S8x1024x1024, .f32⟩ : BufTy).Contents (Elt F)),
    StableHlo.nullary main_c_33 (constantI S_ 32 0#32),
    StableHlo.TRef.unary (.of main_v111 : StableHlo.TRef sig ⟨S8x1024x1024, .f32⟩) (.of main_call5_v0 : StableHlo.TRef sig ⟨S8x1024x1, .f32⟩) (extractStridedSlice S8x1024x1 ![0, 0, 0] · slices_S8x1024x1024_S8x1024x1_0_0_0),
    StableHlo.TRef.unary (.of main_v111 : StableHlo.TRef sig ⟨S8x1024x1024, .f32⟩) (.of main_call5_v1 : StableHlo.TRef sig ⟨S8x1024x8, .f32⟩) (extractStridedSlice S8x1024x8 ![0, 0, 1] · slices_S8x1024x1024_S8x1024x8_0_0_1),
    StableHlo.TRef.unary (.of main_call5_v1 : StableHlo.TRef sig ⟨S8x1024x8, .f32⟩) (.of main_call5_v2 : StableHlo.TRef sig ⟨S8x1024x8, .f32⟩) (Host.reverse [2]),
    StableHlo.TRef.binary (.of main_call5_v2 : StableHlo.TRef sig ⟨S8x1024x8, .f32⟩) (.of main_v111 : StableHlo.TRef sig ⟨S8x1024x1024, .f32⟩) (.of main_call5_v3 : StableHlo.TRef sig ⟨S8x1024x1032, .f32⟩) (fun a b => concatenate S8x1024x1032 2 [⟨S8x1024x8, a⟩, ⟨S8x1024x1024, b⟩] concatenates_S8x1024x8_S8x1024x1024_S8x1024x1032_d2),
    StableHlo.TRef.unary (.of main_call5_v3 : StableHlo.TRef sig ⟨S8x1024x1032, .f32⟩) (.of main_call5_v4 : StableHlo.TRef sig ⟨S8x1024x1, .f32⟩) (extractStridedSlice S8x1024x1 ![0, 0, 1031] · slices_S8x1024x1032_S8x1024x1_0_0_1031),
    StableHlo.TRef.unary (.of main_call5_v3 : StableHlo.TRef sig ⟨S8x1024x1032, .f32⟩) (.of main_call5_v5 : StableHlo.TRef sig ⟨S8x1024x8, .f32⟩) (extractStridedSlice S8x1024x8 ![0, 0, 1023] · slices_S8x1024x1032_S8x1024x8_0_0_1023),
    StableHlo.TRef.unary (.of main_call5_v5 : StableHlo.TRef sig ⟨S8x1024x8, .f32⟩) (.of main_call5_v6 : StableHlo.TRef sig ⟨S8x1024x8, .f32⟩) (Host.reverse [2]),
    StableHlo.TRef.binary (.of main_call5_v3 : StableHlo.TRef sig ⟨S8x1024x1032, .f32⟩) (.of main_call5_v6 : StableHlo.TRef sig ⟨S8x1024x8, .f32⟩) (.of main_v112 : StableHlo.TRef sig ⟨S8x1024x1040, .f32⟩) (fun a b => concatenate S8x1024x1040 2 [⟨S8x1024x1032, a⟩, ⟨S8x1024x8, b⟩] concatenates_S8x1024x1032_S8x1024x8_S8x1024x1040_d2),
    StableHlo.unary main_v112 main_v113 ((extractStridedSlice S8x1024x1024 ![0, 0, 0] · slices_S8x1024x1040_S8x1024x1024_0_0_0) : (⟨S8x1024x1040, .f32⟩ : BufTy).Contents (Elt F) → (⟨S8x1024x1024, .f32⟩ : BufTy).Contents (Elt F)),
    StableHlo.nullary main_cst_34 (constant S_ .f32 0x3D800000#32),
    StableHlo.unary main_cst_34 main_v114 (broadcastInDim S8x1024x1024 ![] bcast_S_S8x1024x1024 : (⟨S_, .f32⟩ : BufTy).Contents (Elt F) → (⟨S8x1024x1024, .f32⟩ : BufTy).Contents (Elt F)),
    StableHlo.binary main_v114 main_v113 main_v115 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_35 (constant S_ .f32 0x00000000#32),
    StableHlo.unary main_cst_35 main_v116 (broadcastInDim S8x1024x1024 ![] bcast_S_S8x1024x1024 : (⟨S_, .f32⟩ : BufTy).Contents (Elt F) → (⟨S8x1024x1024, .f32⟩ : BufTy).Contents (Elt F)),
    StableHlo.binary main_v116 main_v115 main_v117 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v112 main_v118 ((extractStridedSlice S8x1024x1024 ![0, 0, 4] · slices_S8x1024x1040_S8x1024x1024_0_0_4) : (⟨S8x1024x1040, .f32⟩ : BufTy).Contents (Elt F) → (⟨S8x1024x1024, .f32⟩ : BufTy).Contents (Elt F)),
    StableHlo.nullary main_cst_36 (constant S_ .f32 0x3E800000#32),
    StableHlo.unary main_cst_36 main_v119 (broadcastInDim S8x1024x1024 ![] bcast_S_S8x1024x1024 : (⟨S_, .f32⟩ : BufTy).Contents (Elt F) → (⟨S8x1024x1024, .f32⟩ : BufTy).Contents (Elt F)),
    StableHlo.binary main_v119 main_v118 main_v120 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v117 main_v120 main_v121 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v112 main_v122 ((extractStridedSlice S8x1024x1024 ![0, 0, 8] · slices_S8x1024x1040_S8x1024x1024_0_0_8) : (⟨S8x1024x1040, .f32⟩ : BufTy).Contents (Elt F) → (⟨S8x1024x1024, .f32⟩ : BufTy).Contents (Elt F)),
    StableHlo.nullary main_cst_37 (constant S_ .f32 0x3EC00000#32),
    StableHlo.unary main_cst_37 main_v123 (broadcastInDim S8x1024x1024 ![] bcast_S_S8x1024x1024 : (⟨S_, .f32⟩ : BufTy).Contents (Elt F) → (⟨S8x1024x1024, .f32⟩ : BufTy).Contents (Elt F)),
    StableHlo.binary main_v123 main_v122 main_v124 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v121 main_v124 main_v125 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v112 main_v126 ((extractStridedSlice S8x1024x1024 ![0, 0, 12] · slices_S8x1024x1040_S8x1024x1024_0_0_12) : (⟨S8x1024x1040, .f32⟩ : BufTy).Contents (Elt F) → (⟨S8x1024x1024, .f32⟩ : BufTy).Contents (Elt F)),
    StableHlo.nullary main_cst_38 (constant S_ .f32 0x3E800000#32),
    StableHlo.unary main_cst_38 main_v127 (broadcastInDim S8x1024x1024 ![] bcast_S_S8x1024x1024 : (⟨S_, .f32⟩ : BufTy).Contents (Elt F) → (⟨S8x1024x1024, .f32⟩ : BufTy).Contents (Elt F)),
    StableHlo.binary main_v127 main_v126 main_v128 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v125 main_v128 main_v129 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v112 main_v130 ((extractStridedSlice S8x1024x1024 ![0, 0, 16] · slices_S8x1024x1040_S8x1024x1024_0_0_16) : (⟨S8x1024x1040, .f32⟩ : BufTy).Contents (Elt F) → (⟨S8x1024x1024, .f32⟩ : BufTy).Contents (Elt F)),
    StableHlo.nullary main_cst_39 (constant S_ .f32 0x3D800000#32),
    StableHlo.unary main_cst_39 main_v131 (broadcastInDim S8x1024x1024 ![] bcast_S_S8x1024x1024 : (⟨S_, .f32⟩ : BufTy).Contents (Elt F) → (⟨S8x1024x1024, .f32⟩ : BufTy).Contents (Elt F)),
    StableHlo.binary main_v131 main_v130 main_v132 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v129 main_v132 main_v133 (addf : (⟨S8x1024x1024, .f32⟩ : BufTy).Contents (Elt F) → (⟨S8x1024x1024, .f32⟩ : BufTy).Contents (Elt F) → (⟨S8x1024x1024, .f32⟩ : BufTy).Contents (Elt F)),
    StableHlo.binary main_v88 main_v133 main_v134 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v44 main_v135 (broadcastInDim S8x1x1024x1024 ![0, 2, 3] bcast_S8x1024x1024_S8x1x1024x1024_0_2_3 : (⟨S8x1024x1024, .f32⟩ : BufTy).Contents (Elt F) → (⟨S8x1x1024x1024, .f32⟩ : BufTy).Contents (Elt F)),
    StableHlo.unary main_v89 main_v136 (broadcastInDim S8x1x1024x1024 ![0, 2, 3] bcast_S8x1024x1024_S8x1x1024x1024_0_2_3 : (⟨S8x1024x1024, .f32⟩ : BufTy).Contents (Elt F) → (⟨S8x1x1024x1024, .f32⟩ : BufTy).Contents (Elt F)),
    StableHlo.unary main_v134 main_v137 (broadcastInDim S8x1x1024x1024 ![0, 2, 3] bcast_S8x1024x1024_S8x1x1024x1024_0_2_3 : (⟨S8x1024x1024, .f32⟩ : BufTy).Contents (Elt F) → (⟨S8x1x1024x1024, .f32⟩ : BufTy).Contents (Elt F)) ]

/-- The operations of @main's window 3 (statements 181 … 183), calls replaced by their operations. -/
abbrev w3 : List (HloOp τ sig (Elt F)) :=
  [ StableHlo.unary main_v133 main_v138 (broadcastInDim S8x1x1024x1024 ![0, 2, 3] bcast_S8x1024x1024_S8x1x1024x1024_0_2_3 : (⟨S8x1024x1024, .f32⟩ : BufTy).Contents (Elt F) → (⟨S8x1x1024x1024, .f32⟩ : BufTy).Contents (Elt F)),
    StableHlo.nary ![main_v135, main_v136, main_v137, main_v138] main_v139 (fun u => concatenate S8x4x1024x1024 1 [⟨S8x1x1024x1024, u 0⟩, ⟨S8x1x1024x1024, u 1⟩, ⟨S8x1x1024x1024, u 2⟩, ⟨S8x1x1024x1024, u 3⟩] concatenates_S8x1x1024x1024_S8x1x1024x1024_S8x1x1024x1024_S8x1x1024x1024_S8x4x1024x1024_d1) ]

/-- @main's 224 operations, in order: the four windows one after the other. -/
abbrev ops : List (HloOp τ sig (Elt F)) := w0 ++ (w1 ++ (w2 ++ w3))

/-- The contents after two lines run in turn: the second line's fold over the first line's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-- The contents after the whole line, window by window. -/
theorem after_ops (V : Valuation τ sig (Elt F)) :
    StableHlo.after (ops (F := F)) V
      = StableHlo.after w3 (StableHlo.after w2 (StableHlo.after w1 (StableHlo.after w0 V))) := by
  simp only [ops, after_append]

end Cert.ReferenceIdeal.RefRun

end
-- ==== Proof.RefRun.lean ====
/-
  The reference program's run. @main is the straight line of the 224 operations of `ops`: each window of @main is
  the line of its own operations once the outlined functions are unfolded at their calls and sequencing is
  reassociated, and two lines run in turn are their concatenation run as one. No buffer of the signature is scoped
  and every operation touches TensorCore buffers only, so every weakly fair execution terminates with each buffer
  at the fold of the operations over the launch contents. The argument's buffer is written by no operation (each
  operation writes one buffer, its own result's, and the argument's is none of those 224), so it keeps its contents.
-/
import proofs.«173091_j34797825032656_2_alg».proof.Proof.RefOps

noncomputable section

namespace Cert.ReferenceIdeal.RefRun

open Cert.ReferenceIdeal Cert.ReferenceIdeal.Gen Idealize.ShloMosaic Idealize.ShloMosaic.TcCoe Idealize.SL.Sem

variable {F : FTy → Type} [FloatOps F]

/-! ## @main is the line -/

set_option maxRecDepth 8192 in
set_option maxHeartbeats 4000000 in
/-- Window 0 of @main is the line of its operations. -/
theorem main_part0_eq (c : Dev nD) : main_part0 (F := F) c = StableHlo.seq w0 := by
  simp only [main_part0, fn_flip.body, fn_pad.body, fn_flip_1.body, fn_pad_0.body, fn_flip_3.body, fn_pad_2.body, fn_flip_5.body, fn_pad_4.body, fn_flip_7.body, fn_pad_6.body, fn_flip_9.body, fn_pad_8.body, StableHlo.seq, bind_assoc, pure_bind] <;> rfl

set_option maxRecDepth 8192 in
set_option maxHeartbeats 4000000 in
/-- Window 1 of @main is the line of its operations. -/
theorem main_part1_eq (c : Dev nD) : main_part1 (F := F) c = StableHlo.seq w1 := by
  simp only [main_part1, fn_flip.body, fn_pad.body, fn_flip_1.body, fn_pad_0.body, fn_flip_3.body, fn_pad_2.body, fn_flip_5.body, fn_pad_4.body, fn_flip_7.body, fn_pad_6.body, fn_flip_9.body, fn_pad_8.body, StableHlo.seq, bind_assoc, pure_bind] <;> rfl

set_option maxRecDepth 8192 in
set_option maxHeartbeats 4000000 in
/-- Window 2 of @main is the line of its operations. -/
theorem main_part2_eq (c : Dev nD) : main_part2 (F := F) c = StableHlo.seq w2 := by
  simp only [main_part2, fn_flip.body, fn_pad.body, fn_flip_1.body, fn_pad_0.body, fn_flip_3.body, fn_pad_2.body, fn_flip_5.body, fn_pad_4.body, fn_flip_7.body, fn_pad_6.body, fn_flip_9.body, fn_pad_8.body, StableHlo.seq, bind_assoc, pure_bind] <;> rfl

set_option maxRecDepth 8192 in
set_option maxHeartbeats 4000000 in
/-- Window 3 of @main is the line of its operations. -/
theorem main_part3_eq (c : Dev nD) : main_part3 (F := F) c = StableHlo.seq w3 := by
  simp only [main_part3, fn_flip.body, fn_pad.body, fn_flip_1.body, fn_pad_0.body, fn_flip_3.body, fn_pad_2.body, fn_flip_5.body, fn_pad_4.body, fn_flip_7.body, fn_pad_6.body, fn_flip_9.body, fn_pad_8.body, StableHlo.seq, bind_assoc, pure_bind] <;> rfl

set_option maxRecDepth 8192 in
/-- @main is the line of the 224 operations. -/
theorem main_eq (c : Dev nD) : main (F := F) c = StableHlo.seq ops := by
  simp only [ops, StableHlo.seq_append, ← main_part0_eq c, ← main_part1_eq c, ← main_part2_eq c, ← main_part3_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem w0_sub : (w0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.unary_bufs_sub .., StableHlo.nullary_bufs_sub ..,
    StableHlo.unary_bufs_sub .., StableHlo.binary_bufs_sub .., StableHlo.binary_bufs_sub .., StableHlo.unary_bufs_sub .., StableHlo.nullary_bufs_sub .., StableHlo.unary_bufs_sub ..,
    StableHlo.binary_bufs_sub .., StableHlo.binary_bufs_sub .., StableHlo.unary_bufs_sub .., StableHlo.nullary_bufs_sub .., StableHlo.unary_bufs_sub .., StableHlo.binary_bufs_sub ..,
    StableHlo.binary_bufs_sub .., StableHlo.unary_bufs_sub .., StableHlo.nullary_bufs_sub .., StableHlo.unary_bufs_sub .., StableHlo.binary_bufs_sub .., StableHlo.binary_bufs_sub ..,
    StableHlo.nullary_bufs_sub .., StableHlo.unary_bufs_sub .., StableHlo.unary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.unary_bufs_sub .., StableHlo.nullary_bufs_sub ..,
    StableHlo.unary_bufs_sub .., StableHlo.binary_bufs_sub .., StableHlo.binary_bufs_sub .., StableHlo.unary_bufs_sub .., StableHlo.nullary_bufs_sub .., StableHlo.unary_bufs_sub ..,
    StableHlo.binary_bufs_sub .., StableHlo.binary_bufs_sub .., StableHlo.unary_bufs_sub .., StableHlo.nullary_bufs_sub .., StableHlo.unary_bufs_sub .., StableHlo.binary_bufs_sub ..,
    StableHlo.binary_bufs_sub .., StableHlo.unary_bufs_sub .., StableHlo.nullary_bufs_sub .., StableHlo.unary_bufs_sub .., StableHlo.binary_bufs_sub .., StableHlo.binary_bufs_sub ..,
    StableHlo.binary_bufs_sub .., StableHlo.nullary_bufs_sub ..⟩

set_option maxRecDepth 8192 in
theorem w1_sub : (w1 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.binary_bufs_sub .., StableHlo.binary_bufs_sub .., StableHlo.unary_bufs_sub .., StableHlo.nullary_bufs_sub .., StableHlo.unary_bufs_sub .., StableHlo.binary_bufs_sub ..,
    StableHlo.binary_bufs_sub .., StableHlo.unary_bufs_sub .., StableHlo.nullary_bufs_sub .., StableHlo.unary_bufs_sub .., StableHlo.binary_bufs_sub .., StableHlo.binary_bufs_sub ..,
    StableHlo.unary_bufs_sub .., StableHlo.nullary_bufs_sub .., StableHlo.unary_bufs_sub .., StableHlo.binary_bufs_sub .., StableHlo.binary_bufs_sub .., StableHlo.nullary_bufs_sub ..,
    StableHlo.unary_bufs_sub .., StableHlo.unary_bufs_sub .., StableHlo.unary_bufs_sub .., StableHlo.binary_bufs_sub .., StableHlo.unary_bufs_sub .., StableHlo.unary_bufs_sub ..,
    StableHlo.unary_bufs_sub .., StableHlo.binary_bufs_sub .., StableHlo.unary_bufs_sub .., StableHlo.nullary_bufs_sub .., StableHlo.unary_bufs_sub .., StableHlo.binary_bufs_sub ..,
    StableHlo.nullary_bufs_sub .., StableHlo.unary_bufs_sub .., StableHlo.binary_bufs_sub .., StableHlo.unary_bufs_sub .., StableHlo.nullary_bufs_sub .., StableHlo.unary_bufs_sub ..,
    StableHlo.binary_bufs_sub .., StableHlo.binary_bufs_sub .., StableHlo.unary_bufs_sub .., StableHlo.nullary_bufs_sub .., StableHlo.unary_bufs_sub .., StableHlo.binary_bufs_sub ..,
    StableHlo.binary_bufs_sub .., StableHlo.unary_bufs_sub .., StableHlo.nullary_bufs_sub .., StableHlo.unary_bufs_sub .., StableHlo.binary_bufs_sub .., StableHlo.binary_bufs_sub ..,
    StableHlo.unary_bufs_sub .., StableHlo.nullary_bufs_sub .., StableHlo.unary_bufs_sub .., StableHlo.binary_bufs_sub .., StableHlo.binary_bufs_sub .., StableHlo.binary_bufs_sub ..,
    StableHlo.nullary_bufs_sub .., StableHlo.unary_bufs_sub .., StableHlo.unary_bufs_sub .., StableHlo.unary_bufs_sub .., StableHlo.binary_bufs_sub .., StableHlo.unary_bufs_sub ..,
    StableHlo.unary_bufs_sub .., StableHlo.unary_bufs_sub .., StableHlo.binary_bufs_sub ..⟩

set_option maxRecDepth 8192 in
theorem w2_sub : (w2 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub ..,
    StableHlo.binary_bufs_sub .., StableHlo.unary_bufs_sub .., StableHlo.nullary_bufs_sub .., StableHlo.unary_bufs_sub .., StableHlo.binary_bufs_sub .., StableHlo.binary_bufs_sub ..,
    StableHlo.unary_bufs_sub .., StableHlo.nullary_bufs_sub .., StableHlo.unary_bufs_sub .., StableHlo.binary_bufs_sub .., StableHlo.binary_bufs_sub .., StableHlo.unary_bufs_sub ..,
    StableHlo.nullary_bufs_sub .., StableHlo.unary_bufs_sub .., StableHlo.binary_bufs_sub .., StableHlo.binary_bufs_sub .., StableHlo.unary_bufs_sub .., StableHlo.nullary_bufs_sub ..,
    StableHlo.unary_bufs_sub .., StableHlo.binary_bufs_sub .., StableHlo.binary_bufs_sub .., StableHlo.nullary_bufs_sub .., StableHlo.unary_bufs_sub .., StableHlo.unary_bufs_sub ..,
    StableHlo.unary_bufs_sub .., StableHlo.binary_bufs_sub .., StableHlo.unary_bufs_sub .., StableHlo.unary_bufs_sub .., StableHlo.unary_bufs_sub .., StableHlo.binary_bufs_sub ..,
    StableHlo.unary_bufs_sub .., StableHlo.nullary_bufs_sub .., StableHlo.unary_bufs_sub .., StableHlo.binary_bufs_sub .., StableHlo.nullary_bufs_sub .., StableHlo.unary_bufs_sub ..,
    StableHlo.binary_bufs_sub .., StableHlo.unary_bufs_sub .., StableHlo.nullary_bufs_sub .., StableHlo.unary_bufs_sub .., StableHlo.binary_bufs_sub .., StableHlo.binary_bufs_sub ..,
    StableHlo.unary_bufs_sub .., StableHlo.nullary_bufs_sub .., StableHlo.unary_bufs_sub .., StableHlo.binary_bufs_sub .., StableHlo.binary_bufs_sub .., StableHlo.unary_bufs_sub ..,
    StableHlo.nullary_bufs_sub .., StableHlo.unary_bufs_sub .., StableHlo.binary_bufs_sub .., StableHlo.binary_bufs_sub .., StableHlo.unary_bufs_sub .., StableHlo.nullary_bufs_sub ..,
    StableHlo.unary_bufs_sub .., StableHlo.binary_bufs_sub .., StableHlo.binary_bufs_sub .., StableHlo.binary_bufs_sub .., StableHlo.unary_bufs_sub .., StableHlo.unary_bufs_sub ..,
    StableHlo.unary_bufs_sub ..⟩

set_option maxRecDepth 8192 in
theorem w3_sub : (w3 : List (HloOp τ sig (Elt F))).Forall fun op => op.bufs ⊆ StableHlo.tcRefs τ sig :=
  ⟨StableHlo.unary_bufs_sub .., StableHlo.nary_bufs_sub ..⟩

/-- Every operation touches TensorCore buffers only. -/
theorem ops_sub : (ops : List (HloOp τ sig (Elt F))).Forall fun op => op.bufs ⊆ StableHlo.tcRefs τ sig :=
  List.forall_iff_forall_mem.mpr fun op h => by
    simp only [ops, List.mem_append] at h
    rcases h with h | h | h | h
    exacts [List.forall_iff_forall_mem.mp w0_sub op h, List.forall_iff_forall_mem.mp w1_sub op h,
      List.forall_iff_forall_mem.mp w2_sub op h, List.forall_iff_forall_mem.mp w3_sub op h]

set_option maxRecDepth 8192 in
/-- No operation of window 0 allocates: each determines its result. -/
theorem w0_fresh : ∀ op ∈ (w0 : List (HloOp τ sig (Elt F))), op.fresh = ∅ := by
  intro _ h; (repeat (cases h with | head => rfl | tail _ h => ?_)); exact nomatch h

set_option maxRecDepth 8192 in
/-- No operation of window 1 allocates: each determines its result. -/
theorem w1_fresh : ∀ op ∈ (w1 : List (HloOp τ sig (Elt F))), op.fresh = ∅ := by
  intro _ h; (repeat (cases h with | head => rfl | tail _ h => ?_)); exact nomatch h

set_option maxRecDepth 8192 in
/-- No operation of window 2 allocates: each determines its result. -/
theorem w2_fresh : ∀ op ∈ (w2 : List (HloOp τ sig (Elt F))), op.fresh = ∅ := by
  intro _ h; (repeat (cases h with | head => rfl | tail _ h => ?_)); exact nomatch h

set_option maxRecDepth 8192 in
/-- No operation of window 3 allocates: each determines its result. -/
theorem w3_fresh : ∀ op ∈ (w3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h
  exacts [w0_fresh op h, w1_fresh op h, w2_fresh op h, w3_fresh op h]

/-! ## The argument is kept -/

/-- One operation's written buffer is among a list of references. -/
local macro "wr" : tactic =>
  `(tactic| (simp only [StableHlo.nullary_writes, StableHlo.unary_writes, StableHlo.binary_writes, StableHlo.nary_writes,
      Finset.singleton_subset_iff, List.mem_toFinset]; exact List.mem_map_of_mem (by decide)))

/-- The references window 0's operations write: each its own result's. -/
abbrev w0_W : List (Ref sig .tc) := [main_c, main_call0_v0, main_call0_v1, main_call0_v2, main_call0_v3, main_call0_v4, main_call0_v5, main_call0_v6, main_v0, main_v1, main_cst, main_v2, main_v3, main_cst_0, main_v4, main_v5, main_v6, main_cst_1, main_v7, main_v8, main_v9, main_v10, main_cst_2, main_v11, main_v12, main_v13, main_v14, main_cst_3, main_v15, main_v16, main_v17, main_v18, main_cst_4, main_v19, main_v20, main_v21, main_c_5, main_call1_v0, main_call1_v1, main_call1_v2, main_call1_v3, main_call1_v4, main_call1_v5, main_call1_v6, main_v22, main_v23, main_cst_6, main_v24, main_v25, main_cst_7, main_v26, main_v27, main_v28, main_cst_8, main_v29, main_v30, main_v31, main_v32, main_cst_9, main_v33, main_v34, main_v35, main_v36, main_cst_10, main_v37, main_v38, main_v39, main_v40, main_cst_11, main_v41, main_v42, main_v43, main_v44, main_c_12]
set_option maxRecDepth 8192 in
theorem w0_writes : (w0 : List (HloOp τ sig (Elt F))).Forall fun op => op.writes ⊆ (w0_W.map (Proc.devRef (τ := τ) .tc)).toFinset := by
  simp only [List.Forall]; exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr⟩

/-- The references window 1's operations write: each its own result's. -/
abbrev w1_W : List (Ref sig .tc) := [main_call2_v0, main_call2_v1, main_call2_v2, main_call2_v3, main_call2_v4, main_call2_v5, main_call2_v6, main_v45, main_v46, main_cst_13, main_v47, main_v48, main_cst_14, main_v49, main_v50, main_v51, main_cst_15, main_v52, main_v53, main_v54, main_v55, main_cst_16, main_v56, main_v57, main_v58, main_v59, main_cst_17, main_v60, main_v61, main_v62, main_v63, main_cst_18, main_v64, main_v65, main_v66, main_c_19, main_call3_v0, main_call3_v1, main_call3_v2, main_call3_v3, main_call3_v4, main_call3_v5, main_call3_v6, main_v67, main_v68, main_cst_20, main_v69, main_v70, main_cst_21, main_v71, main_v72, main_v73, main_cst_22, main_v74, main_v75, main_v76, main_v77, main_cst_23, main_v78, main_v79, main_v80, main_v81, main_cst_24, main_v82, main_v83, main_v84, main_v85, main_cst_25, main_v86, main_v87, main_v88, main_v89, main_c_26, main_call4_v0, main_call4_v1, main_call4_v2, main_call4_v3, main_call4_v4, main_call4_v5, main_call4_v6, main_v90]
set_option maxRecDepth 8192 in
theorem w1_writes : (w1 : List (HloOp τ sig (Elt F))).Forall fun op => op.writes ⊆ (w1_W.map (Proc.devRef (τ := τ) .tc)).toFinset := by
  simp only [List.Forall]; exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr⟩

/-- The references window 2's operations write: each its own result's. -/
abbrev w2_W : List (Ref sig .tc) := [main_v91, main_cst_27, main_v92, main_v93, main_cst_28, main_v94, main_v95, main_v96, main_cst_29, main_v97, main_v98, main_v99, main_v100, main_cst_30, main_v101, main_v102, main_v103, main_v104, main_cst_31, main_v105, main_v106, main_v107, main_v108, main_cst_32, main_v109, main_v110, main_v111, main_c_33, main_call5_v0, main_call5_v1, main_call5_v2, main_call5_v3, main_call5_v4, main_call5_v5, main_call5_v6, main_v112, main_v113, main_cst_34, main_v114, main_v115, main_cst_35, main_v116, main_v117, main_v118, main_cst_36, main_v119, main_v120, main_v121, main_v122, main_cst_37, main_v123, main_v124, main_v125, main_v126, main_cst_38, main_v127, main_v128, main_v129, main_v130, main_cst_39, main_v131, main_v132, main_v133, main_v134, main_v135, main_v136, main_v137]
set_option maxRecDepth 8192 in
theorem w2_writes : (w2 : List (HloOp τ sig (Elt F))).Forall fun op => op.writes ⊆ (w2_W.map (Proc.devRef (τ := τ) .tc)).toFinset := by
  simp only [List.Forall]; exact ⟨by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr, by wr, by wr, by wr, by wr, by wr,
    by wr, by wr, by wr, by wr, by wr, by wr, by wr⟩

/-- The references window 3's operations write: each its own result's. -/
abbrev w3_W : List (Ref sig .tc) := [main_v138, main_v139]
set_option maxRecDepth 8192 in
theorem w3_writes : (w3 : List (HloOp τ sig (Elt F))).Forall fun op => op.writes ⊆ (w3_W.map (Proc.devRef (τ := τ) .tc)).toFinset := by
  simp only [List.Forall]; exact ⟨by wr, by wr⟩

/-- The argument's buffer is written by no operation. -/
theorem arg0_kept (V : Valuation τ sig (Elt F)) :
    StableHlo.after (ops (F := F)) V (Proc.devRef .tc main_arg0) = V (Proc.devRef .tc main_arg0) := by
  rw [after_ops, StableHlo.after_of_writes_sub w3 _ w3_writes (by decide), StableHlo.after_of_writes_sub w2 _ w2_writes (by decide),
    StableHlo.after_of_writes_sub w1 _ w1_writes (by decide), StableHlo.after_of_writes_sub w0 _ w0_writes (by decide)]

/-! ## The run -/

/-- On every device, for any float values, from any memory with zero counters: every weakly fair execution of
    @main terminates with the result at the operations' fold over the launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v139) = StableHlo.after ops (fun b => m (c, b)) main_v139
      ∧ r.2.mem ((c.tc : Thread nD τ).loc main_arg0) = m ((c.tc : Thread nD τ).loc main_arg0) :=
  (θ_run defs _ _).mono (fun _ h c => ⟨h c main_v139, (h c main_arg0).trans (arg0_kept _)⟩)
    (StableHlo.run_seq scopedRefs_eq scopedSems_eq defs main (fun _ => ops) main_eq (fun _ => ops_sub) m ρ
      (fun _ => ops_fresh))

end Cert.ReferenceIdeal.RefRun

end
-- ==== Proof.RefFrame.lean ====
/-
  The reference program leaves its argument as it found it: the run with the result's conjunct dropped.
-/
import proofs.«173091_j34797825032656_2_alg».proof.Defs
import proofs.«173091_j34797825032656_2_alg».proof.Proof.Gen.Pre_finite_inputs
import proofs.«173091_j34797825032656_2_alg».proof.Proof.RefRun

noncomputable section

namespace Cert.ReferenceIdeal.RefRun

open Idealize.ShloMosaic Idealize.ShloMosaic.TcCoe Idealize.SL.Sem

/-- At the ideal instance, from any memory with zero counters: every weakly fair execution of the reference's
    @main terminates with the argument's buffer unchanged. -/
theorem frame : Cert.frame_ReferenceIdeal := fun m ρ _ =>
  (θ_run Cert.ReferenceIdeal.defs _ _).mono (fun _ h c => (h c).2) (run (F := Ideal) m ρ)

end Cert.ReferenceIdeal.RefRun

end
-- ==== Proof.Claims.lean ====
/-
  The frame conjuncts and the idealization conjunct of the certificate.

  Each kernel program (the one read at machine words and the one read at the extended reals) is the chain of ten segments
  run in Proof/ChainRun.lean resp. Proof/KChainRun.lean: every weakly fair execution terminates without a fault and ends with
  the argument array as launched; the frame claim is that run with the statement about the result dropped. The reference is a
  host-only program: its frame is its run (Proof/RefRun.lean) with the result dropped. The ideal pass rewrote no operation of
  the kernel program, so the idealization conjunct states nothing.
-/
import proofs.«173091_j34797825032656_2_alg».proof.Defs
import proofs.«173091_j34797825032656_2_alg».proof.Proof.Gen.Kernel
import proofs.«173091_j34797825032656_2_alg».proof.Proof.Gen.KernelIdeal
import proofs.«173091_j34797825032656_2_alg».proof.Proof.Gen.ReferenceIdeal
import proofs.«173091_j34797825032656_2_alg».proof.Proof.Gen.Pre_finite_inputs
import proofs.«173091_j34797825032656_2_alg».proof.Proof.KChainRun
import proofs.«173091_j34797825032656_2_alg».proof.Proof.KOutsDef
import proofs.«173091_j34797825032656_2_alg».proof.Proof.ChainRun
import proofs.«173091_j34797825032656_2_alg».proof.Proof.OutsDef
import proofs.«173091_j34797825032656_2_alg».proof.Proof.RefFrame

noncomputable section

namespace Cert.Proof.Claims

open Idealize.ShloMosaic Idealize.SL.Sem

theorem frame_p : Cert.frame_Kernel := fun m ρ _ =>
  (θ_run Cert.Kernel.defs _ _).mono (fun _ h c => (h c).2)
    (Cert.Kernel.Reg.run_main (F := Bits) m (Cert.Kernel.Reg.outs m) ρ (Cert.Kernel.Reg.outsOk m))

theorem frame_pi : Cert.frame_KernelIdeal := fun m ρ _ =>
  (θ_run Cert.KernelIdeal.defs _ _).mono (fun _ h c => (h c).2)
    (Cert.KernelIdeal.Reg.run_main (F := Ideal) m (Cert.KernelIdeal.Reg.outs m) ρ (Cert.KernelIdeal.Reg.outsOk m))

theorem frame_ri : Cert.frame_ReferenceIdeal := Cert.ReferenceIdeal.RefRun.frame

theorem preserves : Cert.preserves_Kernel_KernelIdeal := trivial

end Cert.Proof.Claims

end
-- ==== Proof.Spec.lean ====
/-
  The undecimated B3-spline wavelet transform with three levels, as ONE function of the input array, at the
  ideal instance (floats are extended reals).

  An image is a batch of 8 planes of 1024 x 1024 extended reals. Level `j` (dilation `d = 2^j`) smooths an
  image `c` with the separable five-tap filter (1/16, 1/4, 3/8, 1/4, 1/16), the taps `d` apart, the image
  continued past its border by REFLECTION (the border row itself is not repeated): the padded plane has
  `1024 + 4 d` rows and columns, padded coordinate `p` reading the source coordinate `refl (2 d) p`.
  With `h b r col = Σ_k tap_k · c b (refl (r + k d)) (refl col)` (the pass along the rows, at a PADDED column)
  the smoothed image is `Σ_k tap_k · h b r (q + k d)` (the pass along the columns). Every five-term sum is
  taken left to right. The transform stacks the three detail planes `c_j − c_{j+1}` and the last smooth plane
  `c_3` along a new axis of extent 4.

  Reflection along the columns commutes with a pass along the rows (a padded column is a copy of a source
  column), which is why "pad both axes, then both passes" and "pad rows, pass, pad columns, pass" are this one
  expression.
-/
import Idealize.ShloMosaic.PureOps.Ideal
import Idealize.ShloMosaic.Lib.ValueIdx

noncomputable section

namespace Cert.Uwt

open Idealize.ShloMosaic Idealize.ShloMosaic.ValueIdx

/-- A batch of 8 planes of 1024 x 1024 extended reals, by coordinates. -/
abbrev Img : Type := Fin 8 → Fin 1024 → Fin 1024 → EReal

/-- The source coordinate (in `[0, 1024)`) that padded coordinate `p` of an axis reflect-padded by `pad` on both
    sides reads: `pad − p` in the front margin, `p − pad` inside, `2046 + pad − p` in the back margin. -/
def refl (pad p : Nat) : Nat :=
  if p < pad then pad - p else if p < pad + 1024 then p - pad else 2046 + pad - p

theorem refl_lt {pad p : Nat} (hpad : pad ≤ 1023) (hp : p < 1024 + 2 * pad) : refl pad p < 1024 := by
  unfold refl; split_ifs <;> omega

/-- The outer taps 1/16, the next 1/4, the middle 3/8, as the words both programs print. -/
def tapA : EReal := Ideal.ofBits .f32 0x3D800000#32
def tapB : EReal := Ideal.ofBits .f32 0x3E800000#32
def tapC : EReal := Ideal.ofBits .f32 0x3EC00000#32

/-- The five-tap combination, summed left to right. -/
def comb (a0 a1 a2 a3 a4 : EReal) : EReal :=
  tapA * a0 + tapB * a1 + tapC * a2 + tapB * a3 + tapA * a4

/-- Image `c` read at PADDED coordinates `(p, q)` of plane `b`, the margins by reflection (`% 1024` only makes the
    definition total: inside the padded extent `refl` is already below 1024, `refl_lt`). -/
def rd (pad : Nat) (c : Img) (b : Fin 8) (p q : Nat) : EReal :=
  c b ⟨refl pad p % 1024, Nat.mod_lt _ (by norm_num)⟩ ⟨refl pad q % 1024, Nat.mod_lt _ (by norm_num)⟩

/-- The pass along the rows with dilation `d`, at row `r` and PADDED column `col`. -/
def hpass (d : Nat) (c : Img) (b : Fin 8) (r : Fin 1024) (col : Nat) : EReal :=
  comb (rd (2 * d) c b (r.val + 0 * d) col) (rd (2 * d) c b (r.val + 1 * d) col) (rd (2 * d) c b (r.val + 2 * d) col)
    (rd (2 * d) c b (r.val + 3 * d) col) (rd (2 * d) c b (r.val + 4 * d) col)

/-- One level: the pass along the rows, then along the columns. -/
def smooth (d : Nat) (c : Img) : Img := fun b r q =>
  comb (hpass d c b r (q.val + 0 * d)) (hpass d c b r (q.val + 1 * d)) (hpass d c b r (q.val + 2 * d))
    (hpass d c b r (q.val + 3 * d)) (hpass d c b r (q.val + 4 * d))

/-- The three smooth planes. -/
def c1 (x : Img) : Img := smooth 1 x
def c2 (x : Img) : Img := smooth 2 (c1 x)
def c3 (x : Img) : Img := smooth 4 (c2 x)

/-- The transform by coordinates: details `x − c1`, `c1 − c2`, `c2 − c3`, then `c3`. -/
def uwt (x : Img) (b : Fin 8) (l : Fin 4) (r q : Fin 1024) : EReal :=
  match l with
  | 0 => x b r q - c1 x b r q
  | 1 => c1 x b r q - c2 x b r q
  | 2 => c2 x b r q - c3 x b r q
  | 3 => c3 x b r q

/-- An array of shape [8, 1024, 1024] as an image. -/
def toImg (x : (⟨3, ![8, 1024, 1024]⟩ : Shape).Idx → EReal) : Img := fun b r q => x (ix3 b r q)

/-- The transform of an array of shape [8, 1024, 1024], as an array of shape [8, 4, 1024, 1024]. -/
def uwtArr (x : (⟨3, ![8, 1024, 1024]⟩ : Shape).Idx → EReal) : (⟨4, ![8, 4, 1024, 1024]⟩ : Shape).Idx → EReal :=
  fun i => uwt (toImg x) (i 0) (i 1) (i 2) (i 3)

theorem uwtArr_ix4 (x : (⟨3, ![8, 1024, 1024]⟩ : Shape).Idx → EReal) (b : Fin 8) (l : Fin 4) (r q : Fin 1024) :
    uwtArr x (ix4 b l r q) = uwt (toImg x) b l r q := rfl

/-! ## One level over an already padded array -/

/-- A padded batch: 8 planes of `n x n`. -/
abbrev PImg (n : Nat) : Type := Fin 8 → Fin n → Fin n → EReal

/-- Entry `(r + k' d, q + k d)` of plane `b` of a padded batch of extent `n = 1024 + 4 d`. -/
def tapAt (d n : Nat) (hn : n = 1024 + 4 * d) (P : PImg n) (b : Fin 8) (r q : Fin 1024) (k' k : Fin 5) : EReal :=
  P b ⟨r.val + k'.val * d, by have := k'.isLt; have := r.isLt; subst hn; nlinarith⟩
      ⟨q.val + k.val * d, by have := k.isLt; have := q.isLt; subst hn; nlinarith⟩

/-- The smooth plane one level computes from its padded input: five taps along the rows at each of five column
    offsets, then five taps along the columns; every sum left to right. -/
def lvlC (d n : Nat) (hn : n = 1024 + 4 * d) (P : PImg n) : Img := fun b r q =>
  comb
    (comb (tapAt d n hn P b r q 0 0) (tapAt d n hn P b r q 1 0) (tapAt d n hn P b r q 2 0) (tapAt d n hn P b r q 3 0) (tapAt d n hn P b r q 4 0))
    (comb (tapAt d n hn P b r q 0 1) (tapAt d n hn P b r q 1 1) (tapAt d n hn P b r q 2 1) (tapAt d n hn P b r q 3 1) (tapAt d n hn P b r q 4 1))
    (comb (tapAt d n hn P b r q 0 2) (tapAt d n hn P b r q 1 2) (tapAt d n hn P b r q 2 2) (tapAt d n hn P b r q 3 2) (tapAt d n hn P b r q 4 2))
    (comb (tapAt d n hn P b r q 0 3) (tapAt d n hn P b r q 1 3) (tapAt d n hn P b r q 2 3) (tapAt d n hn P b r q 3 3) (tapAt d n hn P b r q 4 3))
    (comb (tapAt d n hn P b r q 0 4) (tapAt d n hn P b r q 1 4) (tapAt d n hn P b r q 2 4) (tapAt d n hn P b r q 3 4) (tapAt d n hn P b r q 4 4))

/-- The detail plane of the level: the interior of the padded input (offset `2 d` on both axes) less the smooth plane. -/
def lvlW (d n : Nat) (hn : n = 1024 + 4 * d) (P : PImg n) : Img := fun b r q =>
  tapAt d n hn P b r q 2 2 - lvlC d n hn P b r q

/-- A padded array of shape [8, n, n] by coordinates. -/
def toPImg (n : Nat) (x : (⟨3, ![8, n, n]⟩ : Shape).Idx → EReal) : PImg n := fun b r q => x (ix3 b r q)

/-- An image as an array of shape [8, 1024, 1024]. -/
def ofImg (g : Img) : (⟨3, ![8, 1024, 1024]⟩ : Shape).Idx → EReal := fun i => g (i 0) (i 1) (i 2)

theorem ofImg_ix3 (g : Img) (b : Fin 8) (r q : Fin 1024) : ofImg g (ix3 b r q) = g b r q := rfl

/-- What the level's two output arrays hold, as functions of its padded input ARRAY. -/
def regC (d n : Nat) (hn : n = 1024 + 4 * d) (x : (⟨3, ![8, n, n]⟩ : Shape).Idx → EReal) :
    (⟨3, ![8, 1024, 1024]⟩ : Shape).Idx → EReal := ofImg (lvlC d n hn (toPImg n x))
def regW (d n : Nat) (hn : n = 1024 + 4 * d) (x : (⟨3, ![8, n, n]⟩ : Shape).Idx → EReal) :
    (⟨3, ![8, 1024, 1024]⟩ : Shape).Idx → EReal := ofImg (lvlW d n hn (toPImg n x))

end Cert.Uwt

end
-- ==== Proof.Val0.lean ====
/-
  Level 0 (dilation 1, padded extent 1028): the value of the kernel's two output arrays.

  The body at a grid point reads its padded input block `x` (one plane, 1028 x 1028). Its scratch plane holds the pass
  along the rows, `H (r, col) = Σ_k' tap_k' · x (r + 1 k', col)`; the smooth plane is the pass along the columns,
  `S (r, q) = Σ_k tap_k · H (r, q + 1 k)`; the detail plane is `x (r + 2, q + 2) − S (r, q)`. Every five-term sum is
  taken left to right, so these are the specification's `lvlC` and `lvlW` of the block, entry by entry, with no algebra.
  Point `t` of the grid reads plane `t` of the padded array and writes plane `t` of each output array, and the eight
  planes cover the outputs: the arrays end holding `regW` and `regC` of the padded input array.
-/
import proofs.«173091_j34797825032656_2_alg».proof.Proof.Frame0
import proofs.«173091_j34797825032656_2_alg».proof.Proof.Spec
import Idealize.ShloMosaic.Lib.Pipeline.Value
import Idealize.ShloMosaic.Lib.Pipeline.FrameBody
import Idealize.ShloMosaic.Lib.ValueIdx
import Idealize.ShloMosaic.Lib.ValueLayout
import Idealize.ShloMosaic.Lib.Tactic

set_option maxRecDepth 16384

noncomputable section

namespace Cert.KernelIdeal.Reg

open Cert.KernelIdeal Cert.KernelIdeal.Gen Cert.Uwt
open Idealize.ShloMosaic Idealize.ShloMosaic.TcCoe Idealize.ShloMosaic.ValueIdx Idealize.ShloMosaic.Tactic
open Idealize.ShloMosaic.Pipeline (Dat Cfg Window)

/-! ## What the two stores leave, as payloads of loads of the input block -/

section
variable {F : FTy → Type} [FloatOps F]

theorem hz2_0 : (![0, 0] : Fin 2 → Nat) = fun _ => 0 := funext fun a => by fin_cases a <;> rfl
theorem hz3_0 : (![0, 0, 0] : Fin 3 → Nat) = fun _ => 0 := funext fun a => by fin_cases a <;> rfl

/-- The scratch plane after the pass along the rows, as a function of the padded input block: entry `(r, col)` combines
    the five entries `(r + 1 k', col)`, `k' = 0 … 4`, of the block. -/
def rows0 (x0 : Vec F S1x1028x1028 .f32) : FVec F S1024x1028 .f32 :=
  k0_pay4
    (View.ld x0 (Rect.unit (s := S1x1028x1028) ![0, 0, 0] S1x1024x1028.size inb_S1x1028x1028_S1x1024x1028_0_0_0))
    (View.ld x0 (Rect.unit (s := S1x1028x1028) ![0, 1, 0] S1x1024x1028.size inb_S1x1028x1028_S1x1024x1028_0_1_0))
    (View.ld x0 (Rect.unit (s := S1x1028x1028) ![0, 2, 0] S1x1024x1028.size inb_S1x1028x1028_S1x1024x1028_0_2_0))
    (View.ld x0 (Rect.unit (s := S1x1028x1028) ![0, 3, 0] S1x1024x1028.size inb_S1x1028x1028_S1x1024x1028_0_3_0))
    (View.ld x0 (Rect.unit (s := S1x1028x1028) ![0, 4, 0] S1x1024x1028.size inb_S1x1028x1028_S1x1024x1028_0_4_0))

/-- The smooth plane's buffer after the body: the pass along the columns of the scratch plane. -/
theorem out0_2_eq (c : Dev nD) (i : grid0.Coords)
    (arg1 : Memref sig .tc .vmem S1x1028x1028 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1028 .f32) (harg4 : arg4.IsWhole)
    (x0 : Vec F S1x1028x1028 .f32) :
    out0_2 c i arg1 harg1 arg2 harg2 arg3 harg3 arg4 harg4 x0 =
      k0_pay3
        (k0_pay5 (View.ld (rows0 x0) (Rect.unit (s := S1024x1028) ![0, 0] S1024x1024.size inb_S1024x1028_S1024x1024_0_0)))
        (View.ld (rows0 x0) (Rect.unit (s := S1024x1028) ![0, 1] S1024x1024.size inb_S1024x1028_S1024x1024_0_1))
        (View.ld (rows0 x0) (Rect.unit (s := S1024x1028) ![0, 2] S1024x1024.size inb_S1024x1028_S1024x1024_0_2))
        (View.ld (rows0 x0) (Rect.unit (s := S1024x1028) ![0, 3] S1024x1024.size inb_S1024x1028_S1024x1024_0_3))
        (View.ld (rows0 x0) (Rect.unit (s := S1024x1028) ![0, 4] S1024x1024.size inb_S1024x1028_S1024x1024_0_4)) := by
  unfold out0_2
  rw [View.read_writes_junk_eq_canon]
  unfold kernelRun0
  dsimp only
  sl_unfold_run_names
  rw [View.canon_unit_zero hz3_0]
  simp only [View.readCov_eq_canon', View.canon_unit_zero (S := S1024x1028) hz2_0, View.readAt_eq_ld, harg1.read_unread]
  rfl

/-- The detail plane's buffer after the body: the block's interior less the smooth plane. -/
theorem out0_1_eq (c : Dev nD) (i : grid0.Coords)
    (arg1 : Memref sig .tc .vmem S1x1028x1028 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1028 .f32) (harg4 : arg4.IsWhole)
    (x0 : Vec F S1x1028x1028 .f32) :
    out0_1 c i arg1 harg1 arg2 harg2 arg3 harg3 arg4 harg4 x0 =
      k0_pay2
        (k0_pay5 (View.ld (rows0 x0) (Rect.unit (s := S1024x1028) ![0, 0] S1024x1024.size inb_S1024x1028_S1024x1024_0_0)))
        (View.ld (rows0 x0) (Rect.unit (s := S1024x1028) ![0, 1] S1024x1024.size inb_S1024x1028_S1024x1024_0_1))
        (View.ld (rows0 x0) (Rect.unit (s := S1024x1028) ![0, 2] S1024x1024.size inb_S1024x1028_S1024x1024_0_2))
        (View.ld (rows0 x0) (Rect.unit (s := S1024x1028) ![0, 3] S1024x1024.size inb_S1024x1028_S1024x1024_0_3))
        (View.ld (rows0 x0) (Rect.unit (s := S1024x1028) ![0, 4] S1024x1024.size inb_S1024x1028_S1024x1024_0_4))
        (View.ld x0 (Rect.unit (s := S1x1028x1028) ![0, 2, 2] S1x1024x1024.size inb_S1x1028x1028_S1x1024x1024_0_2_2)) := by
  unfold out0_1
  rw [View.read_writes_junk_eq_canon]
  unfold kernelRun0
  dsimp only
  sl_unfold_run_names
  rw [View.canon_unit_zero hz3_0]
  simp only [View.readCov_eq_canon', View.canon_unit_zero (S := S1024x1028) hz2_0, View.readAt_eq_ld, harg1.read_unread]
  rfl

end

/-! ## The payloads at an index, over the extended reals -/

/-- A five-term combination of planes with the printed taps, at an index, is the combination of the entries. -/
theorem comb5_apply0 {s : Shape} (a0 a1 a2 a3 a4 : FVec Ideal s .f32) (j : s.Idx) :
    addf (addf (addf (addf (mulf (broadcast s (Scalar.ofBits (F := Ideal) .f32 0x3D800000#32)) a0)
        (mulf (broadcast s (Scalar.ofBits (F := Ideal) .f32 0x3E800000#32)) a1))
        (mulf (broadcast s (Scalar.ofBits (F := Ideal) .f32 0x3EC00000#32)) a2))
        (mulf (broadcast s (Scalar.ofBits (F := Ideal) .f32 0x3E800000#32)) a3))
        (mulf (broadcast s (Scalar.ofBits (F := Ideal) .f32 0x3D800000#32)) a4) j
      = comb (a0 j) (a1 j) (a2 j) (a3 j) (a4 j) := rfl

theorem comb_congr0 {a0 a1 a2 a3 a4 b0 b1 b2 b3 b4 : EReal} (h0 : a0 = b0) (h1 : a1 = b1) (h2 : a2 = b2) (h3 : a3 = b3)
    (h4 : a4 = b4) : comb a0 a1 a2 a3 a4 = comb b0 b1 b2 b3 b4 := by subst h0 h1 h2 h3 h4; rfl

/-- A load of 1024 rows of the padded block from row `k` on reads, at `(r, col)`, the block's entry `(r + k, col)`. -/
theorem ld_row0 (x0 : Vec Ideal S1x1028x1028 .f32) (k : Nat)
    (inb : ∀ a, (![0, k, 0] : Fin 3 → Nat) a + S1x1024x1028.size a ≤ S1x1028x1028.size a)
    (r : Fin 1024) (col p : Fin 1028) (hp : p.val = r.val + k) :
    View.ld x0 (Rect.unit (s := S1x1028x1028) ![0, k, 0] S1x1024x1028.size inb) (ix3 (0 : Fin 1) r col)
      = x0 (ix3 (0 : Fin 1) p col) := by
  show x0 _ = x0 _
  congr 1
  funext a
  apply Fin.ext
  match a with
  | ⟨0, _⟩ => rfl
  | ⟨1, _⟩ => show k + 1 * r.val = p.val; omega
  | ⟨2, _⟩ => show 0 + 1 * col.val = col.val; omega

/-- A load of 1024 columns of the scratch plane from column `k` on reads, at `(r, q)`, the plane's entry `(r, q + k)`. -/
theorem ld_col0 (H : Vec Ideal S1024x1028 .f32) (k : Nat)
    (inb : ∀ a, (![0, k] : Fin 2 → Nat) a + S1024x1024.size a ≤ S1024x1028.size a)
    (r q : Fin 1024) (p : Fin 1028) (hp : p.val = q.val + k) :
    View.ld (Val := Elt Ideal) H (Rect.unit (s := S1024x1028) ![0, k] S1024x1024.size inb) (ix2 r q) = H (ix2 r p) := by
  show H _ = H _
  congr 1
  funext a
  apply Fin.ext
  match a with
  | ⟨0, _⟩ => show 0 + 1 * r.val = r.val; omega
  | ⟨1, _⟩ => show k + 1 * q.val = p.val; omega

/-- The load of the block's interior reads, at `(r, q)`, the block's entry `(r + 2, q + 2)`. -/
theorem ld_int0 (x0 : Vec Ideal S1x1028x1028 .f32)
    (inb : ∀ a, (![0, 2, 2] : Fin 3 → Nat) a + S1x1024x1024.size a ≤ S1x1028x1028.size a)
    (r q : Fin 1024) (p p' : Fin 1028) (hp : p.val = r.val + 2) (hp' : p'.val = q.val + 2) :
    View.ld x0 (Rect.unit (s := S1x1028x1028) ![0, 2, 2] S1x1024x1024.size inb) (ix3 (0 : Fin 1) r q)
      = x0 (ix3 (0 : Fin 1) p p') := by
  show x0 _ = x0 _
  congr 1
  funext a
  apply Fin.ext
  match a with
  | ⟨0, _⟩ => rfl
  | ⟨1, _⟩ => show 2 + 1 * r.val = p.val; omega
  | ⟨2, _⟩ => show 2 + 1 * q.val = p'.val; omega

/-- The scratch plane at `(r, q + 1 k)`: the five row taps of the padded block at column offset `k`. -/
theorem rows0_apply (x0 : Vec Ideal S1x1028x1028 .f32) (P : PImg 1028) (b : Fin 8)
    (hP : ∀ p q', x0 (ix3 (0 : Fin 1) p q') = P b p q')
    (r q : Fin 1024) (k : Fin 5) (h : q.val + k.val * 1 < 1028) :
    rows0 x0 (ix2 r ⟨q.val + k.val * 1, h⟩)
      = comb (tapAt 1 1028 rfl P b r q 0 k) (tapAt 1 1028 rfl P b r q 1 k) (tapAt 1 1028 rfl P b r q 2 k)
          (tapAt 1 1028 rfl P b r q 3 k) (tapAt 1 1028 rfl P b r q 4 k) := by
  have hr := r.isLt
  unfold rows0 k0_pay4
  dsimp only
  refine (congrFun (shapeCast_self _ _) _).trans ?_
  refine (comb5_apply0 _ _ _ _ _ _).trans ?_
  refine comb_congr0 ?_ ?_ ?_ ?_ ?_
  · exact ((shapeCast_1ab_ab_apply _ _ r _).trans (ld_row0 x0 0 _ r _ ⟨r.val + (0 : Fin 5).val * 1, by show r.val + 0 * 1 < 1028; omega⟩ rfl)).trans (hP _ _)
  · exact ((shapeCast_1ab_ab_apply _ _ r _).trans (ld_row0 x0 1 _ r _ ⟨r.val + (1 : Fin 5).val * 1, by show r.val + 1 * 1 < 1028; omega⟩ rfl)).trans (hP _ _)
  · exact ((shapeCast_1ab_ab_apply _ _ r _).trans (ld_row0 x0 2 _ r _ ⟨r.val + (2 : Fin 5).val * 1, by show r.val + 2 * 1 < 1028; omega⟩ rfl)).trans (hP _ _)
  · exact ((shapeCast_1ab_ab_apply _ _ r _).trans (ld_row0 x0 3 _ r _ ⟨r.val + (3 : Fin 5).val * 1, by show r.val + 3 * 1 < 1028; omega⟩ rfl)).trans (hP _ _)
  · exact ((shapeCast_1ab_ab_apply _ _ r _).trans (ld_row0 x0 4 _ r _ ⟨r.val + (4 : Fin 5).val * 1, by show r.val + 4 * 1 < 1028; omega⟩ rfl)).trans (hP _ _)

/-- The smooth plane at `(r, q)`: the five column taps of the scratch plane, each the five row taps of the padded block. -/
theorem smooth0_apply (x0 : Vec Ideal S1x1028x1028 .f32) (P : PImg 1028) (b : Fin 8)
    (hP : ∀ p q', x0 (ix3 (0 : Fin 1) p q') = P b p q') (r q : Fin 1024) :
    k0_pay1 (F := Ideal) (k0_pay5 (F := Ideal) (View.ld (Val := Elt Ideal) (rows0 x0) (Rect.unit (s := S1024x1028) ![0, 0] S1024x1024.size inb_S1024x1028_S1024x1024_0_0)))
        (View.ld (Val := Elt Ideal) (rows0 x0) (Rect.unit (s := S1024x1028) ![0, 1] S1024x1024.size inb_S1024x1028_S1024x1024_0_1))
        (View.ld (Val := Elt Ideal) (rows0 x0) (Rect.unit (s := S1024x1028) ![0, 2] S1024x1024.size inb_S1024x1028_S1024x1024_0_2))
        (View.ld (Val := Elt Ideal) (rows0 x0) (Rect.unit (s := S1024x1028) ![0, 3] S1024x1024.size inb_S1024x1028_S1024x1024_0_3))
        (View.ld (Val := Elt Ideal) (rows0 x0) (Rect.unit (s := S1024x1028) ![0, 4] S1024x1024.size inb_S1024x1028_S1024x1024_0_4)) (ix2 r q)
      = lvlC 1 1028 rfl P b r q := by
  have hq := q.isLt
  unfold k0_pay1 k0_pay5
  dsimp only
  refine (comb5_apply0 _ _ _ _ _ _).trans ?_
  unfold lvlC
  refine comb_congr0 ?_ ?_ ?_ ?_ ?_
  · exact (ld_col0 (rows0 x0) 0 _ r q ⟨q.val + (0 : Fin 5).val * 1, by show q.val + 0 * 1 < 1028; omega⟩ rfl).trans (rows0_apply x0 P b hP r q 0 _)
  · exact (ld_col0 (rows0 x0) 1 _ r q ⟨q.val + (1 : Fin 5).val * 1, by show q.val + 1 * 1 < 1028; omega⟩ rfl).trans (rows0_apply x0 P b hP r q 1 _)
  · exact (ld_col0 (rows0 x0) 2 _ r q ⟨q.val + (2 : Fin 5).val * 1, by show q.val + 2 * 1 < 1028; omega⟩ rfl).trans (rows0_apply x0 P b hP r q 2 _)
  · exact (ld_col0 (rows0 x0) 3 _ r q ⟨q.val + (3 : Fin 5).val * 1, by show q.val + 3 * 1 < 1028; omega⟩ rfl).trans (rows0_apply x0 P b hP r q 3 _)
  · exact (ld_col0 (rows0 x0) 4 _ r q ⟨q.val + (4 : Fin 5).val * 1, by show q.val + 4 * 1 < 1028; omega⟩ rfl).trans (rows0_apply x0 P b hP r q 4 _)

/-- The smooth plane's buffer after the body, entry `(r, q)`: `lvlC` of any padded batch whose plane `b` is the block. -/
theorem out0_2_apply (c : Dev nD) (i : grid0.Coords)
    (arg1 : Memref sig .tc .vmem S1x1028x1028 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1028 .f32) (harg4 : arg4.IsWhole)
    (x0 : Vec Ideal S1x1028x1028 .f32) (P : PImg 1028) (b : Fin 8)
    (hP : ∀ p q', x0 (ix3 (0 : Fin 1) p q') = P b p q') (r q : Fin 1024) :
    out0_2 (F := Ideal) c i arg1 harg1 arg2 harg2 arg3 harg3 arg4 harg4 x0 (ix3 (0 : Fin 1) r q) = lvlC 1 1028 rfl P b r q := by
  rw [out0_2_eq]
  unfold k0_pay3
  dsimp only
  exact (shapeCast_ab_1ab_apply _ _ 0 r q).trans (smooth0_apply x0 P b hP r q)

/-- The detail plane's buffer after the body, entry `(r, q)`: `lvlW` of any padded batch whose plane `b` is the block. -/
theorem out0_1_apply (c : Dev nD) (i : grid0.Coords)
    (arg1 : Memref sig .tc .vmem S1x1028x1028 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1028 .f32) (harg4 : arg4.IsWhole)
    (x0 : Vec Ideal S1x1028x1028 .f32) (P : PImg 1028) (b : Fin 8)
    (hP : ∀ p q', x0 (ix3 (0 : Fin 1) p q') = P b p q') (r q : Fin 1024) :
    out0_1 (F := Ideal) c i arg1 harg1 arg2 harg2 arg3 harg3 arg4 harg4 x0 (ix3 (0 : Fin 1) r q) = lvlW 1 1028 rfl P b r q := by
  have hr := r.isLt
  have hq := q.isLt
  rw [out0_1_eq]
  unfold k0_pay2
  dsimp only
  refine (shapeCast_ab_1ab_apply _ _ 0 r q).trans ?_
  refine (subf_apply _ _ _).trans ?_
  unfold lvlW
  refine congrArg₂ (· - ·) ?_ (smooth0_apply x0 P b hP r q)
  exact ((shapeCast_1ab_ab_apply _ _ r q).trans (ld_int0 x0 _ r q
    ⟨r.val + (2 : Fin 5).val * 1, by show r.val + 2 * 1 < 1028; omega⟩
    ⟨q.val + (2 : Fin 5).val * 1, by show q.val + 2 * 1 < 1028; omega⟩ rfl rfl)).trans (hP _ _)

/-- The same at any index of the block, by its coordinates. -/
theorem out0_2_idx (c : Dev nD) (i : grid0.Coords)
    (arg1 : Memref sig .tc .vmem S1x1028x1028 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1028 .f32) (harg4 : arg4.IsWhole)
    (x0 : Vec Ideal S1x1028x1028 .f32) (P : PImg 1028) (b : Fin 8)
    (hP : ∀ p q', x0 (ix3 (0 : Fin 1) p q') = P b p q') (j : S1x1024x1024.Idx) :
    out0_2 (F := Ideal) c i arg1 harg1 arg2 harg2 arg3 harg3 arg4 harg4 x0 j = lvlC 1 1028 rfl P b (j 1) (j 2) := by
  obtain ⟨u, r, q, rfl⟩ : ∃ (u : Fin 1) (r q : Fin 1024), j = ix3 u r q := ⟨j 0, j 1, j 2, eq_ix3 j⟩
  obtain rfl : u = 0 := Subsingleton.elim _ _
  exact out0_2_apply c i arg1 harg1 arg2 harg2 arg3 harg3 arg4 harg4 x0 P b hP r q

theorem out0_1_idx (c : Dev nD) (i : grid0.Coords)
    (arg1 : Memref sig .tc .vmem S1x1028x1028 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1028 .f32) (harg4 : arg4.IsWhole)
    (x0 : Vec Ideal S1x1028x1028 .f32) (P : PImg 1028) (b : Fin 8)
    (hP : ∀ p q', x0 (ix3 (0 : Fin 1) p q') = P b p q') (j : S1x1024x1024.Idx) :
    out0_1 (F := Ideal) c i arg1 harg1 arg2 harg2 arg3 harg3 arg4 harg4 x0 j = lvlW 1 1028 rfl P b (j 1) (j 2) := by
  obtain ⟨u, r, q, rfl⟩ : ∃ (u : Fin 1) (r q : Fin 1024), j = ix3 u r q := ⟨j 0, j 1, j 2, eq_ix3 j⟩
  obtain rfl : u = 0 := Subsingleton.elim _ _
  exact out0_1_apply c i arg1 harg1 arg2 harg2 arg3 harg3 arg4 harg4 x0 P b hP r q

/-! ## From the blocks to the arrays -/

section
variable (V : (c : Dev nD) → (b : Ref sig .tc) → Buf (Elt Ideal) ((c : Thread nD τ).loc b))

/-- The printed index maps over the grid: point `t` takes plane `t` of each window's array, whole. -/
theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The input block at point `t` is plane `t` of the padded input array. -/
theorem iblk0_apply (c : Dev nD) (t : Fin cfg0.N) (bt : Fin 8) (hb : bt.val = t.val) (p q' : Fin 1028) :
    (iblk0 V c 0 t : Vec Ideal S1x1028x1028 .f32) (ix3 (0 : Fin 1) p q')
      = toPImg 1028 (V c main_v0) bt p q' := by
  obtain ⟨e0, e1, e2, -⟩ := idx_facts0 t
  unfold iblk0 toPImg
  rw [View.read_apply]
  show V c main_v0 _ = V c main_v0 _
  congr 1
  funext a
  apply Fin.ext
  match a with
  | ⟨0, _⟩ => show win0_0.index t (0 : Fin 3) * 1 + 1 * 0 = bt.val; rw [e0, hb]; omega
  | ⟨1, _⟩ => show win0_0.index t (1 : Fin 3) * 1028 + 1 * p.val = p.val; rw [e1]; omega
  | ⟨2, _⟩ => show win0_0.index t (2 : Fin 3) * 1028 + 1 * q'.val = q'.val; rw [e2]; omega

/-- An image read through an output window's block at point `t` is its plane `t`. -/
theorem read_blk0_1 (t : Fin cfg0.N) (bt : Fin 8) (hb : bt.val = t.val) (G : Img) (j : S1x1024x1024.Idx) :
    ((cfg0.win 1).blk t).view.read (Elt Ideal) (ofImg G) j = G bt (j 1) (j 2) := by
  obtain ⟨-, -, -, e0, e1, e2, -⟩ := idx_facts0 t
  have h0 : (j 0).val < 1 := (j 0).isLt
  have a0 : (((cfg0.win 1).blk t).view.emb j 0 : Fin 8) = bt :=
    Fin.ext (by show win0_1.index t (0 : Fin 3) * 1 + 1 * (j 0).val = bt.val; rw [e0, hb]; omega)
  have a1 : (((cfg0.win 1).blk t).view.emb j 1 : Fin 1024) = j 1 :=
    Fin.ext (by show win0_1.index t (1 : Fin 3) * 1024 + 1 * (j 1).val = (j 1).val; rw [e1]; omega)
  have a2 : (((cfg0.win 1).blk t).view.emb j 2 : Fin 1024) = j 2 :=
    Fin.ext (by show win0_1.index t (2 : Fin 3) * 1024 + 1 * (j 2).val = (j 2).val; rw [e2]; omega)
  rw [View.read_apply]
  exact congr (congr (congrArg G a0) a1) a2

theorem read_blk0_2 (t : Fin cfg0.N) (bt : Fin 8) (hb : bt.val = t.val) (G : Img) (j : S1x1024x1024.Idx) :
    ((cfg0.win 2).blk t).view.read (Elt Ideal) (ofImg G) j = G bt (j 1) (j 2) := by
  obtain ⟨-, -, -, -, -, -, e0, e1, e2⟩ := idx_facts0 t
  have h0 : (j 0).val < 1 := (j 0).isLt
  have a0 : (((cfg0.win 2).blk t).view.emb j 0 : Fin 8) = bt :=
    Fin.ext (by show win0_2.index t (0 : Fin 3) * 1 + 1 * (j 0).val = bt.val; rw [e0, hb]; omega)
  have a1 : (((cfg0.win 2).blk t).view.emb j 1 : Fin 1024) = j 1 :=
    Fin.ext (by show win0_2.index t (1 : Fin 3) * 1024 + 1 * (j 1).val = (j 1).val; rw [e1]; omega)
  have a2 : (((cfg0.win 2).blk t).view.emb j 2 : Fin 1024) = j 2 :=
    Fin.ext (by show win0_2.index t (2 : Fin 3) * 1024 + 1 * (j 2).val = (j 2).val; rw [e2]; omega)
  rw [View.read_apply]
  exact congr (congr (congrArg G a0) a1) a2

/-- What point `t` writes back to the detail array is block `t` of `regW` of the padded input array. -/
theorem flushed0_1_eq (c : Dev nD) (t : Fin cfg0.N) :
    (dat0 V c).flushed 1 t = ((cfg0.win 1).blk t).view.read (Elt Ideal) (regW 1 1028 rfl (V c main_v0)) := by
  have hN : t.val < 8 := Nat.lt_of_lt_of_eq t.isLt N_0
  show (cfg0.win 1).cut (grid0.coords t) ((dat0 V c).after 1 t) = _
  rw [after0_1]
  funext j
  refine Eq.trans ?_ (read_blk0_1 t ⟨t.val, hN⟩ rfl (lvlW 1 1028 rfl (toPImg 1028 (V c main_v0))) j).symm
  exact out0_1_idx c (grid0.coords t) (ms0_0 t) (hs0_0 t) (ms0_1 t) (hs0_1 t) (ms0_2 t) (hs0_2 t) msS0 hsS0 (iblk0 V c 0 t)
    (toPImg 1028 (V c main_v0)) ⟨t.val, hN⟩ (iblk0_apply V c t ⟨t.val, hN⟩ rfl) j

/-- What point `t` writes back to the smooth array is block `t` of `regC` of the padded input array. -/
theorem flushed0_2_eq (c : Dev nD) (t : Fin cfg0.N) :
    (dat0 V c).flushed 2 t = ((cfg0.win 2).blk t).view.read (Elt Ideal) (regC 1 1028 rfl (V c main_v0)) := by
  have hN : t.val < 8 := Nat.lt_of_lt_of_eq t.isLt N_0
  show (cfg0.win 2).cut (grid0.coords t) ((dat0 V c).after 2 t) = _
  rw [after0_2]
  funext j
  refine Eq.trans ?_ (read_blk0_2 t ⟨t.val, hN⟩ rfl (lvlC 1 1028 rfl (toPImg 1028 (V c main_v0))) j).symm
  exact out0_2_idx c (grid0.coords t) (ms0_0 t) (hs0_0 t) (ms0_1 t) (hs0_1 t) (ms0_2 t) (hs0_2 t) msS0 hsS0 (iblk0 V c 0 t)
    (toPImg 1028 (V c main_v0)) ⟨t.val, hN⟩ (iblk0_apply V c t ⟨t.val, hN⟩ rfl) j

/-- An index of an output array is in point `t`'s block iff each coordinate is in the block's range on its axis. -/
theorem mem_blk0_1 (t : Fin cfg0.N) (i : S8x1024x1024.Idx) :
    i ∈ ((cfg0.win 1).blk t).view.set ↔ ∀ a : Fin 3, win0_1.index t a * S1x1024x1024.size a ≤ (i a).val ∧ (i a).val < win0_1.index t a * S1x1024x1024.size a + S1x1024x1024.size a := by
  show i ∈ ((View.whole main_v1_0).slice (win0_1.rect t)).set ↔ _
  rw [View.set_slice_whole, Rect.mem_set_unit]
  exact Iff.rfl

theorem mem_blk0_2 (t : Fin cfg0.N) (i : S8x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v1_1).slice (win0_2.rect t)).set ↔ _
  rw [View.set_slice_whole, Rect.mem_set_unit]
  exact Iff.rfl

/-- Index `(b, r, q)` of an output array is in the block of point `b`. -/
theorem covered0_1 (i : S8x1024x1024.Idx) : ∃ t : Fin cfg0.N, (cfg0.win 1).flush t = true ∧ i ∈ ((cfg0.win 1).blk t).view.set := by
  have h0 : (i 0).val < 8 := (i 0).isLt
  have h1 : (i 1).val < 1024 := (i 1).isLt
  have h2 : (i 2).val < 1024 := (i 2).isLt
  obtain ⟨t, ht⟩ : ∃ t : Fin cfg0.N, t.val = (i 0).val := ⟨⟨(i 0).val, Nat.lt_of_lt_of_eq h0 N_0.symm⟩, rfl⟩
  obtain ⟨-, -, -, e0, e1, e2, -⟩ := idx_facts0 t
  refine ⟨t, flush0_1 t, ?_⟩
  rw [mem_blk0_1]
  intro a
  match a with
  | ⟨0, _⟩ => show win0_1.index t (0 : Fin 3) * 1 ≤ (i 0).val ∧ (i 0).val < win0_1.index t (0 : Fin 3) * 1 + 1; rw [e0, ht]; omega
  | ⟨1, _⟩ => show win0_1.index t (1 : Fin 3) * 1024 ≤ (i 1).val ∧ (i 1).val < win0_1.index t (1 : Fin 3) * 1024 + 1024; rw [e1]; omega
  | ⟨2, _⟩ => show win0_1.index t (2 : Fin 3) * 1024 ≤ (i 2).val ∧ (i 2).val < win0_1.index t (2 : Fin 3) * 1024 + 1024; rw [e2]; omega

theorem covered0_2 (i : S8x1024x1024.Idx) : ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 1024 := (i 2).isLt
  obtain ⟨t, ht⟩ : ∃ t : Fin cfg0.N, t.val = (i 0).val := ⟨⟨(i 0).val, Nat.lt_of_lt_of_eq h0 N_0.symm⟩, rfl⟩
  obtain ⟨-, -, -, -, -, -, e0, e1, e2⟩ := idx_facts0 t
  refine ⟨t, flush0_2 t, ?_⟩
  rw [mem_blk0_2]
  intro a
  match a with
  | ⟨0, _⟩ => show win0_2.index t (0 : Fin 3) * 1 ≤ (i 0).val ∧ (i 0).val < win0_2.index t (0 : Fin 3) * 1 + 1; rw [e0, ht]; omega
  | ⟨1, _⟩ => show win0_2.index t (1 : Fin 3) * 1024 ≤ (i 1).val ∧ (i 1).val < win0_2.index t (1 : Fin 3) * 1024 + 1024; rw [e1]; omega
  | ⟨2, _⟩ => show win0_2.index t (2 : Fin 3) * 1024 ≤ (i 2).val ∧ (i 2).val < win0_2.index t (2 : Fin 3) * 1024 + 1024; rw [e2]; omega

/-- After the region the detail array holds `regW` of the padded input array. -/
theorem arr0_W (c : Dev nD) :
    ((dat0 V c).arrAt 1 cfg0.N : S8x1024x1024.Idx → EReal) = Cert.Uwt.regW 1 1028 rfl (V c main_v0) :=
  (dat0 V c).arrAt_eq_of_cover 1 (regW 1 1028 rfl (V c main_v0)) (fun t _ => flushed0_1_eq V c t) covered0_1

/-- After the region the smooth array holds `regC` of the padded input array. -/
theorem arr0_C (c : Dev nD) :
    ((dat0 V c).arrAt 2 cfg0.N : S8x1024x1024.Idx → EReal) = Cert.Uwt.regC 1 1028 rfl (V c main_v0) :=
  (dat0 V c).arrAt_eq_of_cover 2 (regC 1 1028 rfl (V c main_v0)) (fun t _ => flushed0_2_eq V c t) covered0_2

end

end Cert.KernelIdeal.Reg

end
-- ==== Proof.Val1.lean ====
/-
  Level 1 (dilation 2, padded extent 1032): the value of the kernel's two output arrays.

  The body at a grid point reads its padded input block `x` (one plane, 1032 x 1032). Its scratch plane holds the pass
  along the rows, `H (r, col) = Σ_k' tap_k' · x (r + 2 k', col)`; the smooth plane is the pass along the columns,
  `S (r, q) = Σ_k tap_k · H (r, q + 2 k)`; the detail plane is `x (r + 4, q + 4) − S (r, q)`. Every five-term sum is
  taken left to right, so these are the specification's `lvlC` and `lvlW` of the block, entry by entry, with no algebra.
  Point `t` of the grid reads plane `t` of the padded array and writes plane `t` of each output array, and the eight
  planes cover the outputs: the arrays end holding `regW` and `regC` of the padded input array.
-/
import proofs.«173091_j34797825032656_2_alg».proof.Proof.Frame1
import proofs.«173091_j34797825032656_2_alg».proof.Proof.Spec
import Idealize.ShloMosaic.Lib.Pipeline.Value
import Idealize.ShloMosaic.Lib.Pipeline.FrameBody
import Idealize.ShloMosaic.Lib.ValueIdx
import Idealize.ShloMosaic.Lib.ValueLayout
import Idealize.ShloMosaic.Lib.Tactic

set_option maxRecDepth 16384

noncomputable section

namespace Cert.KernelIdeal.Reg

open Cert.KernelIdeal Cert.KernelIdeal.Gen Cert.Uwt
open Idealize.ShloMosaic Idealize.ShloMosaic.TcCoe Idealize.ShloMosaic.ValueIdx Idealize.ShloMosaic.Tactic
open Idealize.ShloMosaic.Pipeline (Dat Cfg Window)

/-! ## What the two stores leave, as payloads of loads of the input block -/

section
variable {F : FTy → Type} [FloatOps F]

theorem hz2_1 : (![0, 0] : Fin 2 → Nat) = fun _ => 0 := funext fun a => by fin_cases a <;> rfl
theorem hz3_1 : (![0, 0, 0] : Fin 3 → Nat) = fun _ => 0 := funext fun a => by fin_cases a <;> rfl

/-- The scratch plane after the pass along the rows, as a function of the padded input block: entry `(r, col)` combines
    the five entries `(r + 2 k', col)`, `k' = 0 … 4`, of the block. -/
def rows1 (x0 : Vec F S1x1032x1032 .f32) : FVec F S1024x1032 .f32 :=
  k1_pay4
    (View.ld x0 (Rect.unit (s := S1x1032x1032) ![0, 0, 0] S1x1024x1032.size inb_S1x1032x1032_S1x1024x1032_0_0_0))
    (View.ld x0 (Rect.unit (s := S1x1032x1032) ![0, 2, 0] S1x1024x1032.size inb_S1x1032x1032_S1x1024x1032_0_2_0))
    (View.ld x0 (Rect.unit (s := S1x1032x1032) ![0, 4, 0] S1x1024x1032.size inb_S1x1032x1032_S1x1024x1032_0_4_0))
    (View.ld x0 (Rect.unit (s := S1x1032x1032) ![0, 6, 0] S1x1024x1032.size inb_S1x1032x1032_S1x1024x1032_0_6_0))
    (View.ld x0 (Rect.unit (s := S1x1032x1032) ![0, 8, 0] S1x1024x1032.size inb_S1x1032x1032_S1x1024x1032_0_8_0))

/-- The smooth plane's buffer after the body: the pass along the columns of the scratch plane. -/
theorem out1_2_eq (c : Dev nD) (i : grid1.Coords)
    (arg1 : Memref sig .tc .vmem S1x1032x1032 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1032 .f32) (harg4 : arg4.IsWhole)
    (x0 : Vec F S1x1032x1032 .f32) :
    out1_2 c i arg1 harg1 arg2 harg2 arg3 harg3 arg4 harg4 x0 =
      k1_pay3
        (k1_pay5 (View.ld (rows1 x0) (Rect.unit (s := S1024x1032) ![0, 0] S1024x1024.size inb_S1024x1032_S1024x1024_0_0)))
        (View.ld (rows1 x0) (Rect.unit (s := S1024x1032) ![0, 2] S1024x1024.size inb_S1024x1032_S1024x1024_0_2))
        (View.ld (rows1 x0) (Rect.unit (s := S1024x1032) ![0, 4] S1024x1024.size inb_S1024x1032_S1024x1024_0_4))
        (View.ld (rows1 x0) (Rect.unit (s := S1024x1032) ![0, 6] S1024x1024.size inb_S1024x1032_S1024x1024_0_6))
        (View.ld (rows1 x0) (Rect.unit (s := S1024x1032) ![0, 8] S1024x1024.size inb_S1024x1032_S1024x1024_0_8)) := by
  unfold out1_2
  rw [View.read_writes_junk_eq_canon]
  unfold kernelRun1
  dsimp only
  sl_unfold_run_names
  rw [View.canon_unit_zero hz3_1]
  simp only [View.readCov_eq_canon', View.canon_unit_zero (S := S1024x1032) hz2_1, View.readAt_eq_ld, harg1.read_unread]
  rfl

/-- The detail plane's buffer after the body: the block's interior less the smooth plane. -/
theorem out1_1_eq (c : Dev nD) (i : grid1.Coords)
    (arg1 : Memref sig .tc .vmem S1x1032x1032 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1032 .f32) (harg4 : arg4.IsWhole)
    (x0 : Vec F S1x1032x1032 .f32) :
    out1_1 c i arg1 harg1 arg2 harg2 arg3 harg3 arg4 harg4 x0 =
      k1_pay2
        (k1_pay5 (View.ld (rows1 x0) (Rect.unit (s := S1024x1032) ![0, 0] S1024x1024.size inb_S1024x1032_S1024x1024_0_0)))
        (View.ld (rows1 x0) (Rect.unit (s := S1024x1032) ![0, 2] S1024x1024.size inb_S1024x1032_S1024x1024_0_2))
        (View.ld (rows1 x0) (Rect.unit (s := S1024x1032) ![0, 4] S1024x1024.size inb_S1024x1032_S1024x1024_0_4))
        (View.ld (rows1 x0) (Rect.unit (s := S1024x1032) ![0, 6] S1024x1024.size inb_S1024x1032_S1024x1024_0_6))
        (View.ld (rows1 x0) (Rect.unit (s := S1024x1032) ![0, 8] S1024x1024.size inb_S1024x1032_S1024x1024_0_8))
        (View.ld x0 (Rect.unit (s := S1x1032x1032) ![0, 4, 4] S1x1024x1024.size inb_S1x1032x1032_S1x1024x1024_0_4_4)) := by
  unfold out1_1
  rw [View.read_writes_junk_eq_canon]
  unfold kernelRun1
  dsimp only
  sl_unfold_run_names
  rw [View.canon_unit_zero hz3_1]
  simp only [View.readCov_eq_canon', View.canon_unit_zero (S := S1024x1032) hz2_1, View.readAt_eq_ld, harg1.read_unread]
  rfl

end

/-! ## The payloads at an index, over the extended reals -/

/-- A five-term combination of planes with the printed taps, at an index, is the combination of the entries. -/
theorem comb5_apply1 {s : Shape} (a0 a1 a2 a3 a4 : FVec Ideal s .f32) (j : s.Idx) :
    addf (addf (addf (addf (mulf (broadcast s (Scalar.ofBits (F := Ideal) .f32 0x3D800000#32)) a0)
        (mulf (broadcast s (Scalar.ofBits (F := Ideal) .f32 0x3E800000#32)) a1))
        (mulf (broadcast s (Scalar.ofBits (F := Ideal) .f32 0x3EC00000#32)) a2))
        (mulf (broadcast s (Scalar.ofBits (F := Ideal) .f32 0x3E800000#32)) a3))
        (mulf (broadcast s (Scalar.ofBits (F := Ideal) .f32 0x3D800000#32)) a4) j
      = comb (a0 j) (a1 j) (a2 j) (a3 j) (a4 j) := rfl

theorem comb_congr1 {a0 a1 a2 a3 a4 b0 b1 b2 b3 b4 : EReal} (h0 : a0 = b0) (h1 : a1 = b1) (h2 : a2 = b2) (h3 : a3 = b3)
    (h4 : a4 = b4) : comb a0 a1 a2 a3 a4 = comb b0 b1 b2 b3 b4 := by subst h0 h1 h2 h3 h4; rfl

/-- A load of 1024 rows of the padded block from row `k` on reads, at `(r, col)`, the block's entry `(r + k, col)`. -/
theorem ld_row1 (x0 : Vec Ideal S1x1032x1032 .f32) (k : Nat)
    (inb : ∀ a, (![0, k, 0] : Fin 3 → Nat) a + S1x1024x1032.size a ≤ S1x1032x1032.size a)
    (r : Fin 1024) (col p : Fin 1032) (hp : p.val = r.val + k) :
    View.ld x0 (Rect.unit (s := S1x1032x1032) ![0, k, 0] S1x1024x1032.size inb) (ix3 (0 : Fin 1) r col)
      = x0 (ix3 (0 : Fin 1) p col) := by
  show x0 _ = x0 _
  congr 1
  funext a
  apply Fin.ext
  match a with
  | ⟨0, _⟩ => rfl
  | ⟨1, _⟩ => show k + 1 * r.val = p.val; omega
  | ⟨2, _⟩ => show 0 + 1 * col.val = col.val; omega

/-- A load of 1024 columns of the scratch plane from column `k` on reads, at `(r, q)`, the plane's entry `(r, q + k)`. -/
theorem ld_col1 (H : Vec Ideal S1024x1032 .f32) (k : Nat)
    (inb : ∀ a, (![0, k] : Fin 2 → Nat) a + S1024x1024.size a ≤ S1024x1032.size a)
    (r q : Fin 1024) (p : Fin 1032) (hp : p.val = q.val + k) :
    View.ld (Val := Elt Ideal) H (Rect.unit (s := S1024x1032) ![0, k] S1024x1024.size inb) (ix2 r q) = H (ix2 r p) := by
  show H _ = H _
  congr 1
  funext a
  apply Fin.ext
  match a with
  | ⟨0, _⟩ => show 0 + 1 * r.val = r.val; omega
  | ⟨1, _⟩ => show k + 1 * q.val = p.val; omega

/-- The load of the block's interior reads, at `(r, q)`, the block's entry `(r + 4, q + 4)`. -/
theorem ld_int1 (x0 : Vec Ideal S1x1032x1032 .f32)
    (inb : ∀ a, (![0, 4, 4] : Fin 3 → Nat) a + S1x1024x1024.size a ≤ S1x1032x1032.size a)
    (r q : Fin 1024) (p p' : Fin 1032) (hp : p.val = r.val + 4) (hp' : p'.val = q.val + 4) :
    View.ld x0 (Rect.unit (s := S1x1032x1032) ![0, 4, 4] S1x1024x1024.size inb) (ix3 (0 : Fin 1) r q)
      = x0 (ix3 (0 : Fin 1) p p') := by
  show x0 _ = x0 _
  congr 1
  funext a
  apply Fin.ext
  match a with
  | ⟨0, _⟩ => rfl
  | ⟨1, _⟩ => show 4 + 1 * r.val = p.val; omega
  | ⟨2, _⟩ => show 4 + 1 * q.val = p'.val; omega

/-- The scratch plane at `(r, q + 2 k)`: the five row taps of the padded block at column offset `k`. -/
theorem rows1_apply (x0 : Vec Ideal S1x1032x1032 .f32) (P : PImg 1032) (b : Fin 8)
    (hP : ∀ p q', x0 (ix3 (0 : Fin 1) p q') = P b p q')
    (r q : Fin 1024) (k : Fin 5) (h : q.val + k.val * 2 < 1032) :
    rows1 x0 (ix2 r ⟨q.val + k.val * 2, h⟩)
      = comb (tapAt 2 1032 rfl P b r q 0 k) (tapAt 2 1032 rfl P b r q 1 k) (tapAt 2 1032 rfl P b r q 2 k)
          (tapAt 2 1032 rfl P b r q 3 k) (tapAt 2 1032 rfl P b r q 4 k) := by
  have hr := r.isLt
  unfold rows1 k1_pay4
  dsimp only
  refine (congrFun (shapeCast_self _ _) _).trans ?_
  refine (comb5_apply1 _ _ _ _ _ _).trans ?_
  refine comb_congr1 ?_ ?_ ?_ ?_ ?_
  · exact ((shapeCast_1ab_ab_apply _ _ r _).trans (ld_row1 x0 0 _ r _ ⟨r.val + (0 : Fin 5).val * 2, by show r.val + 0 * 2 < 1032; omega⟩ rfl)).trans (hP _ _)
  · exact ((shapeCast_1ab_ab_apply _ _ r _).trans (ld_row1 x0 2 _ r _ ⟨r.val + (1 : Fin 5).val * 2, by show r.val + 1 * 2 < 1032; omega⟩ rfl)).trans (hP _ _)
  · exact ((shapeCast_1ab_ab_apply _ _ r _).trans (ld_row1 x0 4 _ r _ ⟨r.val + (2 : Fin 5).val * 2, by show r.val + 2 * 2 < 1032; omega⟩ rfl)).trans (hP _ _)
  · exact ((shapeCast_1ab_ab_apply _ _ r _).trans (ld_row1 x0 6 _ r _ ⟨r.val + (3 : Fin 5).val * 2, by show r.val + 3 * 2 < 1032; omega⟩ rfl)).trans (hP _ _)
  · exact ((shapeCast_1ab_ab_apply _ _ r _).trans (ld_row1 x0 8 _ r _ ⟨r.val + (4 : Fin 5).val * 2, by show r.val + 4 * 2 < 1032; omega⟩ rfl)).trans (hP _ _)

/-- The smooth plane at `(r, q)`: the five column taps of the scratch plane, each the five row taps of the padded block. -/
theorem smooth1_apply (x0 : Vec Ideal S1x1032x1032 .f32) (P : PImg 1032) (b : Fin 8)
    (hP : ∀ p q', x0 (ix3 (0 : Fin 1) p q') = P b p q') (r q : Fin 1024) :
    k1_pay1 (F := Ideal) (k1_pay5 (F := Ideal) (View.ld (Val := Elt Ideal) (rows1 x0) (Rect.unit (s := S1024x1032) ![0, 0] S1024x1024.size inb_S1024x1032_S1024x1024_0_0)))
        (View.ld (Val := Elt Ideal) (rows1 x0) (Rect.unit (s := S1024x1032) ![0, 2] S1024x1024.size inb_S1024x1032_S1024x1024_0_2))
        (View.ld (Val := Elt Ideal) (rows1 x0) (Rect.unit (s := S1024x1032) ![0, 4] S1024x1024.size inb_S1024x1032_S1024x1024_0_4))
        (View.ld (Val := Elt Ideal) (rows1 x0) (Rect.unit (s := S1024x1032) ![0, 6] S1024x1024.size inb_S1024x1032_S1024x1024_0_6))
        (View.ld (Val := Elt Ideal) (rows1 x0) (Rect.unit (s := S1024x1032) ![0, 8] S1024x1024.size inb_S1024x1032_S1024x1024_0_8)) (ix2 r q)
      = lvlC 2 1032 rfl P b r q := by
  have hq := q.isLt
  unfold k1_pay1 k1_pay5
  dsimp only
  refine (comb5_apply1 _ _ _ _ _ _).trans ?_
  unfold lvlC
  refine comb_congr1 ?_ ?_ ?_ ?_ ?_
  · exact (ld_col1 (rows1 x0) 0 _ r q ⟨q.val + (0 : Fin 5).val * 2, by show q.val + 0 * 2 < 1032; omega⟩ rfl).trans (rows1_apply x0 P b hP r q 0 _)
  · exact (ld_col1 (rows1 x0) 2 _ r q ⟨q.val + (1 : Fin 5).val * 2, by show q.val + 1 * 2 < 1032; omega⟩ rfl).trans (rows1_apply x0 P b hP r q 1 _)
  · exact (ld_col1 (rows1 x0) 4 _ r q ⟨q.val + (2 : Fin 5).val * 2, by show q.val + 2 * 2 < 1032; omega⟩ rfl).trans (rows1_apply x0 P b hP r q 2 _)
  · exact (ld_col1 (rows1 x0) 6 _ r q ⟨q.val + (3 : Fin 5).val * 2, by show q.val + 3 * 2 < 1032; omega⟩ rfl).trans (rows1_apply x0 P b hP r q 3 _)
  · exact (ld_col1 (rows1 x0) 8 _ r q ⟨q.val + (4 : Fin 5).val * 2, by show q.val + 4 * 2 < 1032; omega⟩ rfl).trans (rows1_apply x0 P b hP r q 4 _)

/-- The smooth plane's buffer after the body, entry `(r, q)`: `lvlC` of any padded batch whose plane `b` is the block. -/
theorem out1_2_apply (c : Dev nD) (i : grid1.Coords)
    (arg1 : Memref sig .tc .vmem S1x1032x1032 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1032 .f32) (harg4 : arg4.IsWhole)
    (x0 : Vec Ideal S1x1032x1032 .f32) (P : PImg 1032) (b : Fin 8)
    (hP : ∀ p q', x0 (ix3 (0 : Fin 1) p q') = P b p q') (r q : Fin 1024) :
    out1_2 (F := Ideal) c i arg1 harg1 arg2 harg2 arg3 harg3 arg4 harg4 x0 (ix3 (0 : Fin 1) r q) = lvlC 2 1032 rfl P b r q := by
  rw [out1_2_eq]
  unfold k1_pay3
  dsimp only
  exact (shapeCast_ab_1ab_apply _ _ 0 r q).trans (smooth1_apply x0 P b hP r q)

/-- The detail plane's buffer after the body, entry `(r, q)`: `lvlW` of any padded batch whose plane `b` is the block. -/
theorem out1_1_apply (c : Dev nD) (i : grid1.Coords)
    (arg1 : Memref sig .tc .vmem S1x1032x1032 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1032 .f32) (harg4 : arg4.IsWhole)
    (x0 : Vec Ideal S1x1032x1032 .f32) (P : PImg 1032) (b : Fin 8)
    (hP : ∀ p q', x0 (ix3 (0 : Fin 1) p q') = P b p q') (r q : Fin 1024) :
    out1_1 (F := Ideal) c i arg1 harg1 arg2 harg2 arg3 harg3 arg4 harg4 x0 (ix3 (0 : Fin 1) r q) = lvlW 2 1032 rfl P b r q := by
  have hr := r.isLt
  have hq := q.isLt
  rw [out1_1_eq]
  unfold k1_pay2
  dsimp only
  refine (shapeCast_ab_1ab_apply _ _ 0 r q).trans ?_
  refine (subf_apply _ _ _).trans ?_
  unfold lvlW
  refine congrArg₂ (· - ·) ?_ (smooth1_apply x0 P b hP r q)
  exact ((shapeCast_1ab_ab_apply _ _ r q).trans (ld_int1 x0 _ r q
    ⟨r.val + (2 : Fin 5).val * 2, by show r.val + 2 * 2 < 1032; omega⟩
    ⟨q.val + (2 : Fin 5).val * 2, by show q.val + 2 * 2 < 1032; omega⟩ rfl rfl)).trans (hP _ _)

/-- The same at any index of the block, by its coordinates. -/
theorem out1_2_idx (c : Dev nD) (i : grid1.Coords)
    (arg1 : Memref sig .tc .vmem S1x1032x1032 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1032 .f32) (harg4 : arg4.IsWhole)
    (x0 : Vec Ideal S1x1032x1032 .f32) (P : PImg 1032) (b : Fin 8)
    (hP : ∀ p q', x0 (ix3 (0 : Fin 1) p q') = P b p q') (j : S1x1024x1024.Idx) :
    out1_2 (F := Ideal) c i arg1 harg1 arg2 harg2 arg3 harg3 arg4 harg4 x0 j = lvlC 2 1032 rfl P b (j 1) (j 2) := by
  obtain ⟨u, r, q, rfl⟩ : ∃ (u : Fin 1) (r q : Fin 1024), j = ix3 u r q := ⟨j 0, j 1, j 2, eq_ix3 j⟩
  obtain rfl : u = 0 := Subsingleton.elim _ _
  exact out1_2_apply c i arg1 harg1 arg2 harg2 arg3 harg3 arg4 harg4 x0 P b hP r q

theorem out1_1_idx (c : Dev nD) (i : grid1.Coords)
    (arg1 : Memref sig .tc .vmem S1x1032x1032 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1032 .f32) (harg4 : arg4.IsWhole)
    (x0 : Vec Ideal S1x1032x1032 .f32) (P : PImg 1032) (b : Fin 8)
    (hP : ∀ p q', x0 (ix3 (0 : Fin 1) p q') = P b p q') (j : S1x1024x1024.Idx) :
    out1_1 (F := Ideal) c i arg1 harg1 arg2 harg2 arg3 harg3 arg4 harg4 x0 j = lvlW 2 1032 rfl P b (j 1) (j 2) := by
  obtain ⟨u, r, q, rfl⟩ : ∃ (u : Fin 1) (r q : Fin 1024), j = ix3 u r q := ⟨j 0, j 1, j 2, eq_ix3 j⟩
  obtain rfl : u = 0 := Subsingleton.elim _ _
  exact out1_1_apply c i arg1 harg1 arg2 harg2 arg3 harg3 arg4 harg4 x0 P b hP r q

/-! ## From the blocks to the arrays -/

section
variable (V : (c : Dev nD) → (b : Ref sig .tc) → Buf (Elt Ideal) ((c : Thread nD τ).loc b))

/-- The printed index maps over the grid: point `t` takes plane `t` of each window's array, whole. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The input block at point `t` is plane `t` of the padded input array. -/
theorem iblk1_apply (c : Dev nD) (t : Fin cfg1.N) (bt : Fin 8) (hb : bt.val = t.val) (p q' : Fin 1032) :
    (iblk1 V c 0 t : Vec Ideal S1x1032x1032 .f32) (ix3 (0 : Fin 1) p q')
      = toPImg 1032 (V c main_v2) bt p q' := by
  obtain ⟨e0, e1, e2, -⟩ := idx_facts1 t
  unfold iblk1 toPImg
  rw [View.read_apply]
  show V c main_v2 _ = V c main_v2 _
  congr 1
  funext a
  apply Fin.ext
  match a with
  | ⟨0, _⟩ => show win1_0.index t (0 : Fin 3) * 1 + 1 * 0 = bt.val; rw [e0, hb]; omega
  | ⟨1, _⟩ => show win1_0.index t (1 : Fin 3) * 1032 + 1 * p.val = p.val; rw [e1]; omega
  | ⟨2, _⟩ => show win1_0.index t (2 : Fin 3) * 1032 + 1 * q'.val = q'.val; rw [e2]; omega

/-- An image read through an output window's block at point `t` is its plane `t`. -/
theorem read_blk1_1 (t : Fin cfg1.N) (bt : Fin 8) (hb : bt.val = t.val) (G : Img) (j : S1x1024x1024.Idx) :
    ((cfg1.win 1).blk t).view.read (Elt Ideal) (ofImg G) j = G bt (j 1) (j 2) := by
  obtain ⟨-, -, -, e0, e1, e2, -⟩ := idx_facts1 t
  have h0 : (j 0).val < 1 := (j 0).isLt
  have a0 : (((cfg1.win 1).blk t).view.emb j 0 : Fin 8) = bt :=
    Fin.ext (by show win1_1.index t (0 : Fin 3) * 1 + 1 * (j 0).val = bt.val; rw [e0, hb]; omega)
  have a1 : (((cfg1.win 1).blk t).view.emb j 1 : Fin 1024) = j 1 :=
    Fin.ext (by show win1_1.index t (1 : Fin 3) * 1024 + 1 * (j 1).val = (j 1).val; rw [e1]; omega)
  have a2 : (((cfg1.win 1).blk t).view.emb j 2 : Fin 1024) = j 2 :=
    Fin.ext (by show win1_1.index t (2 : Fin 3) * 1024 + 1 * (j 2).val = (j 2).val; rw [e2]; omega)
  rw [View.read_apply]
  exact congr (congr (congrArg G a0) a1) a2

theorem read_blk1_2 (t : Fin cfg1.N) (bt : Fin 8) (hb : bt.val = t.val) (G : Img) (j : S1x1024x1024.Idx) :
    ((cfg1.win 2).blk t).view.read (Elt Ideal) (ofImg G) j = G bt (j 1) (j 2) := by
  obtain ⟨-, -, -, -, -, -, e0, e1, e2⟩ := idx_facts1 t
  have h0 : (j 0).val < 1 := (j 0).isLt
  have a0 : (((cfg1.win 2).blk t).view.emb j 0 : Fin 8) = bt :=
    Fin.ext (by show win1_2.index t (0 : Fin 3) * 1 + 1 * (j 0).val = bt.val; rw [e0, hb]; omega)
  have a1 : (((cfg1.win 2).blk t).view.emb j 1 : Fin 1024) = j 1 :=
    Fin.ext (by show win1_2.index t (1 : Fin 3) * 1024 + 1 * (j 1).val = (j 1).val; rw [e1]; omega)
  have a2 : (((cfg1.win 2).blk t).view.emb j 2 : Fin 1024) = j 2 :=
    Fin.ext (by show win1_2.index t (2 : Fin 3) * 1024 + 1 * (j 2).val = (j 2).val; rw [e2]; omega)
  rw [View.read_apply]
  exact congr (congr (congrArg G a0) a1) a2

/-- What point `t` writes back to the detail array is block `t` of `regW` of the padded input array. -/
theorem flushed1_1_eq (c : Dev nD) (t : Fin cfg1.N) :
    (dat1 V c).flushed 1 t = ((cfg1.win 1).blk t).view.read (Elt Ideal) (regW 2 1032 rfl (V c main_v2)) := by
  have hN : t.val < 8 := Nat.lt_of_lt_of_eq t.isLt N_1
  show (cfg1.win 1).cut (grid1.coords t) ((dat1 V c).after 1 t) = _
  rw [after1_1]
  funext j
  refine Eq.trans ?_ (read_blk1_1 t ⟨t.val, hN⟩ rfl (lvlW 2 1032 rfl (toPImg 1032 (V c main_v2))) j).symm
  exact out1_1_idx c (grid1.coords t) (ms1_0 t) (hs1_0 t) (ms1_1 t) (hs1_1 t) (ms1_2 t) (hs1_2 t) msS1 hsS1 (iblk1 V c 0 t)
    (toPImg 1032 (V c main_v2)) ⟨t.val, hN⟩ (iblk1_apply V c t ⟨t.val, hN⟩ rfl) j

/-- What point `t` writes back to the smooth array is block `t` of `regC` of the padded input array. -/
theorem flushed1_2_eq (c : Dev nD) (t : Fin cfg1.N) :
    (dat1 V c).flushed 2 t = ((cfg1.win 2).blk t).view.read (Elt Ideal) (regC 2 1032 rfl (V c main_v2)) := by
  have hN : t.val < 8 := Nat.lt_of_lt_of_eq t.isLt N_1
  show (cfg1.win 2).cut (grid1.coords t) ((dat1 V c).after 2 t) = _
  rw [after1_2]
  funext j
  refine Eq.trans ?_ (read_blk1_2 t ⟨t.val, hN⟩ rfl (lvlC 2 1032 rfl (toPImg 1032 (V c main_v2))) j).symm
  exact out1_2_idx c (grid1.coords t) (ms1_0 t) (hs1_0 t) (ms1_1 t) (hs1_1 t) (ms1_2 t) (hs1_2 t) msS1 hsS1 (iblk1 V c 0 t)
    (toPImg 1032 (V c main_v2)) ⟨t.val, hN⟩ (iblk1_apply V c t ⟨t.val, hN⟩ rfl) j

/-- An index of an output array is in point `t`'s block iff each coordinate is in the block's range on its axis. -/
theorem mem_blk1_1 (t : Fin cfg1.N) (i : S8x1024x1024.Idx) :
    i ∈ ((cfg1.win 1).blk t).view.set ↔ ∀ a : Fin 3, win1_1.index t a * S1x1024x1024.size a ≤ (i a).val ∧ (i a).val < win1_1.index t a * S1x1024x1024.size a + S1x1024x1024.size a := by
  show i ∈ ((View.whole main_v3_0).slice (win1_1.rect t)).set ↔ _
  rw [View.set_slice_whole, Rect.mem_set_unit]
  exact Iff.rfl

theorem mem_blk1_2 (t : Fin cfg1.N) (i : S8x1024x1024.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v3_1).slice (win1_2.rect t)).set ↔ _
  rw [View.set_slice_whole, Rect.mem_set_unit]
  exact Iff.rfl

/-- Index `(b, r, q)` of an output array is in the block of point `b`. -/
theorem covered1_1 (i : S8x1024x1024.Idx) : ∃ t : Fin cfg1.N, (cfg1.win 1).flush t = true ∧ i ∈ ((cfg1.win 1).blk t).view.set := by
  have h0 : (i 0).val < 8 := (i 0).isLt
  have h1 : (i 1).val < 1024 := (i 1).isLt
  have h2 : (i 2).val < 1024 := (i 2).isLt
  obtain ⟨t, ht⟩ : ∃ t : Fin cfg1.N, t.val = (i 0).val := ⟨⟨(i 0).val, Nat.lt_of_lt_of_eq h0 N_1.symm⟩, rfl⟩
  obtain ⟨-, -, -, e0, e1, e2, -⟩ := idx_facts1 t
  refine ⟨t, flush1_1 t, ?_⟩
  rw [mem_blk1_1]
  intro a
  match a with
  | ⟨0, _⟩ => show win1_1.index t (0 : Fin 3) * 1 ≤ (i 0).val ∧ (i 0).val < win1_1.index t (0 : Fin 3) * 1 + 1; rw [e0, ht]; omega
  | ⟨1, _⟩ => show win1_1.index t (1 : Fin 3) * 1024 ≤ (i 1).val ∧ (i 1).val < win1_1.index t (1 : Fin 3) * 1024 + 1024; rw [e1]; omega
  | ⟨2, _⟩ => show win1_1.index t (2 : Fin 3) * 1024 ≤ (i 2).val ∧ (i 2).val < win1_1.index t (2 : Fin 3) * 1024 + 1024; rw [e2]; omega

theorem covered1_2 (i : S8x1024x1024.Idx) : ∃ t : Fin cfg1.N, (cfg1.win 2).flush t = true ∧ i ∈ ((cfg1.win 2).blk t).view.set := by
  have h0 : (i 0).val < 8 := (i 0).isLt
  have h1 : (i 1).val < 1024 := (i 1).isLt
  have h2 : (i 2).val < 1024 := (i 2).isLt
  obtain ⟨t, ht⟩ : ∃ t : Fin cfg1.N, t.val = (i 0).val := ⟨⟨(i 0).val, Nat.lt_of_lt_of_eq h0 N_1.symm⟩, rfl⟩
  obtain ⟨-, -, -, -, -, -, e0, e1, e2⟩ := idx_facts1 t
  refine ⟨t, flush1_2 t, ?_⟩
  rw [mem_blk1_2]
  intro a
  match a with
  | ⟨0, _⟩ => show win1_2.index t (0 : Fin 3) * 1 ≤ (i 0).val ∧ (i 0).val < win1_2.index t (0 : Fin 3) * 1 + 1; rw [e0, ht]; omega
  | ⟨1, _⟩ => show win1_2.index t (1 : Fin 3) * 1024 ≤ (i 1).val ∧ (i 1).val < win1_2.index t (1 : Fin 3) * 1024 + 1024; rw [e1]; omega
  | ⟨2, _⟩ => show win1_2.index t (2 : Fin 3) * 1024 ≤ (i 2).val ∧ (i 2).val < win1_2.index t (2 : Fin 3) * 1024 + 1024; rw [e2]; omega

/-- After the region the detail array holds `regW` of the padded input array. -/
theorem arr1_W (c : Dev nD) :
    ((dat1 V c).arrAt 1 cfg1.N : S8x1024x1024.Idx → EReal) = Cert.Uwt.regW 2 1032 rfl (V c main_v2) :=
  (dat1 V c).arrAt_eq_of_cover 1 (regW 2 1032 rfl (V c main_v2)) (fun t _ => flushed1_1_eq V c t) covered1_1

/-- After the region the smooth array holds `regC` of the padded input array. -/
theorem arr1_C (c : Dev nD) :
    ((dat1 V c).arrAt 2 cfg1.N : S8x1024x1024.Idx → EReal) = Cert.Uwt.regC 2 1032 rfl (V c main_v2) :=
  (dat1 V c).arrAt_eq_of_cover 2 (regC 2 1032 rfl (V c main_v2)) (fun t _ => flushed1_2_eq V c t) covered1_2

end

end Cert.KernelIdeal.Reg

end
-- ==== Proof.Val2.lean ====
/-
  Level 2 (dilation 4, padded extent 1040): the value of the kernel's two output arrays.

  The body at a grid point reads its padded input block `x` (one plane, 1040 x 1040). Its scratch plane holds the pass
  along the rows, `H (r, col) = Σ_k' tap_k' · x (r + 4 k', col)`; the smooth plane is the pass along the columns,
  `S (r, q) = Σ_k tap_k · H (r, q + 4 k)`; the detail plane is `x (r + 8, q + 8) − S (r, q)`. Every five-term sum is
  taken left to right, so these are the specification's `lvlC` and `lvlW` of the block, entry by entry, with no algebra.
  Point `t` of the grid reads plane `t` of the padded array and writes plane `t` of each output array, and the eight
  planes cover the outputs: the arrays end holding `regW` and `regC` of the padded input array.
-/
import proofs.«173091_j34797825032656_2_alg».proof.Proof.Frame2
import proofs.«173091_j34797825032656_2_alg».proof.Proof.Spec
import Idealize.ShloMosaic.Lib.Pipeline.Value
import Idealize.ShloMosaic.Lib.Pipeline.FrameBody
import Idealize.ShloMosaic.Lib.ValueIdx
import Idealize.ShloMosaic.Lib.ValueLayout
import Idealize.ShloMosaic.Lib.Tactic

set_option maxRecDepth 16384

noncomputable section

namespace Cert.KernelIdeal.Reg

open Cert.KernelIdeal Cert.KernelIdeal.Gen Cert.Uwt
open Idealize.ShloMosaic Idealize.ShloMosaic.TcCoe Idealize.ShloMosaic.ValueIdx Idealize.ShloMosaic.Tactic
open Idealize.ShloMosaic.Pipeline (Dat Cfg Window)

/-! ## What the two stores leave, as payloads of loads of the input block -/

section
variable {F : FTy → Type} [FloatOps F]

theorem hz2_2 : (![0, 0] : Fin 2 → Nat) = fun _ => 0 := funext fun a => by fin_cases a <;> rfl
theorem hz3_2 : (![0, 0, 0] : Fin 3 → Nat) = fun _ => 0 := funext fun a => by fin_cases a <;> rfl

/-- The scratch plane after the pass along the rows, as a function of the padded input block: entry `(r, col)` combines
    the five entries `(r + 4 k', col)`, `k' = 0 … 4`, of the block. -/
def rows2 (x0 : Vec F S1x1040x1040 .f32) : FVec F S1024x1040 .f32 :=
  k2_pay4
    (View.ld x0 (Rect.unit (s := S1x1040x1040) ![0, 0, 0] S1x1024x1040.size inb_S1x1040x1040_S1x1024x1040_0_0_0))
    (View.ld x0 (Rect.unit (s := S1x1040x1040) ![0, 4, 0] S1x1024x1040.size inb_S1x1040x1040_S1x1024x1040_0_4_0))
    (View.ld x0 (Rect.unit (s := S1x1040x1040) ![0, 8, 0] S1x1024x1040.size inb_S1x1040x1040_S1x1024x1040_0_8_0))
    (View.ld x0 (Rect.unit (s := S1x1040x1040) ![0, 12, 0] S1x1024x1040.size inb_S1x1040x1040_S1x1024x1040_0_12_0))
    (View.ld x0 (Rect.unit (s := S1x1040x1040) ![0, 16, 0] S1x1024x1040.size inb_S1x1040x1040_S1x1024x1040_0_16_0))

/-- The smooth plane's buffer after the body: the pass along the columns of the scratch plane. -/
theorem out2_2_eq (c : Dev nD) (i : grid2.Coords)
    (arg1 : Memref sig .tc .vmem S1x1040x1040 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1040 .f32) (harg4 : arg4.IsWhole)
    (x0 : Vec F S1x1040x1040 .f32) :
    out2_2 c i arg1 harg1 arg2 harg2 arg3 harg3 arg4 harg4 x0 =
      k2_pay3
        (k2_pay5 (View.ld (rows2 x0) (Rect.unit (s := S1024x1040) ![0, 0] S1024x1024.size inb_S1024x1040_S1024x1024_0_0)))
        (View.ld (rows2 x0) (Rect.unit (s := S1024x1040) ![0, 4] S1024x1024.size inb_S1024x1040_S1024x1024_0_4))
        (View.ld (rows2 x0) (Rect.unit (s := S1024x1040) ![0, 8] S1024x1024.size inb_S1024x1040_S1024x1024_0_8))
        (View.ld (rows2 x0) (Rect.unit (s := S1024x1040) ![0, 12] S1024x1024.size inb_S1024x1040_S1024x1024_0_12))
        (View.ld (rows2 x0) (Rect.unit (s := S1024x1040) ![0, 16] S1024x1024.size inb_S1024x1040_S1024x1024_0_16)) := by
  unfold out2_2
  rw [View.read_writes_junk_eq_canon]
  unfold kernelRun2
  dsimp only
  sl_unfold_run_names
  rw [View.canon_unit_zero hz3_2]
  simp only [View.readCov_eq_canon', View.canon_unit_zero (S := S1024x1040) hz2_2, View.readAt_eq_ld, harg1.read_unread]
  rfl

/-- The detail plane's buffer after the body: the block's interior less the smooth plane. -/
theorem out2_1_eq (c : Dev nD) (i : grid2.Coords)
    (arg1 : Memref sig .tc .vmem S1x1040x1040 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1040 .f32) (harg4 : arg4.IsWhole)
    (x0 : Vec F S1x1040x1040 .f32) :
    out2_1 c i arg1 harg1 arg2 harg2 arg3 harg3 arg4 harg4 x0 =
      k2_pay2
        (k2_pay5 (View.ld (rows2 x0) (Rect.unit (s := S1024x1040) ![0, 0] S1024x1024.size inb_S1024x1040_S1024x1024_0_0)))
        (View.ld (rows2 x0) (Rect.unit (s := S1024x1040) ![0, 4] S1024x1024.size inb_S1024x1040_S1024x1024_0_4))
        (View.ld (rows2 x0) (Rect.unit (s := S1024x1040) ![0, 8] S1024x1024.size inb_S1024x1040_S1024x1024_0_8))
        (View.ld (rows2 x0) (Rect.unit (s := S1024x1040) ![0, 12] S1024x1024.size inb_S1024x1040_S1024x1024_0_12))
        (View.ld (rows2 x0) (Rect.unit (s := S1024x1040) ![0, 16] S1024x1024.size inb_S1024x1040_S1024x1024_0_16))
        (View.ld x0 (Rect.unit (s := S1x1040x1040) ![0, 8, 8] S1x1024x1024.size inb_S1x1040x1040_S1x1024x1024_0_8_8)) := by
  unfold out2_1
  rw [View.read_writes_junk_eq_canon]
  unfold kernelRun2
  dsimp only
  sl_unfold_run_names
  rw [View.canon_unit_zero hz3_2]
  simp only [View.readCov_eq_canon', View.canon_unit_zero (S := S1024x1040) hz2_2, View.readAt_eq_ld, harg1.read_unread]
  rfl

end

/-! ## The payloads at an index, over the extended reals -/

/-- A five-term combination of planes with the printed taps, at an index, is the combination of the entries. -/
theorem comb5_apply2 {s : Shape} (a0 a1 a2 a3 a4 : FVec Ideal s .f32) (j : s.Idx) :
    addf (addf (addf (addf (mulf (broadcast s (Scalar.ofBits (F := Ideal) .f32 0x3D800000#32)) a0)
        (mulf (broadcast s (Scalar.ofBits (F := Ideal) .f32 0x3E800000#32)) a1))
        (mulf (broadcast s (Scalar.ofBits (F := Ideal) .f32 0x3EC00000#32)) a2))
        (mulf (broadcast s (Scalar.ofBits (F := Ideal) .f32 0x3E800000#32)) a3))
        (mulf (broadcast s (Scalar.ofBits (F := Ideal) .f32 0x3D800000#32)) a4) j
      = comb (a0 j) (a1 j) (a2 j) (a3 j) (a4 j) := rfl

theorem comb_congr2 {a0 a1 a2 a3 a4 b0 b1 b2 b3 b4 : EReal} (h0 : a0 = b0) (h1 : a1 = b1) (h2 : a2 = b2) (h3 : a3 = b3)
    (h4 : a4 = b4) : comb a0 a1 a2 a3 a4 = comb b0 b1 b2 b3 b4 := by subst h0 h1 h2 h3 h4; rfl

/-- A load of 1024 rows of the padded block from row `k` on reads, at `(r, col)`, the block's entry `(r + k, col)`. -/
theorem ld_row2 (x0 : Vec Ideal S1x1040x1040 .f32) (k : Nat)
    (inb : ∀ a, (![0, k, 0] : Fin 3 → Nat) a + S1x1024x1040.size a ≤ S1x1040x1040.size a)
    (r : Fin 1024) (col p : Fin 1040) (hp : p.val = r.val + k) :
    View.ld x0 (Rect.unit (s := S1x1040x1040) ![0, k, 0] S1x1024x1040.size inb) (ix3 (0 : Fin 1) r col)
      = x0 (ix3 (0 : Fin 1) p col) := by
  show x0 _ = x0 _
  congr 1
  funext a
  apply Fin.ext
  match a with
  | ⟨0, _⟩ => rfl
  | ⟨1, _⟩ => show k + 1 * r.val = p.val; omega
  | ⟨2, _⟩ => show 0 + 1 * col.val = col.val; omega

/-- A load of 1024 columns of the scratch plane from column `k` on reads, at `(r, q)`, the plane's entry `(r, q + k)`. -/
theorem ld_col2 (H : Vec Ideal S1024x1040 .f32) (k : Nat)
    (inb : ∀ a, (![0, k] : Fin 2 → Nat) a + S1024x1024.size a ≤ S1024x1040.size a)
    (r q : Fin 1024) (p : Fin 1040) (hp : p.val = q.val + k) :
    View.ld (Val := Elt Ideal) H (Rect.unit (s := S1024x1040) ![0, k] S1024x1024.size inb) (ix2 r q) = H (ix2 r p) := by
  show H _ = H _
  congr 1
  funext a
  apply Fin.ext
  match a with
  | ⟨0, _⟩ => show 0 + 1 * r.val = r.val; omega
  | ⟨1, _⟩ => show k + 1 * q.val = p.val; omega

/-- The load of the block's interior reads, at `(r, q)`, the block's entry `(r + 8, q + 8)`. -/
theorem ld_int2 (x0 : Vec Ideal S1x1040x1040 .f32)
    (inb : ∀ a, (![0, 8, 8] : Fin 3 → Nat) a + S1x1024x1024.size a ≤ S1x1040x1040.size a)
    (r q : Fin 1024) (p p' : Fin 1040) (hp : p.val = r.val + 8) (hp' : p'.val = q.val + 8) :
    View.ld x0 (Rect.unit (s := S1x1040x1040) ![0, 8, 8] S1x1024x1024.size inb) (ix3 (0 : Fin 1) r q)
      = x0 (ix3 (0 : Fin 1) p p') := by
  show x0 _ = x0 _
  congr 1
  funext a
  apply Fin.ext
  match a with
  | ⟨0, _⟩ => rfl
  | ⟨1, _⟩ => show 8 + 1 * r.val = p.val; omega
  | ⟨2, _⟩ => show 8 + 1 * q.val = p'.val; omega

/-- The scratch plane at `(r, q + 4 k)`: the five row taps of the padded block at column offset `k`. -/
theorem rows2_apply (x0 : Vec Ideal S1x1040x1040 .f32) (P : PImg 1040) (b : Fin 8)
    (hP : ∀ p q', x0 (ix3 (0 : Fin 1) p q') = P b p q')
    (r q : Fin 1024) (k : Fin 5) (h : q.val + k.val * 4 < 1040) :
    rows2 x0 (ix2 r ⟨q.val + k.val * 4, h⟩)
      = comb (tapAt 4 1040 rfl P b r q 0 k) (tapAt 4 1040 rfl P b r q 1 k) (tapAt 4 1040 rfl P b r q 2 k)
          (tapAt 4 1040 rfl P b r q 3 k) (tapAt 4 1040 rfl P b r q 4 k) := by
  have hr := r.isLt
  unfold rows2 k2_pay4
  dsimp only
  refine (congrFun (shapeCast_self _ _) _).trans ?_
  refine (comb5_apply2 _ _ _ _ _ _).trans ?_
  refine comb_congr2 ?_ ?_ ?_ ?_ ?_
  · exact ((shapeCast_1ab_ab_apply _ _ r _).trans (ld_row2 x0 0 _ r _ ⟨r.val + (0 : Fin 5).val * 4, by show r.val + 0 * 4 < 1040; omega⟩ rfl)).trans (hP _ _)
  · exact ((shapeCast_1ab_ab_apply _ _ r _).trans (ld_row2 x0 4 _ r _ ⟨r.val + (1 : Fin 5).val * 4, by show r.val + 1 * 4 < 1040; omega⟩ rfl)).trans (hP _ _)
  · exact ((shapeCast_1ab_ab_apply _ _ r _).trans (ld_row2 x0 8 _ r _ ⟨r.val + (2 : Fin 5).val * 4, by show r.val + 2 * 4 < 1040; omega⟩ rfl)).trans (hP _ _)
  · exact ((shapeCast_1ab_ab_apply _ _ r _).trans (ld_row2 x0 12 _ r _ ⟨r.val + (3 : Fin 5).val * 4, by show r.val + 3 * 4 < 1040; omega⟩ rfl)).trans (hP _ _)
  · exact ((shapeCast_1ab_ab_apply _ _ r _).trans (ld_row2 x0 16 _ r _ ⟨r.val + (4 : Fin 5).val * 4, by show r.val + 4 * 4 < 1040; omega⟩ rfl)).trans (hP _ _)

/-- The smooth plane at `(r, q)`: the five column taps of the scratch plane, each the five row taps of the padded block. -/
theorem smooth2_apply (x0 : Vec Ideal S1x1040x1040 .f32) (P : PImg 1040) (b : Fin 8)
    (hP : ∀ p q', x0 (ix3 (0 : Fin 1) p q') = P b p q') (r q : Fin 1024) :
    k2_pay1 (F := Ideal) (k2_pay5 (F := Ideal) (View.ld (Val := Elt Ideal) (rows2 x0) (Rect.unit (s := S1024x1040) ![0, 0] S1024x1024.size inb_S1024x1040_S1024x1024_0_0)))
        (View.ld (Val := Elt Ideal) (rows2 x0) (Rect.unit (s := S1024x1040) ![0, 4] S1024x1024.size inb_S1024x1040_S1024x1024_0_4))
        (View.ld (Val := Elt Ideal) (rows2 x0) (Rect.unit (s := S1024x1040) ![0, 8] S1024x1024.size inb_S1024x1040_S1024x1024_0_8))
        (View.ld (Val := Elt Ideal) (rows2 x0) (Rect.unit (s := S1024x1040) ![0, 12] S1024x1024.size inb_S1024x1040_S1024x1024_0_12))
        (View.ld (Val := Elt Ideal) (rows2 x0) (Rect.unit (s := S1024x1040) ![0, 16] S1024x1024.size inb_S1024x1040_S1024x1024_0_16)) (ix2 r q)
      = lvlC 4 1040 rfl P b r q := by
  have hq := q.isLt
  unfold k2_pay1 k2_pay5
  dsimp only
  refine (comb5_apply2 _ _ _ _ _ _).trans ?_
  unfold lvlC
  refine comb_congr2 ?_ ?_ ?_ ?_ ?_
  · exact (ld_col2 (rows2 x0) 0 _ r q ⟨q.val + (0 : Fin 5).val * 4, by show q.val + 0 * 4 < 1040; omega⟩ rfl).trans (rows2_apply x0 P b hP r q 0 _)
  · exact (ld_col2 (rows2 x0) 4 _ r q ⟨q.val + (1 : Fin 5).val * 4, by show q.val + 1 * 4 < 1040; omega⟩ rfl).trans (rows2_apply x0 P b hP r q 1 _)
  · exact (ld_col2 (rows2 x0) 8 _ r q ⟨q.val + (2 : Fin 5).val * 4, by show q.val + 2 * 4 < 1040; omega⟩ rfl).trans (rows2_apply x0 P b hP r q 2 _)
  · exact (ld_col2 (rows2 x0) 12 _ r q ⟨q.val + (3 : Fin 5).val * 4, by show q.val + 3 * 4 < 1040; omega⟩ rfl).trans (rows2_apply x0 P b hP r q 3 _)
  · exact (ld_col2 (rows2 x0) 16 _ r q ⟨q.val + (4 : Fin 5).val * 4, by show q.val + 4 * 4 < 1040; omega⟩ rfl).trans (rows2_apply x0 P b hP r q 4 _)

/-- The smooth plane's buffer after the body, entry `(r, q)`: `lvlC` of any padded batch whose plane `b` is the block. -/
theorem out2_2_apply (c : Dev nD) (i : grid2.Coords)
    (arg1 : Memref sig .tc .vmem S1x1040x1040 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1040 .f32) (harg4 : arg4.IsWhole)
    (x0 : Vec Ideal S1x1040x1040 .f32) (P : PImg 1040) (b : Fin 8)
    (hP : ∀ p q', x0 (ix3 (0 : Fin 1) p q') = P b p q') (r q : Fin 1024) :
    out2_2 (F := Ideal) c i arg1 harg1 arg2 harg2 arg3 harg3 arg4 harg4 x0 (ix3 (0 : Fin 1) r q) = lvlC 4 1040 rfl P b r q := by
  rw [out2_2_eq]
  unfold k2_pay3
  dsimp only
  exact (shapeCast_ab_1ab_apply _ _ 0 r q).trans (smooth2_apply x0 P b hP r q)

/-- The detail plane's buffer after the body, entry `(r, q)`: `lvlW` of any padded batch whose plane `b` is the block. -/
theorem out2_1_apply (c : Dev nD) (i : grid2.Coords)
    (arg1 : Memref sig .tc .vmem S1x1040x1040 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1040 .f32) (harg4 : arg4.IsWhole)
    (x0 : Vec Ideal S1x1040x1040 .f32) (P : PImg 1040) (b : Fin 8)
    (hP : ∀ p q', x0 (ix3 (0 : Fin 1) p q') = P b p q') (r q : Fin 1024) :
    out2_1 (F := Ideal) c i arg1 harg1 arg2 harg2 arg3 harg3 arg4 harg4 x0 (ix3 (0 : Fin 1) r q) = lvlW 4 1040 rfl P b r q := by
  have hr := r.isLt
  have hq := q.isLt
  rw [out2_1_eq]
  unfold k2_pay2
  dsimp only
  refine (shapeCast_ab_1ab_apply _ _ 0 r q).trans ?_
  refine (subf_apply _ _ _).trans ?_
  unfold lvlW
  refine congrArg₂ (· - ·) ?_ (smooth2_apply x0 P b hP r q)
  exact ((shapeCast_1ab_ab_apply _ _ r q).trans (ld_int2 x0 _ r q
    ⟨r.val + (2 : Fin 5).val * 4, by show r.val + 2 * 4 < 1040; omega⟩
    ⟨q.val + (2 : Fin 5).val * 4, by show q.val + 2 * 4 < 1040; omega⟩ rfl rfl)).trans (hP _ _)

/-- The same at any index of the block, by its coordinates. -/
theorem out2_2_idx (c : Dev nD) (i : grid2.Coords)
    (arg1 : Memref sig .tc .vmem S1x1040x1040 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1040 .f32) (harg4 : arg4.IsWhole)
    (x0 : Vec Ideal S1x1040x1040 .f32) (P : PImg 1040) (b : Fin 8)
    (hP : ∀ p q', x0 (ix3 (0 : Fin 1) p q') = P b p q') (j : S1x1024x1024.Idx) :
    out2_2 (F := Ideal) c i arg1 harg1 arg2 harg2 arg3 harg3 arg4 harg4 x0 j = lvlC 4 1040 rfl P b (j 1) (j 2) := by
  obtain ⟨u, r, q, rfl⟩ : ∃ (u : Fin 1) (r q : Fin 1024), j = ix3 u r q := ⟨j 0, j 1, j 2, eq_ix3 j⟩
  obtain rfl : u = 0 := Subsingleton.elim _ _
  exact out2_2_apply c i arg1 harg1 arg2 harg2 arg3 harg3 arg4 harg4 x0 P b hP r q

theorem out2_1_idx (c : Dev nD) (i : grid2.Coords)
    (arg1 : Memref sig .tc .vmem S1x1040x1040 .f32) (harg1 : arg1.IsWhole)
    (arg2 : Memref sig .tc .vmem S1x1024x1024 .f32) (harg2 : arg2.IsWhole)
    (arg3 : Memref sig .tc .vmem S1x1024x1024 .f32) (harg3 : arg3.IsWhole)
    (arg4 : Memref sig .tc .vmem S1024x1040 .f32) (harg4 : arg4.IsWhole)
    (x0 : Vec Ideal S1x1040x1040 .f32) (P : PImg 1040) (b : Fin 8)
    (hP : ∀ p q', x0 (ix3 (0 : Fin 1) p q') = P b p q') (j : S1x1024x1024.Idx) :
    out2_1 (F := Ideal) c i arg1 harg1 arg2 harg2 arg3 harg3 arg4 harg4 x0 j = lvlW 4 1040 rfl P b (j 1) (j 2) := by
  obtain ⟨u, r, q, rfl⟩ : ∃ (u : Fin 1) (r q : Fin 1024), j = ix3 u r q := ⟨j 0, j 1, j 2, eq_ix3 j⟩
  obtain rfl : u = 0 := Subsingleton.elim _ _
  exact out2_1_apply c i arg1 harg1 arg2 harg2 arg3 harg3 arg4 harg4 x0 P b hP r q

/-! ## From the blocks to the arrays -/

section
variable (V : (c : Dev nD) → (b : Ref sig .tc) → Buf (Elt Ideal) ((c : Thread nD τ).loc b))

/-- The printed index maps over the grid: point `t` takes plane `t` of each window's array, whole. -/
theorem idx_facts2 : ∀ t : Fin cfg2.N,
    win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 3) = t.val ∧ win2_2.index t (1 : Fin 3) = 0 ∧ win2_2.index t (2 : Fin 3) = 0 :=
  (by decide +kernel : ∀ t : Fin grid2.N, _)

/-- The input block at point `t` is plane `t` of the padded input array. -/
theorem iblk2_apply (c : Dev nD) (t : Fin cfg2.N) (bt : Fin 8) (hb : bt.val = t.val) (p q' : Fin 1040) :
    (iblk2 V c 0 t : Vec Ideal S1x1040x1040 .f32) (ix3 (0 : Fin 1) p q')
      = toPImg 1040 (V c main_v4) bt p q' := by
  obtain ⟨e0, e1, e2, -⟩ := idx_facts2 t
  unfold iblk2 toPImg
  rw [View.read_apply]
  show V c main_v4 _ = V c main_v4 _
  congr 1
  funext a
  apply Fin.ext
  match a with
  | ⟨0, _⟩ => show win2_0.index t (0 : Fin 3) * 1 + 1 * 0 = bt.val; rw [e0, hb]; omega
  | ⟨1, _⟩ => show win2_0.index t (1 : Fin 3) * 1040 + 1 * p.val = p.val; rw [e1]; omega
  | ⟨2, _⟩ => show win2_0.index t (2 : Fin 3) * 1040 + 1 * q'.val = q'.val; rw [e2]; omega

/-- An image read through an output window's block at point `t` is its plane `t`. -/
theorem read_blk2_1 (t : Fin cfg2.N) (bt : Fin 8) (hb : bt.val = t.val) (G : Img) (j : S1x1024x1024.Idx) :
    ((cfg2.win 1).blk t).view.read (Elt Ideal) (ofImg G) j = G bt (j 1) (j 2) := by
  obtain ⟨-, -, -, e0, e1, e2, -⟩ := idx_facts2 t
  have h0 : (j 0).val < 1 := (j 0).isLt
  have a0 : (((cfg2.win 1).blk t).view.emb j 0 : Fin 8) = bt :=
    Fin.ext (by show win2_1.index t (0 : Fin 3) * 1 + 1 * (j 0).val = bt.val; rw [e0, hb]; omega)
  have a1 : (((cfg2.win 1).blk t).view.emb j 1 : Fin 1024) = j 1 :=
    Fin.ext (by show win2_1.index t (1 : Fin 3) * 1024 + 1 * (j 1).val = (j 1).val; rw [e1]; omega)
  have a2 : (((cfg2.win 1).blk t).view.emb j 2 : Fin 1024) = j 2 :=
    Fin.ext (by show win2_1.index t (2 : Fin 3) * 1024 + 1 * (j 2).val = (j 2).val; rw [e2]; omega)
  rw [View.read_apply]
  exact congr (congr (congrArg G a0) a1) a2

theorem read_blk2_2 (t : Fin cfg2.N) (bt : Fin 8) (hb : bt.val = t.val) (G : Img) (j : S1x1024x1024.Idx) :
    ((cfg2.win 2).blk t).view.read (Elt Ideal) (ofImg G) j = G bt (j 1) (j 2) := by
  obtain ⟨-, -, -, -, -, -, e0, e1, e2⟩ := idx_facts2 t
  have h0 : (j 0).val < 1 := (j 0).isLt
  have a0 : (((cfg2.win 2).blk t).view.emb j 0 : Fin 8) = bt :=
    Fin.ext (by show win2_2.index t (0 : Fin 3) * 1 + 1 * (j 0).val = bt.val; rw [e0, hb]; omega)
  have a1 : (((cfg2.win 2).blk t).view.emb j 1 : Fin 1024) = j 1 :=
    Fin.ext (by show win2_2.index t (1 : Fin 3) * 1024 + 1 * (j 1).val = (j 1).val; rw [e1]; omega)
  have a2 : (((cfg2.win 2).blk t).view.emb j 2 : Fin 1024) = j 2 :=
    Fin.ext (by show win2_2.index t (2 : Fin 3) * 1024 + 1 * (j 2).val = (j 2).val; rw [e2]; omega)
  rw [View.read_apply]
  exact congr (congr (congrArg G a0) a1) a2

/-- What point `t` writes back to the detail array is block `t` of `regW` of the padded input array. -/
theorem flushed2_1_eq (c : Dev nD) (t : Fin cfg2.N) :
    (dat2 V c).flushed 1 t = ((cfg2.win 1).blk t).view.read (Elt Ideal) (regW 4 1040 rfl (V c main_v4)) := by
  have hN : t.val < 8 := Nat.lt_of_lt_of_eq t.isLt N_2
  show (cfg2.win 1).cut (grid2.coords t) ((dat2 V c).after 1 t) = _
  rw [after2_1]
  funext j
  refine Eq.trans ?_ (read_blk2_1 t ⟨t.val, hN⟩ rfl (lvlW 4 1040 rfl (toPImg 1040 (V c main_v4))) j).symm
  exact out2_1_idx c (grid2.coords t) (ms2_0 t) (hs2_0 t) (ms2_1 t) (hs2_1 t) (ms2_2 t) (hs2_2 t) msS2 hsS2 (iblk2 V c 0 t)
    (toPImg 1040 (V c main_v4)) ⟨t.val, hN⟩ (iblk2_apply V c t ⟨t.val, hN⟩ rfl) j

/-- What point `t` writes back to the smooth array is block `t` of `regC` of the padded input array. -/
theorem flushed2_2_eq (c : Dev nD) (t : Fin cfg2.N) :
    (dat2 V c).flushed 2 t = ((cfg2.win 2).blk t).view.read (Elt Ideal) (regC 4 1040 rfl (V c main_v4)) := by
  have hN : t.val < 8 := Nat.lt_of_lt_of_eq t.isLt N_2
  show (cfg2.win 2).cut (grid2.coords t) ((dat2 V c).after 2 t) = _
  rw [after2_2]
  funext j
  refine Eq.trans ?_ (read_blk2_2 t ⟨t.val, hN⟩ rfl (lvlC 4 1040 rfl (toPImg 1040 (V c main_v4))) j).symm
  exact out2_2_idx c (grid2.coords t) (ms2_0 t) (hs2_0 t) (ms2_1 t) (hs2_1 t) (ms2_2 t) (hs2_2 t) msS2 hsS2 (iblk2 V c 0 t)
    (toPImg 1040 (V c main_v4)) ⟨t.val, hN⟩ (iblk2_apply V c t ⟨t.val, hN⟩ rfl) j

/-- An index of an output array is in point `t`'s block iff each coordinate is in the block's range on its axis. -/
theorem mem_blk2_1 (t : Fin cfg2.N) (i : S8x1024x1024.Idx) :
    i ∈ ((cfg2.win 1).blk t).view.set ↔ ∀ a : Fin 3, win2_1.index t a * S1x1024x1024.size a ≤ (i a).val ∧ (i a).val < win2_1.index t a * S1x1024x1024.size a + S1x1024x1024.size a := by
  show i ∈ ((View.whole main_v5_0).slice (win2_1.rect t)).set ↔ _
  rw [View.set_slice_whole, Rect.mem_set_unit]
  exact Iff.rfl

theorem mem_blk2_2 (t : Fin cfg2.N) (i : S8x1024x1024.Idx) :
    i ∈ ((cfg2.win 2).blk t).view.set ↔ ∀ a : Fin 3, win2_2.index t a * S1x1024x1024.size a ≤ (i a).val ∧ (i a).val < win2_2.index t a * S1x1024x1024.size a + S1x1024x1024.size a := by
  show i ∈ ((View.whole main_v5_1).slice (win2_2.rect t)).set ↔ _
  rw [View.set_slice_whole, Rect.mem_set_unit]
  exact Iff.rfl

/-- Index `(b, r, q)` of an output array is in the block of point `b`. -/
theorem covered2_1 (i : S8x1024x1024.Idx) : ∃ t : Fin cfg2.N, (cfg2.win 1).flush t = true ∧ i ∈ ((cfg2.win 1).blk t).view.set := by
  have h0 : (i 0).val < 8 := (i 0).isLt
  have h1 : (i 1).val < 1024 := (i 1).isLt
  have h2 : (i 2).val < 1024 := (i 2).isLt
  obtain ⟨t, ht⟩ : ∃ t : Fin cfg2.N, t.val = (i 0).val := ⟨⟨(i 0).val, Nat.lt_of_lt_of_eq h0 N_2.symm⟩, rfl⟩
  obtain ⟨-, -, -, e0, e1, e2, -⟩ := idx_facts2 t
  refine ⟨t, flush2_1 t, ?_⟩
  rw [mem_blk2_1]
  intro a
  match a with
  | ⟨0, _⟩ => show win2_1.index t (0 : Fin 3) * 1 ≤ (i 0).val ∧ (i 0).val < win2_1.index t (0 : Fin 3) * 1 + 1; rw [e0, ht]; omega
  | ⟨1, _⟩ => show win2_1.index t (1 : Fin 3) * 1024 ≤ (i 1).val ∧ (i 1).val < win2_1.index t (1 : Fin 3) * 1024 + 1024; rw [e1]; omega
  | ⟨2, _⟩ => show win2_1.index t (2 : Fin 3) * 1024 ≤ (i 2).val ∧ (i 2).val < win2_1.index t (2 : Fin 3) * 1024 + 1024; rw [e2]; omega

theorem covered2_2 (i : S8x1024x1024.Idx) : ∃ t : Fin cfg2.N, (cfg2.win 2).flush t = true ∧ i ∈ ((cfg2.win 2).blk t).view.set := by
  have h0 : (i 0).val < 8 := (i 0).isLt
  have h1 : (i 1).val < 1024 := (i 1).isLt
  have h2 : (i 2).val < 1024 := (i 2).isLt
  obtain ⟨t, ht⟩ : ∃ t : Fin cfg2.N, t.val = (i 0).val := ⟨⟨(i 0).val, Nat.lt_of_lt_of_eq h0 N_2.symm⟩, rfl⟩
  obtain ⟨-, -, -, -, -, -, e0, e1, e2⟩ := idx_facts2 t
  refine ⟨t, flush2_2 t, ?_⟩
  rw [mem_blk2_2]
  intro a
  match a with
  | ⟨0, _⟩ => show win2_2.index t (0 : Fin 3) * 1 ≤ (i 0).val ∧ (i 0).val < win2_2.index t (0 : Fin 3) * 1 + 1; rw [e0, ht]; omega
  | ⟨1, _⟩ => show win2_2.index t (1 : Fin 3) * 1024 ≤ (i 1).val ∧ (i 1).val < win2_2.index t (1 : Fin 3) * 1024 + 1024; rw [e1]; omega
  | ⟨2, _⟩ => show win2_2.index t (2 : Fin 3) * 1024 ≤ (i 2).val ∧ (i 2).val < win2_2.index t (2 : Fin 3) * 1024 + 1024; rw [e2]; omega

/-- After the region the detail array holds `regW` of the padded input array. -/
theorem arr2_W (c : Dev nD) :
    ((dat2 V c).arrAt 1 cfg2.N : S8x1024x1024.Idx → EReal) = Cert.Uwt.regW 4 1040 rfl (V c main_v4) :=
  (dat2 V c).arrAt_eq_of_cover 1 (regW 4 1040 rfl (V c main_v4)) (fun t _ => flushed2_1_eq V c t) covered2_1

/-- After the region the smooth array holds `regC` of the padded input array. -/
theorem arr2_C (c : Dev nD) :
    ((dat2 V c).arrAt 2 cfg2.N : S8x1024x1024.Idx → EReal) = Cert.Uwt.regC 4 1040 rfl (V c main_v4) :=
  (dat2 V c).arrAt_eq_of_cover 2 (regC 4 1040 rfl (V c main_v4)) (fun t _ => flushed2_2_eq V c t) covered2_2

end

end Cert.KernelIdeal.Reg

end
-- ==== Proof.ReflLevel.lean ====
/-
  One level of the transform over a reflect-padded image.

  Padding an image `c` by `2 d` on both axes by reflection gives the padded batch `Ppad d c`, whose entry `(p, q)`
  is `c` read at the reflected coordinates. The level's smooth plane over that padded batch is `smooth d c`: entry
  `(r + k' d, q + k d)` of the padded batch is exactly the read `rd (2 d) c b (r + k' d) (q + k d)` of the row pass
  inside the column pass. The level's detail plane is `c − smooth d c`, because the interior of the padded batch
  (offset `2 d` on both axes) is `c` itself: `refl (2 d) (r + 2 d) = r`.
-/
import proofs.«173091_j34797825032656_2_alg».proof.Proof.Spec

noncomputable section

namespace Cert.Uwt

open Idealize.ShloMosaic Idealize.ShloMosaic.ValueIdx

/-- Image `c` reflect-padded by `2 d` on both axes, as a padded batch of extent `1024 + 4 d`. -/
def Ppad (d : Nat) (c : Img) : PImg (1024 + 4 * d) := fun b p q => rd (2 * d) c b p.val q.val

/-- An entry of the padded batch is the image at the reflected coordinates (inside the padded extent the reflected
    coordinate is already below 1024). -/
theorem Ppad_apply (d : Nat) (hd : 2 * d ≤ 1023) (c : Img) (b : Fin 8) (p q : Fin (1024 + 4 * d)) :
    Ppad d c b p q = c b ⟨refl (2 * d) p.val, refl_lt hd (by have := p.isLt; omega)⟩
      ⟨refl (2 * d) q.val, refl_lt hd (by have := q.isLt; omega)⟩ := by
  have hp : refl (2 * d) p.val % 1024 = refl (2 * d) p.val :=
    Nat.mod_eq_of_lt (refl_lt hd (by have := p.isLt; omega))
  have hq : refl (2 * d) q.val % 1024 = refl (2 * d) q.val :=
    Nat.mod_eq_of_lt (refl_lt hd (by have := q.isLt; omega))
  unfold Ppad rd
  congr 1 <;> exact Fin.ext (by assumption)

/-- An entry of the padded batch at a tap offset is the reflected read of the two passes. -/
theorem tapAt_Ppad (d : Nat) (c : Img) (b : Fin 8) (r q : Fin 1024) (k' k : Fin 5) :
    tapAt d (1024 + 4 * d) rfl (Ppad d c) b r q k' k = rd (2 * d) c b (r.val + k'.val * d) (q.val + k.val * d) := rfl

/-- The interior of the padded batch is the image. -/
theorem rd_interior (d : Nat) (c : Img) (b : Fin 8) (r q : Fin 1024) :
    rd (2 * d) c b (r.val + 2 * d) (q.val + 2 * d) = c b r q := by
  have hr : refl (2 * d) (r.val + 2 * d) % 1024 = r.val := by
    have := r.isLt; unfold refl; split_ifs <;> omega
  have hq : refl (2 * d) (q.val + 2 * d) % 1024 = q.val := by
    have := q.isLt; unfold refl; split_ifs <;> omega
  unfold rd
  congr 1 <;> exact Fin.ext (by assumption)

/-- The level's smooth plane over the reflect-padded image is `smooth d c`. -/
theorem lvlC_Ppad (d : Nat) (c : Img) : lvlC d (1024 + 4 * d) rfl (Ppad d c) = smooth d c := rfl

/-- The level's detail plane over the reflect-padded image is `c − smooth d c`. -/
theorem lvlW_Ppad (d : Nat) (c : Img) :
    lvlW d (1024 + 4 * d) rfl (Ppad d c) = fun b r q => c b r q - smooth d c b r q := by
  funext b r q
  show tapAt d (1024 + 4 * d) rfl (Ppad d c) b r q 2 2 - lvlC d (1024 + 4 * d) rfl (Ppad d c) b r q = _
  rw [lvlC_Ppad, tapAt_Ppad]
  exact congrArg (· - smooth d c b r q) (rd_interior d c b r q)

/-! ## The level's two outputs, from a padded ARRAY that holds the reflect-padded image -/

/-- A padded array that reads the image at the reflected coordinates is the reflect-padded image. -/
theorem toPImg_eq_Ppad (d : Nat) (hd : 2 * d ≤ 1023) (c : Img)
    (y : (⟨3, ![8, 1024 + 4 * d, 1024 + 4 * d]⟩ : Shape).Idx → EReal)
    (hy : ∀ (b : Fin 8) (p q : Fin (1024 + 4 * d)),
      y (ix3 b p q) = c b ⟨refl (2 * d) p.val, refl_lt hd (by have := p.isLt; omega)⟩
        ⟨refl (2 * d) q.val, refl_lt hd (by have := q.isLt; omega)⟩) :
    toPImg (1024 + 4 * d) y = Ppad d c := by
  funext b p q
  exact (hy b p q).trans (Ppad_apply d hd c b p q).symm

/-- The level's smooth output over a padded array holding the reflect-padded image `c`: `smooth d c`. -/
theorem regC_of_padded (d : Nat) (c : Img) (y : (⟨3, ![8, 1024 + 4 * d, 1024 + 4 * d]⟩ : Shape).Idx → EReal)
    (hy : toPImg (1024 + 4 * d) y = Ppad d c) : regC d (1024 + 4 * d) rfl y = ofImg (smooth d c) := by
  unfold regC
  rw [hy, lvlC_Ppad]

/-- The level's detail output over a padded array holding the reflect-padded image `c`: `c − smooth d c`. -/
theorem regW_of_padded (d : Nat) (c : Img) (y : (⟨3, ![8, 1024 + 4 * d, 1024 + 4 * d]⟩ : Shape).Idx → EReal)
    (hy : toPImg (1024 + 4 * d) y = Ppad d c) :
    regW d (1024 + 4 * d) rfl y = ofImg (fun b r q => c b r q - smooth d c b r q) := by
  unfold regW
  rw [hy, lvlW_Ppad]

end Cert.Uwt

end
-- ==== Proof.PadRead.lean ====
/-
  Reading a reflect pad at coordinates.

  `jnp.pad(x, mode="reflect")` along one axis prints as: slice coordinates `1 … p`, reverse, put in front; slice the last
  `p` coordinates before the final one of the result, reverse, put behind. Each of the three operations read at a
  coordinate triple reads its operand at one coordinate triple (a slice shifts, a reversal mirrors, a concatenation
  picks the piece), and the composition at padded coordinate `r` reads the source at `p − r`, `r − p` or
  `2 N − 2 + p − r`: the border coordinate itself is not repeated. All extents are variables; the statements are used
  at the literal extents of the three pads.
-/
import Idealize.ShloMosaic.Lib.ValueIdx
import Idealize.ShloMosaic.Lib.Pipeline.Value

noncomputable section

namespace Cert.PadRead

open Idealize.ShloMosaic Idealize.ShloMosaic.ValueIdx

variable {α : Type}

/-! ## Along the rows (axis 1) -/

/-- A reversal along axis 1 read at coordinates: the operand at the mirrored coordinate. -/
theorem reverse1_ix3 {n0 w N : Nat} (y : (⟨3, ![n0, N, w]⟩ : Shape).Idx → α) (b : Fin n0) (q : Fin w) (r : Fin N) :
    Host.reverse [1] y (ix3 b r q) = y (ix3 b r.rev q) := by
  unfold Host.reverse
  congr 1; funext a
  match a with
  | ⟨0, _⟩ => rfl
  | ⟨1, _⟩ => rfl
  | ⟨2, _⟩ => rfl

/-- A unit-stride slice along axis 1 read at coordinates: the operand at the coordinate shifted by the offset. -/
theorem slice1_ix3 {n0 w N M : Nat} (o : Nat) (x : (⟨3, ![n0, N, w]⟩ : Shape).Idx → α)
    (h : (⟨3, ![n0, N, w]⟩ : Shape).Slices ![0, o, 0] (⟨3, ![n0, M, w]⟩ : Shape)) (b : Fin n0) (q : Fin w) (r : Fin M) (k : Fin N) (hk : k.val = o + r.val) :
    extractStridedSlice (⟨3, ![n0, M, w]⟩ : Shape) ![0, o, 0] x h (ix3 b r q) = x (ix3 b k q) :=
  extractStridedSlice_apply _ x h _ _ fun a => by
    match a with
    | ⟨0, _⟩ => exact (Nat.zero_add _).symm
    | ⟨1, _⟩ => exact hk
    | ⟨2, _⟩ => exact (Nat.zero_add _).symm

/-- A two-piece concatenation along axis 1 read at a coordinate inside the first piece. -/
theorem cat1_left_ix3 {n0 w A1 A2 N : Nat} (x₁ : (⟨3, ![n0, A1, w]⟩ : Shape).Idx → α) (x₂ : (⟨3, ![n0, A2, w]⟩ : Shape).Idx → α)
    (h : Shape.Concatenates [(⟨3, ![n0, A1, w]⟩ : Shape), (⟨3, ![n0, A2, w]⟩ : Shape)] (⟨3, ![n0, N, w]⟩ : Shape) 1) (b : Fin n0) (q : Fin w) (r : Fin N) (hr : r.val < A1) :
    concatenate (⟨3, ![n0, N, w]⟩ : Shape) 1 [⟨(⟨3, ![n0, A1, w]⟩ : Shape), x₁⟩, ⟨(⟨3, ![n0, A2, w]⟩ : Shape), x₂⟩] h (ix3 b r q) = x₁ (ix3 b ⟨r.val, hr⟩ q) :=
  concatenate_pair_apply_left 1 x₁ x₂ h _ rfl _ fun a => by
    match a with
    | ⟨0, _⟩ => rfl
    | ⟨1, _⟩ => rfl
    | ⟨2, _⟩ => rfl

/-- A two-piece concatenation along axis 1 read at a coordinate past the first piece: the second piece, the first
    extent less. -/
theorem cat1_right_ix3 {n0 w A1 A2 N : Nat} (x₁ : (⟨3, ![n0, A1, w]⟩ : Shape).Idx → α) (x₂ : (⟨3, ![n0, A2, w]⟩ : Shape).Idx → α)
    (h : Shape.Concatenates [(⟨3, ![n0, A1, w]⟩ : Shape), (⟨3, ![n0, A2, w]⟩ : Shape)] (⟨3, ![n0, N, w]⟩ : Shape) 1) (b : Fin n0) (q : Fin w) (r : Fin N) (k : Fin A2)
    (hk : k.val + A1 = r.val) :
    concatenate (⟨3, ![n0, N, w]⟩ : Shape) 1 [⟨(⟨3, ![n0, A1, w]⟩ : Shape), x₁⟩, ⟨(⟨3, ![n0, A2, w]⟩ : Shape), x₂⟩] h (ix3 b r q) = x₂ (ix3 b k q) :=
  concatenate_pair_apply_right 1 x₁ x₂ h _ rfl rfl _
    (fun a ha => by
      match a with
      | ⟨0, _⟩ => rfl
      | ⟨1, _⟩ => exact absurd rfl ha
      | ⟨2, _⟩ => rfl)
    hk

/-- The array extended at the front of axis 1 by the mirror image of its coordinates `1 … p`. -/
abbrev frontPad1 {n0 w N p M1 : Nat} (x : (⟨3, ![n0, N, w]⟩ : Shape).Idx → α)
    (hs1 : (⟨3, ![n0, N, w]⟩ : Shape).Slices ![0, 1, 0] (⟨3, ![n0, p, w]⟩ : Shape))
    (hc1 : Shape.Concatenates [(⟨3, ![n0, p, w]⟩ : Shape), (⟨3, ![n0, N, w]⟩ : Shape)] (⟨3, ![n0, M1, w]⟩ : Shape) 1) : (⟨3, ![n0, M1, w]⟩ : Shape).Idx → α :=
  concatenate (⟨3, ![n0, M1, w]⟩ : Shape) 1 [⟨(⟨3, ![n0, p, w]⟩ : Shape), Host.reverse [1] (extractStridedSlice (⟨3, ![n0, p, w]⟩ : Shape) ![0, 1, 0] x hs1)⟩, ⟨(⟨3, ![n0, N, w]⟩ : Shape), x⟩] hc1

/-- The front-extended array at coordinate `r`: the source coordinate is `p − r` in the margin, `r − p` past it. -/
theorem frontPad1_read {n0 w N p M1 : Nat} (x : (⟨3, ![n0, N, w]⟩ : Shape).Idx → α)
    (hs1 : (⟨3, ![n0, N, w]⟩ : Shape).Slices ![0, 1, 0] (⟨3, ![n0, p, w]⟩ : Shape))
    (hc1 : Shape.Concatenates [(⟨3, ![n0, p, w]⟩ : Shape), (⟨3, ![n0, N, w]⟩ : Shape)] (⟨3, ![n0, M1, w]⟩ : Shape) 1)
    (b : Fin n0) (q : Fin w) (r : Fin M1) (k : Fin N)
    (hk : k.val = if r.val < p then p - r.val else r.val - p) (hkp : r.val < p → p ≤ N) :
    frontPad1 x hs1 hc1 (ix3 b r q) = x (ix3 b k q) := by
  by_cases hr : r.val < p
  · rw [if_pos hr] at hk
    refine (cat1_left_ix3 _ _ hc1 b q r hr).trans ?_
    refine (reverse1_ix3 _ b q ⟨r.val, hr⟩).trans ?_
    refine slice1_ix3 1 x hs1 b q _ k ?_
    show k.val = 1 + (p - (r.val + 1))
    omega
  · rw [if_neg hr] at hk
    exact cat1_right_ix3 _ _ hc1 b q r k (by omega)

/-- The front-extended array extended at the back of axis 1 by the mirror image of its `p` coordinates from `o2` on
    (`o2 = N − 1`): the reflect pad by `p` on both sides. -/
abbrev reflPad1 {n0 w N p M1 M2 : Nat} (o2 : Nat) (x : (⟨3, ![n0, N, w]⟩ : Shape).Idx → α)
    (hs1 : (⟨3, ![n0, N, w]⟩ : Shape).Slices ![0, 1, 0] (⟨3, ![n0, p, w]⟩ : Shape))
    (hc1 : Shape.Concatenates [(⟨3, ![n0, p, w]⟩ : Shape), (⟨3, ![n0, N, w]⟩ : Shape)] (⟨3, ![n0, M1, w]⟩ : Shape) 1)
    (hs2 : (⟨3, ![n0, M1, w]⟩ : Shape).Slices ![0, o2, 0] (⟨3, ![n0, p, w]⟩ : Shape))
    (hc2 : Shape.Concatenates [(⟨3, ![n0, M1, w]⟩ : Shape), (⟨3, ![n0, p, w]⟩ : Shape)] (⟨3, ![n0, M2, w]⟩ : Shape) 1) : (⟨3, ![n0, M2, w]⟩ : Shape).Idx → α :=
  concatenate (⟨3, ![n0, M2, w]⟩ : Shape) 1
    [⟨(⟨3, ![n0, M1, w]⟩ : Shape), frontPad1 x hs1 hc1⟩,
     ⟨(⟨3, ![n0, p, w]⟩ : Shape), Host.reverse [1] (extractStridedSlice (⟨3, ![n0, p, w]⟩ : Shape) ![0, o2, 0] (frontPad1 x hs1 hc1) hs2)⟩] hc2

/-- The reflect pad at coordinate `r`: the source coordinate is `p − r` in the front margin, `r − p` inside,
    `2 N − 2 + p − r` in the back margin. -/
theorem reflPad1_read {n0 w N p M1 M2 o2 : Nat} (hM1 : M1 = p + N) (hM2 : M2 = M1 + p) (ho2 : o2 + 1 = N) (hp : p + 1 ≤ N)
    (x : (⟨3, ![n0, N, w]⟩ : Shape).Idx → α)
    (hs1 : (⟨3, ![n0, N, w]⟩ : Shape).Slices ![0, 1, 0] (⟨3, ![n0, p, w]⟩ : Shape))
    (hc1 : Shape.Concatenates [(⟨3, ![n0, p, w]⟩ : Shape), (⟨3, ![n0, N, w]⟩ : Shape)] (⟨3, ![n0, M1, w]⟩ : Shape) 1)
    (hs2 : (⟨3, ![n0, M1, w]⟩ : Shape).Slices ![0, o2, 0] (⟨3, ![n0, p, w]⟩ : Shape))
    (hc2 : Shape.Concatenates [(⟨3, ![n0, M1, w]⟩ : Shape), (⟨3, ![n0, p, w]⟩ : Shape)] (⟨3, ![n0, M2, w]⟩ : Shape) 1)
    (b : Fin n0) (q : Fin w) (r : Fin M2) (k : Fin N)
    (hk : k.val = if r.val < p then p - r.val else if r.val < p + N then r.val - p else 2 * N - 2 + p - r.val) :
    reflPad1 o2 x hs1 hc1 hs2 hc2 (ix3 b r q) = x (ix3 b k q) := by
  have hrlt : r.val < M2 := r.isLt
  by_cases hr : r.val < M1
  · refine (cat1_left_ix3 _ _ hc2 b q r hr).trans ?_
    refine frontPad1_read x hs1 hc1 b q ⟨r.val, hr⟩ k ?_ (fun _ => by omega)
    show k.val = if r.val < p then p - r.val else r.val - p
    rw [hk]; split_ifs <;> omega
  · have hlt : r.val - M1 < p := by omega
    refine (cat1_right_ix3 _ _ hc2 b q r ⟨r.val - M1, hlt⟩ (by show r.val - M1 + M1 = r.val; omega)).trans ?_
    refine (reverse1_ix3 _ b q ⟨r.val - M1, hlt⟩).trans ?_
    have hlt2 : o2 + (p - (r.val - M1 + 1)) < M1 := by omega
    refine (slice1_ix3 o2 _ hs2 b q _ ⟨o2 + (p - (r.val - M1 + 1)), hlt2⟩ rfl).trans ?_
    refine frontPad1_read x hs1 hc1 b q _ k ?_ (fun _ => by omega)
    show k.val = if o2 + (p - (r.val - M1 + 1)) < p then p - (o2 + (p - (r.val - M1 + 1))) else o2 + (p - (r.val - M1 + 1)) - p
    rw [hk]; split_ifs <;> omega

/-! ## Along the columns (axis 2) -/

/-- A reversal along axis 2 read at coordinates: the operand at the mirrored coordinate. -/
theorem reverse2_ix3 {n0 w N : Nat} (y : (⟨3, ![n0, w, N]⟩ : Shape).Idx → α) (b : Fin n0) (q : Fin w) (r : Fin N) :
    Host.reverse [2] y (ix3 b q r) = y (ix3 b q r.rev) := by
  unfold Host.reverse
  congr 1; funext a
  match a with
  | ⟨0, _⟩ => rfl
  | ⟨1, _⟩ => rfl
  | ⟨2, _⟩ => rfl

/-- A unit-stride slice along axis 2 read at coordinates: the operand at the coordinate shifted by the offset. -/
theorem slice2_ix3 {n0 w N M : Nat} (o : Nat) (x : (⟨3, ![n0, w, N]⟩ : Shape).Idx → α)
    (h : (⟨3, ![n0, w, N]⟩ : Shape).Slices ![0, 0, o] (⟨3, ![n0, w, M]⟩ : Shape)) (b : Fin n0) (q : Fin w) (r : Fin M) (k : Fin N) (hk : k.val = o + r.val) :
    extractStridedSlice (⟨3, ![n0, w, M]⟩ : Shape) ![0, 0, o] x h (ix3 b q r) = x (ix3 b q k) :=
  extractStridedSlice_apply _ x h _ _ fun a => by
    match a with
    | ⟨0, _⟩ => exact (Nat.zero_add _).symm
    | ⟨2, _⟩ => exact hk
    | ⟨1, _⟩ => exact (Nat.zero_add _).symm

/-- A two-piece concatenation along axis 2 read at a coordinate inside the first piece. -/
theorem cat2_left_ix3 {n0 w A1 A2 N : Nat} (x₁ : (⟨3, ![n0, w, A1]⟩ : Shape).Idx → α) (x₂ : (⟨3, ![n0, w, A2]⟩ : Shape).Idx → α)
    (h : Shape.Concatenates [(⟨3, ![n0, w, A1]⟩ : Shape), (⟨3, ![n0, w, A2]⟩ : Shape)] (⟨3, ![n0, w, N]⟩ : Shape) 2) (b : Fin n0) (q : Fin w) (r : Fin N) (hr : r.val < A1) :
    concatenate (⟨3, ![n0, w, N]⟩ : Shape) 2 [⟨(⟨3, ![n0, w, A1]⟩ : Shape), x₁⟩, ⟨(⟨3, ![n0, w, A2]⟩ : Shape), x₂⟩] h (ix3 b q r) = x₁ (ix3 b q ⟨r.val, hr⟩) :=
  concatenate_pair_apply_left 2 x₁ x₂ h _ rfl _ fun a => by
    match a with
    | ⟨0, _⟩ => rfl
    | ⟨1, _⟩ => rfl
    | ⟨2, _⟩ => rfl

/-- A two-piece concatenation along axis 2 read at a coordinate past the first piece: the second piece, the first
    extent less. -/
theorem cat2_right_ix3 {n0 w A1 A2 N : Nat} (x₁ : (⟨3, ![n0, w, A1]⟩ : Shape).Idx → α) (x₂ : (⟨3, ![n0, w, A2]⟩ : Shape).Idx → α)
    (h : Shape.Concatenates [(⟨3, ![n0, w, A1]⟩ : Shape), (⟨3, ![n0, w, A2]⟩ : Shape)] (⟨3, ![n0, w, N]⟩ : Shape) 2) (b : Fin n0) (q : Fin w) (r : Fin N) (k : Fin A2)
    (hk : k.val + A1 = r.val) :
    concatenate (⟨3, ![n0, w, N]⟩ : Shape) 2 [⟨(⟨3, ![n0, w, A1]⟩ : Shape), x₁⟩, ⟨(⟨3, ![n0, w, A2]⟩ : Shape), x₂⟩] h (ix3 b q r) = x₂ (ix3 b q k) :=
  concatenate_pair_apply_right 2 x₁ x₂ h _ rfl rfl _
    (fun a ha => by
      match a with
      | ⟨0, _⟩ => rfl
      | ⟨2, _⟩ => exact absurd rfl ha
      | ⟨1, _⟩ => rfl)
    hk

/-- The array extended at the front of axis 2 by the mirror image of its coordinates `1 … p`. -/
abbrev frontPad2 {n0 w N p M1 : Nat} (x : (⟨3, ![n0, w, N]⟩ : Shape).Idx → α)
    (hs1 : (⟨3, ![n0, w, N]⟩ : Shape).Slices ![0, 0, 1] (⟨3, ![n0, w, p]⟩ : Shape))
    (hc1 : Shape.Concatenates [(⟨3, ![n0, w, p]⟩ : Shape), (⟨3, ![n0, w, N]⟩ : Shape)] (⟨3, ![n0, w, M1]⟩ : Shape) 2) : (⟨3, ![n0, w, M1]⟩ : Shape).Idx → α :=
  concatenate (⟨3, ![n0, w, M1]⟩ : Shape) 2 [⟨(⟨3, ![n0, w, p]⟩ : Shape), Host.reverse [2] (extractStridedSlice (⟨3, ![n0, w, p]⟩ : Shape) ![0, 0, 1] x hs1)⟩, ⟨(⟨3, ![n0, w, N]⟩ : Shape), x⟩] hc1

/-- The front-extended array at coordinate `r`: the source coordinate is `p − r` in the margin, `r − p` past it. -/
theorem frontPad2_read {n0 w N p M1 : Nat} (x : (⟨3, ![n0, w, N]⟩ : Shape).Idx → α)
    (hs1 : (⟨3, ![n0, w, N]⟩ : Shape).Slices ![0, 0, 1] (⟨3, ![n0, w, p]⟩ : Shape))
    (hc1 : Shape.Concatenates [(⟨3, ![n0, w, p]⟩ : Shape), (⟨3, ![n0, w, N]⟩ : Shape)] (⟨3, ![n0, w, M1]⟩ : Shape) 2)
    (b : Fin n0) (q : Fin w) (r : Fin M1) (k : Fin N)
    (hk : k.val = if r.val < p then p - r.val else r.val - p) (hkp : r.val < p → p ≤ N) :
    frontPad2 x hs1 hc1 (ix3 b q r) = x (ix3 b q k) := by
  by_cases hr : r.val < p
  · rw [if_pos hr] at hk
    refine (cat2_left_ix3 _ _ hc1 b q r hr).trans ?_
    refine (reverse2_ix3 _ b q ⟨r.val, hr⟩).trans ?_
    refine slice2_ix3 1 x hs1 b q _ k ?_
    show k.val = 1 + (p - (r.val + 1))
    omega
  · rw [if_neg hr] at hk
    exact cat2_right_ix3 _ _ hc1 b q r k (by omega)

/-- The front-extended array extended at the back of axis 2 by the mirror image of its `p` coordinates from `o2` on
    (`o2 = N − 1`): the reflect pad by `p` on both sides. -/
abbrev reflPad2 {n0 w N p M1 M2 : Nat} (o2 : Nat) (x : (⟨3, ![n0, w, N]⟩ : Shape).Idx → α)
    (hs1 : (⟨3, ![n0, w, N]⟩ : Shape).Slices ![0, 0, 1] (⟨3, ![n0, w, p]⟩ : Shape))
    (hc1 : Shape.Concatenates [(⟨3, ![n0, w, p]⟩ : Shape), (⟨3, ![n0, w, N]⟩ : Shape)] (⟨3, ![n0, w, M1]⟩ : Shape) 2)
    (hs2 : (⟨3, ![n0, w, M1]⟩ : Shape).Slices ![0, 0, o2] (⟨3, ![n0, w, p]⟩ : Shape))
    (hc2 : Shape.Concatenates [(⟨3, ![n0, w, M1]⟩ : Shape), (⟨3, ![n0, w, p]⟩ : Shape)] (⟨3, ![n0, w, M2]⟩ : Shape) 2) : (⟨3, ![n0, w, M2]⟩ : Shape).Idx → α :=
  concatenate (⟨3, ![n0, w, M2]⟩ : Shape) 2
    [⟨(⟨3, ![n0, w, M1]⟩ : Shape), frontPad2 x hs1 hc1⟩,
     ⟨(⟨3, ![n0, w, p]⟩ : Shape), Host.reverse [2] (extractStridedSlice (⟨3, ![n0, w, p]⟩ : Shape) ![0, 0, o2] (frontPad2 x hs1 hc1) hs2)⟩] hc2

/-- The reflect pad at coordinate `r`: the source coordinate is `p − r` in the front margin, `r − p` inside,
    `2 N − 2 + p − r` in the back margin. -/
theorem reflPad2_read {n0 w N p M1 M2 o2 : Nat} (hM1 : M1 = p + N) (hM2 : M2 = M1 + p) (ho2 : o2 + 1 = N) (hp : p + 1 ≤ N)
    (x : (⟨3, ![n0, w, N]⟩ : Shape).Idx → α)
    (hs1 : (⟨3, ![n0, w, N]⟩ : Shape).Slices ![0, 0, 1] (⟨3, ![n0, w, p]⟩ : Shape))
    (hc1 : Shape.Concatenates [(⟨3, ![n0, w, p]⟩ : Shape), (⟨3, ![n0, w, N]⟩ : Shape)] (⟨3, ![n0, w, M1]⟩ : Shape) 2)
    (hs2 : (⟨3, ![n0, w, M1]⟩ : Shape).Slices ![0, 0, o2] (⟨3, ![n0, w, p]⟩ : Shape))
    (hc2 : Shape.Concatenates [(⟨3, ![n0, w, M1]⟩ : Shape), (⟨3, ![n0, w, p]⟩ : Shape)] (⟨3, ![n0, w, M2]⟩ : Shape) 2)
    (b : Fin n0) (q : Fin w) (r : Fin M2) (k : Fin N)
    (hk : k.val = if r.val < p then p - r.val else if r.val < p + N then r.val - p else 2 * N - 2 + p - r.val) :
    reflPad2 o2 x hs1 hc1 hs2 hc2 (ix3 b q r) = x (ix3 b q k) := by
  have hrlt : r.val < M2 := r.isLt
  by_cases hr : r.val < M1
  · refine (cat2_left_ix3 _ _ hc2 b q r hr).trans ?_
    refine frontPad2_read x hs1 hc1 b q ⟨r.val, hr⟩ k ?_ (fun _ => by omega)
    show k.val = if r.val < p then p - r.val else r.val - p
    rw [hk]; split_ifs <;> omega
  · have hlt : r.val - M1 < p := by omega
    refine (cat2_right_ix3 _ _ hc2 b q r ⟨r.val - M1, hlt⟩ (by show r.val - M1 + M1 = r.val; omega)).trans ?_
    refine (reverse2_ix3 _ b q ⟨r.val - M1, hlt⟩).trans ?_
    have hlt2 : o2 + (p - (r.val - M1 + 1)) < M1 := by omega
    refine (slice2_ix3 o2 _ hs2 b q _ ⟨o2 + (p - (r.val - M1 + 1)), hlt2⟩ rfl).trans ?_
    refine frontPad2_read x hs1 hc1 b q _ k ?_ (fun _ => by omega)
    show k.val = if o2 + (p - (r.val - M1 + 1)) < p then p - (o2 + (p - (r.val - M1 + 1))) else o2 + (p - (r.val - M1 + 1)) - p
    rw [hk]; split_ifs <;> omega

end Cert.PadRead

end
-- ==== Proof.HostPads.lean ====
/-
  The three reflect pads of the kernel program's host side, read at coordinates.

  Each pad is sixteen host operations (`jnp.pad(…, mode="reflect")` on the rows, then on the columns), read here four at a
  time: each group of four extends one side of one axis. Whatever the buffers hold before the stretch, its result buffer
  at padded coordinates `(p, q)` is the stretch's input buffer at `(refl pad p, refl pad q)`.
-/
import proofs.«173091_j34797825032656_2_alg».proof.Proof.Spec
import proofs.«173091_j34797825032656_2_alg».proof.Proof.PadRead
import proofs.«173091_j34797825032656_2_alg».proof.Proof.Gen.KernelIdeal.Launch
import Idealize.ShloMosaic.Lib.StableHlo.Run

noncomputable section

namespace Cert.KernelIdeal.Glue

open Cert.KernelIdeal Cert.KernelIdeal.Gen Cert.Uwt Cert.PadRead
open Idealize.ShloMosaic Idealize.ShloMosaic.ValueIdx Idealize.ShloMosaic.TcCoe Idealize.ShloMosaic.StableHlo

/-! ## The pad by 2 before level 0 (`hostOps0_1`: `main_arg0` to `main_v0`) -/

/-- Operations 1–4: the rows' front margin. -/
theorem pad0_rowsFront (W : Valuation τ sig (Elt Ideal)) :
    (StableHlo.after ((hostOps0_1 (F := Ideal)).take 4) W main_call0_v3 : S8x1026x1024.Idx → EReal)
      = frontPad1 (n0 := 8) (w := 1024) (N := 1024) (p := 2) (M1 := 1026) (W main_arg0 : S8x1024x1024.Idx → EReal)
          (by decide) (by decide) := by
  dsimp only [hostOps0_1, List.take]
  after_results
  rfl

/-- Operations 5–8: the rows' back margin. -/
theorem pad0_rowsBack (W : Valuation τ sig (Elt Ideal)) :
    (StableHlo.after (((hostOps0_1 (F := Ideal)).drop 4).take 4) W main_call0_v7 : S8x1028x1024.Idx → EReal)
      = concatenate S8x1028x1024 1
          [⟨S8x1026x1024, (W main_call0_v3 : S8x1026x1024.Idx → EReal)⟩,
           ⟨S8x2x1024, Host.reverse [1] (extractStridedSlice S8x2x1024 ![0, 1023, 0] (W main_call0_v3 : S8x1026x1024.Idx → EReal) (by decide))⟩]
          (by decide : Shape.Concatenates [S8x1026x1024, S8x2x1024] S8x1028x1024 1) := by
  dsimp only [hostOps0_1, List.take, List.drop]
  after_results
  rfl

/-- Operations 9–12: the columns' front margin. -/
theorem pad0_colsFront (W : Valuation τ sig (Elt Ideal)) :
    (StableHlo.after (((hostOps0_1 (F := Ideal)).drop 8).take 4) W main_call0_v11 : S8x1028x1026.Idx → EReal)
      = frontPad2 (n0 := 8) (w := 1028) (N := 1024) (p := 2) (M1 := 1026) (W main_call0_v7 : S8x1028x1024.Idx → EReal)
          (by decide) (by decide) := by
  dsimp only [hostOps0_1, List.take, List.drop]
  after_results
  rfl

/-- Operations 13–16: the columns' back margin. -/
theorem pad0_colsBack (W : Valuation τ sig (Elt Ideal)) :
    (StableHlo.after ((hostOps0_1 (F := Ideal)).drop 12) W main_v0 : S8x1028x1028.Idx → EReal)
      = concatenate S8x1028x1028 2
          [⟨S8x1028x1026, (W main_call0_v11 : S8x1028x1026.Idx → EReal)⟩,
           ⟨S8x1028x2, Host.reverse [2] (extractStridedSlice S8x1028x2 ![0, 0, 1023] (W main_call0_v11 : S8x1028x1026.Idx → EReal) (by decide))⟩]
          (by decide : Shape.Concatenates [S8x1028x1026, S8x1028x2] S8x1028x1028 2) := by
  dsimp only [hostOps0_1, List.drop]
  after_results
  rfl

/-- The whole stretch, as one expression of the buffer it reads: the reflect pad of the rows, then of the columns. -/
theorem pad0_term (W : Valuation τ sig (Elt Ideal)) :
    (StableHlo.after hostOps0_1 W main_v0 : S8x1028x1028.Idx → EReal)
      = reflPad2 (n0 := 8) (w := 1028) (N := 1024) (p := 2) (M1 := 1026) (M2 := 1028) 1023
          (reflPad1 (n0 := 8) (w := 1024) (N := 1024) (p := 2) (M1 := 1026) (M2 := 1028) 1023 (W main_arg0 : S8x1024x1024.Idx → EReal)
            (by decide) (by decide) (by decide) (by decide))
          (by decide) (by decide) (by decide) (by decide) := by
  show StableHlo.after ((hostOps0_1 (F := Ideal)).drop 12)
    (StableHlo.after (((hostOps0_1 (F := Ideal)).drop 8).take 4)
      (StableHlo.after (((hostOps0_1 (F := Ideal)).drop 4).take 4)
        (StableHlo.after ((hostOps0_1 (F := Ideal)).take 4) W))) main_v0 = _
  rw [pad0_colsBack, pad0_colsFront, pad0_rowsBack, pad0_rowsFront]

/-- `main_v0` at padded coordinates `(p, q)` of plane `b` is `main_arg0` at the reflected coordinates. The columns are
    padded last, so they are read first: the column pad reads the row-padded array at column `refl 2 q`, the row pad
    then reads `main_arg0` at row `refl 2 p`. -/
theorem pad0_read (W : Valuation τ sig (Elt Ideal)) (b : Fin 8) (p q : Fin 1028) :
    (StableHlo.after hostOps0_1 W main_v0 : S8x1028x1028.Idx → EReal) (ix3 b p q)
      = (W main_arg0 : S8x1024x1024.Idx → EReal)
          (ix3 b ⟨refl 2 p.val, refl_lt (by norm_num) (by have := p.isLt; omega)⟩
            ⟨refl 2 q.val, refl_lt (by norm_num) (by have := q.isLt; omega)⟩) := by
  rw [pad0_term W]
  refine (reflPad2_read (n0 := 8) (w := 1028) (N := 1024) (p := 2) (M1 := 1026) (M2 := 1028) (o2 := 1023)
    (by norm_num) (by norm_num) (by norm_num) (by norm_num) _ _ _ _ _ b p q
    ⟨refl 2 q.val, refl_lt (by norm_num) (by have := q.isLt; omega)⟩ ?_).trans ?_
  · show refl 2 q.val = _
    unfold Uwt.refl; split_ifs <;> omega
  · refine reflPad1_read (n0 := 8) (w := 1024) (N := 1024) (p := 2) (M1 := 1026) (M2 := 1028) (o2 := 1023)
      (by norm_num) (by norm_num) (by norm_num) (by norm_num) _ _ _ _ _ b
      ⟨refl 2 q.val, refl_lt (by norm_num) (by have := q.isLt; omega)⟩ p
      ⟨refl 2 p.val, refl_lt (by norm_num) (by have := p.isLt; omega)⟩ ?_
    show refl 2 p.val = _
    unfold Uwt.refl; split_ifs <;> omega

/-! ## The pad by 4 before level 1 (`hostOps1_1`: `main_v1_1` to `main_v2`) -/

/-- Operations 1–4: the rows' front margin. -/
theorem pad1_rowsFront (W : Valuation τ sig (Elt Ideal)) :
    (StableHlo.after ((hostOps1_1 (F := Ideal)).take 4) W main_call1_v3 : S8x1028x1024.Idx → EReal)
      = frontPad1 (n0 := 8) (w := 1024) (N := 1024) (p := 4) (M1 := 1028) (W main_v1_1 : S8x1024x1024.Idx → EReal)
          (by decide) (by decide) := by
  dsimp only [hostOps1_1, List.take]
  after_results
  rfl

/-- Operations 5–8: the rows' back margin. -/
theorem pad1_rowsBack (W : Valuation τ sig (Elt Ideal)) :
    (StableHlo.after (((hostOps1_1 (F := Ideal)).drop 4).take 4) W main_call1_v7 : S8x1032x1024.Idx → EReal)
      = concatenate S8x1032x1024 1
          [⟨S8x1028x1024, (W main_call1_v3 : S8x1028x1024.Idx → EReal)⟩,
           ⟨S8x4x1024, Host.reverse [1] (extractStridedSlice S8x4x1024 ![0, 1023, 0] (W main_call1_v3 : S8x1028x1024.Idx → EReal) (by decide))⟩]
          (by decide : Shape.Concatenates [S8x1028x1024, S8x4x1024] S8x1032x1024 1) := by
  dsimp only [hostOps1_1, List.take, List.drop]
  after_results
  rfl

/-- Operations 9–12: the columns' front margin. -/
theorem pad1_colsFront (W : Valuation τ sig (Elt Ideal)) :
    (StableHlo.after (((hostOps1_1 (F := Ideal)).drop 8).take 4) W main_call1_v11 : S8x1032x1028.Idx → EReal)
      = frontPad2 (n0 := 8) (w := 1032) (N := 1024) (p := 4) (M1 := 1028) (W main_call1_v7 : S8x1032x1024.Idx → EReal)
          (by decide) (by decide) := by
  dsimp only [hostOps1_1, List.take, List.drop]
  after_results
  rfl

/-- Operations 13–16: the columns' back margin. -/
theorem pad1_colsBack (W : Valuation τ sig (Elt Ideal)) :
    (StableHlo.after ((hostOps1_1 (F := Ideal)).drop 12) W main_v2 : S8x1032x1032.Idx → EReal)
      = concatenate S8x1032x1032 2
          [⟨S8x1032x1028, (W main_call1_v11 : S8x1032x1028.Idx → EReal)⟩,
           ⟨S8x1032x4, Host.reverse [2] (extractStridedSlice S8x1032x4 ![0, 0, 1023] (W main_call1_v11 : S8x1032x1028.Idx → EReal) (by decide))⟩]
          (by decide : Shape.Concatenates [S8x1032x1028, S8x1032x4] S8x1032x1032 2) := by
  dsimp only [hostOps1_1, List.drop]
  after_results
  rfl

/-- The whole stretch, as one expression of the buffer it reads: the reflect pad of the rows, then of the columns. -/
theorem pad1_term (W : Valuation τ sig (Elt Ideal)) :
    (StableHlo.after hostOps1_1 W main_v2 : S8x1032x1032.Idx → EReal)
      = reflPad2 (n0 := 8) (w := 1032) (N := 1024) (p := 4) (M1 := 1028) (M2 := 1032) 1023
          (reflPad1 (n0 := 8) (w := 1024) (N := 1024) (p := 4) (M1 := 1028) (M2 := 1032) 1023 (W main_v1_1 : S8x1024x1024.Idx → EReal)
            (by decide) (by decide) (by decide) (by decide))
          (by decide) (by decide) (by decide) (by decide) := by
  show StableHlo.after ((hostOps1_1 (F := Ideal)).drop 12)
    (StableHlo.after (((hostOps1_1 (F := Ideal)).drop 8).take 4)
      (StableHlo.after (((hostOps1_1 (F := Ideal)).drop 4).take 4)
        (StableHlo.after ((hostOps1_1 (F := Ideal)).take 4) W))) main_v2 = _
  rw [pad1_colsBack, pad1_colsFront, pad1_rowsBack, pad1_rowsFront]

/-- `main_v2` at padded coordinates `(p, q)` of plane `b` is `main_v1_1` at the reflected coordinates. The columns are
    padded last, so they are read first: the column pad reads the row-padded array at column `refl 4 q`, the row pad
    then reads `main_v1_1` at row `refl 4 p`. -/
theorem pad1_read (W : Valuation τ sig (Elt Ideal)) (b : Fin 8) (p q : Fin 1032) :
    (StableHlo.after hostOps1_1 W main_v2 : S8x1032x1032.Idx → EReal) (ix3 b p q)
      = (W main_v1_1 : S8x1024x1024.Idx → EReal)
          (ix3 b ⟨refl 4 p.val, refl_lt (by norm_num) (by have := p.isLt; omega)⟩
            ⟨refl 4 q.val, refl_lt (by norm_num) (by have := q.isLt; omega)⟩) := by
  rw [pad1_term W]
  refine (reflPad2_read (n0 := 8) (w := 1032) (N := 1024) (p := 4) (M1 := 1028) (M2 := 1032) (o2 := 1023)
    (by norm_num) (by norm_num) (by norm_num) (by norm_num) _ _ _ _ _ b p q
    ⟨refl 4 q.val, refl_lt (by norm_num) (by have := q.isLt; omega)⟩ ?_).trans ?_
  · show refl 4 q.val = _
    unfold Uwt.refl; split_ifs <;> omega
  · refine reflPad1_read (n0 := 8) (w := 1024) (N := 1024) (p := 4) (M1 := 1028) (M2 := 1032) (o2 := 1023)
      (by norm_num) (by norm_num) (by norm_num) (by norm_num) _ _ _ _ _ b
      ⟨refl 4 q.val, refl_lt (by norm_num) (by have := q.isLt; omega)⟩ p
      ⟨refl 4 p.val, refl_lt (by norm_num) (by have := p.isLt; omega)⟩ ?_
    show refl 4 p.val = _
    unfold Uwt.refl; split_ifs <;> omega

/-! ## The pad by 8 before level 2 (`hostOps2_1`: `main_v3_1` to `main_v4`) -/

/-- Operations 1–4: the rows' front margin. -/
theorem pad2_rowsFront (W : Valuation τ sig (Elt Ideal)) :
    (StableHlo.after ((hostOps2_1 (F := Ideal)).take 4) W main_call2_v3 : S8x1032x1024.Idx → EReal)
      = frontPad1 (n0 := 8) (w := 1024) (N := 1024) (p := 8) (M1 := 1032) (W main_v3_1 : S8x1024x1024.Idx → EReal)
          (by decide) (by decide) := by
  dsimp only [hostOps2_1, List.take]
  after_results
  rfl

/-- Operations 5–8: the rows' back margin. -/
theorem pad2_rowsBack (W : Valuation τ sig (Elt Ideal)) :
    (StableHlo.after (((hostOps2_1 (F := Ideal)).drop 4).take 4) W main_call2_v7 : S8x1040x1024.Idx → EReal)
      = concatenate S8x1040x1024 1
          [⟨S8x1032x1024, (W main_call2_v3 : S8x1032x1024.Idx → EReal)⟩,
           ⟨S8x8x1024, Host.reverse [1] (extractStridedSlice S8x8x1024 ![0, 1023, 0] (W main_call2_v3 : S8x1032x1024.Idx → EReal) (by decide))⟩]
          (by decide : Shape.Concatenates [S8x1032x1024, S8x8x1024] S8x1040x1024 1) := by
  dsimp only [hostOps2_1, List.take, List.drop]
  after_results
  rfl

/-- Operations 9–12: the columns' front margin. -/
theorem pad2_colsFront (W : Valuation τ sig (Elt Ideal)) :
    (StableHlo.after (((hostOps2_1 (F := Ideal)).drop 8).take 4) W main_call2_v11 : S8x1040x1032.Idx → EReal)
      = frontPad2 (n0 := 8) (w := 1040) (N := 1024) (p := 8) (M1 := 1032) (W main_call2_v7 : S8x1040x1024.Idx → EReal)
          (by decide) (by decide) := by
  dsimp only [hostOps2_1, List.take, List.drop]
  after_results
  rfl

/-- Operations 13–16: the columns' back margin. -/
theorem pad2_colsBack (W : Valuation τ sig (Elt Ideal)) :
    (StableHlo.after ((hostOps2_1 (F := Ideal)).drop 12) W main_v4 : S8x1040x1040.Idx → EReal)
      = concatenate S8x1040x1040 2
          [⟨S8x1040x1032, (W main_call2_v11 : S8x1040x1032.Idx → EReal)⟩,
           ⟨S8x1040x8, Host.reverse [2] (extractStridedSlice S8x1040x8 ![0, 0, 1023] (W main_call2_v11 : S8x1040x1032.Idx → EReal) (by decide))⟩]
          (by decide : Shape.Concatenates [S8x1040x1032, S8x1040x8] S8x1040x1040 2) := by
  dsimp only [hostOps2_1, List.drop]
  after_results
  rfl

/-- The whole stretch, as one expression of the buffer it reads: the reflect pad of the rows, then of the columns. -/
theorem pad2_term (W : Valuation τ sig (Elt Ideal)) :
    (StableHlo.after hostOps2_1 W main_v4 : S8x1040x1040.Idx → EReal)
      = reflPad2 (n0 := 8) (w := 1040) (N := 1024) (p := 8) (M1 := 1032) (M2 := 1040) 1023
          (reflPad1 (n0 := 8) (w := 1024) (N := 1024) (p := 8) (M1 := 1032) (M2 := 1040) 1023 (W main_v3_1 : S8x1024x1024.Idx → EReal)
            (by decide) (by decide) (by decide) (by decide))
          (by decide) (by decide) (by decide) (by decide) := by
  show StableHlo.after ((hostOps2_1 (F := Ideal)).drop 12)
    (StableHlo.after (((hostOps2_1 (F := Ideal)).drop 8).take 4)
      (StableHlo.after (((hostOps2_1 (F := Ideal)).drop 4).take 4)
        (StableHlo.after ((hostOps2_1 (F := Ideal)).take 4) W))) main_v4 = _
  rw [pad2_colsBack, pad2_colsFront, pad2_rowsBack, pad2_rowsFront]

/-- `main_v4` at padded coordinates `(p, q)` of plane `b` is `main_v3_1` at the reflected coordinates. The columns are
    padded last, so they are read first: the column pad reads the row-padded array at column `refl 8 q`, the row pad
    then reads `main_v3_1` at row `refl 8 p`. -/
theorem pad2_read (W : Valuation τ sig (Elt Ideal)) (b : Fin 8) (p q : Fin 1040) :
    (StableHlo.after hostOps2_1 W main_v4 : S8x1040x1040.Idx → EReal) (ix3 b p q)
      = (W main_v3_1 : S8x1024x1024.Idx → EReal)
          (ix3 b ⟨refl 8 p.val, refl_lt (by norm_num) (by have := p.isLt; omega)⟩
            ⟨refl 8 q.val, refl_lt (by norm_num) (by have := q.isLt; omega)⟩) := by
  rw [pad2_term W]
  refine (reflPad2_read (n0 := 8) (w := 1040) (N := 1024) (p := 8) (M1 := 1032) (M2 := 1040) (o2 := 1023)
    (by norm_num) (by norm_num) (by norm_num) (by norm_num) _ _ _ _ _ b p q
    ⟨refl 8 q.val, refl_lt (by norm_num) (by have := q.isLt; omega)⟩ ?_).trans ?_
  · show refl 8 q.val = _
    unfold Uwt.refl; split_ifs <;> omega
  · refine reflPad1_read (n0 := 8) (w := 1024) (N := 1024) (p := 8) (M1 := 1032) (M2 := 1040) (o2 := 1023)
      (by norm_num) (by norm_num) (by norm_num) (by norm_num) _ _ _ _ _ b
      ⟨refl 8 q.val, refl_lt (by norm_num) (by have := q.isLt; omega)⟩ p
      ⟨refl 8 p.val, refl_lt (by norm_num) (by have := p.isLt; omega)⟩ ?_
    show refl 8 p.val = _
    unfold Uwt.refl; split_ifs <;> omega

end Cert.KernelIdeal.Glue

end
-- ==== Proof.HostStack.lean ====
/-
  The last host stretch of the kernel program, read at coordinates.

  Four arrays of shape [8, 1024, 1024] are each given a unit axis (`broadcast_in_dim` to [8, 1, 1024, 1024]) and
  concatenated along it. Whatever the buffers hold before the stretch, plane `l` of the result at `(b, r, q)` is the
  `l`-th array at `(b, r, q)`.
-/
import proofs.«173091_j34797825032656_2_alg».proof.Proof.Gen.KernelIdeal.Launch
import Idealize.ShloMosaic.Lib.ValueIdx
import Idealize.ShloMosaic.Lib.Pipeline.Value
import Idealize.ShloMosaic.Lib.StableHlo.Run

noncomputable section

namespace Cert.KernelIdeal.Glue

open Cert.KernelIdeal Cert.KernelIdeal.Gen
open Idealize.ShloMosaic Idealize.ShloMosaic.ValueIdx Idealize.ShloMosaic.TcCoe Idealize.ShloMosaic.StableHlo

/-- An array given a unit axis in second place, read on that axis' one coordinate: the array. -/
theorem unitPlane_read {α : Type} (h : S8x1024x1024.BroadcastsInDim S8x1x1024x1024 ![0, 2, 3]) (x : S8x1024x1024.Idx → α)
    (b : Fin 8) (r q : Fin 1024) :
    broadcastInDim S8x1x1024x1024 ![0, 2, 3] h x (ix4 b 0 r q) = x (ix3 b r q) :=
  broadcastInDim_apply _ h x _ _ fun a => by
    match a with
    | ⟨0, _⟩ => rfl
    | ⟨1, _⟩ => rfl
    | ⟨2, _⟩ => rfl

/-- Plane 0 of a stack of four unit-axis arrays is the piece number 0. -/
theorem stackPiece0 {α : Type} (x0 x1 x2 x3 : S8x1x1024x1024.Idx → α)
    (h : Shape.Concatenates [S8x1x1024x1024, S8x1x1024x1024, S8x1x1024x1024, S8x1x1024x1024] S8x4x1024x1024 1)
    (b : Fin 8) (r q : Fin 1024) :
    concatenate S8x4x1024x1024 1
        [⟨S8x1x1024x1024, x0⟩, ⟨S8x1x1024x1024, x1⟩, ⟨S8x1x1024x1024, x2⟩, ⟨S8x1x1024x1024, x3⟩] h (ix4 b 0 r q)
      = x0 (ix4 b 0 r q) :=
  concatenate_apply_piece 1 [⟨S8x1x1024x1024, x0⟩, ⟨S8x1x1024x1024, x1⟩, ⟨S8x1x1024x1024, x2⟩, ⟨S8x1x1024x1024, x3⟩] h _
    0 (by simp) S8x1x1024x1024 x0 rfl rfl 0 rfl (ix4 b 0 r q)
    (fun a ha => by
      match a with
      | ⟨0, _⟩ => rfl
      | ⟨1, _⟩ => exact absurd rfl ha
      | ⟨2, _⟩ => rfl
      | ⟨3, _⟩ => rfl)
    rfl

/-- Plane 1 of a stack of four unit-axis arrays is the piece number 1. -/
theorem stackPiece1 {α : Type} (x0 x1 x2 x3 : S8x1x1024x1024.Idx → α)
    (h : Shape.Concatenates [S8x1x1024x1024, S8x1x1024x1024, S8x1x1024x1024, S8x1x1024x1024] S8x4x1024x1024 1)
    (b : Fin 8) (r q : Fin 1024) :
    concatenate S8x4x1024x1024 1
        [⟨S8x1x1024x1024, x0⟩, ⟨S8x1x1024x1024, x1⟩, ⟨S8x1x1024x1024, x2⟩, ⟨S8x1x1024x1024, x3⟩] h (ix4 b 1 r q)
      = x1 (ix4 b 0 r q) :=
  concatenate_apply_piece 1 [⟨S8x1x1024x1024, x0⟩, ⟨S8x1x1024x1024, x1⟩, ⟨S8x1x1024x1024, x2⟩, ⟨S8x1x1024x1024, x3⟩] h _
    1 (by simp) S8x1x1024x1024 x1 rfl rfl 1 rfl (ix4 b 0 r q)
    (fun a ha => by
      match a with
      | ⟨0, _⟩ => rfl
      | ⟨1, _⟩ => exact absurd rfl ha
      | ⟨2, _⟩ => rfl
      | ⟨3, _⟩ => rfl)
    rfl

/-- Plane 2 of a stack of four unit-axis arrays is the piece number 2. -/
theorem stackPiece2 {α : Type} (x0 x1 x2 x3 : S8x1x1024x1024.Idx → α)
    (h : Shape.Concatenates [S8x1x1024x1024, S8x1x1024x1024, S8x1x1024x1024, S8x1x1024x1024] S8x4x1024x1024 1)
    (b : Fin 8) (r q : Fin 1024) :
    concatenate S8x4x1024x1024 1
        [⟨S8x1x1024x1024, x0⟩, ⟨S8x1x1024x1024, x1⟩, ⟨S8x1x1024x1024, x2⟩, ⟨S8x1x1024x1024, x3⟩] h (ix4 b 2 r q)
      = x2 (ix4 b 0 r q) :=
  concatenate_apply_piece 1 [⟨S8x1x1024x1024, x0⟩, ⟨S8x1x1024x1024, x1⟩, ⟨S8x1x1024x1024, x2⟩, ⟨S8x1x1024x1024, x3⟩] h _
    2 (by simp) S8x1x1024x1024 x2 rfl rfl 2 rfl (ix4 b 0 r q)
    (fun a ha => by
      match a with
      | ⟨0, _⟩ => rfl
      | ⟨1, _⟩ => exact absurd rfl ha
      | ⟨2, _⟩ => rfl
      | ⟨3, _⟩ => rfl)
    rfl

/-- Plane 3 of a stack of four unit-axis arrays is the piece number 3. -/
theorem stackPiece3 {α : Type} (x0 x1 x2 x3 : S8x1x1024x1024.Idx → α)
    (h : Shape.Concatenates [S8x1x1024x1024, S8x1x1024x1024, S8x1x1024x1024, S8x1x1024x1024] S8x4x1024x1024 1)
    (b : Fin 8) (r q : Fin 1024) :
    concatenate S8x4x1024x1024 1
        [⟨S8x1x1024x1024, x0⟩, ⟨S8x1x1024x1024, x1⟩, ⟨S8x1x1024x1024, x2⟩, ⟨S8x1x1024x1024, x3⟩] h (ix4 b 3 r q)
      = x3 (ix4 b 0 r q) :=
  concatenate_apply_piece 1 [⟨S8x1x1024x1024, x0⟩, ⟨S8x1x1024x1024, x1⟩, ⟨S8x1x1024x1024, x2⟩, ⟨S8x1x1024x1024, x3⟩] h _
    3 (by simp) S8x1x1024x1024 x3 rfl rfl 3 rfl (ix4 b 0 r q)
    (fun a ha => by
      match a with
      | ⟨0, _⟩ => rfl
      | ⟨1, _⟩ => exact absurd rfl ha
      | ⟨2, _⟩ => rfl
      | ⟨3, _⟩ => rfl)
    rfl

/-- The stretch's result as one expression of the four buffers it reads. -/
theorem stack_term (W : Valuation τ sig (Elt Ideal)) :
    (StableHlo.after hostOps3 W main_v10 : S8x4x1024x1024.Idx → EReal)
      = concatenate S8x4x1024x1024 1
          [⟨S8x1x1024x1024, broadcastInDim S8x1x1024x1024 ![0, 2, 3] (by decide) (W main_v1_0 : S8x1024x1024.Idx → EReal)⟩,
           ⟨S8x1x1024x1024, broadcastInDim S8x1x1024x1024 ![0, 2, 3] (by decide) (W main_v3_0 : S8x1024x1024.Idx → EReal)⟩,
           ⟨S8x1x1024x1024, broadcastInDim S8x1x1024x1024 ![0, 2, 3] (by decide) (W main_v5_0 : S8x1024x1024.Idx → EReal)⟩,
           ⟨S8x1x1024x1024, broadcastInDim S8x1x1024x1024 ![0, 2, 3] (by decide) (W main_v5_1 : S8x1024x1024.Idx → EReal)⟩]
          (by decide : Shape.Concatenates [S8x1x1024x1024, S8x1x1024x1024, S8x1x1024x1024, S8x1x1024x1024] S8x4x1024x1024 1) := by
  dsimp only [hostOps3]
  after_results
  rfl

/-- Plane 0 of the stacked result is `main_v1_0`. -/
theorem stack0_read (W : Valuation τ sig (Elt Ideal)) (b : Fin 8) (r q : Fin 1024) :
    (StableHlo.after hostOps3 W main_v10 : S8x4x1024x1024.Idx → EReal) (ix4 b 0 r q)
      = (W main_v1_0 : S8x1024x1024.Idx → EReal) (ix3 b r q) := by
  rw [stack_term W]
  exact (stackPiece0 _ _ _ _ _ b r q).trans (unitPlane_read _ _ b r q)

/-- Plane 1 of the stacked result is `main_v3_0`. -/
theorem stack1_read (W : Valuation τ sig (Elt Ideal)) (b : Fin 8) (r q : Fin 1024) :
    (StableHlo.after hostOps3 W main_v10 : S8x4x1024x1024.Idx → EReal) (ix4 b 1 r q)
      = (W main_v3_0 : S8x1024x1024.Idx → EReal) (ix3 b r q) := by
  rw [stack_term W]
  exact (stackPiece1 _ _ _ _ _ b r q).trans (unitPlane_read _ _ b r q)

/-- Plane 2 of the stacked result is `main_v5_0`. -/
theorem stack2_read (W : Valuation τ sig (Elt Ideal)) (b : Fin 8) (r q : Fin 1024) :
    (StableHlo.after hostOps3 W main_v10 : S8x4x1024x1024.Idx → EReal) (ix4 b 2 r q)
      = (W main_v5_0 : S8x1024x1024.Idx → EReal) (ix3 b r q) := by
  rw [stack_term W]
  exact (stackPiece2 _ _ _ _ _ b r q).trans (unitPlane_read _ _ b r q)

/-- Plane 3 of the stacked result is `main_v5_1`. -/
theorem stack3_read (W : Valuation τ sig (Elt Ideal)) (b : Fin 8) (r q : Fin 1024) :
    (StableHlo.after hostOps3 W main_v10 : S8x4x1024x1024.Idx → EReal) (ix4 b 3 r q)
      = (W main_v5_1 : S8x1024x1024.Idx → EReal) (ix3 b r q) := by
  rw [stack_term W]
  exact (stackPiece3 _ _ _ _ _ b r q).trans (unitPlane_read _ _ b r q)

end Cert.KernelIdeal.Glue

end
-- ==== Proof.Glue.lean ====
/-
  The kernel program's host side, assembled: if each of the three regions leaves in its two output arrays the level's
  detail and smooth planes of its (padded) input array, the program's result array is the transform of its argument.

  The three pads make each level's input the reflect-padded image of the previous smooth plane (the argument, for the
  first level), so the regions' outputs are `x − c1`, `c1`; `c1 − c2`, `c2`; `c2 − c3`, `c3`; the last stretch
  stacks `x − c1`, `c1 − c2`, `c2 − c3`, `c3` along a new second axis. Between the items every buffer that an item
  does not write keeps its contents.
-/
import proofs.«173091_j34797825032656_2_alg».proof.Proof.Spec
import proofs.«173091_j34797825032656_2_alg».proof.Proof.ReflLevel
import proofs.«173091_j34797825032656_2_alg».proof.Proof.HostPads
import proofs.«173091_j34797825032656_2_alg».proof.Proof.HostStack
import proofs.«173091_j34797825032656_2_alg».proof.Proof.Gen.KernelIdeal.Regions

noncomputable section

namespace Cert.KernelIdeal.Glue

open Cert.KernelIdeal Cert.KernelIdeal.Gen Cert.Uwt
open Idealize.ShloMosaic Idealize.ShloMosaic.ValueIdx Idealize.ShloMosaic.TcCoe

variable (m : (ℓ : Loc nD τ sig) → Buf (Elt Ideal) ℓ) (outs : Outs (F := Ideal)) (c : Dev nD)

/-! ## What the buffers hold where they are read -/

/-- The first pad reads the argument as launched. -/
theorem V1_arg0 : V1 m c main_arg0 = m ((c : Thread nD τ).loc main_arg0) :=
  (V1_of m c main_arg0 (by decide)).trans rfl

/-- After region 0 its two outputs hold what the region left. -/
theorem V3_v1_0 : V3 m outs c main_v1_0 = outs 3 main_v1_0 c := by
  dsimp only [V3]
  rw [Function.update_of_ne (StableHlo.devRef_ne_of_ne (by decide) : (Proc.devRef .tc main_v1_0 : DevRef τ sig) ≠ Proc.devRef .tc main_v1_1),
    Function.update_self]
theorem V3_v1_1 : V3 m outs c main_v1_1 = outs 3 main_v1_1 c := by
  dsimp only [V3]
  rw [Function.update_self]

/-- After region 1 its two outputs hold what the region left. -/
theorem V6_v3_0 : V6 m outs c main_v3_0 = outs 6 main_v3_0 c := by
  dsimp only [V6]
  rw [Function.update_of_ne (StableHlo.devRef_ne_of_ne (by decide) : (Proc.devRef .tc main_v3_0 : DevRef τ sig) ≠ Proc.devRef .tc main_v3_1),
    Function.update_self]
theorem V6_v3_1 : V6 m outs c main_v3_1 = outs 6 main_v3_1 c := by
  dsimp only [V6]
  rw [Function.update_self]

/-- After region 2 its two outputs hold what the region left. -/
theorem V9_v5_0 : V9 m outs c main_v5_0 = outs 9 main_v5_0 c := by
  dsimp only [V9]
  rw [Function.update_of_ne (StableHlo.devRef_ne_of_ne (by decide) : (Proc.devRef .tc main_v5_0 : DevRef τ sig) ≠ Proc.devRef .tc main_v5_1),
    Function.update_self]
theorem V9_v5_1 : V9 m outs c main_v5_1 = outs 9 main_v5_1 c := by
  dsimp only [V9]
  rw [Function.update_self]

/-- The second pad reads region 0's smooth output. -/
theorem V4_v1_1 : V4 m outs c main_v1_1 = outs 3 main_v1_1 c :=
  (V4_of m outs c main_v1_1 (by decide)).trans (V3_v1_1 m outs c)

/-- The third pad reads region 1's smooth output. -/
theorem V7_v3_1 : V7 m outs c main_v3_1 = outs 6 main_v3_1 c :=
  (V7_of m outs c main_v3_1 (by decide)).trans (V6_v3_1 m outs c)

/-- The last stretch reads region 0's detail output: nothing in between writes it. -/
theorem V9_v1_0 : V9 m outs c main_v1_0 = outs 3 main_v1_0 c :=
  (V9_of m outs c main_v1_0 (by decide)).trans <| (V8_of m outs c main_v1_0 (by decide)).trans <|
    (V7_of m outs c main_v1_0 (by decide)).trans <| (V6_of m outs c main_v1_0 (by decide)).trans <|
    (V5_of m outs c main_v1_0 (by decide)).trans <| (V4_of m outs c main_v1_0 (by decide)).trans (V3_v1_0 m outs c)

/-- The last stretch reads region 1's detail output: nothing in between writes it. -/
theorem V9_v3_0 : V9 m outs c main_v3_0 = outs 6 main_v3_0 c :=
  (V9_of m outs c main_v3_0 (by decide)).trans <| (V8_of m outs c main_v3_0 (by decide)).trans <|
    (V7_of m outs c main_v3_0 (by decide)).trans (V6_v3_0 m outs c)

/-! ## Each level's padded input is the reflect-padded image -/

/-- Level 1's padded input is the argument, reflect-padded by 2. -/
theorem padded0 :
    toPImg 1028 (V2 m c main_v0) = Ppad 1 (toImg (m ((c : Thread nD τ).loc main_arg0))) :=
  toPImg_eq_Ppad 1 (by norm_num) _ _ fun b p q => by
    refine (pad0_read (V1 m c) b p q).trans ?_
    rw [V1_arg0 m c]
    rfl

/-- Level 2's padded input is level 1's smooth plane `g`, reflect-padded by 4. -/
theorem padded1 (g : Img) (hg : (outs 3 main_v1_1 c : S8x1024x1024.Idx → EReal) = ofImg g) :
    toPImg 1032 (V5 m outs c main_v2) = Ppad 2 g :=
  toPImg_eq_Ppad 2 (by norm_num) _ _ fun b p q => by
    refine (pad1_read (V4 m outs c) b p q).trans ?_
    rw [V4_v1_1 m outs c, hg]
    rfl

/-- Level 3's padded input is level 2's smooth plane `g`, reflect-padded by 8. -/
theorem padded2 (g : Img) (hg : (outs 6 main_v3_1 c : S8x1024x1024.Idx → EReal) = ofImg g) :
    toPImg 1040 (V8 m outs c main_v4) = Ppad 4 g :=
  toPImg_eq_Ppad 4 (by norm_num) _ _ fun b p q => by
    refine (pad2_read (V7 m outs c) b p q).trans ?_
    rw [V7_v3_1 m outs c, hg]
    rfl

/-! ## The result -/

theorem result_eq (m : (ℓ : Loc nD τ sig) → Buf (Elt Ideal) ℓ) (outs : Outs (F := Ideal)) (c : Dev nD)
    (h0w : (outs 3 main_v1_0 c : S8x1024x1024.Idx → EReal) = regW 1 1028 rfl (V2 m c main_v0))
    (h0c : (outs 3 main_v1_1 c : S8x1024x1024.Idx → EReal) = regC 1 1028 rfl (V2 m c main_v0))
    (h1w : (outs 6 main_v3_0 c : S8x1024x1024.Idx → EReal) = regW 2 1032 rfl (V5 m outs c main_v2))
    (h1c : (outs 6 main_v3_1 c : S8x1024x1024.Idx → EReal) = regC 2 1032 rfl (V5 m outs c main_v2))
    (h2w : (outs 9 main_v5_0 c : S8x1024x1024.Idx → EReal) = regW 4 1040 rfl (V8 m outs c main_v4))
    (h2c : (outs 9 main_v5_1 c : S8x1024x1024.Idx → EReal) = regC 4 1040 rfl (V8 m outs c main_v4)) :
    (V10 m outs c main_v10 : S8x4x1024x1024.Idx → EReal) = uwtArr (m ((c.tc : Thread nD τ).loc main_arg0)) := by
  -- the regions' outputs as planes of the argument image
  have p0 := padded0 m c
  have e1c := h0c.trans (regC_of_padded 1 _ _ p0)
  have e1w := h0w.trans (regW_of_padded 1 _ _ p0)
  have p1 := padded1 m outs c _ e1c
  have e2c := h1c.trans (regC_of_padded 2 _ _ p1)
  have e2w := h1w.trans (regW_of_padded 2 _ _ p1)
  have p2 := padded2 m outs c _ e2c
  have e3c := h2c.trans (regC_of_padded 4 _ _ p2)
  have e3w := h2w.trans (regW_of_padded 4 _ _ p2)
  -- the stacked result, plane by plane
  funext i
  obtain ⟨b, l, r, q, rfl⟩ : ∃ (b : Fin 8) (l : Fin 4) (r q : Fin 1024), i = ix4 b l r q :=
    ⟨i 0, i 1, i 2, i 3, eq_ix4 i⟩
  rw [uwtArr_ix4]
  match l with
  | ⟨0, _⟩ =>
    refine (stack0_read (V9 m outs c) b r q).trans ?_
    rw [V9_v1_0 m outs c, e1w]
    rfl
  | ⟨1, _⟩ =>
    refine (stack1_read (V9 m outs c) b r q).trans ?_
    rw [V9_v3_0 m outs c, e2w]
    rfl
  | ⟨2, _⟩ =>
    refine (stack2_read (V9 m outs c) b r q).trans ?_
    rw [V9_v5_0 m outs c, e3w]
    rfl
  | ⟨3, _⟩ =>
    refine (stack3_read (V9 m outs c) b r q).trans ?_
    rw [V9_v5_1 m outs c, e3c]
    rfl

end Cert.KernelIdeal.Glue

end
-- ==== Proof.LibReflectPad.lean ====
/-
  The reflect pad of a rank-3 array along its second or third axis, as StableHLO spells
  `jnp.pad(x, mode='reflect')` with `p` entries on both sides of an axis of extent `N`:

    front  = reverse (slice x [1, 1 + p))                    -- the `p` entries after the first, mirrored
    mid    = concatenate [front, x]                          -- extent p + N
    back   = reverse (slice mid [N - 1, N - 1 + p))          -- in `x`'s coordinates [N - 1 - p, N - 1), mirrored
    padded = concatenate [mid, back]                         -- extent p + N + p

  Read at the padded coordinate `i` of that axis, the padded array is `x` at the source coordinate
  `src N p i`: `p - i` in the front margin, `i - p` inside, `2 N - 2 + p - i` in the back margin (the border
  entry itself is not repeated). The other two coordinates are untouched. Stated for every element type and
  all extents, once for each of the two axes, index by index over literal coordinates.
-/
import Idealize.ShloMosaic.Lib.ValueIdx
import Idealize.ShloMosaic.Lib.Pipeline.Value

namespace Cert.ReflectPad

open Idealize.ShloMosaic Idealize.ShloMosaic.ValueIdx

/-- The source coordinate, in an axis of extent `N`, that coordinate `i` of the axis reflect-padded by `p` on both
    sides reads. -/
def src (N p i : Nat) : Nat :=
  if i < p then p - i else if i < p + N then i - p else 2 * N - 2 + p - i

theorem src_lt {N p i : Nat} (hp : p + 1 ≤ N) (hi : i < p + N + p) : src N p i < N := by
  unfold src; split_ifs <;> omega

variable {α : Type}

/-- Two coordinates with different values are different. -/
private theorem ne_of_val {n : Nat} {a b : Fin n} (x y : Nat) (ha : a.val = x) (hb : b.val = y) (h : x ≠ y) : a ≠ b :=
  fun e => h (ha.symm.trans ((congrArg Fin.val e).trans hb))

/-! ## A reversal read at an index -/

/-- A reversal along the second axis reads the mirrored second coordinate. -/
theorem reverse_axis1_apply {B K M : Nat} (y : (⟨3, ![B, K, M]⟩ : Shape).Idx → α) (b : Fin B) (i : Fin K) (q : Fin M) :
    Host.reverse (s := ⟨3, ![B, K, M]⟩) [1] y (ix3 b i q) = y (ix3 b i.rev q) := by
  unfold Host.reverse
  congr 1
  funext a
  match a with
  | ⟨0, _⟩ => exact if_neg (fun h => ne_of_val 0 1 rfl rfl (by decide) (List.mem_singleton.mp h))
  | ⟨1, _⟩ => exact if_pos (List.mem_singleton.mpr (Fin.ext rfl))
  | ⟨2, _⟩ => exact if_neg (fun h => ne_of_val 2 1 rfl rfl (by decide) (List.mem_singleton.mp h))

/-- A reversal along the third axis reads the mirrored third coordinate. -/
theorem reverse_axis2_apply {B K M : Nat} (y : (⟨3, ![B, K, M]⟩ : Shape).Idx → α) (b : Fin B) (r : Fin K) (i : Fin M) :
    Host.reverse (s := ⟨3, ![B, K, M]⟩) [2] y (ix3 b r i) = y (ix3 b r i.rev) := by
  unfold Host.reverse
  congr 1
  funext a
  match a with
  | ⟨0, _⟩ => exact if_neg (fun h => ne_of_val 0 2 rfl rfl (by decide) (List.mem_singleton.mp h))
  | ⟨1, _⟩ => exact if_neg (fun h => ne_of_val 1 2 rfl rfl (by decide) (List.mem_singleton.mp h))
  | ⟨2, _⟩ => exact if_pos (List.mem_singleton.mpr (Fin.ext rfl))

/-! ## The pad along the second axis -/

section Axis1
variable {B N M p N1 N2 o : Nat}

/-- The front margin and the array: `concatenate [reverse (slice x [1, 1 + p)), x]` along the second axis. -/
abbrev mid1 (x : (⟨3, ![B, N, M]⟩ : Shape).Idx → α)
    (h1 : (⟨3, ![B, N, M]⟩ : Shape).Slices ![0, 1, 0] ⟨3, ![B, p, M]⟩)
    (h3 : Shape.Concatenates [(⟨3, ![B, p, M]⟩ : Shape), ⟨3, ![B, N, M]⟩] ⟨3, ![B, N1, M]⟩ 1) :
    (⟨3, ![B, N1, M]⟩ : Shape).Idx → α :=
  concatenate (⟨3, ![B, N1, M]⟩ : Shape) 1
    [⟨⟨3, ![B, p, M]⟩, Host.reverse (s := ⟨3, ![B, p, M]⟩) [1] (extractStridedSlice ⟨3, ![B, p, M]⟩ ![0, 1, 0] x h1)⟩,
     ⟨⟨3, ![B, N, M]⟩, x⟩] h3

/-- `mid1` at second coordinate `i` is `x` at `p - i` in the front margin and at `i - p` past it. -/
theorem mid1_apply (x : (⟨3, ![B, N, M]⟩ : Shape).Idx → α)
    (h1 : (⟨3, ![B, N, M]⟩ : Shape).Slices ![0, 1, 0] ⟨3, ![B, p, M]⟩)
    (h3 : Shape.Concatenates [(⟨3, ![B, p, M]⟩ : Shape), ⟨3, ![B, N, M]⟩] ⟨3, ![B, N1, M]⟩ 1)
    (b : Fin B) (i : Fin N1) (q : Fin M) (k : Fin N) (hk : k.val = if i.val < p then p - i.val else i.val - p) :
    mid1 x h1 h3 (ix3 b i q) = x (ix3 b k q) := by
  by_cases hi : i.val < p
  · rw [if_pos hi] at hk
    refine (concatenate_pair_apply_left 1 _ _ h3 (ix3 b i q) rfl (ix3 b ⟨i.val, hi⟩ q) (fun a => ?_)).trans ?_
    · match a with
      | ⟨0, _⟩ => rfl
      | ⟨1, _⟩ => rfl
      | ⟨2, _⟩ => rfl
    · refine (reverse_axis1_apply _ b ⟨i.val, hi⟩ q).trans ?_
      refine extractStridedSlice_apply _ x h1 _ (ix3 b k q) (fun a => ?_)
      match a with
      | ⟨0, _⟩ => show b.val = 0 + b.val; omega
      | ⟨1, _⟩ => show k.val = 1 + (p - (i.val + 1)); omega
      | ⟨2, _⟩ => show q.val = 0 + q.val; omega
  · rw [if_neg hi] at hk
    refine concatenate_pair_apply_right 1 _ x h3 (ix3 b i q) rfl rfl (ix3 b k q) (fun a ha => ?_) ?_
    · match a with
      | ⟨0, _⟩ => rfl
      | ⟨1, _⟩ => exact absurd (Fin.ext rfl) ha
      | ⟨2, _⟩ => rfl
    · show k.val + p = i.val; omega

/-- THE PAD ALONG THE SECOND AXIS read at `(b, i, q)` is `x` at `(b, src N p i, q)`. -/
theorem pad1_apply (x : (⟨3, ![B, N, M]⟩ : Shape).Idx → α)
    (h1 : (⟨3, ![B, N, M]⟩ : Shape).Slices ![0, 1, 0] ⟨3, ![B, p, M]⟩)
    (h3 : Shape.Concatenates [(⟨3, ![B, p, M]⟩ : Shape), ⟨3, ![B, N, M]⟩] ⟨3, ![B, N1, M]⟩ 1)
    (h5 : (⟨3, ![B, N1, M]⟩ : Shape).Slices ![0, o, 0] ⟨3, ![B, p, M]⟩)
    (h7 : Shape.Concatenates [(⟨3, ![B, N1, M]⟩ : Shape), ⟨3, ![B, p, M]⟩] ⟨3, ![B, N2, M]⟩ 1)
    (hN1 : N1 = p + N) (hN2 : N2 = N1 + p) (ho : o + 1 = N) (hp : p + 1 ≤ N)
    (b : Fin B) (i : Fin N2) (q : Fin M) (k : Fin N) (hk : k.val = src N p i.val) :
    concatenate (⟨3, ![B, N2, M]⟩ : Shape) 1
      [⟨⟨3, ![B, N1, M]⟩, mid1 x h1 h3⟩,
       ⟨⟨3, ![B, p, M]⟩, Host.reverse (s := ⟨3, ![B, p, M]⟩) [1] (extractStridedSlice ⟨3, ![B, p, M]⟩ ![0, o, 0] (mid1 x h1 h3) h5)⟩] h7
      (ix3 b i q) = x (ix3 b k q) := by
  have hiN2 := i.isLt
  by_cases hi : i.val < N1
  · refine (concatenate_pair_apply_left 1 _ _ h7 (ix3 b i q) rfl (ix3 b ⟨i.val, hi⟩ q) (fun a => ?_)).trans ?_
    · match a with
      | ⟨0, _⟩ => rfl
      | ⟨1, _⟩ => rfl
      | ⟨2, _⟩ => rfl
    · refine mid1_apply x h1 h3 b ⟨i.val, hi⟩ q k ?_
      show k.val = if i.val < p then p - i.val else i.val - p
      rw [hk]; unfold src; split_ifs <;> omega
  · have hi' : i.val - N1 < p := by omega
    have hj : o + (p - (i.val - N1 + 1)) < N1 := by omega
    refine (concatenate_pair_apply_right 1 _ _ h7 (ix3 b i q) rfl rfl (ix3 b ⟨i.val - N1, hi'⟩ q) (fun a ha => ?_) ?_).trans ?_
    · match a with
      | ⟨0, _⟩ => rfl
      | ⟨1, _⟩ => exact absurd (Fin.ext rfl) ha
      | ⟨2, _⟩ => rfl
    · show (i.val - N1) + N1 = i.val; omega
    · refine (reverse_axis1_apply _ b ⟨i.val - N1, hi'⟩ q).trans ?_
      refine (extractStridedSlice_apply _ _ h5 _ (ix3 b ⟨o + (p - (i.val - N1 + 1)), hj⟩ q) (fun a => ?_)).trans ?_
      · match a with
        | ⟨0, _⟩ => show b.val = 0 + b.val; omega
        | ⟨1, _⟩ => show o + (p - (i.val - N1 + 1)) = o + (p - (i.val - N1 + 1)); rfl
        | ⟨2, _⟩ => show q.val = 0 + q.val; omega
      · refine mid1_apply x h1 h3 b ⟨_, hj⟩ q k ?_
        show k.val = if o + (p - (i.val - N1 + 1)) < p then p - (o + (p - (i.val - N1 + 1))) else o + (p - (i.val - N1 + 1)) - p
        rw [hk]; unfold src; split_ifs <;> omega

end Axis1

/-! ## The pad along the third axis -/

section Axis2
variable {B N M p M1 M2 o : Nat}

/-- The front margin and the array: `concatenate [reverse (slice x [1, 1 + p)), x]` along the third axis. -/
abbrev mid2 (x : (⟨3, ![B, N, M]⟩ : Shape).Idx → α)
    (h1 : (⟨3, ![B, N, M]⟩ : Shape).Slices ![0, 0, 1] ⟨3, ![B, N, p]⟩)
    (h3 : Shape.Concatenates [(⟨3, ![B, N, p]⟩ : Shape), ⟨3, ![B, N, M]⟩] ⟨3, ![B, N, M1]⟩ 2) :
    (⟨3, ![B, N, M1]⟩ : Shape).Idx → α :=
  concatenate (⟨3, ![B, N, M1]⟩ : Shape) 2
    [⟨⟨3, ![B, N, p]⟩, Host.reverse (s := ⟨3, ![B, N, p]⟩) [2] (extractStridedSlice ⟨3, ![B, N, p]⟩ ![0, 0, 1] x h1)⟩,
     ⟨⟨3, ![B, N, M]⟩, x⟩] h3

/-- `mid2` at third coordinate `i` is `x` at `p - i` in the front margin and at `i - p` past it. -/
theorem mid2_apply (x : (⟨3, ![B, N, M]⟩ : Shape).Idx → α)
    (h1 : (⟨3, ![B, N, M]⟩ : Shape).Slices ![0, 0, 1] ⟨3, ![B, N, p]⟩)
    (h3 : Shape.Concatenates [(⟨3, ![B, N, p]⟩ : Shape), ⟨3, ![B, N, M]⟩] ⟨3, ![B, N, M1]⟩ 2)
    (b : Fin B) (r : Fin N) (i : Fin M1) (k : Fin M) (hk : k.val = if i.val < p then p - i.val else i.val - p) :
    mid2 x h1 h3 (ix3 b r i) = x (ix3 b r k) := by
  by_cases hi : i.val < p
  · rw [if_pos hi] at hk
    refine (concatenate_pair_apply_left 2 _ _ h3 (ix3 b r i) rfl (ix3 b r ⟨i.val, hi⟩) (fun a => ?_)).trans ?_
    · match a with
      | ⟨0, _⟩ => rfl
      | ⟨1, _⟩ => rfl
      | ⟨2, _⟩ => rfl
    · refine (reverse_axis2_apply _ b r ⟨i.val, hi⟩).trans ?_
      refine extractStridedSlice_apply _ x h1 _ (ix3 b r k) (fun a => ?_)
      match a with
      | ⟨0, _⟩ => show b.val = 0 + b.val; omega
      | ⟨1, _⟩ => show r.val = 0 + r.val; omega
      | ⟨2, _⟩ => show k.val = 1 + (p - (i.val + 1)); omega
  · rw [if_neg hi] at hk
    refine concatenate_pair_apply_right 2 _ x h3 (ix3 b r i) rfl rfl (ix3 b r k) (fun a ha => ?_) ?_
    · match a with
      | ⟨0, _⟩ => rfl
      | ⟨1, _⟩ => rfl
      | ⟨2, _⟩ => exact absurd (Fin.ext rfl) ha
    · show k.val + p = i.val; omega

/-- THE PAD ALONG THE THIRD AXIS read at `(b, r, i)` is `x` at `(b, r, src M p i)`. -/
theorem pad2_apply (x : (⟨3, ![B, N, M]⟩ : Shape).Idx → α)
    (h1 : (⟨3, ![B, N, M]⟩ : Shape).Slices ![0, 0, 1] ⟨3, ![B, N, p]⟩)
    (h3 : Shape.Concatenates [(⟨3, ![B, N, p]⟩ : Shape), ⟨3, ![B, N, M]⟩] ⟨3, ![B, N, M1]⟩ 2)
    (h5 : (⟨3, ![B, N, M1]⟩ : Shape).Slices ![0, 0, o] ⟨3, ![B, N, p]⟩)
    (h7 : Shape.Concatenates [(⟨3, ![B, N, M1]⟩ : Shape), ⟨3, ![B, N, p]⟩] ⟨3, ![B, N, M2]⟩ 2)
    (hM1 : M1 = p + M) (hM2 : M2 = M1 + p) (ho : o + 1 = M) (hp : p + 1 ≤ M)
    (b : Fin B) (r : Fin N) (i : Fin M2) (k : Fin M) (hk : k.val = src M p i.val) :
    concatenate (⟨3, ![B, N, M2]⟩ : Shape) 2
      [⟨⟨3, ![B, N, M1]⟩, mid2 x h1 h3⟩,
       ⟨⟨3, ![B, N, p]⟩, Host.reverse (s := ⟨3, ![B, N, p]⟩) [2] (extractStridedSlice ⟨3, ![B, N, p]⟩ ![0, 0, o] (mid2 x h1 h3) h5)⟩] h7
      (ix3 b r i) = x (ix3 b r k) := by
  have hiM2 := i.isLt
  by_cases hi : i.val < M1
  · refine (concatenate_pair_apply_left 2 _ _ h7 (ix3 b r i) rfl (ix3 b r ⟨i.val, hi⟩) (fun a => ?_)).trans ?_
    · match a with
      | ⟨0, _⟩ => rfl
      | ⟨1, _⟩ => rfl
      | ⟨2, _⟩ => rfl
    · refine mid2_apply x h1 h3 b r ⟨i.val, hi⟩ k ?_
      show k.val = if i.val < p then p - i.val else i.val - p
      rw [hk]; unfold src; split_ifs <;> omega
  · have hi' : i.val - M1 < p := by omega
    have hj : o + (p - (i.val - M1 + 1)) < M1 := by omega
    refine (concatenate_pair_apply_right 2 _ _ h7 (ix3 b r i) rfl rfl (ix3 b r ⟨i.val - M1, hi'⟩) (fun a ha => ?_) ?_).trans ?_
    · match a with
      | ⟨0, _⟩ => rfl
      | ⟨1, _⟩ => rfl
      | ⟨2, _⟩ => exact absurd (Fin.ext rfl) ha
    · show (i.val - M1) + M1 = i.val; omega
    · refine (reverse_axis2_apply _ b r ⟨i.val - M1, hi'⟩).trans ?_
      refine (extractStridedSlice_apply _ _ h5 _ (ix3 b r ⟨o + (p - (i.val - M1 + 1)), hj⟩) (fun a => ?_)).trans ?_
      · match a with
        | ⟨0, _⟩ => show b.val = 0 + b.val; omega
        | ⟨1, _⟩ => show r.val = 0 + r.val; omega
        | ⟨2, _⟩ => show o + (p - (i.val - M1 + 1)) = o + (p - (i.val - M1 + 1)); rfl
      · refine mid2_apply x h1 h3 b r ⟨_, hj⟩ k ?_
        show k.val = if o + (p - (i.val - M1 + 1)) < p then p - (o + (p - (i.val - M1 + 1))) else o + (p - (i.val - M1 + 1)) - p
        rw [hk]; unfold src; split_ifs <;> omega

end Axis2

end Cert.ReflectPad
-- ==== Proof.RefPure.lean ====
/-
  The arithmetic of one level of the transform, read index by index at the ideal instance.

  One level is two passes of the same shape. A pass reflect-pads its input along one axis, takes five slices of the
  padded array (offsets `0, d, 2 d, 3 d, 4 d` along that axis), multiplies each by a tap and adds the products left to
  right starting from zero; since `0 + t = t` on the extended reals, the sum is `Cert.Uwt.comb` of the five slices. A
  slice of the padded array at offset `k d`, read at `(b, r, q)`, is the pass's input at the reflected coordinate
  `refl (2 d) (r + k d)` (resp. of `q`). The pass along the rows followed by the pass along the columns is
  `Cert.Uwt.smooth`: the second pass reads the first pass's output at a reflected column, which is the first pass
  computed at a padded column.
-/
import proofs.«173091_j34797825032656_2_alg».proof.Proof.Spec
import proofs.«173091_j34797825032656_2_alg».proof.Proof.LibReflectPad
import Idealize.ShloMosaic.PureOps.Ideal.Laws

noncomputable section

namespace Cert.Uwt

open Idealize.ShloMosaic Idealize.ShloMosaic.ValueIdx

/-- The arrays' shapes. -/
abbrev A3 : Shape := ⟨3, ![8, 1024, 1024]⟩
abbrev A0 : Shape := ⟨0, ![]⟩

/-! ## The two passes on images -/

/-- The pass along the rows with dilation `d`, at an image column. -/
def rowStage (d : Nat) (c : Img) : Img := fun b r q =>
  comb (c b ⟨refl (2 * d) (r.val + 0 * d) % 1024, Nat.mod_lt _ (by norm_num)⟩ q)
    (c b ⟨refl (2 * d) (r.val + 1 * d) % 1024, Nat.mod_lt _ (by norm_num)⟩ q)
    (c b ⟨refl (2 * d) (r.val + 2 * d) % 1024, Nat.mod_lt _ (by norm_num)⟩ q)
    (c b ⟨refl (2 * d) (r.val + 3 * d) % 1024, Nat.mod_lt _ (by norm_num)⟩ q)
    (c b ⟨refl (2 * d) (r.val + 4 * d) % 1024, Nat.mod_lt _ (by norm_num)⟩ q)

/-- The pass along the columns with dilation `d`. -/
def colStage (d : Nat) (y : Img) : Img := fun b r q =>
  comb (y b r ⟨refl (2 * d) (q.val + 0 * d) % 1024, Nat.mod_lt _ (by norm_num)⟩)
    (y b r ⟨refl (2 * d) (q.val + 1 * d) % 1024, Nat.mod_lt _ (by norm_num)⟩)
    (y b r ⟨refl (2 * d) (q.val + 2 * d) % 1024, Nat.mod_lt _ (by norm_num)⟩)
    (y b r ⟨refl (2 * d) (q.val + 3 * d) % 1024, Nat.mod_lt _ (by norm_num)⟩)
    (y b r ⟨refl (2 * d) (q.val + 4 * d) % 1024, Nat.mod_lt _ (by norm_num)⟩)

/-- One level is the pass along the rows, then the pass along the columns. -/
theorem smooth_eq (d : Nat) (c : Img) : smooth d c = colStage d (rowStage d c) := rfl

theorem comb_congr {a0 a1 a2 a3 a4 b0 b1 b2 b3 b4 : EReal} (h0 : a0 = b0) (h1 : a1 = b1) (h2 : a2 = b2) (h3 : a3 = b3)
    (h4 : a4 = b4) : comb a0 a1 a2 a3 a4 = comb b0 b1 b2 b3 b4 := by
  subst h0 h1 h2 h3 h4; rfl

/-- Inside the padded extent the reflected coordinate of `Cert.Uwt.refl` is the general reflect pad's source. -/
theorem refl_mod_eq_src {pad i : Nat} (hpad : pad + 1 ≤ 1024) (hi : i < pad + 1024 + pad) :
    refl pad i % 1024 = Cert.ReflectPad.src 1024 pad i := by
  unfold refl Cert.ReflectPad.src; split_ifs <;> omega

/-! ## Five taps from zero -/

/-- The left-to-right sum of five tap products starting from a broadcast zero, read at an index, is `comb` of the five
    slices there. -/
theorem taps_apply {S Sp : Shape} (hb : A0.BroadcastsInDim S (![] : Fin 0 → Fin S.rank))
    (P : Sp.Idx → EReal) (f0 f1 f2 f3 f4 : Fin Sp.rank → Nat)
    (g0 : Sp.Slices f0 S) (g1 : Sp.Slices f1 S) (g2 : Sp.Slices f2 S) (g3 : Sp.Slices f3 S) (g4 : Sp.Slices f4 S)
    (i : S.Idx) :
    (addf (addf (addf (addf (addf
        (broadcastInDim (s := A0) S ![] hb (constant (F := Ideal) A0 .f32 0x00000000#32))
        (mulf (broadcastInDim (s := A0) S ![] hb (constant (F := Ideal) A0 .f32 0x3D800000#32)) (extractStridedSlice S f0 P g0)))
        (mulf (broadcastInDim (s := A0) S ![] hb (constant (F := Ideal) A0 .f32 0x3E800000#32)) (extractStridedSlice S f1 P g1)))
        (mulf (broadcastInDim (s := A0) S ![] hb (constant (F := Ideal) A0 .f32 0x3EC00000#32)) (extractStridedSlice S f2 P g2)))
        (mulf (broadcastInDim (s := A0) S ![] hb (constant (F := Ideal) A0 .f32 0x3E800000#32)) (extractStridedSlice S f3 P g3)))
        (mulf (broadcastInDim (s := A0) S ![] hb (constant (F := Ideal) A0 .f32 0x3D800000#32)) (extractStridedSlice S f4 P g4))
      : FVec Ideal S .f32) i
      = comb (extractStridedSlice S f0 P g0 i) (extractStridedSlice S f1 P g1 i) (extractStridedSlice S f2 P g2 i)
          (extractStridedSlice S f3 P g3 i) (extractStridedSlice S f4 P g4 i) := by
  show Ideal.ofBits .f32 0x00000000#32 + tapA * _ + tapB * _ + tapC * _ + tapB * _ + tapA * _ = _
  rw [Ideal.ofBits_zero_f32, zero_add]
  rfl

/-! ## A pass along the rows -/

section Rows
variable {p N1 N2 o : Nat}

/-- The array reflect-padded along the rows, as the program spells it. -/
abbrev padR (x : A3.Idx → EReal)
    (h1 : A3.Slices ![0, 1, 0] ⟨3, ![8, p, 1024]⟩)
    (h3 : Shape.Concatenates [(⟨3, ![8, p, 1024]⟩ : Shape), A3] ⟨3, ![8, N1, 1024]⟩ 1)
    (h5 : (⟨3, ![8, N1, 1024]⟩ : Shape).Slices ![0, o, 0] ⟨3, ![8, p, 1024]⟩)
    (h7 : Shape.Concatenates [(⟨3, ![8, N1, 1024]⟩ : Shape), ⟨3, ![8, p, 1024]⟩] ⟨3, ![8, N2, 1024]⟩ 1) :
    (⟨3, ![8, N2, 1024]⟩ : Shape).Idx → EReal :=
  concatenate (⟨3, ![8, N2, 1024]⟩ : Shape) 1
    [⟨⟨3, ![8, N1, 1024]⟩, Cert.ReflectPad.mid1 x h1 h3⟩,
     ⟨⟨3, ![8, p, 1024]⟩, Host.reverse (s := ⟨3, ![8, p, 1024]⟩) [1]
        (extractStridedSlice ⟨3, ![8, p, 1024]⟩ ![0, o, 0] (Cert.ReflectPad.mid1 x h1 h3) h5)⟩] h7

/-- A slice of the row-padded array at row offset `ok`, read at `(b, r, q)`: the array at the reflected row. -/
theorem rowTap {ok : Nat} (x : A3.Idx → EReal)
    (h1 : A3.Slices ![0, 1, 0] ⟨3, ![8, p, 1024]⟩)
    (h3 : Shape.Concatenates [(⟨3, ![8, p, 1024]⟩ : Shape), A3] ⟨3, ![8, N1, 1024]⟩ 1)
    (h5 : (⟨3, ![8, N1, 1024]⟩ : Shape).Slices ![0, o, 0] ⟨3, ![8, p, 1024]⟩)
    (h7 : Shape.Concatenates [(⟨3, ![8, N1, 1024]⟩ : Shape), ⟨3, ![8, p, 1024]⟩] ⟨3, ![8, N2, 1024]⟩ 1)
    (g : (⟨3, ![8, N2, 1024]⟩ : Shape).Slices ![0, ok, 0] A3)
    (hN1 : N1 = p + 1024) (hN2 : N2 = N1 + p) (ho : o + 1 = 1024) (hp : p + 1 ≤ 1024) (hok : ok ≤ 2 * p)
    (b : Fin 8) (r q : Fin 1024) :
    extractStridedSlice A3 ![0, ok, 0] (padR x h1 h3 h5 h7) g (ix3 b r q)
      = x (ix3 b ⟨refl p (r.val + ok) % 1024, Nat.mod_lt _ (by norm_num)⟩ q) := by
  have hr := r.isLt
  have hlt : r.val + ok < N2 := by omega
  refine (extractStridedSlice_apply _ _ g _ (ix3 b ⟨r.val + ok, hlt⟩ q) (fun a => ?_)).trans ?_
  · match a with
    | ⟨0, _⟩ => show b.val = 0 + b.val; omega
    | ⟨1, _⟩ => show r.val + ok = ok + r.val; omega
    | ⟨2, _⟩ => show q.val = 0 + q.val; omega
  · exact Cert.ReflectPad.pad1_apply x h1 h3 h5 h7 hN1 hN2 ho hp b ⟨r.val + ok, hlt⟩ q _
      (refl_mod_eq_src hp (by show r.val + ok < p + 1024 + p; omega))

/-- THE PASS ALONG THE ROWS: pad, five slices, five taps summed from zero, read at `(b, r, q)`. -/
theorem rows_apply {o0 o1 o2 o3 o4 : Nat} (d : Nat) (x : A3.Idx → EReal)
    (h1 : A3.Slices ![0, 1, 0] ⟨3, ![8, p, 1024]⟩)
    (h3 : Shape.Concatenates [(⟨3, ![8, p, 1024]⟩ : Shape), A3] ⟨3, ![8, N1, 1024]⟩ 1)
    (h5 : (⟨3, ![8, N1, 1024]⟩ : Shape).Slices ![0, o, 0] ⟨3, ![8, p, 1024]⟩)
    (h7 : Shape.Concatenates [(⟨3, ![8, N1, 1024]⟩ : Shape), ⟨3, ![8, p, 1024]⟩] ⟨3, ![8, N2, 1024]⟩ 1)
    (hb : A0.BroadcastsInDim A3 (![] : Fin 0 → Fin A3.rank))
    (g0 : (⟨3, ![8, N2, 1024]⟩ : Shape).Slices ![0, o0, 0] A3) (g1 : (⟨3, ![8, N2, 1024]⟩ : Shape).Slices ![0, o1, 0] A3)
    (g2 : (⟨3, ![8, N2, 1024]⟩ : Shape).Slices ![0, o2, 0] A3) (g3 : (⟨3, ![8, N2, 1024]⟩ : Shape).Slices ![0, o3, 0] A3)
    (g4 : (⟨3, ![8, N2, 1024]⟩ : Shape).Slices ![0, o4, 0] A3)
    (hp : p = 2 * d) (hd : 2 * d + 1 ≤ 1024) (hN1 : N1 = p + 1024) (hN2 : N2 = N1 + p) (ho : o + 1 = 1024)
    (e0 : o0 = 0 * d) (e1 : o1 = 1 * d) (e2 : o2 = 2 * d) (e3 : o3 = 3 * d) (e4 : o4 = 4 * d)
    (b : Fin 8) (r q : Fin 1024) :
    (addf (addf (addf (addf (addf
        (broadcastInDim (s := A0) A3 ![] hb (constant (F := Ideal) A0 .f32 0x00000000#32))
        (mulf (broadcastInDim (s := A0) A3 ![] hb (constant (F := Ideal) A0 .f32 0x3D800000#32)) (extractStridedSlice A3 ![0, o0, 0] (padR x h1 h3 h5 h7) g0)))
        (mulf (broadcastInDim (s := A0) A3 ![] hb (constant (F := Ideal) A0 .f32 0x3E800000#32)) (extractStridedSlice A3 ![0, o1, 0] (padR x h1 h3 h5 h7) g1)))
        (mulf (broadcastInDim (s := A0) A3 ![] hb (constant (F := Ideal) A0 .f32 0x3EC00000#32)) (extractStridedSlice A3 ![0, o2, 0] (padR x h1 h3 h5 h7) g2)))
        (mulf (broadcastInDim (s := A0) A3 ![] hb (constant (F := Ideal) A0 .f32 0x3E800000#32)) (extractStridedSlice A3 ![0, o3, 0] (padR x h1 h3 h5 h7) g3)))
        (mulf (broadcastInDim (s := A0) A3 ![] hb (constant (F := Ideal) A0 .f32 0x3D800000#32)) (extractStridedSlice A3 ![0, o4, 0] (padR x h1 h3 h5 h7) g4))
      : FVec Ideal A3 .f32) (ix3 b r q)
      = rowStage d (toImg x) b r q := by
  subst hp e0 e1 e2 e3 e4
  refine (taps_apply hb _ _ _ _ _ _ g0 g1 g2 g3 g4 _).trans ?_
  unfold rowStage
  exact comb_congr
    (rowTap x h1 h3 h5 h7 g0 hN1 hN2 ho (by omega) (by omega) b r q)
    (rowTap x h1 h3 h5 h7 g1 hN1 hN2 ho (by omega) (by omega) b r q)
    (rowTap x h1 h3 h5 h7 g2 hN1 hN2 ho (by omega) (by omega) b r q)
    (rowTap x h1 h3 h5 h7 g3 hN1 hN2 ho (by omega) (by omega) b r q)
    (rowTap x h1 h3 h5 h7 g4 hN1 hN2 ho (by omega) (by omega) b r q)

end Rows

/-! ## A pass along the columns -/

section Cols
variable {p M1 M2 o : Nat}

/-- The array reflect-padded along the columns, as the program spells it. -/
abbrev padC (x : A3.Idx → EReal)
    (h1 : A3.Slices ![0, 0, 1] ⟨3, ![8, 1024, p]⟩)
    (h3 : Shape.Concatenates [(⟨3, ![8, 1024, p]⟩ : Shape), A3] ⟨3, ![8, 1024, M1]⟩ 2)
    (h5 : (⟨3, ![8, 1024, M1]⟩ : Shape).Slices ![0, 0, o] ⟨3, ![8, 1024, p]⟩)
    (h7 : Shape.Concatenates [(⟨3, ![8, 1024, M1]⟩ : Shape), ⟨3, ![8, 1024, p]⟩] ⟨3, ![8, 1024, M2]⟩ 2) :
    (⟨3, ![8, 1024, M2]⟩ : Shape).Idx → EReal :=
  concatenate (⟨3, ![8, 1024, M2]⟩ : Shape) 2
    [⟨⟨3, ![8, 1024, M1]⟩, Cert.ReflectPad.mid2 x h1 h3⟩,
     ⟨⟨3, ![8, 1024, p]⟩, Host.reverse (s := ⟨3, ![8, 1024, p]⟩) [2]
        (extractStridedSlice ⟨3, ![8, 1024, p]⟩ ![0, 0, o] (Cert.ReflectPad.mid2 x h1 h3) h5)⟩] h7

/-- A slice of the column-padded array at column offset `ok`, read at `(b, r, q)`: the array at the reflected column. -/
theorem colTap {ok : Nat} (x : A3.Idx → EReal)
    (h1 : A3.Slices ![0, 0, 1] ⟨3, ![8, 1024, p]⟩)
    (h3 : Shape.Concatenates [(⟨3, ![8, 1024, p]⟩ : Shape), A3] ⟨3, ![8, 1024, M1]⟩ 2)
    (h5 : (⟨3, ![8, 1024, M1]⟩ : Shape).Slices ![0, 0, o] ⟨3, ![8, 1024, p]⟩)
    (h7 : Shape.Concatenates [(⟨3, ![8, 1024, M1]⟩ : Shape), ⟨3, ![8, 1024, p]⟩] ⟨3, ![8, 1024, M2]⟩ 2)
    (g : (⟨3, ![8, 1024, M2]⟩ : Shape).Slices ![0, 0, ok] A3)
    (hM1 : M1 = p + 1024) (hM2 : M2 = M1 + p) (ho : o + 1 = 1024) (hp : p + 1 ≤ 1024) (hok : ok ≤ 2 * p)
    (b : Fin 8) (r q : Fin 1024) :
    extractStridedSlice A3 ![0, 0, ok] (padC x h1 h3 h5 h7) g (ix3 b r q)
      = x (ix3 b r ⟨refl p (q.val + ok) % 1024, Nat.mod_lt _ (by norm_num)⟩) := by
  have hq := q.isLt
  have hlt : q.val + ok < M2 := by omega
  refine (extractStridedSlice_apply _ _ g _ (ix3 b r ⟨q.val + ok, hlt⟩) (fun a => ?_)).trans ?_
  · match a with
    | ⟨0, _⟩ => show b.val = 0 + b.val; omega
    | ⟨1, _⟩ => show r.val = 0 + r.val; omega
    | ⟨2, _⟩ => show q.val + ok = ok + q.val; omega
  · exact Cert.ReflectPad.pad2_apply x h1 h3 h5 h7 hM1 hM2 ho hp b r ⟨q.val + ok, hlt⟩ _
      (refl_mod_eq_src hp (by show q.val + ok < p + 1024 + p; omega))

/-- THE PASS ALONG THE COLUMNS: pad, five slices, five taps summed from zero, read at `(b, r, q)`. -/
theorem cols_apply {o0 o1 o2 o3 o4 : Nat} (d : Nat) (x : A3.Idx → EReal)
    (h1 : A3.Slices ![0, 0, 1] ⟨3, ![8, 1024, p]⟩)
    (h3 : Shape.Concatenates [(⟨3, ![8, 1024, p]⟩ : Shape), A3] ⟨3, ![8, 1024, M1]⟩ 2)
    (h5 : (⟨3, ![8, 1024, M1]⟩ : Shape).Slices ![0, 0, o] ⟨3, ![8, 1024, p]⟩)
    (h7 : Shape.Concatenates [(⟨3, ![8, 1024, M1]⟩ : Shape), ⟨3, ![8, 1024, p]⟩] ⟨3, ![8, 1024, M2]⟩ 2)
    (hb : A0.BroadcastsInDim A3 (![] : Fin 0 → Fin A3.rank))
    (g0 : (⟨3, ![8, 1024, M2]⟩ : Shape).Slices ![0, 0, o0] A3) (g1 : (⟨3, ![8, 1024, M2]⟩ : Shape).Slices ![0, 0, o1] A3)
    (g2 : (⟨3, ![8, 1024, M2]⟩ : Shape).Slices ![0, 0, o2] A3) (g3 : (⟨3, ![8, 1024, M2]⟩ : Shape).Slices ![0, 0, o3] A3)
    (g4 : (⟨3, ![8, 1024, M2]⟩ : Shape).Slices ![0, 0, o4] A3)
    (hp : p = 2 * d) (hd : 2 * d + 1 ≤ 1024) (hM1 : M1 = p + 1024) (hM2 : M2 = M1 + p) (ho : o + 1 = 1024)
    (e0 : o0 = 0 * d) (e1 : o1 = 1 * d) (e2 : o2 = 2 * d) (e3 : o3 = 3 * d) (e4 : o4 = 4 * d)
    (b : Fin 8) (r q : Fin 1024) :
    (addf (addf (addf (addf (addf
        (broadcastInDim (s := A0) A3 ![] hb (constant (F := Ideal) A0 .f32 0x00000000#32))
        (mulf (broadcastInDim (s := A0) A3 ![] hb (constant (F := Ideal) A0 .f32 0x3D800000#32)) (extractStridedSlice A3 ![0, 0, o0] (padC x h1 h3 h5 h7) g0)))
        (mulf (broadcastInDim (s := A0) A3 ![] hb (constant (F := Ideal) A0 .f32 0x3E800000#32)) (extractStridedSlice A3 ![0, 0, o1] (padC x h1 h3 h5 h7) g1)))
        (mulf (broadcastInDim (s := A0) A3 ![] hb (constant (F := Ideal) A0 .f32 0x3EC00000#32)) (extractStridedSlice A3 ![0, 0, o2] (padC x h1 h3 h5 h7) g2)))
        (mulf (broadcastInDim (s := A0) A3 ![] hb (constant (F := Ideal) A0 .f32 0x3E800000#32)) (extractStridedSlice A3 ![0, 0, o3] (padC x h1 h3 h5 h7) g3)))
        (mulf (broadcastInDim (s := A0) A3 ![] hb (constant (F := Ideal) A0 .f32 0x3D800000#32)) (extractStridedSlice A3 ![0, 0, o4] (padC x h1 h3 h5 h7) g4))
      : FVec Ideal A3 .f32) (ix3 b r q)
      = colStage d (toImg x) b r q := by
  subst hp e0 e1 e2 e3 e4
  refine (taps_apply hb _ _ _ _ _ _ g0 g1 g2 g3 g4 _).trans ?_
  unfold colStage
  exact comb_congr
    (colTap x h1 h3 h5 h7 g0 hM1 hM2 ho (by omega) (by omega) b r q)
    (colTap x h1 h3 h5 h7 g1 hM1 hM2 ho (by omega) (by omega) b r q)
    (colTap x h1 h3 h5 h7 g2 hM1 hM2 ho (by omega) (by omega) b r q)
    (colTap x h1 h3 h5 h7 g3 hM1 hM2 ho (by omega) (by omega) b r q)
    (colTap x h1 h3 h5 h7 g4 hM1 hM2 ho (by omega) (by omega) b r q)

end Cols

/-! ## The four planes stacked along a new axis -/

abbrev A4u : Shape := ⟨4, ![8, 1, 1024, 1024]⟩
abbrev A4 : Shape := ⟨4, ![8, 4, 1024, 1024]⟩

/-- A plane broadcast to a unit second axis reads the plane. -/
theorem unit_apply (hb : A3.BroadcastsInDim A4u (![0, 2, 3] : Fin 3 → Fin A4u.rank)) (y : A3.Idx → EReal)
    (b : Fin 8) (z : Fin 1) (r q : Fin 1024) :
    broadcastInDim A4u ![0, 2, 3] hb y (ix4 b z r q) = y (ix3 b r q) := by
  refine broadcastInDim_apply _ hb y _ (ix3 b r q) (fun a => ?_)
  match a with
  | ⟨0, _⟩ => show b.val = if (8 : Nat) = 1 then 0 else b.val; rw [if_neg (by decide)]
  | ⟨1, _⟩ => show r.val = if (1024 : Nat) = 1 then 0 else r.val; rw [if_neg (by decide)]
  | ⟨2, _⟩ => show q.val = if (1024 : Nat) = 1 then 0 else q.val; rw [if_neg (by decide)]

/-- The concatenation of four unit-axis planes along the second axis, read at `(b, l, r, q)`, is plane `l` at
    `(b, 0, r, q)`. -/
theorem stack_apply (hc : Shape.Concatenates [A4u, A4u, A4u, A4u] A4 1) (z0 z1 z2 z3 : A4u.Idx → EReal)
    (b : Fin 8) (l : Fin 4) (r q : Fin 1024) :
    concatenate A4 1 [⟨A4u, z0⟩, ⟨A4u, z1⟩, ⟨A4u, z2⟩, ⟨A4u, z3⟩] hc (ix4 b l r q)
      = (![z0, z1, z2, z3] : Fin 4 → A4u.Idx → EReal) l (ix4 b 0 r q) := by
  have hi : ∀ a : Fin A4u.rank, a.cast (rfl : A4u.rank = A4.rank) ≠ 1 →
      ((ix4 b (0 : Fin 1) r q : A4u.Idx) a).val = ((ix4 b l r q : A4.Idx) (a.cast rfl)).val := fun a ha => by
    match a with
    | ⟨0, _⟩ => rfl
    | ⟨1, _⟩ => exact absurd (Fin.ext rfl) ha
    | ⟨2, _⟩ => rfl
    | ⟨3, _⟩ => rfl
  match l with
  | ⟨0, _⟩ =>
    exact concatenate_apply_piece (t := A4) 1 [⟨A4u, z0⟩, ⟨A4u, z1⟩, ⟨A4u, z2⟩, ⟨A4u, z3⟩] hc _ 0 (by show 0 < 4; omega) A4u z0 rfl rfl 0 rfl (ix4 b 0 r q) hi rfl
  | ⟨1, _⟩ =>
    exact concatenate_apply_piece (t := A4) 1 [⟨A4u, z0⟩, ⟨A4u, z1⟩, ⟨A4u, z2⟩, ⟨A4u, z3⟩] hc _ 1 (by show 1 < 4; omega) A4u z1 rfl rfl 1 rfl (ix4 b 0 r q) hi rfl
  | ⟨2, _⟩ =>
    exact concatenate_apply_piece (t := A4) 1 [⟨A4u, z0⟩, ⟨A4u, z1⟩, ⟨A4u, z2⟩, ⟨A4u, z3⟩] hc _ 2 (by show 2 < 4; omega) A4u z2 rfl rfl 2 rfl (ix4 b 0 r q) hi rfl
  | ⟨3, _⟩ =>
    exact concatenate_apply_piece (t := A4) 1 [⟨A4u, z0⟩, ⟨A4u, z1⟩, ⟨A4u, z2⟩, ⟨A4u, z3⟩] hc _ 3 (by show 3 < 4; omega) A4u z3 rfl rfl 3 rfl (ix4 b 0 r q) hi rfl

/-! ## Five taps along the rows of an already padded array -/

/-- The five taps along the rows, dilation `d`, of an array already padded to `n = 1024 + 4 d` rows. -/
def rowTapsP (d n : Nat) (hn : n = 1024 + 4 * d) (P : (⟨3, ![8, n, 1024]⟩ : Shape).Idx → EReal) : Img := fun b r q =>
  comb (P (ix3 b ⟨r.val + 0 * d, by have := r.isLt; omega⟩ q)) (P (ix3 b ⟨r.val + 1 * d, by have := r.isLt; omega⟩ q))
    (P (ix3 b ⟨r.val + 2 * d, by have := r.isLt; omega⟩ q)) (P (ix3 b ⟨r.val + 3 * d, by have := r.isLt; omega⟩ q))
    (P (ix3 b ⟨r.val + 4 * d, by have := r.isLt; omega⟩ q))

/-- A row slice at offset `ok` read at `(b, r, q)` is the operand at row `r + ok`. -/
theorem sliceRow_apply {n ok : Nat} (P : (⟨3, ![8, n, 1024]⟩ : Shape).Idx → EReal)
    (g : (⟨3, ![8, n, 1024]⟩ : Shape).Slices ![0, ok, 0] A3) (b : Fin 8) (r q : Fin 1024) (h : r.val + ok < n) :
    extractStridedSlice A3 ![0, ok, 0] P g (ix3 b r q) = P (ix3 b ⟨r.val + ok, h⟩ q) := by
  refine extractStridedSlice_apply _ P g _ _ (fun a => ?_)
  match a with
  | ⟨0, _⟩ => show b.val = 0 + b.val; omega
  | ⟨1, _⟩ => show r.val + ok = ok + r.val; omega
  | ⟨2, _⟩ => show q.val = 0 + q.val; omega

/-- Five row slices of a padded array, the taps summed from zero, read at `(b, r, q)`. -/
theorem rowsP_apply {n o0 o1 o2 o3 o4 : Nat} (d : Nat) (hn : n = 1024 + 4 * d) (P : (⟨3, ![8, n, 1024]⟩ : Shape).Idx → EReal)
    (hb : A0.BroadcastsInDim A3 (![] : Fin 0 → Fin A3.rank))
    (g0 : (⟨3, ![8, n, 1024]⟩ : Shape).Slices ![0, o0, 0] A3) (g1 : (⟨3, ![8, n, 1024]⟩ : Shape).Slices ![0, o1, 0] A3)
    (g2 : (⟨3, ![8, n, 1024]⟩ : Shape).Slices ![0, o2, 0] A3) (g3 : (⟨3, ![8, n, 1024]⟩ : Shape).Slices ![0, o3, 0] A3)
    (g4 : (⟨3, ![8, n, 1024]⟩ : Shape).Slices ![0, o4, 0] A3)
    (e0 : o0 = 0 * d) (e1 : o1 = 1 * d) (e2 : o2 = 2 * d) (e3 : o3 = 3 * d) (e4 : o4 = 4 * d)
    (b : Fin 8) (r q : Fin 1024) :
    (addf (addf (addf (addf (addf
        (broadcastInDim (s := A0) A3 ![] hb (constant (F := Ideal) A0 .f32 0x00000000#32))
        (mulf (broadcastInDim (s := A0) A3 ![] hb (constant (F := Ideal) A0 .f32 0x3D800000#32)) (extractStridedSlice A3 ![0, o0, 0] P g0)))
        (mulf (broadcastInDim (s := A0) A3 ![] hb (constant (F := Ideal) A0 .f32 0x3E800000#32)) (extractStridedSlice A3 ![0, o1, 0] P g1)))
        (mulf (broadcastInDim (s := A0) A3 ![] hb (constant (F := Ideal) A0 .f32 0x3EC00000#32)) (extractStridedSlice A3 ![0, o2, 0] P g2)))
        (mulf (broadcastInDim (s := A0) A3 ![] hb (constant (F := Ideal) A0 .f32 0x3E800000#32)) (extractStridedSlice A3 ![0, o3, 0] P g3)))
        (mulf (broadcastInDim (s := A0) A3 ![] hb (constant (F := Ideal) A0 .f32 0x3D800000#32)) (extractStridedSlice A3 ![0, o4, 0] P g4))
      : FVec Ideal A3 .f32) (ix3 b r q)
      = rowTapsP d n hn P b r q := by
  subst e0 e1 e2 e3 e4
  refine (taps_apply hb _ _ _ _ _ _ g0 g1 g2 g3 g4 _).trans ?_
  unfold rowTapsP
  exact comb_congr (sliceRow_apply P g0 b r q _) (sliceRow_apply P g1 b r q _) (sliceRow_apply P g2 b r q _)
    (sliceRow_apply P g3 b r q _) (sliceRow_apply P g4 b r q _)

/-- If the padded array reads image `c` by reflection of the rows, its five row taps are the pass along the rows of `c`. -/
theorem rowTapsP_eq (d n : Nat) (hn : n = 1024 + 4 * d) (P : (⟨3, ![8, n, 1024]⟩ : Shape).Idx → EReal) (c : Img)
    (hP : ∀ (b : Fin 8) (i : Fin n) (q : Fin 1024), P (ix3 b i q) = c b ⟨refl (2 * d) i.val % 1024, Nat.mod_lt _ (by norm_num)⟩ q) :
    rowTapsP d n hn P = rowStage d c := by
  funext b r q
  unfold rowTapsP rowStage
  exact comb_congr (hP _ _ _) (hP _ _ _) (hP _ _ _) (hP _ _ _) (hP _ _ _)

end Cert.Uwt

end
-- ==== Proof.RefValueA.lean ====
/-
  The first two windows of the reference program read at an index: level 1 (dilation 1) with the first detail
  plane, then level 2 (dilation 2) with the second detail plane and the row pad of level 3. A window's value at one
  buffer is computed in one rewriting pass over the window's line; the two-piece concatenations of the reflect pads
  are carried through the pass with their pieces as arguments of their own, so that the pass reaches the pieces.
-/
import proofs.«173091_j34797825032656_2_alg».proof.Proof.RefOps
import proofs.«173091_j34797825032656_2_alg».proof.Proof.RefPure

noncomputable section

namespace Cert.ReferenceIdeal.RefValue

open Cert.ReferenceIdeal Cert.ReferenceIdeal.Gen Idealize.ShloMosaic Idealize.ShloMosaic.TcCoe Idealize.ShloMosaic.ValueIdx Idealize.SL.Sem
open Cert.Uwt

/-- A two-piece concatenation with the pieces as arguments of their own. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_eq {α : Type} (t : Shape) (a : Fin t.rank) (s₁ s₂ : Shape) (h : Shape.Concatenates [s₁, s₂] t a)
    (x₁ : s₁.Idx → α) (x₂ : s₂.Idx → α) : concatenate t a [⟨s₁, x₁⟩, ⟨s₂, x₂⟩] h = cat2 t a s₁ s₂ h x₁ x₂ := rfl

/-- The contents of one buffer after a line of operations, as ONE simp pass; two-piece concatenations are carried as `cat2` so that
    the pass goes on into their pieces. -/
macro "after_results_cat" : tactic =>
  `(tactic| (simp (disch := decide) only [StableHlo.after_cons, StableHlo.after_nil,
      StableHlo.nullary_result', StableHlo.unary_result', StableHlo.binary_result', StableHlo.nary4_result', StableHlo.nary_result',
      StableHlo.nullary_result_ne', StableHlo.unary_result_ne', StableHlo.binary_result_ne', StableHlo.nary_result_ne',
      StableHlo.TRef.unary, StableHlo.TRef.binary, cat2_eq]))

/-! ## Window 0: level 1 (dilation 1) and the first detail plane -/

/-- After window 0, `main_v43` holds the first smooth plane. -/
theorem w0_c1 (W : Valuation τ sig (Elt Ideal)) (b : Fin 8) (r q : Fin 1024) :
    (StableHlo.after (RefRun.w0 (F := Ideal)) W main_v43 : S8x1024x1024.Idx → EReal) (ix3 b r q)
      = smooth 1 (toImg (W main_arg0)) b r q := by
  unfold RefRun.w0
  after_results_cat
  simp only [StableHlo.TRef.toBuf, StableHlo.TRef.ofBuf, cast_eq, cat2]
  rw [smooth_eq]
  refine (cols_apply 1 _ _ _ _ _ _ _ _ _ _ _ (by norm_num) (by norm_num) (by norm_num) (by norm_num) (by norm_num) (by norm_num) (by norm_num) (by norm_num) (by norm_num) (by norm_num) b r q).trans ?_
  exact congrArg (fun c => colStage 1 c b r q) (funext fun b' => funext fun r' => funext fun q' =>
    rows_apply 1 (W main_arg0) _ _ _ _ _ _ _ _ _ _ (by norm_num) (by norm_num) (by norm_num) (by norm_num) (by norm_num) (by norm_num) (by norm_num) (by norm_num) (by norm_num) (by norm_num) b' r' q')

/-- After window 0, `main_v44` holds the first detail plane. -/
theorem w0_w1 (W : Valuation τ sig (Elt Ideal)) (b : Fin 8) (r q : Fin 1024) :
    (StableHlo.after (RefRun.w0 (F := Ideal)) W main_v44 : S8x1024x1024.Idx → EReal) (ix3 b r q)
      = toImg (W main_arg0) b r q - smooth 1 (toImg (W main_arg0)) b r q := by
  unfold RefRun.w0
  after_results_cat
  simp only [StableHlo.TRef.toBuf, StableHlo.TRef.ofBuf, cast_eq, cat2]
  refine (subf_apply _ _ _).trans ?_
  refine congrArg (fun t => toImg (W main_arg0) b r q - t) ?_
  rw [smooth_eq]
  refine (cols_apply 1 _ _ _ _ _ _ _ _ _ _ _ (by norm_num) (by norm_num) (by norm_num) (by norm_num) (by norm_num) (by norm_num) (by norm_num) (by norm_num) (by norm_num) (by norm_num) b r q).trans ?_
  exact congrArg (fun c => colStage 1 c b r q) (funext fun b' => funext fun r' => funext fun q' =>
    rows_apply 1 (W main_arg0) _ _ _ _ _ _ _ _ _ _ (by norm_num) (by norm_num) (by norm_num) (by norm_num) (by norm_num) (by norm_num) (by norm_num) (by norm_num) (by norm_num) (by norm_num) b' r' q')

/-! ## Window 1: level 2 (dilation 2), the second detail plane, and the row pad of level 3 -/

/-- After window 1, `main_v88` holds the smooth plane of `main_v43` at dilation 2. -/
theorem w1_c2 (W : Valuation τ sig (Elt Ideal)) (b : Fin 8) (r q : Fin 1024) :
    (StableHlo.after (RefRun.w1 (F := Ideal)) W main_v88 : S8x1024x1024.Idx → EReal) (ix3 b r q)
      = smooth 2 (toImg (W main_v43)) b r q := by
  unfold RefRun.w1
  after_results_cat
  simp only [StableHlo.TRef.toBuf, StableHlo.TRef.ofBuf, cast_eq, cat2]
  rw [smooth_eq]
  refine (cols_apply 2 _ _ _ _ _ _ _ _ _ _ _ (by norm_num) (by norm_num) (by norm_num) (by norm_num) (by norm_num) (by norm_num) (by norm_num) (by norm_num) (by norm_num) (by norm_num) b r q).trans ?_
  exact congrArg (fun c => colStage 2 c b r q) (funext fun b' => funext fun r' => funext fun q' =>
    rows_apply 2 (W main_v43) _ _ _ _ _ _ _ _ _ _ (by norm_num) (by norm_num) (by norm_num) (by norm_num) (by norm_num) (by norm_num) (by norm_num) (by norm_num) (by norm_num) (by norm_num) b' r' q')

/-- After window 1, `main_v89` holds the second detail plane. -/
theorem w1_w2 (W : Valuation τ sig (Elt Ideal)) (b : Fin 8) (r q : Fin 1024) :
    (StableHlo.after (RefRun.w1 (F := Ideal)) W main_v89 : S8x1024x1024.Idx → EReal) (ix3 b r q)
      = toImg (W main_v43) b r q - smooth 2 (toImg (W main_v43)) b r q := by
  unfold RefRun.w1
  after_results_cat
  simp only [StableHlo.TRef.toBuf, StableHlo.TRef.ofBuf, cast_eq, cat2]
  refine (subf_apply _ _ _).trans ?_
  refine congrArg (fun t => toImg (W main_v43) b r q - t) ?_
  rw [smooth_eq]
  refine (cols_apply 2 _ _ _ _ _ _ _ _ _ _ _ (by norm_num) (by norm_num) (by norm_num) (by norm_num) (by norm_num) (by norm_num) (by norm_num) (by norm_num) (by norm_num) (by norm_num) b r q).trans ?_
  exact congrArg (fun c => colStage 2 c b r q) (funext fun b' => funext fun r' => funext fun q' =>
    rows_apply 2 (W main_v43) _ _ _ _ _ _ _ _ _ _ (by norm_num) (by norm_num) (by norm_num) (by norm_num) (by norm_num) (by norm_num) (by norm_num) (by norm_num) (by norm_num) (by norm_num) b' r' q')

/-- After window 1, `main_v90` holds that smooth plane reflect-padded by 8 along the rows. -/
theorem w1_pad (W : Valuation τ sig (Elt Ideal)) (b : Fin 8) (i : Fin 1040) (q : Fin 1024) :
    (StableHlo.after (RefRun.w1 (F := Ideal)) W main_v90 : S8x1040x1024.Idx → EReal) (ix3 b i q)
      = smooth 2 (toImg (W main_v43)) b ⟨refl 8 i.val % 1024, Nat.mod_lt _ (by norm_num)⟩ q := by
  unfold RefRun.w1
  after_results_cat
  simp only [StableHlo.TRef.toBuf, StableHlo.TRef.ofBuf, cast_eq, cat2]
  refine (Cert.ReflectPad.pad1_apply _ _ _ _ _ (by norm_num) (by norm_num) (by norm_num) (by norm_num) b i q
    ⟨refl 8 i.val % 1024, Nat.mod_lt _ (by norm_num)⟩ (refl_mod_eq_src (by norm_num) (by have := i.isLt; omega))).trans ?_
  rw [smooth_eq]
  refine (cols_apply 2 _ _ _ _ _ _ _ _ _ _ _ (by norm_num) (by norm_num) (by norm_num) (by norm_num) (by norm_num) (by norm_num) (by norm_num) (by norm_num) (by norm_num) (by norm_num) b (⟨refl 8 i.val % 1024, Nat.mod_lt _ (by norm_num)⟩ : Fin 1024) q).trans ?_
  exact congrArg (fun c => colStage 2 c b (⟨refl 8 i.val % 1024, Nat.mod_lt _ (by norm_num)⟩ : Fin 1024) q) (funext fun b' => funext fun r' => funext fun q' =>
    rows_apply 2 (W main_v43) _ _ _ _ _ _ _ _ _ _ (by norm_num) (by norm_num) (by norm_num) (by norm_num) (by norm_num) (by norm_num) (by norm_num) (by norm_num) (by norm_num) (by norm_num) b' r' q')

/-- Window 1 leaves the first detail plane alone. -/
theorem w1_keep (W : Valuation τ sig (Elt Ideal)) :
    StableHlo.after (RefRun.w1 (F := Ideal)) W main_v44 = W main_v44 := by
  unfold RefRun.w1
  after_results_cat

end Cert.ReferenceIdeal.RefValue

end
-- ==== Proof.RefValueB.lean ====
/-
  The last two windows of the reference program read at an index. Window 2 is cut into three consecutive lines:
  the pass along the rows over the already padded plane (five taps at row offsets 0, 4, 8, 12, 16, summed left to
  right from a zero), then the reflect pad along the columns and the pass along the columns (offsets 0, 4, 8, 12,
  16 again), then the last difference of consecutive smooth planes and three broadcasts to a unit axis. Each line
  is read over an arbitrary valuation at the one buffer it starts from, so no line's term is ever placed inside
  another's. Window 3 is the fourth broadcast and the concatenation of the four planes along the unit axis.
-/
import proofs.«173091_j34797825032656_2_alg».proof.Proof.RefOps
import proofs.«173091_j34797825032656_2_alg».proof.Proof.RefPure

noncomputable section

namespace Cert.ReferenceIdeal.RefValue

open Cert.ReferenceIdeal Cert.ReferenceIdeal.Gen Idealize.ShloMosaic Idealize.ShloMosaic.TcCoe Idealize.ShloMosaic.ValueIdx Idealize.SL.Sem
open Cert.Uwt

section Lines
variable {F : FTy → Type} [FloatOps F]

/-- The pass along the rows over the padded plane `main_v90`, into `main_v111`. -/
abbrev w2a : List (HloOp τ sig (Elt F)) :=
  [ StableHlo.unary main_v90 main_v91 ((extractStridedSlice S8x1024x1024 ![0, 0, 0] · slices_S8x1040x1024_S8x1024x1024_0_0_0) : (⟨S8x1040x1024, .f32⟩ : BufTy).Contents (Elt F) → (⟨S8x1024x1024, .f32⟩ : BufTy).Contents (Elt F)),
    StableHlo.nullary main_cst_27 (constant S_ .f32 0x3D800000#32),
    StableHlo.unary main_cst_27 main_v92 (broadcastInDim S8x1024x1024 ![] bcast_S_S8x1024x1024 : (⟨S_, .f32⟩ : BufTy).Contents (Elt F) → (⟨S8x1024x1024, .f32⟩ : BufTy).Contents (Elt F)),
    StableHlo.binary main_v92 main_v91 main_v93 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_28 (constant S_ .f32 0x00000000#32),
    StableHlo.unary main_cst_28 main_v94 (broadcastInDim S8x1024x1024 ![] bcast_S_S8x1024x1024 : (⟨S_, .f32⟩ : BufTy).Contents (Elt F) → (⟨S8x1024x1024, .f32⟩ : BufTy).Contents (Elt F)),
    StableHlo.binary main_v94 main_v93 main_v95 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v90 main_v96 ((extractStridedSlice S8x1024x1024 ![0, 4, 0] · slices_S8x1040x1024_S8x1024x1024_0_4_0) : (⟨S8x1040x1024, .f32⟩ : BufTy).Contents (Elt F) → (⟨S8x1024x1024, .f32⟩ : BufTy).Contents (Elt F)),
    StableHlo.nullary main_cst_29 (constant S_ .f32 0x3E800000#32),
    StableHlo.unary main_cst_29 main_v97 (broadcastInDim S8x1024x1024 ![] bcast_S_S8x1024x1024 : (⟨S_, .f32⟩ : BufTy).Contents (Elt F) → (⟨S8x1024x1024, .f32⟩ : BufTy).Contents (Elt F)),
    StableHlo.binary main_v97 main_v96 main_v98 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v95 main_v98 main_v99 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v90 main_v100 ((extractStridedSlice S8x1024x1024 ![0, 8, 0] · slices_S8x1040x1024_S8x1024x1024_0_8_0) : (⟨S8x1040x1024, .f32⟩ : BufTy).Contents (Elt F) → (⟨S8x1024x1024, .f32⟩ : BufTy).Contents (Elt F)),
    StableHlo.nullary main_cst_30 (constant S_ .f32 0x3EC00000#32),
    StableHlo.unary main_cst_30 main_v101 (broadcastInDim S8x1024x1024 ![] bcast_S_S8x1024x1024 : (⟨S_, .f32⟩ : BufTy).Contents (Elt F) → (⟨S8x1024x1024, .f32⟩ : BufTy).Contents (Elt F)),
    StableHlo.binary main_v101 main_v100 main_v102 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v99 main_v102 main_v103 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v90 main_v104 ((extractStridedSlice S8x1024x1024 ![0, 12, 0] · slices_S8x1040x1024_S8x1024x1024_0_12_0) : (⟨S8x1040x1024, .f32⟩ : BufTy).Contents (Elt F) → (⟨S8x1024x1024, .f32⟩ : BufTy).Contents (Elt F)),
    StableHlo.nullary main_cst_31 (constant S_ .f32 0x3E800000#32),
    StableHlo.unary main_cst_31 main_v105 (broadcastInDim S8x1024x1024 ![] bcast_S_S8x1024x1024 : (⟨S_, .f32⟩ : BufTy).Contents (Elt F) → (⟨S8x1024x1024, .f32⟩ : BufTy).Contents (Elt F)),
    StableHlo.binary main_v105 main_v104 main_v106 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v103 main_v106 main_v107 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v90 main_v108 ((extractStridedSlice S8x1024x1024 ![0, 16, 0] · slices_S8x1040x1024_S8x1024x1024_0_16_0) : (⟨S8x1040x1024, .f32⟩ : BufTy).Contents (Elt F) → (⟨S8x1024x1024, .f32⟩ : BufTy).Contents (Elt F)),
    StableHlo.nullary main_cst_32 (constant S_ .f32 0x3D800000#32),
    StableHlo.unary main_cst_32 main_v109 (broadcastInDim S8x1024x1024 ![] bcast_S_S8x1024x1024 : (⟨S_, .f32⟩ : BufTy).Contents (Elt F) → (⟨S8x1024x1024, .f32⟩ : BufTy).Contents (Elt F)),
    StableHlo.binary main_v109 main_v108 main_v110 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v107 main_v110 main_v111 (addf : (⟨S8x1024x1024, .f32⟩ : BufTy).Contents (Elt F) → (⟨S8x1024x1024, .f32⟩ : BufTy).Contents (Elt F) → (⟨S8x1024x1024, .f32⟩ : BufTy).Contents (Elt F)) ]

/-- The reflect pad of `main_v111` along the columns, into `main_v112`: the outlined function's operations, each over its operand's and its result's buffers. -/
abbrev w2b1 : List (HloOp τ sig (Elt F)) :=
  [ StableHlo.nullary main_c_33 (constantI S_ 32 0#32),
    StableHlo.unary main_v111 main_call5_v0 ((extractStridedSlice S8x1024x1 ![0, 0, 0] · slices_S8x1024x1024_S8x1024x1_0_0_0) : (⟨S8x1024x1024, .f32⟩ : BufTy).Contents (Elt F) → (⟨S8x1024x1, .f32⟩ : BufTy).Contents (Elt F)),
    StableHlo.unary main_v111 main_call5_v1 ((extractStridedSlice S8x1024x8 ![0, 0, 1] · slices_S8x1024x1024_S8x1024x8_0_0_1) : (⟨S8x1024x1024, .f32⟩ : BufTy).Contents (Elt F) → (⟨S8x1024x8, .f32⟩ : BufTy).Contents (Elt F)),
    StableHlo.unary main_call5_v1 main_call5_v2 ((Host.reverse [2]) : (⟨S8x1024x8, .f32⟩ : BufTy).Contents (Elt F) → (⟨S8x1024x8, .f32⟩ : BufTy).Contents (Elt F)),
    StableHlo.binary main_call5_v2 main_v111 main_call5_v3 ((fun a b => concatenate S8x1024x1032 2 [⟨S8x1024x8, a⟩, ⟨S8x1024x1024, b⟩] concatenates_S8x1024x8_S8x1024x1024_S8x1024x1032_d2) : (⟨S8x1024x8, .f32⟩ : BufTy).Contents (Elt F) → (⟨S8x1024x1024, .f32⟩ : BufTy).Contents (Elt F) → (⟨S8x1024x1032, .f32⟩ : BufTy).Contents (Elt F)),
    StableHlo.unary main_call5_v3 main_call5_v4 ((extractStridedSlice S8x1024x1 ![0, 0, 1031] · slices_S8x1024x1032_S8x1024x1_0_0_1031) : (⟨S8x1024x1032, .f32⟩ : BufTy).Contents (Elt F) → (⟨S8x1024x1, .f32⟩ : BufTy).Contents (Elt F)),
    StableHlo.unary main_call5_v3 main_call5_v5 ((extractStridedSlice S8x1024x8 ![0, 0, 1023] · slices_S8x1024x1032_S8x1024x8_0_0_1023) : (⟨S8x1024x1032, .f32⟩ : BufTy).Contents (Elt F) → (⟨S8x1024x8, .f32⟩ : BufTy).Contents (Elt F)),
    StableHlo.unary main_call5_v5 main_call5_v6 ((Host.reverse [2]) : (⟨S8x1024x8, .f32⟩ : BufTy).Contents (Elt F) → (⟨S8x1024x8, .f32⟩ : BufTy).Contents (Elt F)),
    StableHlo.binary main_call5_v3 main_call5_v6 main_v112 ((fun a b => concatenate S8x1024x1040 2 [⟨S8x1024x1032, a⟩, ⟨S8x1024x8, b⟩] concatenates_S8x1024x1032_S8x1024x8_S8x1024x1040_d2) : (⟨S8x1024x1032, .f32⟩ : BufTy).Contents (Elt F) → (⟨S8x1024x8, .f32⟩ : BufTy).Contents (Elt F) → (⟨S8x1024x1040, .f32⟩ : BufTy).Contents (Elt F)) ]

/-- The pass along the columns over the padded plane `main_v112`, into `main_v133`. -/
abbrev w2b2 : List (HloOp τ sig (Elt F)) :=
  [ StableHlo.unary main_v112 main_v113 ((extractStridedSlice S8x1024x1024 ![0, 0, 0] · slices_S8x1024x1040_S8x1024x1024_0_0_0) : (⟨S8x1024x1040, .f32⟩ : BufTy).Contents (Elt F) → (⟨S8x1024x1024, .f32⟩ : BufTy).Contents (Elt F)),
    StableHlo.nullary main_cst_34 (constant S_ .f32 0x3D800000#32),
    StableHlo.unary main_cst_34 main_v114 (broadcastInDim S8x1024x1024 ![] bcast_S_S8x1024x1024 : (⟨S_, .f32⟩ : BufTy).Contents (Elt F) → (⟨S8x1024x1024, .f32⟩ : BufTy).Contents (Elt F)),
    StableHlo.binary main_v114 main_v113 main_v115 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_35 (constant S_ .f32 0x00000000#32),
    StableHlo.unary main_cst_35 main_v116 (broadcastInDim S8x1024x1024 ![] bcast_S_S8x1024x1024 : (⟨S_, .f32⟩ : BufTy).Contents (Elt F) → (⟨S8x1024x1024, .f32⟩ : BufTy).Contents (Elt F)),
    StableHlo.binary main_v116 main_v115 main_v117 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v112 main_v118 ((extractStridedSlice S8x1024x1024 ![0, 0, 4] · slices_S8x1024x1040_S8x1024x1024_0_0_4) : (⟨S8x1024x1040, .f32⟩ : BufTy).Contents (Elt F) → (⟨S8x1024x1024, .f32⟩ : BufTy).Contents (Elt F)),
    StableHlo.nullary main_cst_36 (constant S_ .f32 0x3E800000#32),
    StableHlo.unary main_cst_36 main_v119 (broadcastInDim S8x1024x1024 ![] bcast_S_S8x1024x1024 : (⟨S_, .f32⟩ : BufTy).Contents (Elt F) → (⟨S8x1024x1024, .f32⟩ : BufTy).Contents (Elt F)),
    StableHlo.binary main_v119 main_v118 main_v120 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v117 main_v120 main_v121 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v112 main_v122 ((extractStridedSlice S8x1024x1024 ![0, 0, 8] · slices_S8x1024x1040_S8x1024x1024_0_0_8) : (⟨S8x1024x1040, .f32⟩ : BufTy).Contents (Elt F) → (⟨S8x1024x1024, .f32⟩ : BufTy).Contents (Elt F)),
    StableHlo.nullary main_cst_37 (constant S_ .f32 0x3EC00000#32),
    StableHlo.unary main_cst_37 main_v123 (broadcastInDim S8x1024x1024 ![] bcast_S_S8x1024x1024 : (⟨S_, .f32⟩ : BufTy).Contents (Elt F) → (⟨S8x1024x1024, .f32⟩ : BufTy).Contents (Elt F)),
    StableHlo.binary main_v123 main_v122 main_v124 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v121 main_v124 main_v125 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v112 main_v126 ((extractStridedSlice S8x1024x1024 ![0, 0, 12] · slices_S8x1024x1040_S8x1024x1024_0_0_12) : (⟨S8x1024x1040, .f32⟩ : BufTy).Contents (Elt F) → (⟨S8x1024x1024, .f32⟩ : BufTy).Contents (Elt F)),
    StableHlo.nullary main_cst_38 (constant S_ .f32 0x3E800000#32),
    StableHlo.unary main_cst_38 main_v127 (broadcastInDim S8x1024x1024 ![] bcast_S_S8x1024x1024 : (⟨S_, .f32⟩ : BufTy).Contents (Elt F) → (⟨S8x1024x1024, .f32⟩ : BufTy).Contents (Elt F)),
    StableHlo.binary main_v127 main_v126 main_v128 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v125 main_v128 main_v129 (addf : (⟨S8x1024x1024, .f32⟩ : BufTy).Contents (Elt F) → (⟨S8x1024x1024, .f32⟩ : BufTy).Contents (Elt F) → (⟨S8x1024x1024, .f32⟩ : BufTy).Contents (Elt F)),
    StableHlo.unary main_v112 main_v130 ((extractStridedSlice S8x1024x1024 ![0, 0, 16] · slices_S8x1024x1040_S8x1024x1024_0_0_16) : (⟨S8x1024x1040, .f32⟩ : BufTy).Contents (Elt F) → (⟨S8x1024x1024, .f32⟩ : BufTy).Contents (Elt F)),
    StableHlo.nullary main_cst_39 (constant S_ .f32 0x3D800000#32),
    StableHlo.unary main_cst_39 main_v131 (broadcastInDim S8x1024x1024 ![] bcast_S_S8x1024x1024 : (⟨S_, .f32⟩ : BufTy).Contents (Elt F) → (⟨S8x1024x1024, .f32⟩ : BufTy).Contents (Elt F)),
    StableHlo.binary main_v131 main_v130 main_v132 (mulf : (⟨S8x1024x1024, .f32⟩ : BufTy).Contents (Elt F) → (⟨S8x1024x1024, .f32⟩ : BufTy).Contents (Elt F) → (⟨S8x1024x1024, .f32⟩ : BufTy).Contents (Elt F)),
    StableHlo.binary main_v129 main_v132 main_v133 (addf : (⟨S8x1024x1024, .f32⟩ : BufTy).Contents (Elt F) → (⟨S8x1024x1024, .f32⟩ : BufTy).Contents (Elt F) → (⟨S8x1024x1024, .f32⟩ : BufTy).Contents (Elt F)) ]

/-- The third detail plane `main_v134` and the broadcasts of the three detail planes to a unit axis. -/
abbrev w2c : List (HloOp τ sig (Elt F)) :=
  [ StableHlo.binary main_v88 main_v133 main_v134 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v44 main_v135 (broadcastInDim S8x1x1024x1024 ![0, 2, 3] bcast_S8x1024x1024_S8x1x1024x1024_0_2_3 : (⟨S8x1024x1024, .f32⟩ : BufTy).Contents (Elt F) → (⟨S8x1x1024x1024, .f32⟩ : BufTy).Contents (Elt F)),
    StableHlo.unary main_v89 main_v136 (broadcastInDim S8x1x1024x1024 ![0, 2, 3] bcast_S8x1024x1024_S8x1x1024x1024_0_2_3 : (⟨S8x1024x1024, .f32⟩ : BufTy).Contents (Elt F) → (⟨S8x1x1024x1024, .f32⟩ : BufTy).Contents (Elt F)),
    StableHlo.unary main_v134 main_v137 (broadcastInDim S8x1x1024x1024 ![0, 2, 3] bcast_S8x1024x1024_S8x1x1024x1024_0_2_3 : (⟨S8x1024x1024, .f32⟩ : BufTy).Contents (Elt F) → (⟨S8x1x1024x1024, .f32⟩ : BufTy).Contents (Elt F)) ]

/-- Window 2 is the four lines, one after the other (an outlined function's operation over typed references is the
    operation over the references themselves, the transport along a type equation that holds by `rfl` being the identity). -/
theorem w2_split : (RefRun.w2 : List (HloOp τ sig (Elt F))) = w2a ++ (w2b1 ++ (w2b2 ++ w2c)) := rfl

end Lines

/-- The contents after window 2, line by line. -/
theorem after_w2 (W : Valuation τ sig (Elt Ideal)) :
    StableHlo.after (RefRun.w2 (F := Ideal)) W
      = StableHlo.after (w2c (F := Ideal)) (StableHlo.after (w2b2 (F := Ideal))
          (StableHlo.after (w2b1 (F := Ideal)) (StableHlo.after (w2a (F := Ideal)) W))) := by
  rw [w2_split, RefRun.after_append, RefRun.after_append, RefRun.after_append]

/-! ## The line of the pass along the rows -/

/-- After the first line, `main_v111` at `(b, r, q)` is the five row taps of the padded plane. -/
theorem w2a_rows (W : Valuation τ sig (Elt Ideal)) (b : Fin 8) (r q : Fin 1024) :
    (StableHlo.after (w2a (F := Ideal)) W main_v111 : S8x1024x1024.Idx → EReal) (ix3 b r q)
      = rowTapsP 4 1040 (by norm_num) (W main_v90 : S8x1040x1024.Idx → EReal) b r q := by
  unfold w2a
  after_results_simp
  exact rowsP_apply 4 (by norm_num) (W main_v90 : S8x1040x1024.Idx → EReal) _ _ _ _ _ _
    (by norm_num) (by norm_num) (by norm_num) (by norm_num) (by norm_num) b r q

theorem w2a_keep_v88 (W : Valuation τ sig (Elt Ideal)) :
    (StableHlo.after (w2a (F := Ideal)) W main_v88 : S8x1024x1024.Idx → EReal) = W main_v88 := by
  unfold w2a
  after_results_simp

theorem w2a_keep_v44 (W : Valuation τ sig (Elt Ideal)) :
    (StableHlo.after (w2a (F := Ideal)) W main_v44 : S8x1024x1024.Idx → EReal) = W main_v44 := by
  unfold w2a
  after_results_simp

theorem w2a_keep_v89 (W : Valuation τ sig (Elt Ideal)) :
    (StableHlo.after (w2a (F := Ideal)) W main_v89 : S8x1024x1024.Idx → EReal) = W main_v89 := by
  unfold w2a
  after_results_simp

/-! ## The line of the pad along the columns -/

/-- After the pad's line, `main_v112` is the reflect pad of `main_v111` along the columns, as one array. -/
theorem w2b1_pad (W : Valuation τ sig (Elt Ideal)) :
    (StableHlo.after (w2b1 (F := Ideal)) W main_v112 : S8x1024x1040.Idx → EReal)
      = padC (p := 8) (M1 := 1032) (M2 := 1040) (o := 1023) (W main_v111 : S8x1024x1024.Idx → EReal)
          slices_S8x1024x1024_S8x1024x8_0_0_1 concatenates_S8x1024x8_S8x1024x1024_S8x1024x1032_d2 slices_S8x1024x1032_S8x1024x8_0_0_1023 concatenates_S8x1024x1032_S8x1024x8_S8x1024x1040_d2 := by
  unfold w2b1
  after_results

theorem w2b1_keep_v88 (W : Valuation τ sig (Elt Ideal)) :
    (StableHlo.after (w2b1 (F := Ideal)) W main_v88 : S8x1024x1024.Idx → EReal) = W main_v88 := by
  unfold w2b1
  after_results_simp

theorem w2b1_keep_v44 (W : Valuation τ sig (Elt Ideal)) :
    (StableHlo.after (w2b1 (F := Ideal)) W main_v44 : S8x1024x1024.Idx → EReal) = W main_v44 := by
  unfold w2b1
  after_results_simp

theorem w2b1_keep_v89 (W : Valuation τ sig (Elt Ideal)) :
    (StableHlo.after (w2b1 (F := Ideal)) W main_v89 : S8x1024x1024.Idx → EReal) = W main_v89 := by
  unfold w2b1
  after_results_simp

/-! ## The line of the pass along the columns -/

/-- After the column pass's line, `main_v133` is the five column taps of the padded plane `main_v112`, as one array. -/
theorem w2b2_taps (W : Valuation τ sig (Elt Ideal)) :
    (StableHlo.after (w2b2 (F := Ideal)) W main_v133 : S8x1024x1024.Idx → EReal)
      = (addf (addf (addf (addf (addf (broadcastInDim S8x1024x1024 ![] bcast_S_S8x1024x1024 (constant (F := Ideal) S_ .f32 0x00000000#32))
        (mulf (broadcastInDim S8x1024x1024 ![] bcast_S_S8x1024x1024 (constant (F := Ideal) S_ .f32 0x3D800000#32)) (extractStridedSlice S8x1024x1024 ![0, 0, 0] (W main_v112 : S8x1024x1040.Idx → EReal) slices_S8x1024x1040_S8x1024x1024_0_0_0)))
        (mulf (broadcastInDim S8x1024x1024 ![] bcast_S_S8x1024x1024 (constant (F := Ideal) S_ .f32 0x3E800000#32)) (extractStridedSlice S8x1024x1024 ![0, 0, 4] (W main_v112 : S8x1024x1040.Idx → EReal) slices_S8x1024x1040_S8x1024x1024_0_0_4)))
        (mulf (broadcastInDim S8x1024x1024 ![] bcast_S_S8x1024x1024 (constant (F := Ideal) S_ .f32 0x3EC00000#32)) (extractStridedSlice S8x1024x1024 ![0, 0, 8] (W main_v112 : S8x1024x1040.Idx → EReal) slices_S8x1024x1040_S8x1024x1024_0_0_8)))
        (mulf (broadcastInDim S8x1024x1024 ![] bcast_S_S8x1024x1024 (constant (F := Ideal) S_ .f32 0x3E800000#32)) (extractStridedSlice S8x1024x1024 ![0, 0, 12] (W main_v112 : S8x1024x1040.Idx → EReal) slices_S8x1024x1040_S8x1024x1024_0_0_12)))
        (mulf (broadcastInDim S8x1024x1024 ![] bcast_S_S8x1024x1024 (constant (F := Ideal) S_ .f32 0x3D800000#32)) (extractStridedSlice S8x1024x1024 ![0, 0, 16] (W main_v112 : S8x1024x1040.Idx → EReal) slices_S8x1024x1040_S8x1024x1024_0_0_16)) : FVec Ideal S8x1024x1024 .f32) := by
  unfold w2b2
  after_results_simp

theorem w2b2_keep_v88 (W : Valuation τ sig (Elt Ideal)) :
    (StableHlo.after (w2b2 (F := Ideal)) W main_v88 : S8x1024x1024.Idx → EReal) = W main_v88 := by
  unfold w2b2
  after_results_simp

theorem w2b2_keep_v44 (W : Valuation τ sig (Elt Ideal)) :
    (StableHlo.after (w2b2 (F := Ideal)) W main_v44 : S8x1024x1024.Idx → EReal) = W main_v44 := by
  unfold w2b2
  after_results_simp

theorem w2b2_keep_v89 (W : Valuation τ sig (Elt Ideal)) :
    (StableHlo.after (w2b2 (F := Ideal)) W main_v89 : S8x1024x1024.Idx → EReal) = W main_v89 := by
  unfold w2b2
  after_results_simp

/-- After the pad and the pass along the columns, `main_v133` at `(b, r, q)` is the pass along the columns of the
    plane they start from. -/
theorem w2b_cols (W : Valuation τ sig (Elt Ideal)) (b : Fin 8) (r q : Fin 1024) :
    (StableHlo.after (w2b2 (F := Ideal)) (StableHlo.after (w2b1 (F := Ideal)) W) main_v133 : S8x1024x1024.Idx → EReal) (ix3 b r q)
      = colStage 4 (toImg (W main_v111 : S8x1024x1024.Idx → EReal)) b r q := by
  rw [w2b2_taps, w2b1_pad]
  exact cols_apply 4 (W main_v111 : S8x1024x1024.Idx → EReal) slices_S8x1024x1024_S8x1024x8_0_0_1 concatenates_S8x1024x8_S8x1024x1024_S8x1024x1032_d2 slices_S8x1024x1032_S8x1024x8_0_0_1023 concatenates_S8x1024x1032_S8x1024x8_S8x1024x1040_d2 bcast_S_S8x1024x1024
    slices_S8x1024x1040_S8x1024x1024_0_0_0 slices_S8x1024x1040_S8x1024x1024_0_0_4 slices_S8x1024x1040_S8x1024x1024_0_0_8
    slices_S8x1024x1040_S8x1024x1024_0_0_12 slices_S8x1024x1040_S8x1024x1024_0_0_16
    (by norm_num) (by norm_num) (by norm_num) (by norm_num) (by norm_num) (by norm_num) (by norm_num) (by norm_num)
    (by norm_num) (by norm_num) b r q

/-- After the first three lines, `main_v133` is the pass along the columns of the five row taps of the padded plane. -/
theorem w2ab_c3 (W : Valuation τ sig (Elt Ideal)) (b : Fin 8) (r q : Fin 1024) :
    (StableHlo.after (w2b2 (F := Ideal)) (StableHlo.after (w2b1 (F := Ideal)) (StableHlo.after (w2a (F := Ideal)) W))
        main_v133 : S8x1024x1024.Idx → EReal) (ix3 b r q)
      = colStage 4 (rowTapsP 4 1040 (by norm_num) (W main_v90 : S8x1040x1024.Idx → EReal)) b r q :=
  (w2b_cols _ b r q).trans
    (congrArg (fun c => colStage 4 c b r q) (funext fun b' => funext fun r' => funext fun q' => w2a_rows W b' r' q'))

/-! ## The line of the last difference and the broadcasts -/

theorem w2c_keep_v133 (W : Valuation τ sig (Elt Ideal)) :
    (StableHlo.after (w2c (F := Ideal)) W main_v133 : S8x1024x1024.Idx → EReal) = W main_v133 := by
  unfold w2c
  after_results_simp

theorem w2c_p0 (W : Valuation τ sig (Elt Ideal)) (b : Fin 8) (z : Fin 1) (r q : Fin 1024) :
    (StableHlo.after (w2c (F := Ideal)) W main_v135 : S8x1x1024x1024.Idx → EReal) (ix4 b z r q)
      = (W main_v44 : S8x1024x1024.Idx → EReal) (ix3 b r q) := by
  unfold w2c
  after_results_simp
  exact unit_apply _ _ b z r q

theorem w2c_p1 (W : Valuation τ sig (Elt Ideal)) (b : Fin 8) (z : Fin 1) (r q : Fin 1024) :
    (StableHlo.after (w2c (F := Ideal)) W main_v136 : S8x1x1024x1024.Idx → EReal) (ix4 b z r q)
      = (W main_v89 : S8x1024x1024.Idx → EReal) (ix3 b r q) := by
  unfold w2c
  after_results_simp
  exact unit_apply _ _ b z r q

theorem w2c_p2 (W : Valuation τ sig (Elt Ideal)) (b : Fin 8) (z : Fin 1) (r q : Fin 1024) :
    (StableHlo.after (w2c (F := Ideal)) W main_v137 : S8x1x1024x1024.Idx → EReal) (ix4 b z r q)
      = toImg (W main_v88 : S8x1024x1024.Idx → EReal) b r q - toImg (W main_v133 : S8x1024x1024.Idx → EReal) b r q := by
  unfold w2c
  after_results_simp
  refine (unit_apply _ _ b z r q).trans ?_
  exact subf_apply _ _ _

/-! ## Window 2 -/

/-- After window 2, `main_v133` holds the column pass of the five row taps of the padded plane `main_v90`. -/
theorem w2_c3 (W : Valuation τ sig (Elt Ideal)) (b : Fin 8) (r q : Fin 1024) :
    (StableHlo.after (RefRun.w2 (F := Ideal)) W main_v133 : S8x1024x1024.Idx → EReal) (ix3 b r q)
      = colStage 4 (rowTapsP 4 1040 (by norm_num) (W main_v90 : S8x1040x1024.Idx → EReal)) b r q := by
  rw [after_w2, w2c_keep_v133]
  exact w2ab_c3 W b r q

/-- After window 2, `main_v135` is `main_v44` with a unit axis. -/
theorem w2_p0 (W : Valuation τ sig (Elt Ideal)) (b : Fin 8) (z : Fin 1) (r q : Fin 1024) :
    (StableHlo.after (RefRun.w2 (F := Ideal)) W main_v135 : S8x1x1024x1024.Idx → EReal) (ix4 b z r q)
      = (W main_v44 : S8x1024x1024.Idx → EReal) (ix3 b r q) := by
  rw [after_w2]
  refine (w2c_p0 _ b z r q).trans ?_
  rw [w2b2_keep_v44, w2b1_keep_v44, w2a_keep_v44]

/-- After window 2, `main_v136` is `main_v89` with a unit axis. -/
theorem w2_p1 (W : Valuation τ sig (Elt Ideal)) (b : Fin 8) (z : Fin 1) (r q : Fin 1024) :
    (StableHlo.after (RefRun.w2 (F := Ideal)) W main_v136 : S8x1x1024x1024.Idx → EReal) (ix4 b z r q)
      = (W main_v89 : S8x1024x1024.Idx → EReal) (ix3 b r q) := by
  rw [after_w2]
  refine (w2c_p1 _ b z r q).trans ?_
  rw [w2b2_keep_v89, w2b1_keep_v89, w2a_keep_v89]

/-- After window 2, `main_v137` is the third detail plane with a unit axis. -/
theorem w2_p2 (W : Valuation τ sig (Elt Ideal)) (b : Fin 8) (z : Fin 1) (r q : Fin 1024) :
    (StableHlo.after (RefRun.w2 (F := Ideal)) W main_v137 : S8x1x1024x1024.Idx → EReal) (ix4 b z r q)
      = toImg (W main_v88 : S8x1024x1024.Idx → EReal) b r q
        - colStage 4 (rowTapsP 4 1040 (by norm_num) (W main_v90 : S8x1040x1024.Idx → EReal)) b r q := by
  rw [after_w2]
  refine (w2c_p2 _ b z r q).trans ?_
  rw [w2b2_keep_v88, w2b1_keep_v88, w2a_keep_v88]
  exact congrArg (fun t => toImg (W main_v88 : S8x1024x1024.Idx → EReal) b r q - t) (w2ab_c3 W b r q)

/-! ## Window 3: the four planes stacked -/

/-- After window 3, `main_v139` at `(b, l, r, q)` is plane `l` of the four. -/
theorem w3_out (W : Valuation τ sig (Elt Ideal)) (b : Fin 8) (l : Fin 4) (r q : Fin 1024) :
    (StableHlo.after (RefRun.w3 (F := Ideal)) W main_v139 : S8x4x1024x1024.Idx → EReal) (ix4 b l r q)
      = (![(W main_v135 : S8x1x1024x1024.Idx → EReal), (W main_v136 : S8x1x1024x1024.Idx → EReal),
            (W main_v137 : S8x1x1024x1024.Idx → EReal),
            broadcastInDim S8x1x1024x1024 ![0, 2, 3] bcast_S8x1024x1024_S8x1x1024x1024_0_2_3 (W main_v133 : S8x1024x1024.Idx → EReal)]
          : Fin 4 → S8x1x1024x1024.Idx → EReal) l (ix4 b 0 r q) := by
  unfold RefRun.w3
  after_results_simp
  exact stack_apply _ _ _ _ _ b l r q

end Cert.ReferenceIdeal.RefValue

end
-- ==== Proof.RefValue.lean ====
/-
  THE REFERENCE PROGRAM'S VALUE: what its result buffer holds after its 224 operations, as the three-level transform
  of its argument. The program's line is four windows run in turn; each window is read at the few buffers the later
  windows use, over an arbitrary valuation, and the readings are chained: window 0 leaves the first smooth plane
  `c1` and the first detail plane, window 1 the second smooth plane `c2` (= one level on `c1`), the second detail plane
  and `c2` reflect-padded along the rows, window 2 the third smooth plane (five row taps of the padded plane, then the
  pass along the columns: one level on `c2`), the third detail plane and three planes given a unit axis, window 3 the
  four planes stacked along that axis.
-/
import proofs.«173091_j34797825032656_2_alg».proof.Proof.RefValueA
import proofs.«173091_j34797825032656_2_alg».proof.Proof.RefValueB

noncomputable section

namespace Cert.ReferenceIdeal.RefValue

open Cert.ReferenceIdeal Cert.ReferenceIdeal.Gen Idealize.ShloMosaic Idealize.ShloMosaic.TcCoe Idealize.ShloMosaic.ValueIdx Idealize.SL.Sem
open Cert.Uwt

/-- After window 0 the image of `main_v43` is the first smooth plane. -/
theorem img0 (V : Valuation τ sig (Elt Ideal)) :
    toImg (StableHlo.after (RefRun.w0 (F := Ideal)) V main_v43 : S8x1024x1024.Idx → EReal) = c1 (toImg (V main_arg0)) :=
  funext fun b => funext fun r => funext fun q => w0_c1 V b r q

/-- After window 1 the image of `main_v88` is one level (dilation 2) on the image of `main_v43`. -/
theorem img1 (W : Valuation τ sig (Elt Ideal)) :
    toImg (StableHlo.after (RefRun.w1 (F := Ideal)) W main_v88 : S8x1024x1024.Idx → EReal) = smooth 2 (toImg (W main_v43)) :=
  funext fun b => funext fun r => funext fun q => w1_c2 W b r q

/-- The five row taps of the padded plane window 1 leaves in `main_v90`, then the pass along the columns, are one level
    (dilation 4) on the plane that was padded. -/
theorem lvl3 (W : Valuation τ sig (Elt Ideal)) :
    colStage 4 (rowTapsP 4 1040 (by norm_num) (StableHlo.after (RefRun.w1 (F := Ideal)) W main_v90 : S8x1040x1024.Idx → EReal))
      = smooth 4 (smooth 2 (toImg (W main_v43))) := by
  rw [rowTapsP_eq 4 1040 (by norm_num) _ (smooth 2 (toImg (W main_v43))) (fun b i q => w1_pad W b i q)]
  exact (smooth_eq 4 _).symm

/-- Window 1 leaves the first detail plane alone, index by index. -/
theorem w1_keep_at (W : Valuation τ sig (Elt Ideal)) (b : Fin 8) (r q : Fin 1024) :
    (StableHlo.after (RefRun.w1 (F := Ideal)) W main_v44 : S8x1024x1024.Idx → EReal) (ix3 b r q)
      = (W main_v44 : S8x1024x1024.Idx → EReal) (ix3 b r q) := by
  rw [w1_keep]

/-- THE REFERENCE PROGRAM'S RESULT is the transform of its argument. -/
theorem result_eq (V : Valuation τ sig (Elt Ideal)) :
    (StableHlo.after (RefRun.ops (F := Ideal)) V main_v139 : S8x4x1024x1024.Idx → EReal) = Cert.Uwt.uwtArr (V main_arg0) := by
  funext i
  obtain ⟨b, l, r, q, rfl⟩ : ∃ (b : Fin 8) (l : Fin 4) (r q : Fin 1024), i = ix4 b l r q := ⟨i 0, i 1, i 2, i 3, eq_ix4 i⟩
  rw [uwtArr_ix4, RefRun.after_ops]
  refine (w3_out _ b l r q).trans ?_
  match l with
  | ⟨0, _⟩ =>
    show (StableHlo.after (RefRun.w2 (F := Ideal)) _ main_v135 : S8x1x1024x1024.Idx → EReal) (ix4 b 0 r q) = _
    refine (w2_p0 _ b 0 r q).trans ?_
    refine (w1_keep_at _ b r q).trans ?_
    exact w0_w1 V b r q
  | ⟨1, _⟩ =>
    show (StableHlo.after (RefRun.w2 (F := Ideal)) _ main_v136 : S8x1x1024x1024.Idx → EReal) (ix4 b 0 r q) = _
    refine (w2_p1 _ b 0 r q).trans ?_
    refine (w1_w2 _ b r q).trans ?_
    rw [img0 V]
    rfl
  | ⟨2, _⟩ =>
    show (StableHlo.after (RefRun.w2 (F := Ideal)) _ main_v137 : S8x1x1024x1024.Idx → EReal) (ix4 b 0 r q) = _
    refine (w2_p2 _ b 0 r q).trans ?_
    rw [img1, lvl3, img0 V]
    rfl
  | ⟨3, _⟩ =>
    show broadcastInDim S8x1x1024x1024 ![0, 2, 3] bcast_S8x1024x1024_S8x1x1024x1024_0_2_3
      (StableHlo.after (RefRun.w2 (F := Ideal)) _ main_v133 : S8x1024x1024.Idx → EReal) (ix4 b 0 r q) = _
    refine (unit_apply _ _ b 0 r q).trans ?_
    refine (w2_c3 _ b r q).trans ?_
    rw [lvl3, img0 V]
    rfl

end Cert.ReferenceIdeal.RefValue

end
-- ==== Proof.Algebraic.lean ====
/-
  The value conjunct: the idealized kernel program and the idealized reference, run from memories that agree on the argument,
  both end with the three-level B3-spline wavelet transform of the argument (`Cert.Uwt.uwtArr`, Proof/Spec.lean) in their
  result arrays.

  Kernel side: the run (Proof/ChainRun.lean) leaves the result at the last valuation of the chain. That valuation is the
  stack of the three detail arrays and the last smooth array; each level's two arrays are the pipeline's final arrays, which
  are the level's detail and smooth planes of its reflect-padded input (Proof/Val0..2.lean); and the host stretches between the
  levels are the reflect pads and the final stack (Proof/Glue.lean). Padding both axes before both passes gives the same
  doubly reflected reads as padding, passing, padding, passing.
  Reference side: its run (Proof/RefRun.lean) leaves the result at the fold of its host operations over the launch contents,
  which is the same transform (Proof/RefValue.lean; its five-term sums start from a zero, and `0 + x = x` on the extended reals).
  Neither side needs the inputs to be finite: no sum is re-ordered and nothing is cancelled.
-/
import proofs.«173091_j34797825032656_2_alg».proof.Defs
import proofs.«173091_j34797825032656_2_alg».proof.Proof.Gen.KernelIdeal
import proofs.«173091_j34797825032656_2_alg».proof.Proof.Gen.ReferenceIdeal
import proofs.«173091_j34797825032656_2_alg».proof.Proof.Gen.Pre_finite_inputs
import proofs.«173091_j34797825032656_2_alg».proof.Proof.Spec
import proofs.«173091_j34797825032656_2_alg».proof.Proof.ChainRun
import proofs.«173091_j34797825032656_2_alg».proof.Proof.OutsDef
import proofs.«173091_j34797825032656_2_alg».proof.Proof.Val0
import proofs.«173091_j34797825032656_2_alg».proof.Proof.Val1
import proofs.«173091_j34797825032656_2_alg».proof.Proof.Val2
import proofs.«173091_j34797825032656_2_alg».proof.Proof.Glue
import proofs.«173091_j34797825032656_2_alg».proof.Proof.RefRun
import proofs.«173091_j34797825032656_2_alg».proof.Proof.RefValue

noncomputable section

namespace Cert.Proof.Claims

open Idealize.ShloMosaic Idealize.ShloMosaic.TcCoe Idealize.SL.Sem

section KernelValue
open Cert.KernelIdeal Cert.KernelIdeal.Gen Cert.KernelIdeal.Reg

/-- The last valuation of the kernel program's chain holds the transform of the launched argument in the result array. -/
theorem kernel_value (m : (ℓ : Loc nD τ sig) → Buf (Elt Ideal) ℓ) (c : Dev nD) :
    (V10 m (outs m) c main_v10 : S8x4x1024x1024.Idx → EReal) = Cert.Uwt.uwtArr (m ((c.tc : Thread nD τ).loc main_arg0)) :=
  Cert.KernelIdeal.Glue.result_eq m (outs m) c
    (((outsOk m).h30 c).trans (arr0_W (En0 m) c))
    (((outsOk m).h31 c).trans (arr0_C (En0 m) c))
    (((outsOk m).h60 c).trans (arr1_W (En1 m (outs m)) c))
    (((outsOk m).h61 c).trans (arr1_C (En1 m (outs m)) c))
    (((outsOk m).h90 c).trans (arr2_W (En2 m (outs m)) c))
    (((outsOk m).h91 c).trans (arr2_C (En2 m (outs m)) c))

end KernelValue

theorem algebraic : Cert.algebraic_KernelIdeal_ReferenceIdeal := by
  intro m ρ m' ρ' _ hagree
  refine ⟨fun c => Cert.Uwt.uwtArr (m ((c.tc : Thread Cert.KernelIdeal.nD Cert.KernelIdeal.τ).loc Cert.KernelIdeal.main_arg0)), ?_, ?_⟩
  · exact (θ_run Cert.KernelIdeal.defs _ _).mono (fun _ h c => ⟨(h c).1.trans (kernel_value m c), (h c).2⟩)
      (Cert.KernelIdeal.Reg.run_main (F := Ideal) m (Cert.KernelIdeal.Reg.outs m) ρ (Cert.KernelIdeal.Reg.outsOk m))
  · refine (θ_run Cert.ReferenceIdeal.defs _ _).mono (fun _ h c => ⟨(h c).1.trans ?_, (h c).2⟩)
      (Cert.ReferenceIdeal.RefRun.run (F := Ideal) m' ρ')
    exact (Cert.ReferenceIdeal.RefValue.result_eq (fun b => m' (c, b))).trans (congrArg Cert.Uwt.uwtArr (hagree c))

end Cert.Proof.Claims

end
-- ==== Proof.lean ====
/-
  The certificate of a three-level undecimated B3-spline wavelet transform on f32[8, 1024, 1024]: a kernel program of three
  pallas_calls (one per level; each reflect-pads its input on both axes on the host, then one kernel does the five-tap pass
  along the rows into a scratch plane, the five-tap pass along the columns out of it, and the detail plane as the input's
  interior less the smooth plane) against a host-only reference (per level: reflect-pad the rows, pass, reflect-pad the
  columns, pass, subtract), both stacking three detail planes and the last smooth plane.

  Frames (Proof/Claims.lean): each program runs to its end without a fault and leaves its argument as launched — the kernel
  programs as a chain of host stretches and regions whose body obligations are the kernels' runs (Proof/Run*.lean,
  Proof/Frame*.lean, Proof/Reg*.lean, Proof/ChainRun.lean and the word-level copies Proof/K*.lean), the reference as the run of
  its list of host operations (Proof/RefOps.lean, Proof/RefRun.lean). The ideal pass rewrote nothing, so the idealization
  conjunct is empty. Value (Proof/Algebraic.lean): at the extended reals both results are ONE function of the argument,
  `Cert.Uwt.uwtArr` (Proof/Spec.lean): reflecting along the columns commutes with a pass along the rows, the taps 1/16, 1/4,
  3/8 are the same words on both sides, and the reference's sums only differ by a leading zero.
-/
import proofs.«173091_j34797825032656_2_alg».proof.Defs
import proofs.«173091_j34797825032656_2_alg».proof.Proof.Gen.Kernel
import proofs.«173091_j34797825032656_2_alg».proof.Proof.Gen.KernelIdeal
import proofs.«173091_j34797825032656_2_alg».proof.Proof.Gen.ReferenceIdeal
import proofs.«173091_j34797825032656_2_alg».proof.Proof.Gen.Pre_finite_inputs
import proofs.«173091_j34797825032656_2_alg».proof.Proof.Claims
import proofs.«173091_j34797825032656_2_alg».proof.Proof.Algebraic
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
